-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v215) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S24x128x128x16 : Shape := ⟨4, ![24, 128, 128, 16]⟩
abbrev S20x128x128x16 : Shape := ⟨4, ![20, 128, 128, 16]⟩
abbrev S_ : Shape := ⟨0, ![]⟩

class Facts : Prop where
  bcast_S_S24x128x128x16 : S_.BroadcastsInDim S24x128x128x16 (![] : Fin 0 → Fin S24x128x128x16.rank)
  reducesTo_S24x128x128x16_S_d0_1_2_3 : S24x128x128x16.ReducesTo [0, 1, 2, 3] S_
  h_S_ : 0 < S_.numel
  bcast_S_S20x128x128x16 : S_.BroadcastsInDim S20x128x128x16 (![] : Fin 0 → Fin S20x128x128x16.rank)
  reducesTo_S20x128x128x16_S_d0_1_2_3 : S20x128x128x16.ReducesTo [0, 1, 2, 3] S_

variable [Facts]

def fn {F : FTy → Type} [FloatOps F] (main_arg0 : FVec F S24x128x128x16 .f32) (main_arg1 : FVec F S20x128x128x16 .f32) : IVec S_ 1 :=
  let main_v0 : FVec F S24x128x128x16 .f32 := Host.absf main_arg0
  let main_cst : FVec F S_ .f32 := constant S_ .f32 0x7F800000#32
  let main_v1 : FVec F S24x128x128x16 .f32 := broadcastInDim S24x128x128x16 ![] bcast_S_S24x128x128x16 main_cst
  let main_v2 : IVec S24x128x128x16 1 := cmpf .olt main_v0 main_v1
  let main_c : IVec S_ 1 := constantI S_ 1 1#1
  let main_v3 : IVec S_ 1 := (fun x v => Host.reduce IntOp.andi x v reducesTo_S24x128x128x16_S_d0_1_2_3 h_S_) main_v2 main_c
  let main_v4 : FVec F S20x128x128x16 .f32 := Host.absf main_arg1
  let main_cst_0 : FVec F S_ .f32 := constant S_ .f32 0x7F800000#32
  let main_v5 : FVec F S20x128x128x16 .f32 := broadcastInDim S20x128x128x16 ![] bcast_S_S20x128x128x16 main_cst_0
  let main_v6 : IVec S20x128x128x16 1 := cmpf .olt main_v4 main_v5
  let main_c_1 : IVec S_ 1 := constantI S_ 1 1#1
  let main_v7 : IVec S_ 1 := (fun x v => Host.reduce IntOp.andi x v reducesTo_S20x128x128x16_S_d0_1_2_3 h_S_) main_v6 main_c_1
  let main_v8 : IVec S_ 1 := andi main_v3 main_v7
  main_v8
-- ==== Kernel.lean ====
abbrev S24x128x128x16 : Shape := ⟨4, ![24, 128, 128, 16]⟩
abbrev S20x128x128x16 : Shape := ⟨4, ![20, 128, 128, 16]⟩
abbrev S8x128x128x16 : Shape := ⟨4, ![8, 128, 128, 16]⟩
abbrev S16x8x128x128 : Shape := ⟨4, ![16, 8, 128, 128]⟩
abbrev S128x8x128x16 : Shape := ⟨4, ![128, 8, 128, 16]⟩
abbrev S16x20x128x128 : Shape := ⟨4, ![16, 20, 128, 128]⟩
abbrev S2x8x128x128 : Shape := ⟨4, ![2, 8, 128, 128]⟩
abbrev S2x20x128x128 : Shape := ⟨4, ![2, 20, 128, 128]⟩
abbrev S2x128x128 : Shape := ⟨3, ![2, 128, 128]⟩
abbrev S2x1x128x128 : Shape := ⟨4, ![2, 1, 128, 128]⟩
abbrev S128x20x128x16 : Shape := ⟨4, ![128, 20, 128, 16]⟩
abbrev S2x8x128x16 : Shape := ⟨4, ![2, 8, 128, 16]⟩
abbrev S2x20x128x16 : Shape := ⟨4, ![2, 20, 128, 16]⟩
abbrev S2x128x16 : Shape := ⟨3, ![2, 128, 16]⟩
abbrev S2x1x128x16 : Shape := ⟨4, ![2, 1, 128, 16]⟩

abbrev nBuf : Space → Nat
  | .hbm => 17
  | .vmem => 18
  | .smem => 0
  | _ => 0

abbrev bufTy : (tb : Table) → Fin (tcTables nBuf tb) → BufTy
  | .hbm, ⟨0, _⟩ => ⟨S24x128x128x16, .f32⟩
  | .hbm, ⟨1, _⟩ => ⟨S20x128x128x16, .f32⟩
  | .hbm, ⟨2, _⟩ => ⟨S8x128x128x16, .f32⟩
  | .hbm, ⟨3, _⟩ => ⟨S16x8x128x128, .f32⟩
  | .hbm, ⟨4, _⟩ => ⟨S8x128x128x16, .f32⟩
  | .hbm, ⟨5, _⟩ => ⟨S128x8x128x16, .f32⟩
  | .hbm, ⟨6, _⟩ => ⟨S8x128x128x16, .f32⟩
  | .hbm, ⟨7, _⟩ => ⟨S128x8x128x16, .f32⟩
  | .hbm, ⟨8, _⟩ => ⟨S16x20x128x128, .f32⟩
  | .hbm, ⟨9, _⟩ => ⟨S16x20x128x128, .f32⟩
  | .hbm, ⟨10, _⟩ => ⟨S20x128x128x16, .f32⟩
  | .hbm, ⟨11, _⟩ => ⟨S128x20x128x16, .f32⟩
  | .hbm, ⟨12, _⟩ => ⟨S128x20x128x16, .f32⟩
  | .hbm, ⟨13, _⟩ => ⟨S20x128x128x16, .f32⟩
  | .hbm, ⟨14, _⟩ => ⟨S128x20x128x16, .f32⟩
  | .hbm, ⟨15, _⟩ => ⟨S128x20x128x16, .f32⟩
  | .hbm, ⟨16, _⟩ => ⟨S20x128x128x16, .f32⟩
  | .local _ .vmem, ⟨0, _⟩ => ⟨S2x8x128x128, .f32⟩
  | .local _ .vmem, ⟨1, _⟩ => ⟨S2x8x128x128, .f32⟩
  | .local _ .vmem, ⟨2, _⟩ => ⟨S2x20x128x128, .f32⟩
  | .local _ .vmem, ⟨3, _⟩ => ⟨S2x20x128x128, .f32⟩
  | .local _ .vmem, ⟨4, _⟩ => ⟨S2x20x128x128, .f32⟩
  | .local _ .vmem, ⟨5, _⟩ => ⟨S2x20x128x128, .f32⟩
  | .local _ .vmem, ⟨6, _⟩ => ⟨S2x8x128x16, .f32⟩
  | .local _ .vmem, ⟨7, _⟩ => ⟨S2x8x128x16, .f32⟩
  | .local _ .vmem, ⟨8, _⟩ => ⟨S2x20x128x16, .f32⟩
  | .local _ .vmem, ⟨9, _⟩ => ⟨S2x20x128x16, .f32⟩
  | .local _ .vmem, ⟨10, _⟩ => ⟨S2x20x128x16, .f32⟩
  | .local _ .vmem, ⟨11, _⟩ => ⟨S2x20x128x16, .f32⟩
  | .local _ .vmem, ⟨12, _⟩ => ⟨S2x8x128x16, .f32⟩
  | .local _ .vmem, ⟨13, _⟩ => ⟨S2x8x128x16, .f32⟩
  | .local _ .vmem, ⟨14, _⟩ => ⟨S2x20x128x16, .f32⟩
  | .local _ .vmem, ⟨15, _⟩ => ⟨S2x20x128x16, .f32⟩
  | .local _ .vmem, ⟨16, _⟩ => ⟨S2x20x128x16, .f32⟩
  | .local _ .vmem, ⟨17, _⟩ => ⟨S2x20x128x16, .f32⟩
  | _, _ => ⟨S24x128x128x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S2x8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x20x128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2x20x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![64], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_2 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S2x8x128x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2x20x128x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2x20x128x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_1 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc2_transform_2 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage2_0 : Fin 2 → Memref sig .tc .vmem S2x8x128x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2x20x128x16 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2x20x128x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S24x128x128x16_S8x128x128x16_0_0_0_0 : S24x128x128x16.Slices ![0, 0, 0, 0] S8x128x128x16
  transposes_S8x128x128x16_S16x8x128x128_3_0_1_2 : S8x128x128x16.Transposes [3, 0, 1, 2] S16x8x128x128
  slices_S24x128x128x16_S8x128x128x16_8_0_0_0 : S24x128x128x16.Slices ![8, 0, 0, 0] S8x128x128x16
  transposes_S8x128x128x16_S128x8x128x16_2_0_1_3 : S8x128x128x16.Transposes [2, 0, 1, 3] S128x8x128x16
  slices_S24x128x128x16_S8x128x128x16_16_0_0_0 : S24x128x128x16.Slices ![16, 0, 0, 0] S8x128x128x16
  transposes_S8x128x128x16_S128x8x128x16_1_0_2_3 : S8x128x128x16.Transposes [1, 0, 2, 3] S128x8x128x16
  transposes_S20x128x128x16_S16x20x128x128_3_0_1_2 : S20x128x128x16.Transposes [3, 0, 1, 2] S16x20x128x128
  inb_S2x8x128x128_S2x8x128x128_0_0_0_0 : ∀ a, (![0, 0, 0, 0] : Fin 4 → Nat) a + S2x8x128x128.size a ≤ S2x8x128x128.size a
  h_S2x8x128x128 : 0 < S2x8x128x128.numel
  shapeCasts_S2x8x128x128_S2x8x128x128 : S2x8x128x128.ShapeCasts S2x8x128x128
  inb_S2x20x128x128_S2x20x128x128_0_0_0_0 : ∀ a, (![0, 0, 0, 0] : Fin 4 → Nat) a + S2x20x128x128.size a ≤ S2x20x128x128.size a
  h_S2x20x128x128 : 0 < S2x20x128x128.numel
  shapeCasts_S2x20x128x128_S2x20x128x128 : S2x20x128x128.ShapeCasts S2x20x128x128
  slices_S2x8x128x128_o0_0_0_0_S2x1x128x128 : S2x8x128x128.Slices ![0, 0, 0, 0] S2x1x128x128
  shapeCasts_S2x1x128x128_S2x128x128 : S2x1x128x128.ShapeCasts S2x128x128
  rotates_S2x128x128_d1 : S2x128x128.Rotates 1 none
  iota_S2x128x128_d1_w32 : S2x128x128.Iotas .tc 32 [1]
  rotates_S2x128x128_d2 : S2x128x128.Rotates 2 none
  iota_S2x128x128_d2_w32 : S2x128x128.Iotas .tc 32 [2]
  slices_S2x8x128x128_o0_1_0_0_S2x1x128x128 : S2x8x128x128.Slices ![0, 1, 0, 0] S2x1x128x128
  slices_S2x8x128x128_o0_2_0_0_S2x1x128x128 : S2x8x128x128.Slices ![0, 2, 0, 0] S2x1x128x128
  slices_S2x8x128x128_o0_3_0_0_S2x1x128x128 : S2x8x128x128.Slices ![0, 3, 0, 0] S2x1x128x128
  slices_S2x8x128x128_o0_4_0_0_S2x1x128x128 : S2x8x128x128.Slices ![0, 4, 0, 0] S2x1x128x128
  slices_S2x8x128x128_o0_5_0_0_S2x1x128x128 : S2x8x128x128.Slices ![0, 5, 0, 0] S2x1x128x128
  slices_S2x8x128x128_o0_6_0_0_S2x1x128x128 : S2x8x128x128.Slices ![0, 6, 0, 0] S2x1x128x128
  slices_S2x8x128x128_o0_7_0_0_S2x1x128x128 : S2x8x128x128.Slices ![0, 7, 0, 0] S2x1x128x128
  rotates_S2x20x128x128_d2 : S2x20x128x128.Rotates 2 none
  iota_S2x20x128x128_d2_w32 : S2x20x128x128.Iotas .tc 32 [2]
  rotates_S2x20x128x128_d3 : S2x20x128x128.Rotates 3 none
  iota_S2x20x128x128_d3_w32 : S2x20x128x128.Iotas .tc 32 [3]
  shapeCasts_S2x128x128_S2x1x128x128 : S2x128x128.ShapeCasts S2x1x128x128
  broadcasts_S2x1x128x128_S2x20x128x128 : S2x1x128x128.Broadcasts S2x20x128x128
  transposes_S16x20x128x128_S20x128x128x16_1_2_3_0 : S16x20x128x128.Transposes [1, 2, 3, 0] S20x128x128x16
  transposes_S20x128x128x16_S128x20x128x16_2_0_1_3 : S20x128x128x16.Transposes [2, 0, 1, 3] S128x20x128x16
  inb_S2x8x128x16_S2x8x128x16_0_0_0_0 : ∀ a, (![0, 0, 0, 0] : Fin 4 → Nat) a + S2x8x128x16.size a ≤ S2x8x128x16.size a
  h_S2x8x128x16 : 0 < S2x8x128x16.numel
  shapeCasts_S2x8x128x16_S2x8x128x16 : S2x8x128x16.ShapeCasts S2x8x128x16
  inb_S2x20x128x16_S2x20x128x16_0_0_0_0 : ∀ a, (![0, 0, 0, 0] : Fin 4 → Nat) a + S2x20x128x16.size a ≤ S2x20x128x16.size a
  h_S2x20x128x16 : 0 < S2x20x128x16.numel
  shapeCasts_S2x20x128x16_S2x20x128x16 : S2x20x128x16.ShapeCasts S2x20x128x16
  slices_S2x8x128x16_o0_0_0_0_S2x1x128x16 : S2x8x128x16.Slices ![0, 0, 0, 0] S2x1x128x16
  shapeCasts_S2x1x128x16_S2x128x16 : S2x1x128x16.ShapeCasts S2x128x16
  rotates_S2x128x16_d1 : S2x128x16.Rotates 1 none
  iota_S2x128x16_d1_w32 : S2x128x16.Iotas .tc 32 [1]
  rotates_S2x128x16_d2 : S2x128x16.Rotates 2 none
  iota_S2x128x16_d2_w32 : S2x128x16.Iotas .tc 32 [2]
  slices_S2x8x128x16_o0_1_0_0_S2x1x128x16 : S2x8x128x16.Slices ![0, 1, 0, 0] S2x1x128x16
  slices_S2x8x128x16_o0_2_0_0_S2x1x128x16 : S2x8x128x16.Slices ![0, 2, 0, 0] S2x1x128x16
  slices_S2x8x128x16_o0_3_0_0_S2x1x128x16 : S2x8x128x16.Slices ![0, 3, 0, 0] S2x1x128x16
  slices_S2x8x128x16_o0_4_0_0_S2x1x128x16 : S2x8x128x16.Slices ![0, 4, 0, 0] S2x1x128x16
  slices_S2x8x128x16_o0_5_0_0_S2x1x128x16 : S2x8x128x16.Slices ![0, 5, 0, 0] S2x1x128x16
  slices_S2x8x128x16_o0_6_0_0_S2x1x128x16 : S2x8x128x16.Slices ![0, 6, 0, 0] S2x1x128x16
  slices_S2x8x128x16_o0_7_0_0_S2x1x128x16 : S2x8x128x16.Slices ![0, 7, 0, 0] S2x1x128x16
  rotates_S2x20x128x16_d2 : S2x20x128x16.Rotates 2 none
  iota_S2x20x128x16_d2_w32 : S2x20x128x16.Iotas .tc 32 [2]
  rotates_S2x20x128x16_d3 : S2x20x128x16.Rotates 3 none
  iota_S2x20x128x16_d3_w32 : S2x20x128x16.Iotas .tc 32 [3]
  shapeCasts_S2x128x16_S2x1x128x16 : S2x128x16.ShapeCasts S2x1x128x16
  broadcasts_S2x1x128x16_S2x20x128x16 : S2x1x128x16.Broadcasts S2x20x128x16
  transposes_S128x20x128x16_S20x128x128x16_1_2_0_3 : S128x20x128x16.Transposes [1, 2, 0, 3] S20x128x128x16
  transposes_S20x128x128x16_S128x20x128x16_1_0_2_3 : S20x128x128x16.Transposes [1, 0, 2, 3] S128x20x128x16
  transposes_S128x20x128x16_S20x128x128x16_1_0_2_3 : S128x20x128x16.Transposes [1, 0, 2, 3] S20x128x128x16
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8x128x128.size a ≤ S16x8x128x128.size a
  hwx0_0 : ∀ i : grid0.Coords, EltTy.bits .f32 = 32 ∨ (Rect.block (s := S16x8x128x128) S2x8x128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x20x128x128.size a ≤ S16x20x128x128.size a
  hwx0_1 : ∀ i : grid0.Coords, EltTy.bits .f32 = 32 ∨ (Rect.block (s := S16x20x128x128) S2x20x128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2x20x128x128.size a ≤ S16x20x128x128.size a
  hwx0_2 : ∀ i : grid0.Coords, EltTy.bits .f32 = 32 ∨ (Rect.block (s := S16x20x128x128) S2x20x128x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2x8x128x16.size a ≤ S128x8x128x16.size a
  hwx1_0 : ∀ i : grid1.Coords, EltTy.bits .f32 = 32 ∨ (Rect.block (s := S128x8x128x16) S2x8x128x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2x20x128x16.size a ≤ S128x20x128x16.size a
  hwx1_1 : ∀ i : grid1.Coords, EltTy.bits .f32 = 32 ∨ (Rect.block (s := S128x20x128x16) S2x20x128x16.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2x20x128x16.size a ≤ S128x20x128x16.size a
  hwx1_2 : ∀ i : grid1.Coords, EltTy.bits .f32 = 32 ∨ (Rect.block (s := S128x20x128x16) S2x20x128x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2x8x128x16.size a ≤ S128x8x128x16.size a
  hwx2_0 : ∀ i : grid2.Coords, EltTy.bits .f32 = 32 ∨ (Rect.block (s := S128x8x128x16) S2x8x128x16.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2x20x128x16.size a ≤ S128x20x128x16.size a
  hwx2_1 : ∀ i : grid2.Coords, EltTy.bits .f32 = 32 ∨ (Rect.block (s := S128x20x128x16) S2x20x128x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2x20x128x16.size a ≤ S128x20x128x16.size a
  hwx2_2 : ∀ i : grid2.Coords, EltTy.bits .f32 = 32 ∨ (Rect.block (s := S128x20x128x16) S2x20x128x16.size (cc2_transform_2 i) (hinb2_2 i)).WholeWords (EltTy.packing .f32)

variable [Facts₀]

abbrev win0_0 : Pipeline.Window sig grid0 :=
  Pipeline.Window.ofSpec (Memref.whole main_v1) S2x8x128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S2x20x128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2x20x128x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S2x8x128x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v9) S2x20x128x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S2x20x128x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v5) S2x8x128x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2x20x128x16.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v13) S2x20x128x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S24x128x128x16 : Shape := ⟨4, ![24, 128, 128, 16]⟩
abbrev S20x128x128x16 : Shape := ⟨4, ![20, 128, 128, 16]⟩
abbrev S8x128x128x16 : Shape := ⟨4, ![8, 128, 128, 16]⟩
abbrev S16x8x128x128 : Shape := ⟨4, ![16, 8, 128, 128]⟩
abbrev S16x1x128x128 : Shape := ⟨4, ![16, 1, 128, 128]⟩
abbrev S16x128x128 : Shape := ⟨3, ![16, 128, 128]⟩
abbrev S_ : Shape := ⟨0, ![]⟩
abbrev S16x130x130 : Shape := ⟨3, ![16, 130, 130]⟩
abbrev S16x1x130x130 : Shape := ⟨4, ![16, 1, 130, 130]⟩
abbrev S16x8x130x130 : Shape := ⟨4, ![16, 8, 130, 130]⟩
abbrev S128x8x128x16 : Shape := ⟨4, ![128, 8, 128, 16]⟩
abbrev S128x1x128x16 : Shape := ⟨4, ![128, 1, 128, 16]⟩
abbrev S128x128x16 : Shape := ⟨3, ![128, 128, 16]⟩
abbrev S128x130x18 : Shape := ⟨3, ![128, 130, 18]⟩
abbrev S128x1x130x18 : Shape := ⟨4, ![128, 1, 130, 18]⟩
abbrev S128x8x130x18 : Shape := ⟨4, ![128, 8, 130, 18]⟩
abbrev S16x20x128x128 : Shape := ⟨4, ![16, 20, 128, 128]⟩
abbrev S16x8x1x130x130 : Shape := ⟨5, ![16, 8, 1, 130, 130]⟩
abbrev S16x20x130x130 : Shape := ⟨4, ![16, 20, 130, 130]⟩
abbrev S16x1x20x130x130 : Shape := ⟨5, ![16, 1, 20, 130, 130]⟩
abbrev S16x8x20x130x130 : Shape := ⟨5, ![16, 8, 20, 130, 130]⟩
abbrev S128x20x128x16 : Shape := ⟨4, ![128, 20, 128, 16]⟩
abbrev S128x8x1x130x18 : Shape := ⟨5, ![128, 8, 1, 130, 18]⟩
abbrev S128x20x130x18 : Shape := ⟨4, ![128, 20, 130, 18]⟩
abbrev S128x1x20x130x18 : Shape := ⟨5, ![128, 1, 20, 130, 18]⟩
abbrev S128x8x20x130x18 : Shape := ⟨5, ![128, 8, 20, 130, 18]⟩

abbrev nBuf : Space → Nat
  | .hbm => 326
  | .vmem => 0
  | .smem => 0
  | _ => 0

abbrev hbmTy0_0 (i : Nat) : BufTy := match i % 128 with
  | 0 => ⟨S24x128x128x16, .f32⟩
  | 1 => ⟨S20x128x128x16, .f32⟩
  | 2 => ⟨S8x128x128x16, .f32⟩
  | 3 => ⟨S16x8x128x128, .f32⟩
  | 4 => ⟨S16x1x128x128, .f32⟩
  | 5 => ⟨S16x128x128, .f32⟩
  | 6 => ⟨S_, .i32⟩
  | 7 => ⟨S_, .f32⟩
  | 8 => ⟨S16x130x130, .f32⟩
  | 9 => ⟨S16x1x128x128, .f32⟩
  | 10 => ⟨S16x128x128, .f32⟩
  | 11 => ⟨S_, .i32⟩
  | 12 => ⟨S_, .f32⟩
  | 13 => ⟨S16x130x130, .f32⟩
  | 14 => ⟨S16x1x128x128, .f32⟩
  | 15 => ⟨S16x128x128, .f32⟩
  | 16 => ⟨S_, .i32⟩
  | 17 => ⟨S_, .f32⟩
  | 18 => ⟨S16x130x130, .f32⟩
  | 19 => ⟨S16x1x128x128, .f32⟩
  | 20 => ⟨S16x128x128, .f32⟩
  | 21 => ⟨S_, .i32⟩
  | 22 => ⟨S_, .f32⟩
  | 23 => ⟨S16x130x130, .f32⟩
  | 24 => ⟨S16x1x128x128, .f32⟩
  | 25 => ⟨S16x128x128, .f32⟩
  | 26 => ⟨S_, .i32⟩
  | 27 => ⟨S_, .f32⟩
  | 28 => ⟨S16x130x130, .f32⟩
  | 29 => ⟨S16x1x128x128, .f32⟩
  | 30 => ⟨S16x128x128, .f32⟩
  | 31 => ⟨S_, .i32⟩
  | 32 => ⟨S_, .f32⟩
  | 33 => ⟨S16x130x130, .f32⟩
  | 34 => ⟨S16x1x128x128, .f32⟩
  | 35 => ⟨S16x128x128, .f32⟩
  | 36 => ⟨S_, .i32⟩
  | 37 => ⟨S_, .f32⟩
  | 38 => ⟨S16x130x130, .f32⟩
  | 39 => ⟨S16x1x128x128, .f32⟩
  | 40 => ⟨S16x128x128, .f32⟩
  | 41 => ⟨S_, .i32⟩
  | 42 => ⟨S_, .f32⟩
  | 43 => ⟨S16x130x130, .f32⟩
  | 44 => ⟨S16x1x130x130, .f32⟩
  | 45 => ⟨S16x1x130x130, .f32⟩
  | 46 => ⟨S16x1x130x130, .f32⟩
  | 47 => ⟨S16x1x130x130, .f32⟩
  | 48 => ⟨S16x1x130x130, .f32⟩
  | 49 => ⟨S16x1x130x130, .f32⟩
  | 50 => ⟨S16x1x130x130, .f32⟩
  | 51 => ⟨S16x1x130x130, .f32⟩
  | 52 => ⟨S16x8x130x130, .f32⟩
  | 53 => ⟨S16x8x130x130, .f32⟩
  | 54 => ⟨S_, .f32⟩
  | 55 => ⟨S16x130x130, .f32⟩
  | 56 => ⟨S16x1x130x130, .f32⟩
  | 57 => ⟨S16x8x130x130, .f32⟩
  | 58 => ⟨S16x8x130x130, .f32⟩
  | 59 => ⟨S_, .f32⟩
  | 60 => ⟨S16x130x130, .f32⟩
  | 61 => ⟨S16x128x128, .f32⟩
  | 62 => ⟨S8x128x128x16, .f32⟩
  | 63 => ⟨S128x8x128x16, .f32⟩
  | 64 => ⟨S128x1x128x16, .f32⟩
  | 65 => ⟨S128x128x16, .f32⟩
  | 66 => ⟨S_, .i32⟩
  | 67 => ⟨S_, .f32⟩
  | 68 => ⟨S128x130x18, .f32⟩
  | 69 => ⟨S128x1x128x16, .f32⟩
  | 70 => ⟨S128x128x16, .f32⟩
  | 71 => ⟨S_, .i32⟩
  | 72 => ⟨S_, .f32⟩
  | 73 => ⟨S128x130x18, .f32⟩
  | 74 => ⟨S128x1x128x16, .f32⟩
  | 75 => ⟨S128x128x16, .f32⟩
  | 76 => ⟨S_, .i32⟩
  | 77 => ⟨S_, .f32⟩
  | 78 => ⟨S128x130x18, .f32⟩
  | 79 => ⟨S128x1x128x16, .f32⟩
  | 80 => ⟨S128x128x16, .f32⟩
  | 81 => ⟨S_, .i32⟩
  | 82 => ⟨S_, .f32⟩
  | 83 => ⟨S128x130x18, .f32⟩
  | 84 => ⟨S128x1x128x16, .f32⟩
  | 85 => ⟨S128x128x16, .f32⟩
  | 86 => ⟨S_, .i32⟩
  | 87 => ⟨S_, .f32⟩
  | 88 => ⟨S128x130x18, .f32⟩
  | 89 => ⟨S128x1x128x16, .f32⟩
  | 90 => ⟨S128x128x16, .f32⟩
  | 91 => ⟨S_, .i32⟩
  | 92 => ⟨S_, .f32⟩
  | 93 => ⟨S128x130x18, .f32⟩
  | 94 => ⟨S128x1x128x16, .f32⟩
  | 95 => ⟨S128x128x16, .f32⟩
  | 96 => ⟨S_, .i32⟩
  | 97 => ⟨S_, .f32⟩
  | 98 => ⟨S128x130x18, .f32⟩
  | 99 => ⟨S128x1x128x16, .f32⟩
  | 100 => ⟨S128x128x16, .f32⟩
  | 101 => ⟨S_, .i32⟩
  | 102 => ⟨S_, .f32⟩
  | 103 => ⟨S128x130x18, .f32⟩
  | 104 => ⟨S128x1x130x18, .f32⟩
  | 105 => ⟨S128x1x130x18, .f32⟩
  | 106 => ⟨S128x1x130x18, .f32⟩
  | 107 => ⟨S128x1x130x18, .f32⟩
  | 108 => ⟨S128x1x130x18, .f32⟩
  | 109 => ⟨S128x1x130x18, .f32⟩
  | 110 => ⟨S128x1x130x18, .f32⟩
  | 111 => ⟨S128x1x130x18, .f32⟩
  | 112 => ⟨S128x8x130x18, .f32⟩
  | 113 => ⟨S128x8x130x18, .f32⟩
  | 114 => ⟨S_, .f32⟩
  | 115 => ⟨S128x130x18, .f32⟩
  | 116 => ⟨S128x1x130x18, .f32⟩
  | 117 => ⟨S128x8x130x18, .f32⟩
  | 118 => ⟨S128x8x130x18, .f32⟩
  | 119 => ⟨S_, .f32⟩
  | 120 => ⟨S128x130x18, .f32⟩
  | 121 => ⟨S128x128x16, .f32⟩
  | 122 => ⟨S8x128x128x16, .f32⟩
  | 123 => ⟨S128x8x128x16, .f32⟩
  | 124 => ⟨S128x1x128x16, .f32⟩
  | 125 => ⟨S128x128x16, .f32⟩
  | 126 => ⟨S_, .i32⟩
  | 127 => ⟨S_, .f32⟩
  | _ => ⟨S24x128x128x16, .f32⟩

abbrev hbmTy0_1 (i : Nat) : BufTy := match i % 128 with
  | 0 => ⟨S128x130x18, .f32⟩
  | 1 => ⟨S128x1x128x16, .f32⟩
  | 2 => ⟨S128x128x16, .f32⟩
  | 3 => ⟨S_, .i32⟩
  | 4 => ⟨S_, .f32⟩
  | 5 => ⟨S128x130x18, .f32⟩
  | 6 => ⟨S128x1x128x16, .f32⟩
  | 7 => ⟨S128x128x16, .f32⟩
  | 8 => ⟨S_, .i32⟩
  | 9 => ⟨S_, .f32⟩
  | 10 => ⟨S128x130x18, .f32⟩
  | 11 => ⟨S128x1x128x16, .f32⟩
  | 12 => ⟨S128x128x16, .f32⟩
  | 13 => ⟨S_, .i32⟩
  | 14 => ⟨S_, .f32⟩
  | 15 => ⟨S128x130x18, .f32⟩
  | 16 => ⟨S128x1x128x16, .f32⟩
  | 17 => ⟨S128x128x16, .f32⟩
  | 18 => ⟨S_, .i32⟩
  | 19 => ⟨S_, .f32⟩
  | 20 => ⟨S128x130x18, .f32⟩
  | 21 => ⟨S128x1x128x16, .f32⟩
  | 22 => ⟨S128x128x16, .f32⟩
  | 23 => ⟨S_, .i32⟩
  | 24 => ⟨S_, .f32⟩
  | 25 => ⟨S128x130x18, .f32⟩
  | 26 => ⟨S128x1x128x16, .f32⟩
  | 27 => ⟨S128x128x16, .f32⟩
  | 28 => ⟨S_, .i32⟩
  | 29 => ⟨S_, .f32⟩
  | 30 => ⟨S128x130x18, .f32⟩
  | 31 => ⟨S128x1x128x16, .f32⟩
  | 32 => ⟨S128x128x16, .f32⟩
  | 33 => ⟨S_, .i32⟩
  | 34 => ⟨S_, .f32⟩
  | 35 => ⟨S128x130x18, .f32⟩
  | 36 => ⟨S128x1x130x18, .f32⟩
  | 37 => ⟨S128x1x130x18, .f32⟩
  | 38 => ⟨S128x1x130x18, .f32⟩
  | 39 => ⟨S128x1x130x18, .f32⟩
  | 40 => ⟨S128x1x130x18, .f32⟩
  | 41 => ⟨S128x1x130x18, .f32⟩
  | 42 => ⟨S128x1x130x18, .f32⟩
  | 43 => ⟨S128x1x130x18, .f32⟩
  | 44 => ⟨S128x8x130x18, .f32⟩
  | 45 => ⟨S128x8x130x18, .f32⟩
  | 46 => ⟨S_, .f32⟩
  | 47 => ⟨S128x130x18, .f32⟩
  | 48 => ⟨S128x1x130x18, .f32⟩
  | 49 => ⟨S128x8x130x18, .f32⟩
  | 50 => ⟨S128x8x130x18, .f32⟩
  | 51 => ⟨S_, .f32⟩
  | 52 => ⟨S128x130x18, .f32⟩
  | 53 => ⟨S128x128x16, .f32⟩
  | 54 => ⟨S16x20x128x128, .f32⟩
  | 55 => ⟨S16x8x1x130x130, .f32⟩
  | 56 => ⟨S_, .i32⟩
  | 57 => ⟨S_, .f32⟩
  | 58 => ⟨S16x20x130x130, .f32⟩
  | 59 => ⟨S_, .i32⟩
  | 60 => ⟨S_, .f32⟩
  | 61 => ⟨S16x20x130x130, .f32⟩
  | 62 => ⟨S_, .i32⟩
  | 63 => ⟨S_, .f32⟩
  | 64 => ⟨S16x20x130x130, .f32⟩
  | 65 => ⟨S_, .i32⟩
  | 66 => ⟨S_, .f32⟩
  | 67 => ⟨S16x20x130x130, .f32⟩
  | 68 => ⟨S_, .i32⟩
  | 69 => ⟨S_, .f32⟩
  | 70 => ⟨S16x20x130x130, .f32⟩
  | 71 => ⟨S_, .i32⟩
  | 72 => ⟨S_, .f32⟩
  | 73 => ⟨S16x20x130x130, .f32⟩
  | 74 => ⟨S_, .i32⟩
  | 75 => ⟨S_, .f32⟩
  | 76 => ⟨S16x20x130x130, .f32⟩
  | 77 => ⟨S_, .i32⟩
  | 78 => ⟨S_, .f32⟩
  | 79 => ⟨S16x20x130x130, .f32⟩
  | 80 => ⟨S16x1x20x130x130, .f32⟩
  | 81 => ⟨S16x1x20x130x130, .f32⟩
  | 82 => ⟨S16x1x20x130x130, .f32⟩
  | 83 => ⟨S16x1x20x130x130, .f32⟩
  | 84 => ⟨S16x1x20x130x130, .f32⟩
  | 85 => ⟨S16x1x20x130x130, .f32⟩
  | 86 => ⟨S16x1x20x130x130, .f32⟩
  | 87 => ⟨S16x1x20x130x130, .f32⟩
  | 88 => ⟨S16x8x20x130x130, .f32⟩
  | 89 => ⟨S16x8x20x130x130, .f32⟩
  | 90 => ⟨S16x8x20x130x130, .f32⟩
  | 91 => ⟨S_, .f32⟩
  | 92 => ⟨S16x20x130x130, .f32⟩
  | 93 => ⟨S16x20x128x128, .f32⟩
  | 94 => ⟨S16x1x128x128, .f32⟩
  | 95 => ⟨S_, .f32⟩
  | 96 => ⟨S16x1x128x128, .f32⟩
  | 97 => ⟨S16x1x128x128, .f32⟩
  | 98 => ⟨S16x20x128x128, .f32⟩
  | 99 => ⟨S16x20x128x128, .f32⟩
  | 100 => ⟨S16x20x128x128, .f32⟩
  | 101 => ⟨S20x128x128x16, .f32⟩
  | 102 => ⟨S128x20x128x16, .f32⟩
  | 103 => ⟨S128x8x1x130x18, .f32⟩
  | 104 => ⟨S_, .i32⟩
  | 105 => ⟨S_, .f32⟩
  | 106 => ⟨S128x20x130x18, .f32⟩
  | 107 => ⟨S_, .i32⟩
  | 108 => ⟨S_, .f32⟩
  | 109 => ⟨S128x20x130x18, .f32⟩
  | 110 => ⟨S_, .i32⟩
  | 111 => ⟨S_, .f32⟩
  | 112 => ⟨S128x20x130x18, .f32⟩
  | 113 => ⟨S_, .i32⟩
  | 114 => ⟨S_, .f32⟩
  | 115 => ⟨S128x20x130x18, .f32⟩
  | 116 => ⟨S_, .i32⟩
  | 117 => ⟨S_, .f32⟩
  | 118 => ⟨S128x20x130x18, .f32⟩
  | 119 => ⟨S_, .i32⟩
  | 120 => ⟨S_, .f32⟩
  | 121 => ⟨S128x20x130x18, .f32⟩
  | 122 => ⟨S_, .i32⟩
  | 123 => ⟨S_, .f32⟩
  | 124 => ⟨S128x20x130x18, .f32⟩
  | 125 => ⟨S_, .i32⟩
  | 126 => ⟨S_, .f32⟩
  | 127 => ⟨S128x20x130x18, .f32⟩
  | _ => ⟨S24x128x128x16, .f32⟩

abbrev hbmTy0_2 (i : Nat) : BufTy := match i % 128 with
  | 0 => ⟨S128x1x20x130x18, .f32⟩
  | 1 => ⟨S128x1x20x130x18, .f32⟩
  | 2 => ⟨S128x1x20x130x18, .f32⟩
  | 3 => ⟨S128x1x20x130x18, .f32⟩
  | 4 => ⟨S128x1x20x130x18, .f32⟩
  | 5 => ⟨S128x1x20x130x18, .f32⟩
  | 6 => ⟨S128x1x20x130x18, .f32⟩
  | 7 => ⟨S128x1x20x130x18, .f32⟩
  | 8 => ⟨S128x8x20x130x18, .f32⟩
  | 9 => ⟨S128x8x20x130x18, .f32⟩
  | 10 => ⟨S128x8x20x130x18, .f32⟩
  | 11 => ⟨S_, .f32⟩
  | 12 => ⟨S128x20x130x18, .f32⟩
  | 13 => ⟨S128x20x128x16, .f32⟩
  | 14 => ⟨S128x1x128x16, .f32⟩
  | 15 => ⟨S_, .f32⟩
  | 16 => ⟨S128x1x128x16, .f32⟩
  | 17 => ⟨S128x1x128x16, .f32⟩
  | 18 => ⟨S128x20x128x16, .f32⟩
  | 19 => ⟨S128x20x128x16, .f32⟩
  | 20 => ⟨S128x20x128x16, .f32⟩
  | 21 => ⟨S20x128x128x16, .f32⟩
  | 22 => ⟨S128x20x128x16, .f32⟩
  | 23 => ⟨S128x8x1x130x18, .f32⟩
  | 24 => ⟨S_, .i32⟩
  | 25 => ⟨S_, .f32⟩
  | 26 => ⟨S128x20x130x18, .f32⟩
  | 27 => ⟨S_, .i32⟩
  | 28 => ⟨S_, .f32⟩
  | 29 => ⟨S128x20x130x18, .f32⟩
  | 30 => ⟨S_, .i32⟩
  | 31 => ⟨S_, .f32⟩
  | 32 => ⟨S128x20x130x18, .f32⟩
  | 33 => ⟨S_, .i32⟩
  | 34 => ⟨S_, .f32⟩
  | 35 => ⟨S128x20x130x18, .f32⟩
  | 36 => ⟨S_, .i32⟩
  | 37 => ⟨S_, .f32⟩
  | 38 => ⟨S128x20x130x18, .f32⟩
  | 39 => ⟨S_, .i32⟩
  | 40 => ⟨S_, .f32⟩
  | 41 => ⟨S128x20x130x18, .f32⟩
  | 42 => ⟨S_, .i32⟩
  | 43 => ⟨S_, .f32⟩
  | 44 => ⟨S128x20x130x18, .f32⟩
  | 45 => ⟨S_, .i32⟩
  | 46 => ⟨S_, .f32⟩
  | 47 => ⟨S128x20x130x18, .f32⟩
  | 48 => ⟨S128x1x20x130x18, .f32⟩
  | 49 => ⟨S128x1x20x130x18, .f32⟩
  | 50 => ⟨S128x1x20x130x18, .f32⟩
  | 51 => ⟨S128x1x20x130x18, .f32⟩
  | 52 => ⟨S128x1x20x130x18, .f32⟩
  | 53 => ⟨S128x1x20x130x18, .f32⟩
  | 54 => ⟨S128x1x20x130x18, .f32⟩
  | 55 => ⟨S128x1x20x130x18, .f32⟩
  | 56 => ⟨S128x8x20x130x18, .f32⟩
  | 57 => ⟨S128x8x20x130x18, .f32⟩
  | 58 => ⟨S128x8x20x130x18, .f32⟩
  | 59 => ⟨S_, .f32⟩
  | 60 => ⟨S128x20x130x18, .f32⟩
  | 61 => ⟨S128x20x128x16, .f32⟩
  | 62 => ⟨S128x1x128x16, .f32⟩
  | 63 => ⟨S_, .f32⟩
  | 64 => ⟨S128x1x128x16, .f32⟩
  | 65 => ⟨S128x1x128x16, .f32⟩
  | 66 => ⟨S128x20x128x16, .f32⟩
  | 67 => ⟨S128x20x128x16, .f32⟩
  | 68 => ⟨S128x20x128x16, .f32⟩
  | 69 => ⟨S20x128x128x16, .f32⟩
  | _ => ⟨S24x128x128x16, .f32⟩

abbrev hbmTy (i : Nat) : BufTy := match i / 128 with
  | 0 => hbmTy0_0 i
  | 1 => hbmTy0_1 i
  | 2 => hbmTy0_2 i
  | _ => ⟨S24x128x128x16, .f32⟩

abbrev bufTy : (tb : Table) → Fin (tcTables nBuf tb) → BufTy
  | .hbm, ⟨i, _⟩ => hbmTy i
  | _, _ => ⟨S24x128x128x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_call0_v0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_call1_v0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_1 : Ref sig .tc := ⟨.hbm, 16, rfl⟩
abbrev main_call2_v0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_2 : Ref sig .tc := ⟨.hbm, 21, rfl⟩
abbrev main_call3_v0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_c_3 : Ref sig .tc := ⟨.hbm, 26, rfl⟩
abbrev main_call4_v0 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_4 : Ref sig .tc := ⟨.hbm, 31, rfl⟩
abbrev main_call5_v0 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_5 : Ref sig .tc := ⟨.hbm, 36, rfl⟩
abbrev main_call6_v0 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_call7_v0 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_8 : Ref sig .tc := ⟨.hbm, 66, rfl⟩
abbrev main_call8_v0 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_call9_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_call10_v0 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_11 : Ref sig .tc := ⟨.hbm, 81, rfl⟩
abbrev main_call11_v0 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_call12_v0 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_c_13 : Ref sig .tc := ⟨.hbm, 91, rfl⟩
abbrev main_call13_v0 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_c_14 : Ref sig .tc := ⟨.hbm, 96, rfl⟩
abbrev main_call14_v0 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_c_15 : Ref sig .tc := ⟨.hbm, 101, rfl⟩
abbrev main_call15_v0 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_cst_16 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_cst_17 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_c_18 : Ref sig .tc := ⟨.hbm, 126, rfl⟩
abbrev main_call16_v0 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_c_19 : Ref sig .tc := ⟨.hbm, 131, rfl⟩
abbrev main_call17_v0 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_c_20 : Ref sig .tc := ⟨.hbm, 136, rfl⟩
abbrev main_call18_v0 : Ref sig .tc := ⟨.hbm, 137, rfl⟩
abbrev main_v94 : Ref sig .tc := ⟨.hbm, 138, rfl⟩
abbrev main_v95 : Ref sig .tc := ⟨.hbm, 139, rfl⟩
abbrev main_v96 : Ref sig .tc := ⟨.hbm, 140, rfl⟩
abbrev main_c_21 : Ref sig .tc := ⟨.hbm, 141, rfl⟩
abbrev main_call19_v0 : Ref sig .tc := ⟨.hbm, 142, rfl⟩
abbrev main_v97 : Ref sig .tc := ⟨.hbm, 143, rfl⟩
abbrev main_v98 : Ref sig .tc := ⟨.hbm, 144, rfl⟩
abbrev main_v99 : Ref sig .tc := ⟨.hbm, 145, rfl⟩
abbrev main_c_22 : Ref sig .tc := ⟨.hbm, 146, rfl⟩
abbrev main_call20_v0 : Ref sig .tc := ⟨.hbm, 147, rfl⟩
abbrev main_v100 : Ref sig .tc := ⟨.hbm, 148, rfl⟩
abbrev main_v101 : Ref sig .tc := ⟨.hbm, 149, rfl⟩
abbrev main_v102 : Ref sig .tc := ⟨.hbm, 150, rfl⟩
abbrev main_c_23 : Ref sig .tc := ⟨.hbm, 151, rfl⟩
abbrev main_call21_v0 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_c_24 : Ref sig .tc := ⟨.hbm, 156, rfl⟩
abbrev main_call22_v0 : Ref sig .tc := ⟨.hbm, 157, rfl⟩
abbrev main_v106 : Ref sig .tc := ⟨.hbm, 158, rfl⟩
abbrev main_v107 : Ref sig .tc := ⟨.hbm, 159, rfl⟩
abbrev main_v108 : Ref sig .tc := ⟨.hbm, 160, rfl⟩
abbrev main_c_25 : Ref sig .tc := ⟨.hbm, 161, rfl⟩
abbrev main_call23_v0 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_v112 : Ref sig .tc := ⟨.hbm, 166, rfl⟩
abbrev main_v113 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_v119 : Ref sig .tc := ⟨.hbm, 173, rfl⟩
abbrev main_cst_26 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_27 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_c_28 : Ref sig .tc := ⟨.hbm, 184, rfl⟩
abbrev main_call24_v0 : Ref sig .tc := ⟨.hbm, 185, rfl⟩
abbrev main_v128 : Ref sig .tc := ⟨.hbm, 186, rfl⟩
abbrev main_c_29 : Ref sig .tc := ⟨.hbm, 187, rfl⟩
abbrev main_call25_v0 : Ref sig .tc := ⟨.hbm, 188, rfl⟩
abbrev main_v129 : Ref sig .tc := ⟨.hbm, 189, rfl⟩
abbrev main_c_30 : Ref sig .tc := ⟨.hbm, 190, rfl⟩
abbrev main_call26_v0 : Ref sig .tc := ⟨.hbm, 191, rfl⟩
abbrev main_v130 : Ref sig .tc := ⟨.hbm, 192, rfl⟩
abbrev main_c_31 : Ref sig .tc := ⟨.hbm, 193, rfl⟩
abbrev main_call27_v0 : Ref sig .tc := ⟨.hbm, 194, rfl⟩
abbrev main_v131 : Ref sig .tc := ⟨.hbm, 195, rfl⟩
abbrev main_c_32 : Ref sig .tc := ⟨.hbm, 196, rfl⟩
abbrev main_call28_v0 : Ref sig .tc := ⟨.hbm, 197, rfl⟩
abbrev main_v132 : Ref sig .tc := ⟨.hbm, 198, rfl⟩
abbrev main_c_33 : Ref sig .tc := ⟨.hbm, 199, rfl⟩
abbrev main_call29_v0 : Ref sig .tc := ⟨.hbm, 200, rfl⟩
abbrev main_v133 : Ref sig .tc := ⟨.hbm, 201, rfl⟩
abbrev main_c_34 : Ref sig .tc := ⟨.hbm, 202, rfl⟩
abbrev main_call30_v0 : Ref sig .tc := ⟨.hbm, 203, rfl⟩
abbrev main_v134 : Ref sig .tc := ⟨.hbm, 204, rfl⟩
abbrev main_c_35 : Ref sig .tc := ⟨.hbm, 205, rfl⟩
abbrev main_call31_v0 : Ref sig .tc := ⟨.hbm, 206, rfl⟩
abbrev main_v135 : Ref sig .tc := ⟨.hbm, 207, rfl⟩
abbrev main_v136 : Ref sig .tc := ⟨.hbm, 208, rfl⟩
abbrev main_v137 : Ref sig .tc := ⟨.hbm, 209, rfl⟩
abbrev main_v138 : Ref sig .tc := ⟨.hbm, 210, rfl⟩
abbrev main_v139 : Ref sig .tc := ⟨.hbm, 211, rfl⟩
abbrev main_v140 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_cst_36 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_cst_37 : Ref sig .tc := ⟨.hbm, 223, rfl⟩
abbrev main_v150 : Ref sig .tc := ⟨.hbm, 224, rfl⟩
abbrev main_v151 : Ref sig .tc := ⟨.hbm, 225, rfl⟩
abbrev main_v152 : Ref sig .tc := ⟨.hbm, 226, rfl⟩
abbrev main_v153 : Ref sig .tc := ⟨.hbm, 227, rfl⟩
abbrev main_v154 : Ref sig .tc := ⟨.hbm, 228, rfl⟩
abbrev main_v155 : Ref sig .tc := ⟨.hbm, 229, rfl⟩
abbrev main_v156 : Ref sig .tc := ⟨.hbm, 230, rfl⟩
abbrev main_v157 : Ref sig .tc := ⟨.hbm, 231, rfl⟩
abbrev main_c_38 : Ref sig .tc := ⟨.hbm, 232, rfl⟩
abbrev main_call32_v0 : Ref sig .tc := ⟨.hbm, 233, rfl⟩
abbrev main_v158 : Ref sig .tc := ⟨.hbm, 234, rfl⟩
abbrev main_c_39 : Ref sig .tc := ⟨.hbm, 235, rfl⟩
abbrev main_call33_v0 : Ref sig .tc := ⟨.hbm, 236, rfl⟩
abbrev main_v159 : Ref sig .tc := ⟨.hbm, 237, rfl⟩
abbrev main_c_40 : Ref sig .tc := ⟨.hbm, 238, rfl⟩
abbrev main_call34_v0 : Ref sig .tc := ⟨.hbm, 239, rfl⟩
abbrev main_v160 : Ref sig .tc := ⟨.hbm, 240, rfl⟩
abbrev main_c_41 : Ref sig .tc := ⟨.hbm, 241, rfl⟩
abbrev main_call35_v0 : Ref sig .tc := ⟨.hbm, 242, rfl⟩
abbrev main_v161 : Ref sig .tc := ⟨.hbm, 243, rfl⟩
abbrev main_c_42 : Ref sig .tc := ⟨.hbm, 244, rfl⟩
abbrev main_call36_v0 : Ref sig .tc := ⟨.hbm, 245, rfl⟩
abbrev main_v162 : Ref sig .tc := ⟨.hbm, 246, rfl⟩
abbrev main_c_43 : Ref sig .tc := ⟨.hbm, 247, rfl⟩
abbrev main_call37_v0 : Ref sig .tc := ⟨.hbm, 248, rfl⟩
abbrev main_v163 : Ref sig .tc := ⟨.hbm, 249, rfl⟩
abbrev main_c_44 : Ref sig .tc := ⟨.hbm, 250, rfl⟩
abbrev main_call38_v0 : Ref sig .tc := ⟨.hbm, 251, rfl⟩
abbrev main_v164 : Ref sig .tc := ⟨.hbm, 252, rfl⟩
abbrev main_c_45 : Ref sig .tc := ⟨.hbm, 253, rfl⟩
abbrev main_call39_v0 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_v171 : Ref sig .tc := ⟨.hbm, 261, rfl⟩
abbrev main_v172 : Ref sig .tc := ⟨.hbm, 262, rfl⟩
abbrev main_v173 : Ref sig .tc := ⟨.hbm, 263, rfl⟩
abbrev main_v174 : Ref sig .tc := ⟨.hbm, 264, rfl⟩
abbrev main_v175 : Ref sig .tc := ⟨.hbm, 265, rfl⟩
abbrev main_v176 : Ref sig .tc := ⟨.hbm, 266, rfl⟩
abbrev main_cst_46 : Ref sig .tc := ⟨.hbm, 267, rfl⟩
abbrev main_v177 : Ref sig .tc := ⟨.hbm, 268, rfl⟩
abbrev main_v178 : Ref sig .tc := ⟨.hbm, 269, rfl⟩
abbrev main_v179 : Ref sig .tc := ⟨.hbm, 270, rfl⟩
abbrev main_cst_47 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_v185 : Ref sig .tc := ⟨.hbm, 277, rfl⟩
abbrev main_v186 : Ref sig .tc := ⟨.hbm, 278, rfl⟩
abbrev main_v187 : Ref sig .tc := ⟨.hbm, 279, rfl⟩
abbrev main_c_48 : Ref sig .tc := ⟨.hbm, 280, rfl⟩
abbrev main_call40_v0 : Ref sig .tc := ⟨.hbm, 281, rfl⟩
abbrev main_v188 : Ref sig .tc := ⟨.hbm, 282, rfl⟩
abbrev main_c_49 : Ref sig .tc := ⟨.hbm, 283, rfl⟩
abbrev main_call41_v0 : Ref sig .tc := ⟨.hbm, 284, rfl⟩
abbrev main_v189 : Ref sig .tc := ⟨.hbm, 285, rfl⟩
abbrev main_c_50 : Ref sig .tc := ⟨.hbm, 286, rfl⟩
abbrev main_call42_v0 : Ref sig .tc := ⟨.hbm, 287, rfl⟩
abbrev main_v190 : Ref sig .tc := ⟨.hbm, 288, rfl⟩
abbrev main_c_51 : Ref sig .tc := ⟨.hbm, 289, rfl⟩
abbrev main_call43_v0 : Ref sig .tc := ⟨.hbm, 290, rfl⟩
abbrev main_v191 : Ref sig .tc := ⟨.hbm, 291, rfl⟩
abbrev main_c_52 : Ref sig .tc := ⟨.hbm, 292, rfl⟩
abbrev main_call44_v0 : Ref sig .tc := ⟨.hbm, 293, rfl⟩
abbrev main_v192 : Ref sig .tc := ⟨.hbm, 294, rfl⟩
abbrev main_c_53 : Ref sig .tc := ⟨.hbm, 295, rfl⟩
abbrev main_call45_v0 : Ref sig .tc := ⟨.hbm, 296, rfl⟩
abbrev main_v193 : Ref sig .tc := ⟨.hbm, 297, rfl⟩
abbrev main_c_54 : Ref sig .tc := ⟨.hbm, 298, rfl⟩
abbrev main_call46_v0 : Ref sig .tc := ⟨.hbm, 299, rfl⟩
abbrev main_v194 : Ref sig .tc := ⟨.hbm, 300, rfl⟩
abbrev main_c_55 : Ref sig .tc := ⟨.hbm, 301, rfl⟩
abbrev main_call47_v0 : Ref sig .tc := ⟨.hbm, 302, rfl⟩
abbrev main_v195 : Ref sig .tc := ⟨.hbm, 303, rfl⟩
abbrev main_v196 : Ref sig .tc := ⟨.hbm, 304, rfl⟩
abbrev main_v197 : Ref sig .tc := ⟨.hbm, 305, rfl⟩
abbrev main_v198 : Ref sig .tc := ⟨.hbm, 306, rfl⟩
abbrev main_v199 : Ref sig .tc := ⟨.hbm, 307, rfl⟩
abbrev main_v200 : Ref sig .tc := ⟨.hbm, 308, rfl⟩
abbrev main_v201 : Ref sig .tc := ⟨.hbm, 309, rfl⟩
abbrev main_v202 : Ref sig .tc := ⟨.hbm, 310, rfl⟩
abbrev main_v203 : Ref sig .tc := ⟨.hbm, 311, rfl⟩
abbrev main_v204 : Ref sig .tc := ⟨.hbm, 312, rfl⟩
abbrev main_v205 : Ref sig .tc := ⟨.hbm, 313, rfl⟩
abbrev main_v206 : Ref sig .tc := ⟨.hbm, 314, rfl⟩
abbrev main_cst_56 : Ref sig .tc := ⟨.hbm, 315, rfl⟩
abbrev main_v207 : Ref sig .tc := ⟨.hbm, 316, rfl⟩
abbrev main_v208 : Ref sig .tc := ⟨.hbm, 317, rfl⟩
abbrev main_v209 : Ref sig .tc := ⟨.hbm, 318, rfl⟩
abbrev main_cst_57 : Ref sig .tc := ⟨.hbm, 319, rfl⟩
abbrev main_v210 : Ref sig .tc := ⟨.hbm, 320, rfl⟩
abbrev main_v211 : Ref sig .tc := ⟨.hbm, 321, rfl⟩
abbrev main_v212 : Ref sig .tc := ⟨.hbm, 322, rfl⟩
abbrev main_v213 : Ref sig .tc := ⟨.hbm, 323, rfl⟩
abbrev main_v214 : Ref sig .tc := ⟨.hbm, 324, rfl⟩
abbrev main_v215 : Ref sig .tc := ⟨.hbm, 325, rfl⟩

abbrev nD : Nat := 1
abbrev τ : Topo := Topo.v7x

variable {F : FTy → Type} [FloatOps F]

class Facts₀ : Prop where
  slices_S24x128x128x16_S8x128x128x16_0_0_0_0 : S24x128x128x16.Slices ![0, 0, 0, 0] S8x128x128x16
  transposes_S8x128x128x16_S16x8x128x128_3_0_1_2 : S8x128x128x16.Transposes [3, 0, 1, 2] S16x8x128x128
  slices_S16x8x128x128_S16x1x128x128_0_0_0_0 : S16x8x128x128.Slices ![0, 0, 0, 0] S16x1x128x128
  shapeCasts_S16x1x128x128_S16x128x128 : S16x1x128x128.ShapeCasts S16x128x128
  pads_S16x128x128_S16x130x130_000_020_020 : S16x128x128.Pads (![0, 0, 0] : Fin 3 → Nat) ![0, 2, 2] ![0, 0, 0] S16x130x130
  h_S_ : 0 < S_.numel
  slices_S16x8x128x128_S16x1x128x128_0_1_0_0 : S16x8x128x128.Slices ![0, 1, 0, 0] S16x1x128x128
  pads_S16x128x128_S16x130x130_000_020_110 : S16x128x128.Pads (![0, 0, 1] : Fin 3 → Nat) ![0, 2, 1] ![0, 0, 0] S16x130x130
  slices_S16x8x128x128_S16x1x128x128_0_2_0_0 : S16x8x128x128.Slices ![0, 2, 0, 0] S16x1x128x128
  pads_S16x128x128_S16x130x130_000_020_200 : S16x128x128.Pads (![0, 0, 2] : Fin 3 → Nat) ![0, 2, 0] ![0, 0, 0] S16x130x130
  slices_S16x8x128x128_S16x1x128x128_0_3_0_0 : S16x8x128x128.Slices ![0, 3, 0, 0] S16x1x128x128
  pads_S16x128x128_S16x130x130_000_110_020 : S16x128x128.Pads (![0, 1, 0] : Fin 3 → Nat) ![0, 1, 2] ![0, 0, 0] S16x130x130
  slices_S16x8x128x128_S16x1x128x128_0_4_0_0 : S16x8x128x128.Slices ![0, 4, 0, 0] S16x1x128x128
  pads_S16x128x128_S16x130x130_000_110_200 : S16x128x128.Pads (![0, 1, 2] : Fin 3 → Nat) ![0, 1, 0] ![0, 0, 0] S16x130x130
  slices_S16x8x128x128_S16x1x128x128_0_5_0_0 : S16x8x128x128.Slices ![0, 5, 0, 0] S16x1x128x128
  pads_S16x128x128_S16x130x130_000_200_020 : S16x128x128.Pads (![0, 2, 0] : Fin 3 → Nat) ![0, 0, 2] ![0, 0, 0] S16x130x130
  slices_S16x8x128x128_S16x1x128x128_0_6_0_0 : S16x8x128x128.Slices ![0, 6, 0, 0] S16x1x128x128
  pads_S16x128x128_S16x130x130_000_200_110 : S16x128x128.Pads (![0, 2, 1] : Fin 3 → Nat) ![0, 0, 1] ![0, 0, 0] S16x130x130
  slices_S16x8x128x128_S16x1x128x128_0_7_0_0 : S16x8x128x128.Slices ![0, 7, 0, 0] S16x1x128x128
  pads_S16x128x128_S16x130x130_000_200_200 : S16x128x128.Pads (![0, 2, 2] : Fin 3 → Nat) ![0, 0, 0] ![0, 0, 0] S16x130x130
  bcast_S16x130x130_S16x1x130x130_0_2_3 : S16x130x130.BroadcastsInDim S16x1x130x130 (![0, 2, 3] : Fin 3 → Fin S16x1x130x130.rank)
  concatenates_S16x1x130x130_S16x1x130x130_S16x1x130x130_S16x1x130x130_S16x1x130x130_S16x1x130x130_S16x1x130x130_S16x1x130x130_S16x8x130x130_d1 : Shape.Concatenates [S16x1x130x130, S16x1x130x130, S16x1x130x130, S16x1x130x130, S16x1x130x130, S16x1x130x130, S16x1x130x130, S16x1x130x130] S16x8x130x130 1
  reducesTo_S16x8x130x130_S16x130x130_d1 : S16x8x130x130.ReducesTo [1] S16x130x130
  bcast_S16x1x130x130_S16x8x130x130_0_1_2_3 : S16x1x130x130.BroadcastsInDim S16x8x130x130 (![0, 1, 2, 3] : Fin 4 → Fin S16x8x130x130.rank)
  slices_S16x130x130_S16x128x128_0_1_1 : S16x130x130.Slices ![0, 1, 1] S16x128x128
  slices_S24x128x128x16_S8x128x128x16_8_0_0_0 : S24x128x128x16.Slices ![8, 0, 0, 0] S8x128x128x16
  transposes_S8x128x128x16_S128x8x128x16_2_0_1_3 : S8x128x128x16.Transposes [2, 0, 1, 3] S128x8x128x16
  slices_S128x8x128x16_S128x1x128x16_0_0_0_0 : S128x8x128x16.Slices ![0, 0, 0, 0] S128x1x128x16
  shapeCasts_S128x1x128x16_S128x128x16 : S128x1x128x16.ShapeCasts S128x128x16
  pads_S128x128x16_S128x130x18_000_020_020 : S128x128x16.Pads (![0, 0, 0] : Fin 3 → Nat) ![0, 2, 2] ![0, 0, 0] S128x130x18
  slices_S128x8x128x16_S128x1x128x16_0_1_0_0 : S128x8x128x16.Slices ![0, 1, 0, 0] S128x1x128x16
  pads_S128x128x16_S128x130x18_000_020_110 : S128x128x16.Pads (![0, 0, 1] : Fin 3 → Nat) ![0, 2, 1] ![0, 0, 0] S128x130x18
  slices_S128x8x128x16_S128x1x128x16_0_2_0_0 : S128x8x128x16.Slices ![0, 2, 0, 0] S128x1x128x16
  pads_S128x128x16_S128x130x18_000_020_200 : S128x128x16.Pads (![0, 0, 2] : Fin 3 → Nat) ![0, 2, 0] ![0, 0, 0] S128x130x18
  slices_S128x8x128x16_S128x1x128x16_0_3_0_0 : S128x8x128x16.Slices ![0, 3, 0, 0] S128x1x128x16
  pads_S128x128x16_S128x130x18_000_110_020 : S128x128x16.Pads (![0, 1, 0] : Fin 3 → Nat) ![0, 1, 2] ![0, 0, 0] S128x130x18
  slices_S128x8x128x16_S128x1x128x16_0_4_0_0 : S128x8x128x16.Slices ![0, 4, 0, 0] S128x1x128x16
  pads_S128x128x16_S128x130x18_000_110_200 : S128x128x16.Pads (![0, 1, 2] : Fin 3 → Nat) ![0, 1, 0] ![0, 0, 0] S128x130x18
  slices_S128x8x128x16_S128x1x128x16_0_5_0_0 : S128x8x128x16.Slices ![0, 5, 0, 0] S128x1x128x16
  pads_S128x128x16_S128x130x18_000_200_020 : S128x128x16.Pads (![0, 2, 0] : Fin 3 → Nat) ![0, 0, 2] ![0, 0, 0] S128x130x18
  slices_S128x8x128x16_S128x1x128x16_0_6_0_0 : S128x8x128x16.Slices ![0, 6, 0, 0] S128x1x128x16
  pads_S128x128x16_S128x130x18_000_200_110 : S128x128x16.Pads (![0, 2, 1] : Fin 3 → Nat) ![0, 0, 1] ![0, 0, 0] S128x130x18
  slices_S128x8x128x16_S128x1x128x16_0_7_0_0 : S128x8x128x16.Slices ![0, 7, 0, 0] S128x1x128x16
  pads_S128x128x16_S128x130x18_000_200_200 : S128x128x16.Pads (![0, 2, 2] : Fin 3 → Nat) ![0, 0, 0] ![0, 0, 0] S128x130x18
  bcast_S128x130x18_S128x1x130x18_0_2_3 : S128x130x18.BroadcastsInDim S128x1x130x18 (![0, 2, 3] : Fin 3 → Fin S128x1x130x18.rank)
  concatenates_S128x1x130x18_S128x1x130x18_S128x1x130x18_S128x1x130x18_S128x1x130x18_S128x1x130x18_S128x1x130x18_S128x1x130x18_S128x8x130x18_d1 : Shape.Concatenates [S128x1x130x18, S128x1x130x18, S128x1x130x18, S128x1x130x18, S128x1x130x18, S128x1x130x18, S128x1x130x18, S128x1x130x18] S128x8x130x18 1
  reducesTo_S128x8x130x18_S128x130x18_d1 : S128x8x130x18.ReducesTo [1] S128x130x18
  bcast_S128x1x130x18_S128x8x130x18_0_1_2_3 : S128x1x130x18.BroadcastsInDim S128x8x130x18 (![0, 1, 2, 3] : Fin 4 → Fin S128x8x130x18.rank)
  slices_S128x130x18_S128x128x16_0_1_1 : S128x130x18.Slices ![0, 1, 1] S128x128x16
  slices_S24x128x128x16_S8x128x128x16_16_0_0_0 : S24x128x128x16.Slices ![16, 0, 0, 0] S8x128x128x16
  transposes_S8x128x128x16_S128x8x128x16_1_0_2_3 : S8x128x128x16.Transposes [1, 0, 2, 3] S128x8x128x16
  transposes_S20x128x128x16_S16x20x128x128_3_0_1_2 : S20x128x128x16.Transposes [3, 0, 1, 2] S16x20x128x128
  bcast_S16x8x130x130_S16x8x1x130x130_0_1_3_4 : S16x8x130x130.BroadcastsInDim S16x8x1x130x130 (![0, 1, 3, 4] : Fin 4 → Fin S16x8x1x130x130.rank)
  pads_S16x20x128x128_S16x20x130x130_000_000_020_020 : S16x20x128x128.Pads (![0, 0, 0, 0] : Fin 4 → Nat) ![0, 0, 2, 2] ![0, 0, 0, 0] S16x20x130x130
  pads_S16x20x128x128_S16x20x130x130_000_000_020_110 : S16x20x128x128.Pads (![0, 0, 0, 1] : Fin 4 → Nat) ![0, 0, 2, 1] ![0, 0, 0, 0] S16x20x130x130
  pads_S16x20x128x128_S16x20x130x130_000_000_020_200 : S16x20x128x128.Pads (![0, 0, 0, 2] : Fin 4 → Nat) ![0, 0, 2, 0] ![0, 0, 0, 0] S16x20x130x130
  pads_S16x20x128x128_S16x20x130x130_000_000_110_020 : S16x20x128x128.Pads (![0, 0, 1, 0] : Fin 4 → Nat) ![0, 0, 1, 2] ![0, 0, 0, 0] S16x20x130x130
  pads_S16x20x128x128_S16x20x130x130_000_000_110_200 : S16x20x128x128.Pads (![0, 0, 1, 2] : Fin 4 → Nat) ![0, 0, 1, 0] ![0, 0, 0, 0] S16x20x130x130
  pads_S16x20x128x128_S16x20x130x130_000_000_200_020 : S16x20x128x128.Pads (![0, 0, 2, 0] : Fin 4 → Nat) ![0, 0, 0, 2] ![0, 0, 0, 0] S16x20x130x130
  pads_S16x20x128x128_S16x20x130x130_000_000_200_110 : S16x20x128x128.Pads (![0, 0, 2, 1] : Fin 4 → Nat) ![0, 0, 0, 1] ![0, 0, 0, 0] S16x20x130x130
  pads_S16x20x128x128_S16x20x130x130_000_000_200_200 : S16x20x128x128.Pads (![0, 0, 2, 2] : Fin 4 → Nat) ![0, 0, 0, 0] ![0, 0, 0, 0] S16x20x130x130
  bcast_S16x20x130x130_S16x1x20x130x130_0_2_3_4 : S16x20x130x130.BroadcastsInDim S16x1x20x130x130 (![0, 2, 3, 4] : Fin 4 → Fin S16x1x20x130x130.rank)
  concatenates_S16x1x20x130x130_S16x1x20x130x130_S16x1x20x130x130_S16x1x20x130x130_S16x1x20x130x130_S16x1x20x130x130_S16x1x20x130x130_S16x1x20x130x130_S16x8x20x130x130_d1 : Shape.Concatenates [S16x1x20x130x130, S16x1x20x130x130, S16x1x20x130x130, S16x1x20x130x130, S16x1x20x130x130, S16x1x20x130x130, S16x1x20x130x130, S16x1x20x130x130] S16x8x20x130x130 1
  bcast_S16x8x1x130x130_S16x8x20x130x130_0_1_2_3_4 : S16x8x1x130x130.BroadcastsInDim S16x8x20x130x130 (![0, 1, 2, 3, 4] : Fin 5 → Fin S16x8x20x130x130.rank)
  reducesTo_S16x8x20x130x130_S16x20x130x130_d1 : S16x8x20x130x130.ReducesTo [1] S16x20x130x130
  slices_S16x20x130x130_S16x20x128x128_0_0_1_1 : S16x20x130x130.Slices ![0, 0, 1, 1] S16x20x128x128
  bcast_S16x128x128_S16x1x128x128_0_2_3 : S16x128x128.BroadcastsInDim S16x1x128x128 (![0, 2, 3] : Fin 3 → Fin S16x1x128x128.rank)
  bcast_S_S16x1x128x128 : S_.BroadcastsInDim S16x1x128x128 (![] : Fin 0 → Fin S16x1x128x128.rank)
  bcast_S16x1x128x128_S16x20x128x128_0_1_2_3 : S16x1x128x128.BroadcastsInDim S16x20x128x128 (![0, 1, 2, 3] : Fin 4 → Fin S16x20x128x128.rank)
  transposes_S16x20x128x128_S20x128x128x16_1_2_3_0 : S16x20x128x128.Transposes [1, 2, 3, 0] S20x128x128x16
  transposes_S20x128x128x16_S128x20x128x16_2_0_1_3 : S20x128x128x16.Transposes [2, 0, 1, 3] S128x20x128x16
  bcast_S128x8x130x18_S128x8x1x130x18_0_1_3_4 : S128x8x130x18.BroadcastsInDim S128x8x1x130x18 (![0, 1, 3, 4] : Fin 4 → Fin S128x8x1x130x18.rank)
  pads_S128x20x128x16_S128x20x130x18_000_000_020_020 : S128x20x128x16.Pads (![0, 0, 0, 0] : Fin 4 → Nat) ![0, 0, 2, 2] ![0, 0, 0, 0] S128x20x130x18
  pads_S128x20x128x16_S128x20x130x18_000_000_020_110 : S128x20x128x16.Pads (![0, 0, 0, 1] : Fin 4 → Nat) ![0, 0, 2, 1] ![0, 0, 0, 0] S128x20x130x18
  pads_S128x20x128x16_S128x20x130x18_000_000_020_200 : S128x20x128x16.Pads (![0, 0, 0, 2] : Fin 4 → Nat) ![0, 0, 2, 0] ![0, 0, 0, 0] S128x20x130x18
  pads_S128x20x128x16_S128x20x130x18_000_000_110_020 : S128x20x128x16.Pads (![0, 0, 1, 0] : Fin 4 → Nat) ![0, 0, 1, 2] ![0, 0, 0, 0] S128x20x130x18
  pads_S128x20x128x16_S128x20x130x18_000_000_110_200 : S128x20x128x16.Pads (![0, 0, 1, 2] : Fin 4 → Nat) ![0, 0, 1, 0] ![0, 0, 0, 0] S128x20x130x18
  pads_S128x20x128x16_S128x20x130x18_000_000_200_020 : S128x20x128x16.Pads (![0, 0, 2, 0] : Fin 4 → Nat) ![0, 0, 0, 2] ![0, 0, 0, 0] S128x20x130x18
  pads_S128x20x128x16_S128x20x130x18_000_000_200_110 : S128x20x128x16.Pads (![0, 0, 2, 1] : Fin 4 → Nat) ![0, 0, 0, 1] ![0, 0, 0, 0] S128x20x130x18
  pads_S128x20x128x16_S128x20x130x18_000_000_200_200 : S128x20x128x16.Pads (![0, 0, 2, 2] : Fin 4 → Nat) ![0, 0, 0, 0] ![0, 0, 0, 0] S128x20x130x18
  bcast_S128x20x130x18_S128x1x20x130x18_0_2_3_4 : S128x20x130x18.BroadcastsInDim S128x1x20x130x18 (![0, 2, 3, 4] : Fin 4 → Fin S128x1x20x130x18.rank)
  concatenates_S128x1x20x130x18_S128x1x20x130x18_S128x1x20x130x18_S128x1x20x130x18_S128x1x20x130x18_S128x1x20x130x18_S128x1x20x130x18_S128x1x20x130x18_S128x8x20x130x18_d1 : Shape.Concatenates [S128x1x20x130x18, S128x1x20x130x18, S128x1x20x130x18, S128x1x20x130x18, S128x1x20x130x18, S128x1x20x130x18, S128x1x20x130x18, S128x1x20x130x18] S128x8x20x130x18 1
  bcast_S128x8x1x130x18_S128x8x20x130x18_0_1_2_3_4 : S128x8x1x130x18.BroadcastsInDim S128x8x20x130x18 (![0, 1, 2, 3, 4] : Fin 5 → Fin S128x8x20x130x18.rank)
  reducesTo_S128x8x20x130x18_S128x20x130x18_d1 : S128x8x20x130x18.ReducesTo [1] S128x20x130x18
  slices_S128x20x130x18_S128x20x128x16_0_0_1_1 : S128x20x130x18.Slices ![0, 0, 1, 1] S128x20x128x16
  bcast_S128x128x16_S128x1x128x16_0_2_3 : S128x128x16.BroadcastsInDim S128x1x128x16 (![0, 2, 3] : Fin 3 → Fin S128x1x128x16.rank)
  bcast_S_S128x1x128x16 : S_.BroadcastsInDim S128x1x128x16 (![] : Fin 0 → Fin S128x1x128x16.rank)
  bcast_S128x1x128x16_S128x20x128x16_0_1_2_3 : S128x1x128x16.BroadcastsInDim S128x20x128x16 (![0, 1, 2, 3] : Fin 4 → Fin S128x20x128x16.rank)
  transposes_S128x20x128x16_S20x128x128x16_1_2_0_3 : S128x20x128x16.Transposes [1, 2, 0, 3] S20x128x128x16
  transposes_S20x128x128x16_S128x20x128x16_1_0_2_3 : S20x128x128x16.Transposes [1, 0, 2, 3] S128x20x128x16
  transposes_S128x20x128x16_S20x128x128x16_1_0_2_3 : S128x20x128x16.Transposes [1, 0, 2, 3] S20x128x128x16

variable [Facts₀]

class Facts : Prop extends Facts₀ where

variable [Facts]
-- ==== Proof.KLaunch.lean ====
/-
  The kernel program's run, with its result buffer read.

  @main is seven segments: host operations, the first pallas_call, two transposes, the second pallas_call, two
  transposes, the third pallas_call, one transpose. The launch over these segments ends, on every core, with every
  unscoped buffer at the fold of the segments over the launch memory; the frame certificate reads the two argument
  buffers out of that final state, and here the result buffer is read out of it as well.
-/
import proofs.«139537_j58806692216890_2_alg».proof.Proof.Gen.KernelIdeal.Frame

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last
    boundary's contents and the argument buffers as launched. -/
theorem run : θ_run defs (onTc (τ := τ) (main (F := F))) ⟨m, fun _ => 0, ρ⟩ (fun r => ∀ c : Dev nD,
      r.2.mem ((c.tc : Thread nD τ).loc main_v14) = W7 m ρ c (Proc.devRef .tc main_v14)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v14 (by decide)),
       (h c _ (mem_uc main_arg0 (by decide))).trans (W7_main_arg0 m ρ c),
       (h c _ (mem_uc main_arg1 (by decide))).trans (W7_main_arg1 m ρ c)⟩)

end Cert.KernelIdeal.Launch

end
-- ==== Proof.Spec.lean ====
/-
  The specification both programs meet, for one plane-propagation step.

  A plane is an array `f : Fin S0 → Fin S1 → EReal`.  Its eight neighbour maps are read with zeros outside
  the plane: neighbour `k` of `f` at `(i, j)` is `f (i + 1 - lo0 k) (j + 1 - lo1 k)` when that position exists
  and `0` otherwise, where `(lo0 k, lo1 k)` runs over the eight pairs of `{0, 1, 2}²` other than `(1, 1)`
  (`lo = 0`: the next entry, `lo = 1`: the entry itself, `lo = 2`: the previous entry).  With eight guidance
  planes `g k`, the gates are the neighbour maps of the guidance planes, normalised by the sum of their absolute
  values, and one step sends the data planes `x c` to
  `(1 - Σ_k gate_k) · x c + Σ_k gate_k · (neighbour k of x c)`.
  Over a batch axis the step acts on each batch entry by itself (`step`).
-/
import Idealize.ShloMosaic.PureOps.Ideal
import Idealize.ShloMosaic.PureOps.Ideal.Laws
import Idealize.ShloMosaic.Lib.ValueIdx

noncomputable section

open scoped BigOperators

namespace Cert.Affinity

open Idealize.ShloMosaic Idealize.ShloMosaic.ValueIdx

/-- One axis of a neighbour read with zeros outside: entry `i + 1 - lo` of `f` when it exists, else `0`. -/
def nb {n : ℕ} (lo : ℕ) (f : Fin n → EReal) (i : Fin n) : EReal :=
  if h : lo ≤ i.val + 1 ∧ i.val + 1 < lo + n then f ⟨i.val + 1 - lo, by omega⟩ else 0

/-- A neighbour read on both axes of a plane: first axis by `l0`, second by `l1`. -/
def nb2 {n0 n1 : ℕ} (l0 l1 : ℕ) (f : Fin n0 → Fin n1 → EReal) (i : Fin n0) (j : Fin n1) : EReal :=
  nb l1 (fun j' => nb l0 (fun i' => f i' j') i) j

/-- The first-axis offsets of the eight neighbours. -/
def lo0 : Fin 8 → ℕ := ![0, 0, 0, 1, 1, 2, 2, 2]
/-- The second-axis offsets of the eight neighbours. -/
def lo1 : Fin 8 → ℕ := ![0, 1, 2, 0, 2, 0, 1, 2]

theorem nb_one {n : ℕ} (f : Fin n → EReal) (i : Fin n) : nb 1 f i = f i := by
  unfold nb
  rw [dif_pos ⟨by omega, by have := i.isLt; omega⟩]
  exact congrArg f (Fin.ext (by simp))

section Plane
variable {C S0 S1 : ℕ}

/-- Gate `k` before normalisation: neighbour map `k` of guidance plane `k`. -/
def gate (g : Fin 8 → Fin S0 → Fin S1 → EReal) (k : Fin 8) (i : Fin S0) (j : Fin S1) : EReal :=
  nb2 (lo0 k) (lo1 k) (g k) i j

/-- The sum of the eight gates' absolute values. -/
def absSum (g : Fin 8 → Fin S0 → Fin S1 → EReal) (i : Fin S0) (j : Fin S1) : EReal :=
  ∑ k : Fin 8, max (gate g k i j) (-(gate g k i j))

/-- The normalised gate `k`. -/
def norm (g : Fin 8 → Fin S0 → Fin S1 → EReal) (k : Fin 8) (i : Fin S0) (j : Fin S1) : EReal :=
  Ideal.div (gate g k i j) (absSum g i j)

/-- The sum of the normalised gates. -/
def gateSum (g : Fin 8 → Fin S0 → Fin S1 → EReal) (i : Fin S0) (j : Fin S1) : EReal :=
  ∑ k : Fin 8, norm g k i j

/-- The gated sum of the data plane's eight neighbour maps. -/
def nws (g : Fin 8 → Fin S0 → Fin S1 → EReal) (x : Fin C → Fin S0 → Fin S1 → EReal) (c : Fin C) (i : Fin S0) (j : Fin S1) :
    EReal :=
  ∑ k : Fin 8, norm g k i j * nb2 (lo0 k) (lo1 k) (x c) i j

/-- One propagation step on one batch entry. -/
def out1 (g : Fin 8 → Fin S0 → Fin S1 → EReal) (x : Fin C → Fin S0 → Fin S1 → EReal) (c : Fin C) (i : Fin S0) (j : Fin S1) :
    EReal :=
  (Ideal.ofBits .f32 0x3F800000#32 - gateSum g i j) * x c i j + nws g x c i j

end Plane

/-- One propagation step on arrays with a leading batch axis: guidance `[B, 8, S0, S1]`, data `[B, C, S0, S1]`. -/
def step {B C S0 S1 : ℕ} (g : (⟨4, ![B, 8, S0, S1]⟩ : Shape).Idx → EReal) (x : (⟨4, ![B, C, S0, S1]⟩ : Shape).Idx → EReal) :
    (⟨4, ![B, C, S0, S1]⟩ : Shape).Idx → EReal :=
  fun idx => out1 (fun k i j => g (ix4 (idx 0) k i j)) (fun c i j => x (ix4 (idx 0) c i j)) (idx 1) (idx 2) (idx 3)

theorem step_apply {B C S0 S1 : ℕ} (g : (⟨4, ![B, 8, S0, S1]⟩ : Shape).Idx → EReal)
    (x : (⟨4, ![B, C, S0, S1]⟩ : Shape).Idx → EReal) (b : Fin B) (c : Fin C) (i : Fin S0) (j : Fin S1) :
    step g x (ix4 b c i j) = out1 (fun k i j => g (ix4 b k i j)) (fun c i j => x (ix4 b c i j)) c i j := rfl

end Cert.Affinity

end
-- ==== Proof.Result.lean ====
/-
  The whole computation as one function of the two argument arrays.

  The guidance array [24, H, W, Z] holds three groups of eight planes, one group per phase; each phase takes its
  group, moves the phase's batch axis to the front (phase X: Z, phase Y: W, phase Z: H), does one propagation step
  on the data arranged the same way, and hands the data on in the next phase's arrangement. The result is the third
  step's output, back in the arrangement [C, H, W, Z].
-/
import proofs.«139537_j58806692216890_2_alg».proof.Proof.Spec
import proofs.«139537_j58806692216890_2_alg».proof.Proof.Gen.KernelIdeal

noncomputable section

namespace Cert.Whole

open Idealize.ShloMosaic Cert.KernelIdeal Cert.KernelIdeal.Gen

/-- Phase X's guidance: planes 0–7, batch axis Z in front. -/
def gX (a0 : S24x128x128x16.Idx → EReal) : S16x8x128x128.Idx → EReal :=
  transpose S16x8x128x128 [3, 0, 1, 2] (extractStridedSlice S8x128x128x16 ![0, 0, 0, 0] a0 slices_S24x128x128x16_S8x128x128x16_0_0_0_0) transposes_S8x128x128x16_S16x8x128x128_3_0_1_2
/-- Phase Y's guidance: planes 8–15, batch axis W in front. -/
def gY (a0 : S24x128x128x16.Idx → EReal) : S128x8x128x16.Idx → EReal :=
  transpose S128x8x128x16 [2, 0, 1, 3] (extractStridedSlice S8x128x128x16 ![8, 0, 0, 0] a0 slices_S24x128x128x16_S8x128x128x16_8_0_0_0) transposes_S8x128x128x16_S128x8x128x16_2_0_1_3
/-- Phase Z's guidance: planes 16–23, batch axis H in front. -/
def gZ (a0 : S24x128x128x16.Idx → EReal) : S128x8x128x16.Idx → EReal :=
  transpose S128x8x128x16 [1, 0, 2, 3] (extractStridedSlice S8x128x128x16 ![16, 0, 0, 0] a0 slices_S24x128x128x16_S8x128x128x16_16_0_0_0) transposes_S8x128x128x16_S128x8x128x16_1_0_2_3
/-- The data as phase X reads it: batch axis Z in front. -/
def xX (a1 : S20x128x128x16.Idx → EReal) : S16x20x128x128.Idx → EReal :=
  transpose S16x20x128x128 [3, 0, 1, 2] a1 transposes_S20x128x128x16_S16x20x128x128_3_0_1_2
/-- Phase X's result rearranged for phase Y: back to [C, H, W, Z], then batch axis W in front. -/
def xY (r : S16x20x128x128.Idx → EReal) : S128x20x128x16.Idx → EReal :=
  transpose S128x20x128x16 [2, 0, 1, 3] (transpose S20x128x128x16 [1, 2, 3, 0] r transposes_S16x20x128x128_S20x128x128x16_1_2_3_0) transposes_S20x128x128x16_S128x20x128x16_2_0_1_3
/-- Phase Y's result rearranged for phase Z: back to [C, H, W, Z], then batch axis H in front. -/
def xZ (r : S128x20x128x16.Idx → EReal) : S128x20x128x16.Idx → EReal :=
  transpose S128x20x128x16 [1, 0, 2, 3] (transpose S20x128x128x16 [1, 2, 0, 3] r transposes_S128x20x128x16_S20x128x128x16_1_2_0_3) transposes_S20x128x128x16_S128x20x128x16_1_0_2_3

/-- The result: three propagation steps, each on its own arrangement of the axes. -/
def result (a0 : S24x128x128x16.Idx → EReal) (a1 : S20x128x128x16.Idx → EReal) : S20x128x128x16.Idx → EReal :=
  transpose S20x128x128x16 [1, 0, 2, 3]
    (Cert.Affinity.step (gZ a0) (xZ (Cert.Affinity.step (gY a0) (xY (Cert.Affinity.step (gX a0) (xX a1))))))
    transposes_S128x20x128x16_S20x128x128x16_1_0_2_3

end Cert.Whole

end
-- ==== Proof.LibShift.lean ====
/-
  The layout operations of a neighbour-shift stencil, read at an index.

  A one-axis shift with zero fill is written as a rotation of the axis followed by a select on the axis coordinate:
  the rotated array is kept everywhere except at the one coordinate where the rotation wrapped around, which reads the
  fill value.  Read at an index, that is the neighbour read "Cert.Affinity.nb" of the line through the index along the
  axis: "nb 0" (the next entry) for a rotation by the extent minus one masked at the last coordinate, "nb 2" (the
  previous entry) for a rotation by one masked at coordinate zero.  Also here: plane "k" of a rank-4 array read as a
  rank-3 array, and a rank-3 array broadcast over a new channel axis.
-/
import proofs.«139537_j58806692216890_2_alg».proof.Proof.Spec
import Idealize.ShloMosaic.Lib.KernelVsHost
import Idealize.ShloMosaic.Lib.Pipeline.Value
import Idealize.ShloMosaic.Lib.Affine

noncomputable section

namespace Cert.Shift

open Idealize.ShloMosaic Idealize.ShloMosaic.ValueIdx Cert.Affinity

/-! ## A masked rotation at an index, any shape and axis -/

section Masked
variable {s : Shape} {α : Type}

/-- Rotation by the extent minus one, masked at the last coordinate, read where a next entry exists: the operand at
    the index "k" whose coordinate on the axis is one more. -/
theorem maskNext_apply_of_lt (a : Fin s.rank) (sb cb : BitVec 32) (v : s.Idx → α) (z : α)
    (hI : s.Iotas .tc 32 [a]) (hR : s.Rotates a none)
    (hsb : sb.toNat = s.size a - 1) (hcb : cb.toNat = s.size a - 1) (hlt : s.size a < 2 ^ 32)
    (j k : s.Idx) (hk : ∀ b : Fin s.rank, (k b).val = if b = a then (j b).val + 1 else (j b).val) :
    select (cmpi .eq (iota .tc s 32 [a] hI) (broadcast s cb)) (broadcast s z) (dynamicRotate a sb none v hR) j = v k := by
  have hka := hk a
  rw [if_pos rfl] at hka
  have hkl := (k a).isLt
  have hjl := (j a).isLt
  rw [select_apply]
  have hne : ¬ cmpi .eq (iota .tc s 32 [a] hI) (broadcast s cb) j = 1#1 := by
    show ¬ IntOp.cmpi .eq (iota .tc s 32 [a] hI j) cb = 1#1
    rw [IntOp.cmpi_eq, iota_single_apply]
    intro h
    have h' := congrArg BitVec.toNat h
    rw [BitVec.toNat_ofNat, hcb, Nat.mod_eq_of_lt (by omega)] at h'
    omega
  rw [eq_zero_of_ne_one hne, select_zero]
  refine dynamicRotate_apply a sb v hR j k (fun b => ?_)
  rw [hk b]
  by_cases hb : b = a
  · subst hb
    rw [if_pos rfl, if_pos rfl, hsb, Nat.mod_eq_of_lt (by omega : s.size b - 1 < s.size b),
      show (j b).val + s.size b - (s.size b - 1) = (j b).val + 1 by omega]
    exact (Nat.mod_eq_of_lt (by omega)).symm
  · rw [if_neg hb, if_neg hb]

/-- Rotation by the extent minus one, masked at the last coordinate, read at the last coordinate: the fill value. -/
theorem maskNext_apply_of_last (a : Fin s.rank) (sb cb : BitVec 32) (v : s.Idx → α) (z : α)
    (hI : s.Iotas .tc 32 [a]) (hR : s.Rotates a none) (hcb : cb.toNat = s.size a - 1) (hlt : s.size a < 2 ^ 32)
    (j : s.Idx) (hj : (j a).val + 1 = s.size a) :
    select (cmpi .eq (iota .tc s 32 [a] hI) (broadcast s cb)) (broadcast s z) (dynamicRotate a sb none v hR) j = z := by
  rw [select_apply]
  have he : cmpi .eq (iota .tc s 32 [a] hI) (broadcast s cb) j = 1#1 := by
    show IntOp.cmpi .eq (iota .tc s 32 [a] hI j) cb = 1#1
    rw [IntOp.cmpi_eq, iota_single_apply]
    apply BitVec.eq_of_toNat_eq
    rw [BitVec.toNat_ofNat, hcb, Nat.mod_eq_of_lt (by omega)]
    omega
  rw [he, select_one]
  rfl

/-- Rotation by one, masked at coordinate zero, read where a previous entry exists: the operand at the index "k"
    whose coordinate on the axis is one less. -/
theorem maskPrev_apply_of_pos (a : Fin s.rank) (sb cb : BitVec 32) (v : s.Idx → α) (z : α)
    (hI : s.Iotas .tc 32 [a]) (hR : s.Rotates a none)
    (hsb : sb.toNat = 1) (hcb : cb.toNat = 0) (hlt : s.size a < 2 ^ 32)
    (j k : s.Idx) (hk : ∀ b : Fin s.rank, (j b).val = if b = a then (k b).val + 1 else (k b).val) :
    select (cmpi .eq (iota .tc s 32 [a] hI) (broadcast s cb)) (broadcast s z) (dynamicRotate a sb none v hR) j = v k := by
  have hka := hk a
  rw [if_pos rfl] at hka
  have hkl := (k a).isLt
  have hjl := (j a).isLt
  rw [select_apply]
  have hne : ¬ cmpi .eq (iota .tc s 32 [a] hI) (broadcast s cb) j = 1#1 := by
    show ¬ IntOp.cmpi .eq (iota .tc s 32 [a] hI j) cb = 1#1
    rw [IntOp.cmpi_eq, iota_single_apply]
    intro h
    have h' := congrArg BitVec.toNat h
    rw [BitVec.toNat_ofNat, hcb, Nat.mod_eq_of_lt (by omega)] at h'
    omega
  rw [eq_zero_of_ne_one hne, select_zero]
  refine dynamicRotate_apply a sb v hR j k (fun b => ?_)
  by_cases hb : b = a
  · subst hb
    rw [if_pos rfl, hsb, Nat.mod_eq_of_lt (by omega : 1 < s.size b),
      show (j b).val + s.size b - 1 = (k b).val + s.size b by omega, Nat.add_mod_right]
    exact (Nat.mod_eq_of_lt hkl).symm
  · have := hk b
    rw [if_neg hb] at this
    rw [if_neg hb, this]

/-- Rotation by one, masked at coordinate zero, read at coordinate zero: the fill value. -/
theorem maskPrev_apply_of_zero (a : Fin s.rank) (sb cb : BitVec 32) (v : s.Idx → α) (z : α)
    (hI : s.Iotas .tc 32 [a]) (hR : s.Rotates a none) (hcb : cb.toNat = 0)
    (j : s.Idx) (hj : (j a).val = 0) :
    select (cmpi .eq (iota .tc s 32 [a] hI) (broadcast s cb)) (broadcast s z) (dynamicRotate a sb none v hR) j = z := by
  rw [select_apply]
  have he : cmpi .eq (iota .tc s 32 [a] hI) (broadcast s cb) j = 1#1 := by
    show IntOp.cmpi .eq (iota .tc s 32 [a] hI j) cb = 1#1
    rw [IntOp.cmpi_eq, iota_single_apply]
    apply BitVec.eq_of_toNat_eq
    rw [BitVec.toNat_ofNat, hcb, hj]
  rw [he, select_one]
  rfl

end Masked

/-! ## A masked rotation as a neighbour read of the line through the index -/

section Line
variable {s : Shape}

/-- Rotation by the extent minus one masked at the last coordinate with fill zero, read at "j": the next-entry
    neighbour read of the line through "j" along the axis ("line t" is "j" with its coordinate on the axis set to "t"). -/
theorem maskNext_apply (a : Fin s.rank) (sb cb : BitVec 32) (v : s.Idx → EReal) (z : EReal) (hz : z = 0)
    (hI : s.Iotas .tc 32 [a]) (hR : s.Rotates a none)
    (hsb : sb.toNat = s.size a - 1) (hcb : cb.toNat = s.size a - 1) (hlt : s.size a < 2 ^ 32)
    (j : s.Idx) (line : Fin (s.size a) → s.Idx)
    (hline : ∀ (t : Fin (s.size a)) (b : Fin s.rank), (line t b).val = if b = a then t.val else (j b).val) :
    select (cmpi .eq (iota .tc s 32 [a] hI) (broadcast s cb)) (broadcast s z) (dynamicRotate a sb none v hR) j
      = nb 0 (fun t => v (line t)) (j a) := by
  have hjl := (j a).isLt
  unfold nb
  by_cases h : (j a).val + 1 < s.size a
  · rw [dif_pos ⟨Nat.zero_le _, by omega⟩]
    refine maskNext_apply_of_lt a sb cb v z hI hR hsb hcb hlt j _ (fun b => ?_)
    rw [hline]
    by_cases hb : b = a
    · subst hb; rw [if_pos rfl, if_pos rfl]; rfl
    · rw [if_neg hb, if_neg hb]
  · rw [dif_neg (by omega), ← hz]
    exact maskNext_apply_of_last a sb cb v z hI hR hcb hlt j (by omega)

/-- Rotation by one masked at coordinate zero with fill zero, read at "j": the previous-entry neighbour read of the
    line through "j" along the axis. -/
theorem maskPrev_apply (a : Fin s.rank) (sb cb : BitVec 32) (v : s.Idx → EReal) (z : EReal) (hz : z = 0)
    (hI : s.Iotas .tc 32 [a]) (hR : s.Rotates a none)
    (hsb : sb.toNat = 1) (hcb : cb.toNat = 0) (hlt : s.size a < 2 ^ 32)
    (j : s.Idx) (line : Fin (s.size a) → s.Idx)
    (hline : ∀ (t : Fin (s.size a)) (b : Fin s.rank), (line t b).val = if b = a then t.val else (j b).val) :
    select (cmpi .eq (iota .tc s 32 [a] hI) (broadcast s cb)) (broadcast s z) (dynamicRotate a sb none v hR) j
      = nb 2 (fun t => v (line t)) (j a) := by
  have hjl := (j a).isLt
  unfold nb
  by_cases h : 0 < (j a).val
  · rw [dif_pos ⟨by omega, by omega⟩]
    refine maskPrev_apply_of_pos a sb cb v z hI hR hsb hcb hlt j _ (fun b => ?_)
    rw [hline]
    by_cases hb : b = a
    · subst hb; rw [if_pos rfl, if_pos rfl]; show (j b).val = (j b).val + 1 - 2 + 1; omega
    · rw [if_neg hb, if_neg hb]
  · rw [dif_neg (by omega), ← hz]
    exact maskPrev_apply_of_zero a sb cb v z hI hR hcb j (by omega)

end Line

/-! ## The masked rotations of a rank-3 array along axes 1 and 2, and of a rank-4 array along axes 2 and 3 -/

section Ranks
variable {n0 n1 n2 n3 : ℕ}

/-- Rank 3, axis 1, next entry. -/
theorem maskNext3_1 (sb cb : BitVec 32) (v : (⟨3, ![n0, n1, n2]⟩ : Shape).Idx → EReal) (z : EReal) (hz : z = 0)
    (hI : (⟨3, ![n0, n1, n2]⟩ : Shape).Iotas .tc 32 [1]) (hR : (⟨3, ![n0, n1, n2]⟩ : Shape).Rotates 1 none)
    (hsb : sb.toNat = n1 - 1) (hcb : cb.toNat = n1 - 1) (hlt : n1 < 2 ^ 32) (b : Fin n0) (i : Fin n1) (j : Fin n2) :
    select (cmpi .eq (iota .tc ⟨3, ![n0, n1, n2]⟩ 32 [1] hI) (broadcast _ cb)) (broadcast _ z) (dynamicRotate 1 sb none v hR)
        (ix3 b i j) = nb 0 (fun i' => v (ix3 b i' j)) i :=
  maskNext_apply (s := ⟨3, ![n0, n1, n2]⟩) 1 sb cb v z hz hI hR hsb hcb hlt (ix3 b i j) (fun i' => ix3 b i' j)
    (fun _ a => match a with | ⟨0, _⟩ => rfl | ⟨1, _⟩ => rfl | ⟨2, _⟩ => rfl)

/-- Rank 3, axis 1, previous entry. -/
theorem maskPrev3_1 (sb cb : BitVec 32) (v : (⟨3, ![n0, n1, n2]⟩ : Shape).Idx → EReal) (z : EReal) (hz : z = 0)
    (hI : (⟨3, ![n0, n1, n2]⟩ : Shape).Iotas .tc 32 [1]) (hR : (⟨3, ![n0, n1, n2]⟩ : Shape).Rotates 1 none)
    (hsb : sb.toNat = 1) (hcb : cb.toNat = 0) (hlt : n1 < 2 ^ 32) (b : Fin n0) (i : Fin n1) (j : Fin n2) :
    select (cmpi .eq (iota .tc ⟨3, ![n0, n1, n2]⟩ 32 [1] hI) (broadcast _ cb)) (broadcast _ z) (dynamicRotate 1 sb none v hR)
        (ix3 b i j) = nb 2 (fun i' => v (ix3 b i' j)) i :=
  maskPrev_apply (s := ⟨3, ![n0, n1, n2]⟩) 1 sb cb v z hz hI hR hsb hcb hlt (ix3 b i j) (fun i' => ix3 b i' j)
    (fun _ a => match a with | ⟨0, _⟩ => rfl | ⟨1, _⟩ => rfl | ⟨2, _⟩ => rfl)

/-- Rank 3, axis 2, next entry. -/
theorem maskNext3_2 (sb cb : BitVec 32) (v : (⟨3, ![n0, n1, n2]⟩ : Shape).Idx → EReal) (z : EReal) (hz : z = 0)
    (hI : (⟨3, ![n0, n1, n2]⟩ : Shape).Iotas .tc 32 [2]) (hR : (⟨3, ![n0, n1, n2]⟩ : Shape).Rotates 2 none)
    (hsb : sb.toNat = n2 - 1) (hcb : cb.toNat = n2 - 1) (hlt : n2 < 2 ^ 32) (b : Fin n0) (i : Fin n1) (j : Fin n2) :
    select (cmpi .eq (iota .tc ⟨3, ![n0, n1, n2]⟩ 32 [2] hI) (broadcast _ cb)) (broadcast _ z) (dynamicRotate 2 sb none v hR)
        (ix3 b i j) = nb 0 (fun j' => v (ix3 b i j')) j :=
  maskNext_apply (s := ⟨3, ![n0, n1, n2]⟩) 2 sb cb v z hz hI hR hsb hcb hlt (ix3 b i j) (fun j' => ix3 b i j')
    (fun _ a => match a with | ⟨0, _⟩ => rfl | ⟨1, _⟩ => rfl | ⟨2, _⟩ => rfl)

/-- Rank 3, axis 2, previous entry. -/
theorem maskPrev3_2 (sb cb : BitVec 32) (v : (⟨3, ![n0, n1, n2]⟩ : Shape).Idx → EReal) (z : EReal) (hz : z = 0)
    (hI : (⟨3, ![n0, n1, n2]⟩ : Shape).Iotas .tc 32 [2]) (hR : (⟨3, ![n0, n1, n2]⟩ : Shape).Rotates 2 none)
    (hsb : sb.toNat = 1) (hcb : cb.toNat = 0) (hlt : n2 < 2 ^ 32) (b : Fin n0) (i : Fin n1) (j : Fin n2) :
    select (cmpi .eq (iota .tc ⟨3, ![n0, n1, n2]⟩ 32 [2] hI) (broadcast _ cb)) (broadcast _ z) (dynamicRotate 2 sb none v hR)
        (ix3 b i j) = nb 2 (fun j' => v (ix3 b i j')) j :=
  maskPrev_apply (s := ⟨3, ![n0, n1, n2]⟩) 2 sb cb v z hz hI hR hsb hcb hlt (ix3 b i j) (fun j' => ix3 b i j')
    (fun _ a => match a with | ⟨0, _⟩ => rfl | ⟨1, _⟩ => rfl | ⟨2, _⟩ => rfl)

/-- Rank 4, axis 2, next entry. -/
theorem maskNext4_2 (sb cb : BitVec 32) (v : (⟨4, ![n0, n1, n2, n3]⟩ : Shape).Idx → EReal) (z : EReal) (hz : z = 0)
    (hI : (⟨4, ![n0, n1, n2, n3]⟩ : Shape).Iotas .tc 32 [2]) (hR : (⟨4, ![n0, n1, n2, n3]⟩ : Shape).Rotates 2 none)
    (hsb : sb.toNat = n2 - 1) (hcb : cb.toNat = n2 - 1) (hlt : n2 < 2 ^ 32)
    (b : Fin n0) (c : Fin n1) (i : Fin n2) (j : Fin n3) :
    select (cmpi .eq (iota .tc ⟨4, ![n0, n1, n2, n3]⟩ 32 [2] hI) (broadcast _ cb)) (broadcast _ z)
        (dynamicRotate 2 sb none v hR) (ix4 b c i j) = nb 0 (fun i' => v (ix4 b c i' j)) i :=
  maskNext_apply (s := ⟨4, ![n0, n1, n2, n3]⟩) 2 sb cb v z hz hI hR hsb hcb hlt (ix4 b c i j) (fun i' => ix4 b c i' j)
    (fun _ a => match a with | ⟨0, _⟩ => rfl | ⟨1, _⟩ => rfl | ⟨2, _⟩ => rfl | ⟨3, _⟩ => rfl)

/-- Rank 4, axis 2, previous entry. -/
theorem maskPrev4_2 (sb cb : BitVec 32) (v : (⟨4, ![n0, n1, n2, n3]⟩ : Shape).Idx → EReal) (z : EReal) (hz : z = 0)
    (hI : (⟨4, ![n0, n1, n2, n3]⟩ : Shape).Iotas .tc 32 [2]) (hR : (⟨4, ![n0, n1, n2, n3]⟩ : Shape).Rotates 2 none)
    (hsb : sb.toNat = 1) (hcb : cb.toNat = 0) (hlt : n2 < 2 ^ 32)
    (b : Fin n0) (c : Fin n1) (i : Fin n2) (j : Fin n3) :
    select (cmpi .eq (iota .tc ⟨4, ![n0, n1, n2, n3]⟩ 32 [2] hI) (broadcast _ cb)) (broadcast _ z)
        (dynamicRotate 2 sb none v hR) (ix4 b c i j) = nb 2 (fun i' => v (ix4 b c i' j)) i :=
  maskPrev_apply (s := ⟨4, ![n0, n1, n2, n3]⟩) 2 sb cb v z hz hI hR hsb hcb hlt (ix4 b c i j) (fun i' => ix4 b c i' j)
    (fun _ a => match a with | ⟨0, _⟩ => rfl | ⟨1, _⟩ => rfl | ⟨2, _⟩ => rfl | ⟨3, _⟩ => rfl)

/-- Rank 4, axis 3, next entry. -/
theorem maskNext4_3 (sb cb : BitVec 32) (v : (⟨4, ![n0, n1, n2, n3]⟩ : Shape).Idx → EReal) (z : EReal) (hz : z = 0)
    (hI : (⟨4, ![n0, n1, n2, n3]⟩ : Shape).Iotas .tc 32 [3]) (hR : (⟨4, ![n0, n1, n2, n3]⟩ : Shape).Rotates 3 none)
    (hsb : sb.toNat = n3 - 1) (hcb : cb.toNat = n3 - 1) (hlt : n3 < 2 ^ 32)
    (b : Fin n0) (c : Fin n1) (i : Fin n2) (j : Fin n3) :
    select (cmpi .eq (iota .tc ⟨4, ![n0, n1, n2, n3]⟩ 32 [3] hI) (broadcast _ cb)) (broadcast _ z)
        (dynamicRotate 3 sb none v hR) (ix4 b c i j) = nb 0 (fun j' => v (ix4 b c i j')) j :=
  maskNext_apply (s := ⟨4, ![n0, n1, n2, n3]⟩) 3 sb cb v z hz hI hR hsb hcb hlt (ix4 b c i j) (fun j' => ix4 b c i j')
    (fun _ a => match a with | ⟨0, _⟩ => rfl | ⟨1, _⟩ => rfl | ⟨2, _⟩ => rfl | ⟨3, _⟩ => rfl)

/-- Rank 4, axis 3, previous entry. -/
theorem maskPrev4_3 (sb cb : BitVec 32) (v : (⟨4, ![n0, n1, n2, n3]⟩ : Shape).Idx → EReal) (z : EReal) (hz : z = 0)
    (hI : (⟨4, ![n0, n1, n2, n3]⟩ : Shape).Iotas .tc 32 [3]) (hR : (⟨4, ![n0, n1, n2, n3]⟩ : Shape).Rotates 3 none)
    (hsb : sb.toNat = 1) (hcb : cb.toNat = 0) (hlt : n3 < 2 ^ 32)
    (b : Fin n0) (c : Fin n1) (i : Fin n2) (j : Fin n3) :
    select (cmpi .eq (iota .tc ⟨4, ![n0, n1, n2, n3]⟩ 32 [3] hI) (broadcast _ cb)) (broadcast _ z)
        (dynamicRotate 3 sb none v hR) (ix4 b c i j) = nb 2 (fun j' => v (ix4 b c i j')) j :=
  maskPrev_apply (s := ⟨4, ![n0, n1, n2, n3]⟩) 3 sb cb v z hz hI hR hsb hcb hlt (ix4 b c i j) (fun j' => ix4 b c i j')
    (fun _ a => match a with | ⟨0, _⟩ => rfl | ⟨1, _⟩ => rfl | ⟨2, _⟩ => rfl | ⟨3, _⟩ => rfl)

end Ranks

/-! ## Planes and channel broadcasts -/

section Planes
variable {n0 n1 n2 n3 : ℕ} {α : Type}

/-- Plane "k" of a rank-4 array (a slice of extent one on axis 1, then the unit axis dropped), read at an index. -/
theorem plane_apply (k : Fin n1) (off : Fin 4 → ℕ) (hoff : off = ![0, k.val, 0, 0])
    (v : (⟨4, ![n0, n1, n2, n3]⟩ : Shape).Idx → α)
    (hS : (⟨4, ![n0, n1, n2, n3]⟩ : Shape).Slices off ⟨4, ![n0, 1, n2, n3]⟩)
    (hC : (⟨4, ![n0, 1, n2, n3]⟩ : Shape).ShapeCasts ⟨3, ![n0, n2, n3]⟩) (b : Fin n0) (i : Fin n2) (j : Fin n3) :
    shapeCast ⟨3, ![n0, n2, n3]⟩ (extractStridedSlice ⟨4, ![n0, 1, n2, n3]⟩ off v hS) hC (ix3 b i j) = v (ix4 b k i j) := by
  subst hoff
  refine (shapeCast_apply _ hC (ix3 b i j) (ix4 b (0 : Fin 1) i j) ?_).trans ?_
  · rw [Shape.rowMajor_val_four, Shape.rowMajor_val_three]
    show ((b.val * 1 + 0) * n2 + i.val) * n3 + j.val = (b.val * n2 + i.val) * n3 + j.val
    rw [Nat.mul_one, Nat.add_zero]
  · exact extractStridedSlice_apply _ v hS (ix4 b (0 : Fin 1) i j) (ix4 b k i j) (fun a =>
      match a with
      | ⟨0, _⟩ => by show b.val = 0 + b.val; omega
      | ⟨1, _⟩ => by show k.val = k.val + 0; omega
      | ⟨2, _⟩ => by show i.val = 0 + i.val; omega
      | ⟨3, _⟩ => by show j.val = 0 + j.val; omega)

/-- A rank-3 array given a unit channel axis and broadcast over "n1" channels, read at an index. -/
theorem bcastPlane_apply (v : (⟨3, ![n0, n2, n3]⟩ : Shape).Idx → α)
    (hC : (⟨3, ![n0, n2, n3]⟩ : Shape).ShapeCasts ⟨4, ![n0, 1, n2, n3]⟩)
    (hB : (⟨4, ![n0, 1, n2, n3]⟩ : Shape).Broadcasts ⟨4, ![n0, n1, n2, n3]⟩)
    (b : Fin n0) (c : Fin n1) (i : Fin n2) (j : Fin n3) :
    broadcastTo ⟨4, ![n0, n1, n2, n3]⟩ (shapeCast ⟨4, ![n0, 1, n2, n3]⟩ v hC) hB (ix4 b c i j) = v (ix3 b i j) := by
  refine (broadcastTo_apply _ hB (ix4 b c i j) (ix4 b (0 : Fin 1) i j) (fun a => ?_)).trans ?_
  · match a with
    | ⟨0, _⟩ =>
      show b.val = if n0 = 1 then 0 else b.val
      have := b.isLt; split_ifs <;> omega
    | ⟨1, _⟩ => exact (if_pos rfl).symm
    | ⟨2, _⟩ =>
      show i.val = if n2 = 1 then 0 else i.val
      have := i.isLt; split_ifs <;> omega
    | ⟨3, _⟩ =>
      show j.val = if n3 = 1 then 0 else j.val
      have := j.isLt; split_ifs <;> omega
  · refine shapeCast_apply _ hC (ix4 b (0 : Fin 1) i j) (ix3 b i j) ?_
    rw [Shape.rowMajor_val_four, Shape.rowMajor_val_three]
    show (b.val * n2 + i.val) * n3 + j.val = ((b.val * 1 + 0) * n2 + i.val) * n3 + j.val
    rw [Nat.mul_one, Nat.add_zero]

end Planes

end Cert.Shift

end
-- ==== Proof.KBody0.lean ====
/-
  The kernel body of the first propagation step, read at an index.

  The body takes the eight planes of the guidance block, shifts plane "k" by the "k"-th neighbour offset (each one-axis
  shift a rotation masked where it wrapped), sums the shifted planes' absolute values, divides each shifted plane by
  that sum, and stores "(1 - sum of the quotients) * x + sum over k of quotient k * (x shifted by offset k)".  Each
  intermediate value is read at an index as a function of its operands' values; composed, the stored value at
  "(b, c, i, j)" is "Cert.Affinity.out1" of batch entry "b" of the two blocks.
-/
import proofs.«139537_j58806692216890_2_alg».proof.Proof.Spec
import proofs.«139537_j58806692216890_2_alg».proof.Proof.LibShift
import proofs.«139537_j58806692216890_2_alg».proof.Proof.Gen.KernelIdeal.Frame

set_option maxRecDepth 16384

noncomputable section

namespace Cert.KernelIdeal.Body.K0

open Idealize.ShloMosaic Idealize.ShloMosaic.ValueIdx Cert.KernelIdeal Cert.KernelIdeal.Gen Cert.Affinity Cert.Shift

/-- The absolute value of a vector at an index. -/
theorem absf_apply {s : Shape} (a : FVec Ideal s .f32) (i : s.Idx) : absf a i = max (a i) (-(a i)) := rfl

/-- The zero literal is the extended real zero. -/
theorem zlit : (Scalar.ofBits .f32 0x00000000#32 : Ideal .f32) = 0 := Ideal.ofBits_zero_f32

/-! ## The eight shifted guidance planes -/

section Gates
variable (v0 : Vec Ideal S2x8x128x128 .f32) (v1 : FVec Ideal S2x8x128x128 .f32) (b : Fin 2) (i : Fin 128) (j : Fin 128)

/-- The guidance block is read as it is. -/
theorem pay2_eq : k0_pay2 v0 = v0 := shapeCast_self v0 _

/-- Plane 0 shifted to the next entry on both axes. -/
theorem pay4_apply : k0_pay4 v0 (ix3 b i j) = nb2 0 0 (fun i j => v0 (ix4 b 0 i j)) i j := by
  refine (maskNext3_2 127#32 127#32 _ _ zlit _ _ rfl rfl (by norm_num) b i j).trans ?_
  refine congrArg (fun f => nb 0 f j) (funext fun j' => ?_)
  refine (maskNext3_1 127#32 127#32 _ _ zlit _ _ rfl rfl (by norm_num) b i j').trans ?_
  refine congrArg (fun f => nb 0 f i) (funext fun i' => ?_)
  refine (plane_apply (0 : Fin 8) _ rfl _ _ _ b i' j').trans ?_
  rw [pay2_eq]

/-- Plane 1 shifted to the next entry on the first axis. -/
theorem pay5_apply : k0_pay5 v0 (ix3 b i j) = nb2 0 1 (fun i j => v0 (ix4 b 1 i j)) i j := by
  refine (maskNext3_1 127#32 127#32 _ _ zlit _ _ rfl rfl (by norm_num) b i j).trans ?_
  unfold nb2
  rw [nb_one]
  refine congrArg (fun f => nb 0 f i) (funext fun i' => ?_)
  refine (plane_apply (1 : Fin 8) _ rfl _ _ _ b i' j).trans ?_
  rw [pay2_eq]

/-- Plane 2 shifted to the next entry on the first axis and the previous entry on the second. -/
theorem pay10_apply :
    k0_pay10 (k0_pay7 v0) k0_pay8 (k0_pay9 (F := Ideal)) (ix3 b i j) = nb2 0 2 (fun i j => v0 (ix4 b 2 i j)) i j := by
  unfold k0_pay7 k0_pay8 k0_pay9
  refine (maskPrev3_2 1#32 0#32 _ _ zlit _ _ rfl rfl (by norm_num) b i j).trans ?_
  refine congrArg (fun f => nb 2 f j) (funext fun j' => ?_)
  refine (maskNext3_1 127#32 127#32 _ _ zlit _ _ rfl rfl (by norm_num) b i j').trans ?_
  refine congrArg (fun f => nb 0 f i) (funext fun i' => ?_)
  refine (plane_apply (2 : Fin 8) _ rfl _ _ _ b i' j').trans ?_
  rw [pay2_eq]

/-- Plane 3 shifted to the next entry on the second axis. -/
theorem pay11_apply : k0_pay11 v1 (ix3 b i j) = nb2 1 0 (fun i j => v1 (ix4 b 3 i j)) i j := by
  refine (maskNext3_2 127#32 127#32 _ _ zlit _ _ rfl rfl (by norm_num) b i j).trans ?_
  refine congrArg (fun f => nb 0 f j) (funext fun j' => ?_)
  rw [nb_one]
  exact plane_apply (3 : Fin 8) _ rfl _ _ _ b i j'

/-- Plane 4 shifted to the previous entry on the second axis. -/
theorem pay12_apply : k0_pay12 v1 (ix3 b i j) = nb2 1 2 (fun i j => v1 (ix4 b 4 i j)) i j := by
  refine (maskPrev3_2 1#32 0#32 _ _ zlit _ _ rfl rfl (by norm_num) b i j).trans ?_
  refine congrArg (fun f => nb 2 f j) (funext fun j' => ?_)
  rw [nb_one]
  exact plane_apply (4 : Fin 8) _ rfl _ _ _ b i j'

/-- Plane 5 shifted to the previous entry on the first axis and the next entry on the second. -/
theorem pay13_apply : k0_pay13 v1 (ix3 b i j) = nb2 2 0 (fun i j => v1 (ix4 b 5 i j)) i j := by
  refine (maskNext3_2 127#32 127#32 _ _ zlit _ _ rfl rfl (by norm_num) b i j).trans ?_
  refine congrArg (fun f => nb 0 f j) (funext fun j' => ?_)
  refine (maskPrev3_1 1#32 0#32 _ _ zlit _ _ rfl rfl (by norm_num) b i j').trans ?_
  refine congrArg (fun f => nb 2 f i) (funext fun i' => ?_)
  exact plane_apply (5 : Fin 8) _ rfl _ _ _ b i' j'

/-- Plane 6 shifted to the previous entry on the first axis. -/
theorem pay15_apply : k0_pay15 v1 (ix3 b i j) = nb2 2 1 (fun i j => v1 (ix4 b 6 i j)) i j := by
  refine (maskPrev3_1 1#32 0#32 _ _ zlit _ _ rfl rfl (by norm_num) b i j).trans ?_
  unfold nb2
  rw [nb_one]
  refine congrArg (fun f => nb 2 f i) (funext fun i' => ?_)
  exact plane_apply (6 : Fin 8) _ rfl _ _ _ b i' j

/-- Plane 7 shifted to the previous entry on both axes. -/
theorem pay16_apply : k0_pay16 v1 (ix3 b i j) = nb2 2 2 (fun i j => v1 (ix4 b 7 i j)) i j := by
  refine (maskPrev3_2 1#32 0#32 _ _ zlit _ _ rfl rfl (by norm_num) b i j).trans ?_
  refine congrArg (fun f => nb 2 f j) (funext fun j' => ?_)
  refine (maskPrev3_1 1#32 0#32 _ _ zlit _ _ rfl rfl (by norm_num) b i j').trans ?_
  refine congrArg (fun f => nb 2 f i) (funext fun i' => ?_)
  exact plane_apply (7 : Fin 8) _ rfl _ _ _ b i' j'

end Gates

/-! ## The sum of absolute values, the quotients and their sum -/

section Sums
variable (v0 : Vec Ideal S2x8x128x128 .f32) (b : Fin 2) (i : Fin 128) (j : Fin 128)

/-- The sum of the eight shifted planes' absolute values (accumulated from a zero splat) is "absSum". -/
theorem absw_apply :
    (k0_pay17 (k0_pay2 v0) (k0_pay14 (k0_pay2 v0) (k0_pay6 v0) (k0_pay7 v0) k0_pay8 (k0_pay9 (F := Ideal)))) (ix3 b i j)
      = absSum (fun k i j => v0 (ix4 b k i j)) i j := by
  simp only [k0_pay17, k0_pay14, k0_pay6, addf_apply, absf_apply, broadcast_apply]
  rw [pay4_apply, pay5_apply, pay10_apply, pay11_apply, pay12_apply, pay13_apply, pay15_apply, pay16_apply, pay2_eq,
    zlit, zero_add]
  unfold absSum gate
  rw [Fin.sum_univ_eight]
  rfl

/-- The sum of the eight quotients (accumulated from a zero splat) is "gateSum". -/
theorem gsum_apply :
    (k0_pay33 (k0_pay13 (k0_pay2 v0)) (k0_pay15 (k0_pay2 v0)) (k0_pay16 (k0_pay2 v0)) (k0_pay17 (k0_pay2 v0) (k0_pay14 (k0_pay2 v0) (k0_pay6 v0) (k0_pay7 v0) k0_pay8 (k0_pay9 (F := Ideal)))) (k0_pay28 (k0_pay5 v0) (k0_pay10 (k0_pay7 v0) k0_pay8 (k0_pay9 (F := Ideal))) (k0_pay11 (k0_pay2 v0)) (k0_pay12 (k0_pay2 v0)) (k0_pay17 (k0_pay2 v0) (k0_pay14 (k0_pay2 v0) (k0_pay6 v0) (k0_pay7 v0) k0_pay8 (k0_pay9 (F := Ideal)))) (k0_pay20 (k0_pay2 v0) (k0_pay4 v0) (k0_pay14 (k0_pay2 v0) (k0_pay6 v0) (k0_pay7 v0) k0_pay8 (k0_pay9 (F := Ideal)))))) (ix3 b i j)
      = gateSum (fun k i j => v0 (ix4 b k i j)) i j := by
  simp only [k0_pay33, k0_pay28, k0_pay20, k0_pay19, k0_pay23, k0_pay24, k0_pay25, k0_pay27, k0_pay29, k0_pay30, k0_pay32,
    addf_apply, divf_apply, broadcast_apply]
  rw [absw_apply, pay4_apply, pay5_apply, pay10_apply, pay11_apply, pay12_apply, pay13_apply, pay15_apply, pay16_apply,
    pay2_eq, zlit, zero_add]
  unfold gateSum Affinity.norm gate
  rw [Fin.sum_univ_eight]
  rfl

end Sums

/-! ## The data block's shifts and the gated sum -/

section Data
variable (v3 : FVec Ideal S2x20x128x128 .f32) (b : Fin 2) (c : Fin 20) (i : Fin 128) (j : Fin 128)

/-- The data block is read as it is. -/
theorem pay3_eq (v2 : Vec Ideal S2x20x128x128 .f32) : k0_pay3 v2 = v2 := shapeCast_self v2 _

/-- The data block shifted to the next entry on its first plane axis. -/
theorem xn2 : select (cmpi .eq (iota .tc S2x20x128x128 32 [2] iota_S2x20x128x128_d2_w32) (broadcast S2x20x128x128 127#32))
      (broadcast S2x20x128x128 (Scalar.ofBits .f32 0x00000000#32)) (dynamicRotate 2 127#32 none v3 rotates_S2x20x128x128_d2) (ix4 b c i j)
    = nb 0 (fun i' => v3 (ix4 b c i' j)) i :=
  maskNext4_2 127#32 127#32 v3 _ zlit _ _ rfl rfl (by norm_num) b c i j

/-- The data block shifted to the previous entry on its first plane axis. -/
theorem xp2 : select (cmpi .eq (iota .tc S2x20x128x128 32 [2] iota_S2x20x128x128_d2_w32) (broadcast S2x20x128x128 0#32))
      (broadcast S2x20x128x128 (Scalar.ofBits .f32 0x00000000#32)) (dynamicRotate 2 1#32 none v3 rotates_S2x20x128x128_d2) (ix4 b c i j)
    = nb 2 (fun i' => v3 (ix4 b c i' j)) i :=
  maskPrev4_2 1#32 0#32 v3 _ zlit _ _ rfl rfl (by norm_num) b c i j

/-- The data block shifted to the next entry on its second plane axis. -/
theorem xn3 : select (cmpi .eq (iota .tc S2x20x128x128 32 [3] iota_S2x20x128x128_d3_w32) (broadcast S2x20x128x128 127#32))
      (broadcast S2x20x128x128 (Scalar.ofBits .f32 0x00000000#32)) (dynamicRotate 3 127#32 none v3 rotates_S2x20x128x128_d3) (ix4 b c i j)
    = nb 0 (fun j' => v3 (ix4 b c i j')) j :=
  maskNext4_3 127#32 127#32 v3 _ zlit _ _ rfl rfl (by norm_num) b c i j

/-- The data block shifted to the previous entry on its second plane axis. -/
theorem xp3 : select (cmpi .eq (iota .tc S2x20x128x128 32 [3] iota_S2x20x128x128_d3_w32) (broadcast S2x20x128x128 0#32))
      (broadcast S2x20x128x128 (Scalar.ofBits .f32 0x00000000#32)) (dynamicRotate 3 1#32 none v3 rotates_S2x20x128x128_d3) (ix4 b c i j)
    = nb 2 (fun j' => v3 (ix4 b c i j')) j :=
  maskPrev4_3 1#32 0#32 v3 _ zlit _ _ rfl rfl (by norm_num) b c i j

/-- Next entry on both plane axes. -/
theorem xnn : select (cmpi .eq (iota .tc S2x20x128x128 32 [3] iota_S2x20x128x128_d3_w32) (broadcast S2x20x128x128 127#32))
      (broadcast S2x20x128x128 (Scalar.ofBits .f32 0x00000000#32))
      (dynamicRotate 3 127#32 none
        (select (cmpi .eq (iota .tc S2x20x128x128 32 [2] iota_S2x20x128x128_d2_w32) (broadcast S2x20x128x128 127#32))
          (broadcast S2x20x128x128 (Scalar.ofBits .f32 0x00000000#32)) (dynamicRotate 2 127#32 none v3 rotates_S2x20x128x128_d2))
        rotates_S2x20x128x128_d3) (ix4 b c i j)
    = nb 0 (fun j' => nb 0 (fun i' => v3 (ix4 b c i' j')) i) j :=
  (xn3 _ b c i j).trans (congrArg (fun f => nb 0 f j) (funext fun j' => xn2 v3 b c i j'))

/-- Next entry on the first plane axis, previous on the second. -/
theorem xnp : select (cmpi .eq (iota .tc S2x20x128x128 32 [3] iota_S2x20x128x128_d3_w32) (broadcast S2x20x128x128 0#32))
      (broadcast S2x20x128x128 (Scalar.ofBits .f32 0x00000000#32))
      (dynamicRotate 3 1#32 none
        (select (cmpi .eq (iota .tc S2x20x128x128 32 [2] iota_S2x20x128x128_d2_w32) (broadcast S2x20x128x128 127#32))
          (broadcast S2x20x128x128 (Scalar.ofBits .f32 0x00000000#32)) (dynamicRotate 2 127#32 none v3 rotates_S2x20x128x128_d2))
        rotates_S2x20x128x128_d3) (ix4 b c i j)
    = nb 2 (fun j' => nb 0 (fun i' => v3 (ix4 b c i' j')) i) j :=
  (xp3 _ b c i j).trans (congrArg (fun f => nb 2 f j) (funext fun j' => xn2 v3 b c i j'))

/-- Previous entry on the first plane axis, next on the second. -/
theorem xpn : select (cmpi .eq (iota .tc S2x20x128x128 32 [3] iota_S2x20x128x128_d3_w32) (broadcast S2x20x128x128 127#32))
      (broadcast S2x20x128x128 (Scalar.ofBits .f32 0x00000000#32))
      (dynamicRotate 3 127#32 none
        (select (cmpi .eq (iota .tc S2x20x128x128 32 [2] iota_S2x20x128x128_d2_w32) (broadcast S2x20x128x128 0#32))
          (broadcast S2x20x128x128 (Scalar.ofBits .f32 0x00000000#32)) (dynamicRotate 2 1#32 none v3 rotates_S2x20x128x128_d2))
        rotates_S2x20x128x128_d3) (ix4 b c i j)
    = nb 0 (fun j' => nb 2 (fun i' => v3 (ix4 b c i' j')) i) j :=
  (xn3 _ b c i j).trans (congrArg (fun f => nb 0 f j) (funext fun j' => xp2 v3 b c i j'))

/-- Previous entry on both plane axes. -/
theorem xpp : select (cmpi .eq (iota .tc S2x20x128x128 32 [3] iota_S2x20x128x128_d3_w32) (broadcast S2x20x128x128 0#32))
      (broadcast S2x20x128x128 (Scalar.ofBits .f32 0x00000000#32))
      (dynamicRotate 3 1#32 none
        (select (cmpi .eq (iota .tc S2x20x128x128 32 [2] iota_S2x20x128x128_d2_w32) (broadcast S2x20x128x128 0#32))
          (broadcast S2x20x128x128 (Scalar.ofBits .f32 0x00000000#32)) (dynamicRotate 2 1#32 none v3 rotates_S2x20x128x128_d2))
        rotates_S2x20x128x128_d3) (ix4 b c i j)
    = nb 2 (fun j' => nb 2 (fun i' => v3 (ix4 b c i' j')) i) j :=
  (xp3 _ b c i j).trans (congrArg (fun f => nb 2 f j) (funext fun j' => xp2 v3 b c i j'))

/-- Neighbour 0 of the data block. -/
theorem pay21_apply : k0_pay21 v3 (ix4 b c i j) = nb2 0 0 (fun i j => v3 (ix4 b c i j)) i j :=
  xnn v3 b c i j

/-- The gated sum after neighbours 0 to 3, from the value it had after neighbour 0's product. -/
theorem pay26_apply (v28 v44 v54 v108 : FVec Ideal S2x128x128 .f32) (v110 v124 : FVec Ideal S2x20x128x128 .f32)
    (v125 : FVec Ideal S2x1x128x128 .f32) :
    k0_pay26 v3 v28 v44 v54 v108 v110 v124 v125 (ix4 b c i j)
      = v110 (ix4 b c i j) + broadcastTo S2x20x128x128 v125 broadcasts_S2x1x128x128_S2x20x128x128 (ix4 b c i j) * v124 (ix4 b c i j)
        + Ideal.div (v28 (ix3 b i j)) (v108 (ix3 b i j)) * nb2 0 1 (fun i j => v3 (ix4 b c i j)) i j
        + Ideal.div (v44 (ix3 b i j)) (v108 (ix3 b i j)) * nb2 0 2 (fun i j => v3 (ix4 b c i j)) i j
        + Ideal.div (v54 (ix3 b i j)) (v108 (ix3 b i j)) * nb2 1 0 (fun i j => v3 (ix4 b c i j)) i j := by
  simp only [k0_pay26, k0_pay23, k0_pay24, k0_pay25, addf_apply, mulf_apply, divf_apply, bcastPlane_apply, nb2, nb_one]
  rw [xnp, xn2, xn3]

/-- The gated sum after neighbours 4 to 6, from its value after neighbour 3. -/
theorem pay31_apply (v80 v90 v108 v171 : FVec Ideal S2x128x128 .f32) (v170 : FVec Ideal S2x20x128x128 .f32) :
    k0_pay31 v3 v80 v90 v108 v170 v171 1#32 (ix4 b c i j)
      = v170 (ix4 b c i j) + v171 (ix3 b i j) * nb2 1 2 (fun i j => v3 (ix4 b c i j)) i j
        + Ideal.div (v80 (ix3 b i j)) (v108 (ix3 b i j)) * nb2 2 0 (fun i j => v3 (ix4 b c i j)) i j
        + Ideal.div (v90 (ix3 b i j)) (v108 (ix3 b i j)) * nb2 2 1 (fun i j => v3 (ix4 b c i j)) i j := by
  simp only [k0_pay31, k0_pay29, k0_pay30, addf_apply, mulf_apply, divf_apply, bcastPlane_apply, nb2, nb_one]
  rw [xpn, xp3, xp2]

/-- The stored value, from the gated sum after neighbour 6, quotient 7 and the sum of the quotients. -/
theorem pay1_apply (v212 : FVec Ideal S2x20x128x128 .f32) (v213 v214 : FVec Ideal S2x128x128 .f32) :
    k0_pay1 v3 v212 v213 v214 (k0_pay34 v3) k0_pay35 (Scalar.ofBits .f32 0x00000000#32) (ix4 b c i j)
      = (Ideal.ofBits .f32 0x3F800000#32 - v214 (ix3 b i j)) * v3 (ix4 b c i j)
        + (v212 (ix4 b c i j) + v213 (ix3 b i j) * nb2 2 2 (fun i j => v3 (ix4 b c i j)) i j) := by
  simp only [k0_pay1, k0_pay34, k0_pay35, addf_apply, mulf_apply, subf_apply, broadcast_apply, bcastPlane_apply, nb2]
  rw [xpp]
  rfl

end Data

end Cert.KernelIdeal.Body.K0

namespace Cert.KernelIdeal.Body

open Idealize.ShloMosaic Idealize.ShloMosaic.ValueIdx Cert.KernelIdeal Cert.KernelIdeal.Gen Cert.Affinity Cert.Shift
open Cert.KernelIdeal.Body.K0

/-! ## The body at an index -/

/-- What the body stores at "(b, c, i, j)" is one propagation step of batch entry "b" of the two blocks. -/
theorem out0_2_apply (x0 : Vec Ideal S2x8x128x128 .f32) (x1 : Vec Ideal S2x20x128x128 .f32) (b : Fin 2) (c : Fin 20) (i : Fin 128)
    (j : Fin 128) :
    Gen.out0_2 (F := Ideal) x0 x1 (ix4 b c i j)
      = Cert.Affinity.out1 (fun k i j => x0 (ix4 b k i j)) (fun c i j => x1 (ix4 b c i j)) c i j := by
  have hz : (![0, 0, 0, 0] : Fin 4 → Nat) = fun _ => 0 := by funext a; fin_cases a <;> rfl
  unfold Gen.out0_2
  rw [View.canon_unit_zero hz]
  simp only [View.ld_unit_zero (S := S2x8x128x128) hz, View.ld_unit_zero (S := S2x20x128x128) hz]
  rw [pay3_eq, pay1_apply, pay31_apply, pay26_apply]
  unfold k0_pay22 k0_pay18
  rw [bcastPlane_apply, pay21_apply, gsum_apply]
  simp only [k0_pay19, k0_pay27, k0_pay32, divf_apply, broadcast_apply]
  rw [absw_apply, pay4_apply, pay5_apply, pay10_apply, pay11_apply, pay12_apply, pay13_apply, pay15_apply, pay16_apply,
    pay2_eq, zlit, zero_add]
  unfold out1 nws Affinity.norm gate
  rw [Fin.sum_univ_eight]
  rfl

end Cert.KernelIdeal.Body

end
-- ==== Proof.KBlocks0.lean ====
/-
  From blocks to the array, for the first pallas_call.

  The grid runs over the batch axis, two batch entries a block; every window holds whole planes. A propagation step
  acts on each batch entry by itself, so what a grid point writes back — the body's result on its two-entry blocks —
  is that point's block of the step of the whole operand arrays, and the blocks of the 8 points tile the result array.
-/
import proofs.«139537_j58806692216890_2_alg».proof.Proof.Spec
import proofs.«139537_j58806692216890_2_alg».proof.Proof.Gen.KernelIdeal.Frame
import proofs.«139537_j58806692216890_2_alg».proof.Proof.KBody0
import Idealize.ShloMosaic.Lib.Pipeline.Value
import Idealize.ShloMosaic.Lib.ValueIdx

set_option maxRecDepth 16384

noncomputable section

namespace Cert.KernelIdeal.Blocks0

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body

variable (V : (c : Dev nD) → (b : Ref sig .tc) → Buf (Elt Ideal) ((c : Thread nD τ).loc b))

/-- The printed index maps over the grid: every window moves along the batch axis with the point, two batch
    entries a block, and stays at block 0 on the other axes. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 4) = t.val ∧ win0_2.index t (1 : Fin 4) = 0 ∧ win0_2.index t (2 : Fin 4) = 0 ∧ win0_2.index t (3 : Fin 4) = 0 :=
  (by decide +kernel : ∀ t : Fin grid0.N, _)

/-- The batch entry of the whole array that entry `b` of point `t`'s block is. -/
def bat (t : Fin cfg0.N) (b : Fin 2) : Fin 16 := ⟨t.val * 2 + b.val, by have := t.isLt; have : cfg0.N = 8 := rfl; omega⟩

/-- Where point `t`'s guidance block sits in the guidance array. -/
theorem emb_0 (t : Fin cfg0.N) (b : Fin 2) (k : Fin 8) (i : Fin 128) (j : Fin 128) :
    ((cfg0.win 0).blk t).view.emb (ix4 b k i j) = ix4 (bat t b) k i j := by
  obtain ⟨e0, e1, e2, e3, -⟩ := idx_facts t
  funext a; apply Fin.ext
  match a with
  | ⟨0, _⟩ => show win0_0.index t (0 : Fin 4) * 2 + 1 * b.val = t.val * 2 + b.val; omega
  | ⟨1, _⟩ => show win0_0.index t (1 : Fin 4) * 8 + 1 * k.val = k.val; omega
  | ⟨2, _⟩ => show win0_0.index t (2 : Fin 4) * 128 + 1 * i.val = i.val; omega
  | ⟨3, _⟩ => show win0_0.index t (3 : Fin 4) * 128 + 1 * j.val = j.val; omega

/-- Where point `t`'s data block sits in the data array. -/
theorem emb_1 (t : Fin cfg0.N) (b : Fin 2) (k : Fin 20) (i : Fin 128) (j : Fin 128) :
    ((cfg0.win 1).blk t).view.emb (ix4 b k i j) = ix4 (bat t b) k i j := by
  obtain ⟨-, -, -, -, e0, e1, e2, e3, -⟩ := idx_facts t
  funext a; apply Fin.ext
  match a with
  | ⟨0, _⟩ => show win0_1.index t (0 : Fin 4) * 2 + 1 * b.val = t.val * 2 + b.val; omega
  | ⟨1, _⟩ => show win0_1.index t (1 : Fin 4) * 20 + 1 * k.val = k.val; omega
  | ⟨2, _⟩ => show win0_1.index t (2 : Fin 4) * 128 + 1 * i.val = i.val; omega
  | ⟨3, _⟩ => show win0_1.index t (3 : Fin 4) * 128 + 1 * j.val = j.val; omega

/-- Where point `t`'s result block sits in the result array. -/
theorem emb_2 (t : Fin cfg0.N) (b : Fin 2) (k : Fin 20) (i : Fin 128) (j : Fin 128) :
    ((cfg0.win 2).blk t).view.emb (ix4 b k i j) = ix4 (bat t b) k i j := by
  obtain ⟨-, -, -, -, -, -, -, -, e0, e1, e2, e3⟩ := idx_facts t
  funext a; apply Fin.ext
  match a with
  | ⟨0, _⟩ => show win0_2.index t (0 : Fin 4) * 2 + 1 * b.val = t.val * 2 + b.val; omega
  | ⟨1, _⟩ => show win0_2.index t (1 : Fin 4) * 20 + 1 * k.val = k.val; omega
  | ⟨2, _⟩ => show win0_2.index t (2 : Fin 4) * 128 + 1 * i.val = i.val; omega
  | ⟨3, _⟩ => show win0_2.index t (3 : Fin 4) * 128 + 1 * j.val = j.val; omega

/-- The guidance block of point `t` read at an entry is the guidance array at the batch entry `2 t + b`. -/
theorem iblk_0 (c : Dev nD) (t : Fin cfg0.N) (b : Fin 2) (k : Fin 8) (i : Fin 128) (j : Fin 128) :
    iblk0 V c 0 t (ix4 b k i j) = V c main_v1 (ix4 (bat t b) k i j) := by
  show V c main_v1 (((cfg0.win 0).blk t).view.emb (ix4 b k i j)) = _
  rw [emb_0]

/-- The data block of point `t` read at an entry is the data array at the batch entry `2 t + b`. -/
theorem iblk_1 (c : Dev nD) (t : Fin cfg0.N) (b : Fin 2) (k : Fin 20) (i : Fin 128) (j : Fin 128) :
    iblk0 V c 1 t (ix4 b k i j) = V c main_v6 (ix4 (bat t b) k i j) := by
  show V c main_v6 (((cfg0.win 1).blk t).view.emb (ix4 b k i j)) = _
  rw [emb_1]

/-- What point `t` writes back is its block of the propagation step of the two arrays as the region finds them:
    the step acts on each batch entry by itself, and the block holds two whole batch entries. -/
theorem flushed_eq (c : Dev nD) (t : Fin cfg0.N) :
    (dat0 V c).flushed 2 t = ((cfg0.win 2).blk t).view.read (Elt Ideal) (Cert.Affinity.step (V c main_v1) (V c main_v6)) := by
  show (cfg0.win 2).cut (grid0.coords t) ((dat0 V c).after 2 t) = _
  rw [after0_2]
  funext y
  obtain ⟨b, k, i, j, rfl⟩ : ∃ (b : Fin 2) (k : Fin 20) (i : Fin 128) (j : Fin 128), y = ix4 b k i j := ⟨y 0, y 1, y 2, y 3, eq_ix4 y⟩
  show out0_2 (iblk0 V c 0 t) (iblk0 V c 1 t) (ix4 b k i j) = Cert.Affinity.step (V c main_v1) (V c main_v6) (((cfg0.win 2).blk t).view.emb (ix4 b k i j))
  rw [emb_2]
  refine (out0_2_apply (iblk0 V c 0 t) (iblk0 V c 1 t) b k i j).trans ?_
  rw [Cert.Affinity.step_apply]
  have h0 : (fun k i j => iblk0 V c 0 t (ix4 b k i j)) = (fun k i j => V c main_v1 (ix4 (bat t b) k i j)) := by
    funext k i j; exact iblk_0 V c t b k i j
  have h1 : (fun k i j => iblk0 V c 1 t (ix4 b k i j)) = (fun k i j => V c main_v6 (ix4 (bat t b) k i j)) := by
    funext k i j; exact iblk_1 V c t b k i j
  rw [h0, h1]

/-- An index of the result array is in point `t`'s block iff each coordinate is in the block's range. -/
theorem mem_blk (t : Fin cfg0.N) (i : S16x20x128x128.Idx) :
    i ∈ ((cfg0.win 2).blk t).view.set ↔ ∀ a : Fin 4, win0_2.index t a * S2x20x128x128.size a ≤ (i a).val ∧ (i a).val < win0_2.index t a * S2x20x128x128.size a + S2x20x128x128.size a := by
  show i ∈ ((View.whole main_v7).slice (win0_2.rect t)).set ↔ _
  rw [View.set_slice_whole, Rect.mem_set_unit]
  exact Iff.rfl

/-- Every index of the result array is in the block of the point that holds its batch entry. -/
theorem cover (i : S16x20x128x128.Idx) : ∃ t : Fin cfg0.N, (cfg0.win 2).flush t = true ∧ i ∈ ((cfg0.win 2).blk t).view.set := by
  have hi0 : (i 0).val < 16 := (i 0).isLt
  have hi1 : (i 1).val < 20 := (i 1).isLt
  have hi2 : (i 2).val < 128 := (i 2).isLt
  have hi3 : (i 3).val < 128 := (i 3).isLt
  refine ⟨⟨(i 0).val / 2, by show (i 0).val / 2 < 8; omega⟩, flush0_2 _, ?_⟩
  rw [mem_blk]
  obtain ⟨-, -, -, -, -, -, -, -, e0, e1, e2, e3⟩ := idx_facts ⟨(i 0).val / 2, by show (i 0).val / 2 < 8; omega⟩
  intro a
  match a with
  | ⟨0, _⟩ => show win0_2.index _ (0 : Fin 4) * 2 ≤ (i 0).val ∧ (i 0).val < win0_2.index _ (0 : Fin 4) * 2 + 2; rw [e0]; show (i 0).val / 2 * 2 ≤ (i 0).val ∧ (i 0).val < (i 0).val / 2 * 2 + 2; omega
  | ⟨1, _⟩ => show win0_2.index _ (1 : Fin 4) * 20 ≤ (i 1).val ∧ (i 1).val < win0_2.index _ (1 : Fin 4) * 20 + 20; rw [e1]; omega
  | ⟨2, _⟩ => show win0_2.index _ (2 : Fin 4) * 128 ≤ (i 2).val ∧ (i 2).val < win0_2.index _ (2 : Fin 4) * 128 + 128; rw [e2]; omega
  | ⟨3, _⟩ => show win0_2.index _ (3 : Fin 4) * 128 ≤ (i 3).val ∧ (i 3).val < win0_2.index _ (3 : Fin 4) * 128 + 128; rw [e3]; omega

/-- The result array after the first pallas_call: one propagation step of its two operand arrays. -/
theorem final (c : Dev nD) :
    (dat0 V c).arrAt 2 cfg0.N = Cert.Affinity.step (V c main_v1) (V c main_v6) :=
  (dat0 V c).arrAt_eq_of_cover 2 (Cert.Affinity.step (V c main_v1) (V c main_v6)) (fun t _ => flushed_eq V c t) cover

end Cert.KernelIdeal.Blocks0
end
-- ==== Proof.KBody1.lean ====
/-
  The kernel body of the second propagation step, read at an index.

  The body takes the eight planes of the guidance block, shifts plane "k" by the "k"-th neighbour offset (each one-axis
  shift a rotation masked where it wrapped), sums the shifted planes' absolute values, divides each shifted plane by
  that sum, and stores "(1 - sum of the quotients) * x + sum over k of quotient k * (x shifted by offset k)".  Each
  intermediate value is read at an index as a function of its operands' values; composed, the stored value at
  "(b, c, i, j)" is "Cert.Affinity.out1" of batch entry "b" of the two blocks.
-/
import proofs.«139537_j58806692216890_2_alg».proof.Proof.Spec
import proofs.«139537_j58806692216890_2_alg».proof.Proof.LibShift
import proofs.«139537_j58806692216890_2_alg».proof.Proof.Gen.KernelIdeal.Frame

set_option maxRecDepth 16384

noncomputable section

namespace Cert.KernelIdeal.Body.K1

open Idealize.ShloMosaic Idealize.ShloMosaic.ValueIdx Cert.KernelIdeal Cert.KernelIdeal.Gen Cert.Affinity Cert.Shift

/-- The absolute value of a vector at an index. -/
theorem absf_apply {s : Shape} (a : FVec Ideal s .f32) (i : s.Idx) : absf a i = max (a i) (-(a i)) := rfl

/-- The zero literal is the extended real zero. -/
theorem zlit : (Scalar.ofBits .f32 0x00000000#32 : Ideal .f32) = 0 := Ideal.ofBits_zero_f32

/-! ## The eight shifted guidance planes -/

section Gates
variable (v0 : Vec Ideal S2x8x128x16 .f32) (v1 : FVec Ideal S2x8x128x16 .f32) (b : Fin 2) (i : Fin 128) (j : Fin 16)

/-- The guidance block is read as it is. -/
theorem pay2_eq : k1_pay2 v0 = v0 := shapeCast_self v0 _

/-- Plane 0 shifted to the next entry on both axes. -/
theorem pay4_apply : k1_pay4 v0 (ix3 b i j) = nb2 0 0 (fun i j => v0 (ix4 b 0 i j)) i j := by
  refine (maskNext3_2 15#32 15#32 _ _ zlit _ _ rfl rfl (by norm_num) b i j).trans ?_
  refine congrArg (fun f => nb 0 f j) (funext fun j' => ?_)
  refine (maskNext3_1 127#32 127#32 _ _ zlit _ _ rfl rfl (by norm_num) b i j').trans ?_
  refine congrArg (fun f => nb 0 f i) (funext fun i' => ?_)
  refine (plane_apply (0 : Fin 8) _ rfl _ _ _ b i' j').trans ?_
  rw [pay2_eq]

/-- Plane 1 shifted to the next entry on the first axis. -/
theorem pay5_apply : k1_pay5 v0 (ix3 b i j) = nb2 0 1 (fun i j => v0 (ix4 b 1 i j)) i j := by
  refine (maskNext3_1 127#32 127#32 _ _ zlit _ _ rfl rfl (by norm_num) b i j).trans ?_
  unfold nb2
  rw [nb_one]
  refine congrArg (fun f => nb 0 f i) (funext fun i' => ?_)
  refine (plane_apply (1 : Fin 8) _ rfl _ _ _ b i' j).trans ?_
  rw [pay2_eq]

/-- Plane 2 shifted to the next entry on the first axis and the previous entry on the second. -/
theorem pay10_apply :
    k1_pay10 (k1_pay7 v0) k1_pay8 (k1_pay9 (F := Ideal)) (ix3 b i j) = nb2 0 2 (fun i j => v0 (ix4 b 2 i j)) i j := by
  unfold k1_pay7 k1_pay8 k1_pay9
  refine (maskPrev3_2 1#32 0#32 _ _ zlit _ _ rfl rfl (by norm_num) b i j).trans ?_
  refine congrArg (fun f => nb 2 f j) (funext fun j' => ?_)
  refine (maskNext3_1 127#32 127#32 _ _ zlit _ _ rfl rfl (by norm_num) b i j').trans ?_
  refine congrArg (fun f => nb 0 f i) (funext fun i' => ?_)
  refine (plane_apply (2 : Fin 8) _ rfl _ _ _ b i' j').trans ?_
  rw [pay2_eq]

/-- Plane 3 shifted to the next entry on the second axis. -/
theorem pay11_apply : k1_pay11 v1 (ix3 b i j) = nb2 1 0 (fun i j => v1 (ix4 b 3 i j)) i j := by
  refine (maskNext3_2 15#32 15#32 _ _ zlit _ _ rfl rfl (by norm_num) b i j).trans ?_
  refine congrArg (fun f => nb 0 f j) (funext fun j' => ?_)
  rw [nb_one]
  exact plane_apply (3 : Fin 8) _ rfl _ _ _ b i j'

/-- Plane 4 shifted to the previous entry on the second axis. -/
theorem pay12_apply : k1_pay12 v1 (ix3 b i j) = nb2 1 2 (fun i j => v1 (ix4 b 4 i j)) i j := by
  refine (maskPrev3_2 1#32 0#32 _ _ zlit _ _ rfl rfl (by norm_num) b i j).trans ?_
  refine congrArg (fun f => nb 2 f j) (funext fun j' => ?_)
  rw [nb_one]
  exact plane_apply (4 : Fin 8) _ rfl _ _ _ b i j'

/-- Plane 5 shifted to the previous entry on the first axis and the next entry on the second. -/
theorem pay13_apply : k1_pay13 v1 (ix3 b i j) = nb2 2 0 (fun i j => v1 (ix4 b 5 i j)) i j := by
  refine (maskNext3_2 15#32 15#32 _ _ zlit _ _ rfl rfl (by norm_num) b i j).trans ?_
  refine congrArg (fun f => nb 0 f j) (funext fun j' => ?_)
  refine (maskPrev3_1 1#32 0#32 _ _ zlit _ _ rfl rfl (by norm_num) b i j').trans ?_
  refine congrArg (fun f => nb 2 f i) (funext fun i' => ?_)
  exact plane_apply (5 : Fin 8) _ rfl _ _ _ b i' j'

/-- Plane 6 shifted to the previous entry on the first axis. -/
theorem pay15_apply : k1_pay15 v1 (ix3 b i j) = nb2 2 1 (fun i j => v1 (ix4 b 6 i j)) i j := by
  refine (maskPrev3_1 1#32 0#32 _ _ zlit _ _ rfl rfl (by norm_num) b i j).trans ?_
  unfold nb2
  rw [nb_one]
  refine congrArg (fun f => nb 2 f i) (funext fun i' => ?_)
  exact plane_apply (6 : Fin 8) _ rfl _ _ _ b i' j

/-- Plane 7 shifted to the previous entry on both axes. -/
theorem pay16_apply : k1_pay16 v1 (ix3 b i j) = nb2 2 2 (fun i j => v1 (ix4 b 7 i j)) i j := by
  refine (maskPrev3_2 1#32 0#32 _ _ zlit _ _ rfl rfl (by norm_num) b i j).trans ?_
  refine congrArg (fun f => nb 2 f j) (funext fun j' => ?_)
  refine (maskPrev3_1 1#32 0#32 _ _ zlit _ _ rfl rfl (by norm_num) b i j').trans ?_
  refine congrArg (fun f => nb 2 f i) (funext fun i' => ?_)
  exact plane_apply (7 : Fin 8) _ rfl _ _ _ b i' j'

end Gates

/-! ## The sum of absolute values, the quotients and their sum -/

section Sums
variable (v0 : Vec Ideal S2x8x128x16 .f32) (b : Fin 2) (i : Fin 128) (j : Fin 16)

/-- The sum of the eight shifted planes' absolute values (accumulated from a zero splat) is "absSum". -/
theorem absw_apply :
    (k1_pay17 (k1_pay2 v0) (k1_pay14 (k1_pay2 v0) (k1_pay6 v0) (k1_pay7 v0) k1_pay8 (k1_pay9 (F := Ideal)))) (ix3 b i j)
      = absSum (fun k i j => v0 (ix4 b k i j)) i j := by
  simp only [k1_pay17, k1_pay14, k1_pay6, addf_apply, absf_apply, broadcast_apply]
  rw [pay4_apply, pay5_apply, pay10_apply, pay11_apply, pay12_apply, pay13_apply, pay15_apply, pay16_apply, pay2_eq,
    zlit, zero_add]
  unfold absSum gate
  rw [Fin.sum_univ_eight]
  rfl

/-- The sum of the eight quotients (accumulated from a zero splat) is "gateSum". -/
theorem gsum_apply :
    (k1_pay33 (k1_pay13 (k1_pay2 v0)) (k1_pay15 (k1_pay2 v0)) (k1_pay16 (k1_pay2 v0)) (k1_pay17 (k1_pay2 v0) (k1_pay14 (k1_pay2 v0) (k1_pay6 v0) (k1_pay7 v0) k1_pay8 (k1_pay9 (F := Ideal)))) (k1_pay28 (k1_pay5 v0) (k1_pay10 (k1_pay7 v0) k1_pay8 (k1_pay9 (F := Ideal))) (k1_pay11 (k1_pay2 v0)) (k1_pay12 (k1_pay2 v0)) (k1_pay17 (k1_pay2 v0) (k1_pay14 (k1_pay2 v0) (k1_pay6 v0) (k1_pay7 v0) k1_pay8 (k1_pay9 (F := Ideal)))) (k1_pay20 (k1_pay2 v0) (k1_pay4 v0) (k1_pay14 (k1_pay2 v0) (k1_pay6 v0) (k1_pay7 v0) k1_pay8 (k1_pay9 (F := Ideal)))))) (ix3 b i j)
      = gateSum (fun k i j => v0 (ix4 b k i j)) i j := by
  simp only [k1_pay33, k1_pay28, k1_pay20, k1_pay19, k1_pay23, k1_pay24, k1_pay25, k1_pay27, k1_pay29, k1_pay30, k1_pay32,
    addf_apply, divf_apply, broadcast_apply]
  rw [absw_apply, pay4_apply, pay5_apply, pay10_apply, pay11_apply, pay12_apply, pay13_apply, pay15_apply, pay16_apply,
    pay2_eq, zlit, zero_add]
  unfold gateSum Affinity.norm gate
  rw [Fin.sum_univ_eight]
  rfl

end Sums

/-! ## The data block's shifts and the gated sum -/

section Data
variable (v3 : FVec Ideal S2x20x128x16 .f32) (b : Fin 2) (c : Fin 20) (i : Fin 128) (j : Fin 16)

/-- The data block is read as it is. -/
theorem pay3_eq (v2 : Vec Ideal S2x20x128x16 .f32) : k1_pay3 v2 = v2 := shapeCast_self v2 _

/-- The data block shifted to the next entry on its first plane axis. -/
theorem xn2 : select (cmpi .eq (iota .tc S2x20x128x16 32 [2] iota_S2x20x128x16_d2_w32) (broadcast S2x20x128x16 127#32))
      (broadcast S2x20x128x16 (Scalar.ofBits .f32 0x00000000#32)) (dynamicRotate 2 127#32 none v3 rotates_S2x20x128x16_d2) (ix4 b c i j)
    = nb 0 (fun i' => v3 (ix4 b c i' j)) i :=
  maskNext4_2 127#32 127#32 v3 _ zlit _ _ rfl rfl (by norm_num) b c i j

/-- The data block shifted to the previous entry on its first plane axis. -/
theorem xp2 : select (cmpi .eq (iota .tc S2x20x128x16 32 [2] iota_S2x20x128x16_d2_w32) (broadcast S2x20x128x16 0#32))
      (broadcast S2x20x128x16 (Scalar.ofBits .f32 0x00000000#32)) (dynamicRotate 2 1#32 none v3 rotates_S2x20x128x16_d2) (ix4 b c i j)
    = nb 2 (fun i' => v3 (ix4 b c i' j)) i :=
  maskPrev4_2 1#32 0#32 v3 _ zlit _ _ rfl rfl (by norm_num) b c i j

/-- The data block shifted to the next entry on its second plane axis. -/
theorem xn3 : select (cmpi .eq (iota .tc S2x20x128x16 32 [3] iota_S2x20x128x16_d3_w32) (broadcast S2x20x128x16 15#32))
      (broadcast S2x20x128x16 (Scalar.ofBits .f32 0x00000000#32)) (dynamicRotate 3 15#32 none v3 rotates_S2x20x128x16_d3) (ix4 b c i j)
    = nb 0 (fun j' => v3 (ix4 b c i j')) j :=
  maskNext4_3 15#32 15#32 v3 _ zlit _ _ rfl rfl (by norm_num) b c i j

/-- The data block shifted to the previous entry on its second plane axis. -/
theorem xp3 : select (cmpi .eq (iota .tc S2x20x128x16 32 [3] iota_S2x20x128x16_d3_w32) (broadcast S2x20x128x16 0#32))
      (broadcast S2x20x128x16 (Scalar.ofBits .f32 0x00000000#32)) (dynamicRotate 3 1#32 none v3 rotates_S2x20x128x16_d3) (ix4 b c i j)
    = nb 2 (fun j' => v3 (ix4 b c i j')) j :=
  maskPrev4_3 1#32 0#32 v3 _ zlit _ _ rfl rfl (by norm_num) b c i j

/-- Next entry on both plane axes. -/
theorem xnn : select (cmpi .eq (iota .tc S2x20x128x16 32 [3] iota_S2x20x128x16_d3_w32) (broadcast S2x20x128x16 15#32))
      (broadcast S2x20x128x16 (Scalar.ofBits .f32 0x00000000#32))
      (dynamicRotate 3 15#32 none
        (select (cmpi .eq (iota .tc S2x20x128x16 32 [2] iota_S2x20x128x16_d2_w32) (broadcast S2x20x128x16 127#32))
          (broadcast S2x20x128x16 (Scalar.ofBits .f32 0x00000000#32)) (dynamicRotate 2 127#32 none v3 rotates_S2x20x128x16_d2))
        rotates_S2x20x128x16_d3) (ix4 b c i j)
    = nb 0 (fun j' => nb 0 (fun i' => v3 (ix4 b c i' j')) i) j :=
  (xn3 _ b c i j).trans (congrArg (fun f => nb 0 f j) (funext fun j' => xn2 v3 b c i j'))

/-- Next entry on the first plane axis, previous on the second. -/
theorem xnp : select (cmpi .eq (iota .tc S2x20x128x16 32 [3] iota_S2x20x128x16_d3_w32) (broadcast S2x20x128x16 0#32))
      (broadcast S2x20x128x16 (Scalar.ofBits .f32 0x00000000#32))
      (dynamicRotate 3 1#32 none
        (select (cmpi .eq (iota .tc S2x20x128x16 32 [2] iota_S2x20x128x16_d2_w32) (broadcast S2x20x128x16 127#32))
          (broadcast S2x20x128x16 (Scalar.ofBits .f32 0x00000000#32)) (dynamicRotate 2 127#32 none v3 rotates_S2x20x128x16_d2))
        rotates_S2x20x128x16_d3) (ix4 b c i j)
    = nb 2 (fun j' => nb 0 (fun i' => v3 (ix4 b c i' j')) i) j :=
  (xp3 _ b c i j).trans (congrArg (fun f => nb 2 f j) (funext fun j' => xn2 v3 b c i j'))

/-- Previous entry on the first plane axis, next on the second. -/
theorem xpn : select (cmpi .eq (iota .tc S2x20x128x16 32 [3] iota_S2x20x128x16_d3_w32) (broadcast S2x20x128x16 15#32))
      (broadcast S2x20x128x16 (Scalar.ofBits .f32 0x00000000#32))
      (dynamicRotate 3 15#32 none
        (select (cmpi .eq (iota .tc S2x20x128x16 32 [2] iota_S2x20x128x16_d2_w32) (broadcast S2x20x128x16 0#32))
          (broadcast S2x20x128x16 (Scalar.ofBits .f32 0x00000000#32)) (dynamicRotate 2 1#32 none v3 rotates_S2x20x128x16_d2))
        rotates_S2x20x128x16_d3) (ix4 b c i j)
    = nb 0 (fun j' => nb 2 (fun i' => v3 (ix4 b c i' j')) i) j :=
  (xn3 _ b c i j).trans (congrArg (fun f => nb 0 f j) (funext fun j' => xp2 v3 b c i j'))

/-- Previous entry on both plane axes. -/
theorem xpp : select (cmpi .eq (iota .tc S2x20x128x16 32 [3] iota_S2x20x128x16_d3_w32) (broadcast S2x20x128x16 0#32))
      (broadcast S2x20x128x16 (Scalar.ofBits .f32 0x00000000#32))
      (dynamicRotate 3 1#32 none
        (select (cmpi .eq (iota .tc S2x20x128x16 32 [2] iota_S2x20x128x16_d2_w32) (broadcast S2x20x128x16 0#32))
          (broadcast S2x20x128x16 (Scalar.ofBits .f32 0x00000000#32)) (dynamicRotate 2 1#32 none v3 rotates_S2x20x128x16_d2))
        rotates_S2x20x128x16_d3) (ix4 b c i j)
    = nb 2 (fun j' => nb 2 (fun i' => v3 (ix4 b c i' j')) i) j :=
  (xp3 _ b c i j).trans (congrArg (fun f => nb 2 f j) (funext fun j' => xp2 v3 b c i j'))

/-- Neighbour 0 of the data block. -/
theorem pay21_apply : k1_pay21 v3 (ix4 b c i j) = nb2 0 0 (fun i j => v3 (ix4 b c i j)) i j :=
  xnn v3 b c i j

/-- The gated sum after neighbours 0 to 3, from the value it had after neighbour 0's product. -/
theorem pay26_apply (v28 v44 v54 v108 : FVec Ideal S2x128x16 .f32) (v110 v124 : FVec Ideal S2x20x128x16 .f32)
    (v125 : FVec Ideal S2x1x128x16 .f32) :
    k1_pay26 v3 v28 v44 v54 v108 v110 v124 v125 (ix4 b c i j)
      = v110 (ix4 b c i j) + broadcastTo S2x20x128x16 v125 broadcasts_S2x1x128x16_S2x20x128x16 (ix4 b c i j) * v124 (ix4 b c i j)
        + Ideal.div (v28 (ix3 b i j)) (v108 (ix3 b i j)) * nb2 0 1 (fun i j => v3 (ix4 b c i j)) i j
        + Ideal.div (v44 (ix3 b i j)) (v108 (ix3 b i j)) * nb2 0 2 (fun i j => v3 (ix4 b c i j)) i j
        + Ideal.div (v54 (ix3 b i j)) (v108 (ix3 b i j)) * nb2 1 0 (fun i j => v3 (ix4 b c i j)) i j := by
  simp only [k1_pay26, k1_pay23, k1_pay24, k1_pay25, addf_apply, mulf_apply, divf_apply, bcastPlane_apply, nb2, nb_one]
  rw [xnp, xn2, xn3]

/-- The gated sum after neighbours 4 to 6, from its value after neighbour 3. -/
theorem pay31_apply (v80 v90 v108 v171 : FVec Ideal S2x128x16 .f32) (v170 : FVec Ideal S2x20x128x16 .f32) :
    k1_pay31 v3 v80 v90 v108 v170 v171 1#32 (ix4 b c i j)
      = v170 (ix4 b c i j) + v171 (ix3 b i j) * nb2 1 2 (fun i j => v3 (ix4 b c i j)) i j
        + Ideal.div (v80 (ix3 b i j)) (v108 (ix3 b i j)) * nb2 2 0 (fun i j => v3 (ix4 b c i j)) i j
        + Ideal.div (v90 (ix3 b i j)) (v108 (ix3 b i j)) * nb2 2 1 (fun i j => v3 (ix4 b c i j)) i j := by
  simp only [k1_pay31, k1_pay29, k1_pay30, addf_apply, mulf_apply, divf_apply, bcastPlane_apply, nb2, nb_one]
  rw [xpn, xp3, xp2]

/-- The stored value, from the gated sum after neighbour 6, quotient 7 and the sum of the quotients. -/
theorem pay1_apply (v212 : FVec Ideal S2x20x128x16 .f32) (v213 v214 : FVec Ideal S2x128x16 .f32) :
    k1_pay1 v3 v212 v213 v214 (k1_pay34 v3) k1_pay35 (Scalar.ofBits .f32 0x00000000#32) (ix4 b c i j)
      = (Ideal.ofBits .f32 0x3F800000#32 - v214 (ix3 b i j)) * v3 (ix4 b c i j)
        + (v212 (ix4 b c i j) + v213 (ix3 b i j) * nb2 2 2 (fun i j => v3 (ix4 b c i j)) i j) := by
  simp only [k1_pay1, k1_pay34, k1_pay35, addf_apply, mulf_apply, subf_apply, broadcast_apply, bcastPlane_apply, nb2]
  rw [xpp]
  rfl

end Data

end Cert.KernelIdeal.Body.K1

namespace Cert.KernelIdeal.Body

open Idealize.ShloMosaic Idealize.ShloMosaic.ValueIdx Cert.KernelIdeal Cert.KernelIdeal.Gen Cert.Affinity Cert.Shift
open Cert.KernelIdeal.Body.K1

/-! ## The body at an index -/

/-- What the body stores at "(b, c, i, j)" is one propagation step of batch entry "b" of the two blocks. -/
theorem out1_2_apply (x0 : Vec Ideal S2x8x128x16 .f32) (x1 : Vec Ideal S2x20x128x16 .f32) (b : Fin 2) (c : Fin 20) (i : Fin 128)
    (j : Fin 16) :
    Gen.out1_2 (F := Ideal) x0 x1 (ix4 b c i j)
      = Cert.Affinity.out1 (fun k i j => x0 (ix4 b k i j)) (fun c i j => x1 (ix4 b c i j)) c i j := by
  have hz : (![0, 0, 0, 0] : Fin 4 → Nat) = fun _ => 0 := by funext a; fin_cases a <;> rfl
  unfold Gen.out1_2
  rw [View.canon_unit_zero hz]
  simp only [View.ld_unit_zero (S := S2x8x128x16) hz, View.ld_unit_zero (S := S2x20x128x16) hz]
  rw [pay3_eq, pay1_apply, pay31_apply, pay26_apply]
  unfold k1_pay22 k1_pay18
  rw [bcastPlane_apply, pay21_apply, gsum_apply]
  simp only [k1_pay19, k1_pay27, k1_pay32, divf_apply, broadcast_apply]
  rw [absw_apply, pay4_apply, pay5_apply, pay10_apply, pay11_apply, pay12_apply, pay13_apply, pay15_apply, pay16_apply,
    pay2_eq, zlit, zero_add]
  unfold out1 nws Affinity.norm gate
  rw [Fin.sum_univ_eight]
  rfl

end Cert.KernelIdeal.Body

end
-- ==== Proof.KBlocks1.lean ====
/-
  From blocks to the array, for the second pallas_call.

  The grid runs over the batch axis, two batch entries a block; every window holds whole planes. A propagation step
  acts on each batch entry by itself, so what a grid point writes back — the body's result on its two-entry blocks —
  is that point's block of the step of the whole operand arrays, and the blocks of the 64 points tile the result array.
-/
import proofs.«139537_j58806692216890_2_alg».proof.Proof.Spec
import proofs.«139537_j58806692216890_2_alg».proof.Proof.Gen.KernelIdeal.Frame
import proofs.«139537_j58806692216890_2_alg».proof.Proof.KBody1
import Idealize.ShloMosaic.Lib.Pipeline.Value
import Idealize.ShloMosaic.Lib.ValueIdx

set_option maxRecDepth 16384

noncomputable section

namespace Cert.KernelIdeal.Blocks1

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body

variable (V : (c : Dev nD) → (b : Ref sig .tc) → Buf (Elt Ideal) ((c : Thread nD τ).loc b))

/-- The printed index maps over the grid: every window moves along the batch axis with the point, two batch
    entries a block, and stays at block 0 on the other axes. -/
theorem idx_facts : ∀ t : Fin cfg1.N,
    win1_0.index t (0 : Fin 4) = t.val ∧ win1_0.index t (1 : Fin 4) = 0 ∧ win1_0.index t (2 : Fin 4) = 0 ∧ win1_0.index t (3 : Fin 4) = 0
    ∧ win1_1.index t (0 : Fin 4) = t.val ∧ win1_1.index t (1 : Fin 4) = 0 ∧ win1_1.index t (2 : Fin 4) = 0 ∧ win1_1.index t (3 : Fin 4) = 0
    ∧ win1_2.index t (0 : Fin 4) = t.val ∧ win1_2.index t (1 : Fin 4) = 0 ∧ win1_2.index t (2 : Fin 4) = 0 ∧ win1_2.index t (3 : Fin 4) = 0 :=
  (by decide +kernel : ∀ t : Fin grid1.N, _)

/-- The batch entry of the whole array that entry `b` of point `t`'s block is. -/
def bat (t : Fin cfg1.N) (b : Fin 2) : Fin 128 := ⟨t.val * 2 + b.val, by have := t.isLt; have : cfg1.N = 64 := rfl; omega⟩

/-- Where point `t`'s guidance block sits in the guidance array. -/
theorem emb_0 (t : Fin cfg1.N) (b : Fin 2) (k : Fin 8) (i : Fin 128) (j : Fin 16) :
    ((cfg1.win 0).blk t).view.emb (ix4 b k i j) = ix4 (bat t b) k i j := by
  obtain ⟨e0, e1, e2, e3, -⟩ := idx_facts t
  funext a; apply Fin.ext
  match a with
  | ⟨0, _⟩ => show win1_0.index t (0 : Fin 4) * 2 + 1 * b.val = t.val * 2 + b.val; omega
  | ⟨1, _⟩ => show win1_0.index t (1 : Fin 4) * 8 + 1 * k.val = k.val; omega
  | ⟨2, _⟩ => show win1_0.index t (2 : Fin 4) * 128 + 1 * i.val = i.val; omega
  | ⟨3, _⟩ => show win1_0.index t (3 : Fin 4) * 16 + 1 * j.val = j.val; omega

/-- Where point `t`'s data block sits in the data array. -/
theorem emb_1 (t : Fin cfg1.N) (b : Fin 2) (k : Fin 20) (i : Fin 128) (j : Fin 16) :
    ((cfg1.win 1).blk t).view.emb (ix4 b k i j) = ix4 (bat t b) k i j := by
  obtain ⟨-, -, -, -, e0, e1, e2, e3, -⟩ := idx_facts t
  funext a; apply Fin.ext
  match a with
  | ⟨0, _⟩ => show win1_1.index t (0 : Fin 4) * 2 + 1 * b.val = t.val * 2 + b.val; omega
  | ⟨1, _⟩ => show win1_1.index t (1 : Fin 4) * 20 + 1 * k.val = k.val; omega
  | ⟨2, _⟩ => show win1_1.index t (2 : Fin 4) * 128 + 1 * i.val = i.val; omega
  | ⟨3, _⟩ => show win1_1.index t (3 : Fin 4) * 16 + 1 * j.val = j.val; omega

/-- Where point `t`'s result block sits in the result array. -/
theorem emb_2 (t : Fin cfg1.N) (b : Fin 2) (k : Fin 20) (i : Fin 128) (j : Fin 16) :
    ((cfg1.win 2).blk t).view.emb (ix4 b k i j) = ix4 (bat t b) k i j := by
  obtain ⟨-, -, -, -, -, -, -, -, e0, e1, e2, e3⟩ := idx_facts t
  funext a; apply Fin.ext
  match a with
  | ⟨0, _⟩ => show win1_2.index t (0 : Fin 4) * 2 + 1 * b.val = t.val * 2 + b.val; omega
  | ⟨1, _⟩ => show win1_2.index t (1 : Fin 4) * 20 + 1 * k.val = k.val; omega
  | ⟨2, _⟩ => show win1_2.index t (2 : Fin 4) * 128 + 1 * i.val = i.val; omega
  | ⟨3, _⟩ => show win1_2.index t (3 : Fin 4) * 16 + 1 * j.val = j.val; omega

/-- The guidance block of point `t` read at an entry is the guidance array at the batch entry `2 t + b`. -/
theorem iblk_0 (c : Dev nD) (t : Fin cfg1.N) (b : Fin 2) (k : Fin 8) (i : Fin 128) (j : Fin 16) :
    iblk1 V c 0 t (ix4 b k i j) = V c main_v3 (ix4 (bat t b) k i j) := by
  show V c main_v3 (((cfg1.win 0).blk t).view.emb (ix4 b k i j)) = _
  rw [emb_0]

/-- The data block of point `t` read at an entry is the data array at the batch entry `2 t + b`. -/
theorem iblk_1 (c : Dev nD) (t : Fin cfg1.N) (b : Fin 2) (k : Fin 20) (i : Fin 128) (j : Fin 16) :
    iblk1 V c 1 t (ix4 b k i j) = V c main_v9 (ix4 (bat t b) k i j) := by
  show V c main_v9 (((cfg1.win 1).blk t).view.emb (ix4 b k i j)) = _
  rw [emb_1]

/-- What point `t` writes back is its block of the propagation step of the two arrays as the region finds them:
    the step acts on each batch entry by itself, and the block holds two whole batch entries. -/
theorem flushed_eq (c : Dev nD) (t : Fin cfg1.N) :
    (dat1 V c).flushed 2 t = ((cfg1.win 2).blk t).view.read (Elt Ideal) (Cert.Affinity.step (V c main_v3) (V c main_v9)) := by
  show (cfg1.win 2).cut (grid1.coords t) ((dat1 V c).after 2 t) = _
  rw [after1_2]
  funext y
  obtain ⟨b, k, i, j, rfl⟩ : ∃ (b : Fin 2) (k : Fin 20) (i : Fin 128) (j : Fin 16), y = ix4 b k i j := ⟨y 0, y 1, y 2, y 3, eq_ix4 y⟩
  show out1_2 (iblk1 V c 0 t) (iblk1 V c 1 t) (ix4 b k i j) = Cert.Affinity.step (V c main_v3) (V c main_v9) (((cfg1.win 2).blk t).view.emb (ix4 b k i j))
  rw [emb_2]
  refine (out1_2_apply (iblk1 V c 0 t) (iblk1 V c 1 t) b k i j).trans ?_
  rw [Cert.Affinity.step_apply]
  have h0 : (fun k i j => iblk1 V c 0 t (ix4 b k i j)) = (fun k i j => V c main_v3 (ix4 (bat t b) k i j)) := by
    funext k i j; exact iblk_0 V c t b k i j
  have h1 : (fun k i j => iblk1 V c 1 t (ix4 b k i j)) = (fun k i j => V c main_v9 (ix4 (bat t b) k i j)) := by
    funext k i j; exact iblk_1 V c t b k i j
  rw [h0, h1]

/-- An index of the result array is in point `t`'s block iff each coordinate is in the block's range. -/
theorem mem_blk (t : Fin cfg1.N) (i : S128x20x128x16.Idx) :
    i ∈ ((cfg1.win 2).blk t).view.set ↔ ∀ a : Fin 4, win1_2.index t a * S2x20x128x16.size a ≤ (i a).val ∧ (i a).val < win1_2.index t a * S2x20x128x16.size a + S2x20x128x16.size a := by
  show i ∈ ((View.whole main_v10).slice (win1_2.rect t)).set ↔ _
  rw [View.set_slice_whole, Rect.mem_set_unit]
  exact Iff.rfl

/-- Every index of the result array is in the block of the point that holds its batch entry. -/
theorem cover (i : S128x20x128x16.Idx) : ∃ t : Fin cfg1.N, (cfg1.win 2).flush t = true ∧ i ∈ ((cfg1.win 2).blk t).view.set := by
  have hi0 : (i 0).val < 128 := (i 0).isLt
  have hi1 : (i 1).val < 20 := (i 1).isLt
  have hi2 : (i 2).val < 128 := (i 2).isLt
  have hi3 : (i 3).val < 16 := (i 3).isLt
  refine ⟨⟨(i 0).val / 2, by show (i 0).val / 2 < 64; omega⟩, flush1_2 _, ?_⟩
  rw [mem_blk]
  obtain ⟨-, -, -, -, -, -, -, -, e0, e1, e2, e3⟩ := idx_facts ⟨(i 0).val / 2, by show (i 0).val / 2 < 64; omega⟩
  intro a
  match a with
  | ⟨0, _⟩ => show win1_2.index _ (0 : Fin 4) * 2 ≤ (i 0).val ∧ (i 0).val < win1_2.index _ (0 : Fin 4) * 2 + 2; rw [e0]; show (i 0).val / 2 * 2 ≤ (i 0).val ∧ (i 0).val < (i 0).val / 2 * 2 + 2; omega
  | ⟨1, _⟩ => show win1_2.index _ (1 : Fin 4) * 20 ≤ (i 1).val ∧ (i 1).val < win1_2.index _ (1 : Fin 4) * 20 + 20; rw [e1]; omega
  | ⟨2, _⟩ => show win1_2.index _ (2 : Fin 4) * 128 ≤ (i 2).val ∧ (i 2).val < win1_2.index _ (2 : Fin 4) * 128 + 128; rw [e2]; omega
  | ⟨3, _⟩ => show win1_2.index _ (3 : Fin 4) * 16 ≤ (i 3).val ∧ (i 3).val < win1_2.index _ (3 : Fin 4) * 16 + 16; rw [e3]; omega

/-- The result array after the first pallas_call: one propagation step of its two operand arrays. -/
theorem final (c : Dev nD) :
    (dat1 V c).arrAt 2 cfg1.N = Cert.Affinity.step (V c main_v3) (V c main_v9) :=
  (dat1 V c).arrAt_eq_of_cover 2 (Cert.Affinity.step (V c main_v3) (V c main_v9)) (fun t _ => flushed_eq V c t) cover

end Cert.KernelIdeal.Blocks1
end
-- ==== Proof.KBody2.lean ====
/-
  The kernel body of the third propagation step, read at an index.

  The body takes the eight planes of the guidance block, shifts plane "k" by the "k"-th neighbour offset (each one-axis
  shift a rotation masked where it wrapped), sums the shifted planes' absolute values, divides each shifted plane by
  that sum, and stores "(1 - sum of the quotients) * x + sum over k of quotient k * (x shifted by offset k)".  Each
  intermediate value is read at an index as a function of its operands' values; composed, the stored value at
  "(b, c, i, j)" is "Cert.Affinity.out1" of batch entry "b" of the two blocks.
-/
import proofs.«139537_j58806692216890_2_alg».proof.Proof.Spec
import proofs.«139537_j58806692216890_2_alg».proof.Proof.LibShift
import proofs.«139537_j58806692216890_2_alg».proof.Proof.Gen.KernelIdeal.Frame

set_option maxRecDepth 16384

noncomputable section

namespace Cert.KernelIdeal.Body.K2

open Idealize.ShloMosaic Idealize.ShloMosaic.ValueIdx Cert.KernelIdeal Cert.KernelIdeal.Gen Cert.Affinity Cert.Shift

/-- The absolute value of a vector at an index. -/
theorem absf_apply {s : Shape} (a : FVec Ideal s .f32) (i : s.Idx) : absf a i = max (a i) (-(a i)) := rfl

/-- The zero literal is the extended real zero. -/
theorem zlit : (Scalar.ofBits .f32 0x00000000#32 : Ideal .f32) = 0 := Ideal.ofBits_zero_f32

/-! ## The eight shifted guidance planes -/

section Gates
variable (v0 : Vec Ideal S2x8x128x16 .f32) (v1 : FVec Ideal S2x8x128x16 .f32) (b : Fin 2) (i : Fin 128) (j : Fin 16)

/-- The guidance block is read as it is. -/
theorem pay2_eq : k2_pay2 v0 = v0 := shapeCast_self v0 _

/-- Plane 0 shifted to the next entry on both axes. -/
theorem pay4_apply : k2_pay4 v0 (ix3 b i j) = nb2 0 0 (fun i j => v0 (ix4 b 0 i j)) i j := by
  refine (maskNext3_2 15#32 15#32 _ _ zlit _ _ rfl rfl (by norm_num) b i j).trans ?_
  refine congrArg (fun f => nb 0 f j) (funext fun j' => ?_)
  refine (maskNext3_1 127#32 127#32 _ _ zlit _ _ rfl rfl (by norm_num) b i j').trans ?_
  refine congrArg (fun f => nb 0 f i) (funext fun i' => ?_)
  refine (plane_apply (0 : Fin 8) _ rfl _ _ _ b i' j').trans ?_
  rw [pay2_eq]

/-- Plane 1 shifted to the next entry on the first axis. -/
theorem pay5_apply : k2_pay5 v0 (ix3 b i j) = nb2 0 1 (fun i j => v0 (ix4 b 1 i j)) i j := by
  refine (maskNext3_1 127#32 127#32 _ _ zlit _ _ rfl rfl (by norm_num) b i j).trans ?_
  unfold nb2
  rw [nb_one]
  refine congrArg (fun f => nb 0 f i) (funext fun i' => ?_)
  refine (plane_apply (1 : Fin 8) _ rfl _ _ _ b i' j).trans ?_
  rw [pay2_eq]

/-- Plane 2 shifted to the next entry on the first axis and the previous entry on the second. -/
theorem pay10_apply :
    k2_pay10 (k2_pay7 v0) k2_pay8 (k2_pay9 (F := Ideal)) (ix3 b i j) = nb2 0 2 (fun i j => v0 (ix4 b 2 i j)) i j := by
  unfold k2_pay7 k2_pay8 k2_pay9
  refine (maskPrev3_2 1#32 0#32 _ _ zlit _ _ rfl rfl (by norm_num) b i j).trans ?_
  refine congrArg (fun f => nb 2 f j) (funext fun j' => ?_)
  refine (maskNext3_1 127#32 127#32 _ _ zlit _ _ rfl rfl (by norm_num) b i j').trans ?_
  refine congrArg (fun f => nb 0 f i) (funext fun i' => ?_)
  refine (plane_apply (2 : Fin 8) _ rfl _ _ _ b i' j').trans ?_
  rw [pay2_eq]

/-- Plane 3 shifted to the next entry on the second axis. -/
theorem pay11_apply : k2_pay11 v1 (ix3 b i j) = nb2 1 0 (fun i j => v1 (ix4 b 3 i j)) i j := by
  refine (maskNext3_2 15#32 15#32 _ _ zlit _ _ rfl rfl (by norm_num) b i j).trans ?_
  refine congrArg (fun f => nb 0 f j) (funext fun j' => ?_)
  rw [nb_one]
  exact plane_apply (3 : Fin 8) _ rfl _ _ _ b i j'

/-- Plane 4 shifted to the previous entry on the second axis. -/
theorem pay12_apply : k2_pay12 v1 (ix3 b i j) = nb2 1 2 (fun i j => v1 (ix4 b 4 i j)) i j := by
  refine (maskPrev3_2 1#32 0#32 _ _ zlit _ _ rfl rfl (by norm_num) b i j).trans ?_
  refine congrArg (fun f => nb 2 f j) (funext fun j' => ?_)
  rw [nb_one]
  exact plane_apply (4 : Fin 8) _ rfl _ _ _ b i j'

/-- Plane 5 shifted to the previous entry on the first axis and the next entry on the second. -/
theorem pay13_apply : k2_pay13 v1 (ix3 b i j) = nb2 2 0 (fun i j => v1 (ix4 b 5 i j)) i j := by
  refine (maskNext3_2 15#32 15#32 _ _ zlit _ _ rfl rfl (by norm_num) b i j).trans ?_
  refine congrArg (fun f => nb 0 f j) (funext fun j' => ?_)
  refine (maskPrev3_1 1#32 0#32 _ _ zlit _ _ rfl rfl (by norm_num) b i j').trans ?_
  refine congrArg (fun f => nb 2 f i) (funext fun i' => ?_)
  exact plane_apply (5 : Fin 8) _ rfl _ _ _ b i' j'

/-- Plane 6 shifted to the previous entry on the first axis. -/
theorem pay15_apply : k2_pay15 v1 (ix3 b i j) = nb2 2 1 (fun i j => v1 (ix4 b 6 i j)) i j := by
  refine (maskPrev3_1 1#32 0#32 _ _ zlit _ _ rfl rfl (by norm_num) b i j).trans ?_
  unfold nb2
  rw [nb_one]
  refine congrArg (fun f => nb 2 f i) (funext fun i' => ?_)
  exact plane_apply (6 : Fin 8) _ rfl _ _ _ b i' j

/-- Plane 7 shifted to the previous entry on both axes. -/
theorem pay16_apply : k2_pay16 v1 (ix3 b i j) = nb2 2 2 (fun i j => v1 (ix4 b 7 i j)) i j := by
  refine (maskPrev3_2 1#32 0#32 _ _ zlit _ _ rfl rfl (by norm_num) b i j).trans ?_
  refine congrArg (fun f => nb 2 f j) (funext fun j' => ?_)
  refine (maskPrev3_1 1#32 0#32 _ _ zlit _ _ rfl rfl (by norm_num) b i j').trans ?_
  refine congrArg (fun f => nb 2 f i) (funext fun i' => ?_)
  exact plane_apply (7 : Fin 8) _ rfl _ _ _ b i' j'

end Gates

/-! ## The sum of absolute values, the quotients and their sum -/

section Sums
variable (v0 : Vec Ideal S2x8x128x16 .f32) (b : Fin 2) (i : Fin 128) (j : Fin 16)

/-- The sum of the eight shifted planes' absolute values (accumulated from a zero splat) is "absSum". -/
theorem absw_apply :
    (k2_pay17 (k2_pay2 v0) (k2_pay14 (k2_pay2 v0) (k2_pay6 v0) (k2_pay7 v0) k2_pay8 (k2_pay9 (F := Ideal)))) (ix3 b i j)
      = absSum (fun k i j => v0 (ix4 b k i j)) i j := by
  simp only [k2_pay17, k2_pay14, k2_pay6, addf_apply, absf_apply, broadcast_apply]
  rw [pay4_apply, pay5_apply, pay10_apply, pay11_apply, pay12_apply, pay13_apply, pay15_apply, pay16_apply, pay2_eq,
    zlit, zero_add]
  unfold absSum gate
  rw [Fin.sum_univ_eight]
  rfl

/-- The sum of the eight quotients (accumulated from a zero splat) is "gateSum". -/
theorem gsum_apply :
    (k2_pay33 (k2_pay13 (k2_pay2 v0)) (k2_pay15 (k2_pay2 v0)) (k2_pay16 (k2_pay2 v0)) (k2_pay17 (k2_pay2 v0) (k2_pay14 (k2_pay2 v0) (k2_pay6 v0) (k2_pay7 v0) k2_pay8 (k2_pay9 (F := Ideal)))) (k2_pay28 (k2_pay5 v0) (k2_pay10 (k2_pay7 v0) k2_pay8 (k2_pay9 (F := Ideal))) (k2_pay11 (k2_pay2 v0)) (k2_pay12 (k2_pay2 v0)) (k2_pay17 (k2_pay2 v0) (k2_pay14 (k2_pay2 v0) (k2_pay6 v0) (k2_pay7 v0) k2_pay8 (k2_pay9 (F := Ideal)))) (k2_pay20 (k2_pay2 v0) (k2_pay4 v0) (k2_pay14 (k2_pay2 v0) (k2_pay6 v0) (k2_pay7 v0) k2_pay8 (k2_pay9 (F := Ideal)))))) (ix3 b i j)
      = gateSum (fun k i j => v0 (ix4 b k i j)) i j := by
  simp only [k2_pay33, k2_pay28, k2_pay20, k2_pay19, k2_pay23, k2_pay24, k2_pay25, k2_pay27, k2_pay29, k2_pay30, k2_pay32,
    addf_apply, divf_apply, broadcast_apply]
  rw [absw_apply, pay4_apply, pay5_apply, pay10_apply, pay11_apply, pay12_apply, pay13_apply, pay15_apply, pay16_apply,
    pay2_eq, zlit, zero_add]
  unfold gateSum Affinity.norm gate
  rw [Fin.sum_univ_eight]
  rfl

end Sums

/-! ## The data block's shifts and the gated sum -/

section Data
variable (v3 : FVec Ideal S2x20x128x16 .f32) (b : Fin 2) (c : Fin 20) (i : Fin 128) (j : Fin 16)

/-- The data block is read as it is. -/
theorem pay3_eq (v2 : Vec Ideal S2x20x128x16 .f32) : k2_pay3 v2 = v2 := shapeCast_self v2 _

/-- The data block shifted to the next entry on its first plane axis. -/
theorem xn2 : select (cmpi .eq (iota .tc S2x20x128x16 32 [2] iota_S2x20x128x16_d2_w32) (broadcast S2x20x128x16 127#32))
      (broadcast S2x20x128x16 (Scalar.ofBits .f32 0x00000000#32)) (dynamicRotate 2 127#32 none v3 rotates_S2x20x128x16_d2) (ix4 b c i j)
    = nb 0 (fun i' => v3 (ix4 b c i' j)) i :=
  maskNext4_2 127#32 127#32 v3 _ zlit _ _ rfl rfl (by norm_num) b c i j

/-- The data block shifted to the previous entry on its first plane axis. -/
theorem xp2 : select (cmpi .eq (iota .tc S2x20x128x16 32 [2] iota_S2x20x128x16_d2_w32) (broadcast S2x20x128x16 0#32))
      (broadcast S2x20x128x16 (Scalar.ofBits .f32 0x00000000#32)) (dynamicRotate 2 1#32 none v3 rotates_S2x20x128x16_d2) (ix4 b c i j)
    = nb 2 (fun i' => v3 (ix4 b c i' j)) i :=
  maskPrev4_2 1#32 0#32 v3 _ zlit _ _ rfl rfl (by norm_num) b c i j

/-- The data block shifted to the next entry on its second plane axis. -/
theorem xn3 : select (cmpi .eq (iota .tc S2x20x128x16 32 [3] iota_S2x20x128x16_d3_w32) (broadcast S2x20x128x16 15#32))
      (broadcast S2x20x128x16 (Scalar.ofBits .f32 0x00000000#32)) (dynamicRotate 3 15#32 none v3 rotates_S2x20x128x16_d3) (ix4 b c i j)
    = nb 0 (fun j' => v3 (ix4 b c i j')) j :=
  maskNext4_3 15#32 15#32 v3 _ zlit _ _ rfl rfl (by norm_num) b c i j

/-- The data block shifted to the previous entry on its second plane axis. -/
theorem xp3 : select (cmpi .eq (iota .tc S2x20x128x16 32 [3] iota_S2x20x128x16_d3_w32) (broadcast S2x20x128x16 0#32))
      (broadcast S2x20x128x16 (Scalar.ofBits .f32 0x00000000#32)) (dynamicRotate 3 1#32 none v3 rotates_S2x20x128x16_d3) (ix4 b c i j)
    = nb 2 (fun j' => v3 (ix4 b c i j')) j :=
  maskPrev4_3 1#32 0#32 v3 _ zlit _ _ rfl rfl (by norm_num) b c i j

/-- Next entry on both plane axes. -/
theorem xnn : select (cmpi .eq (iota .tc S2x20x128x16 32 [3] iota_S2x20x128x16_d3_w32) (broadcast S2x20x128x16 15#32))
      (broadcast S2x20x128x16 (Scalar.ofBits .f32 0x00000000#32))
      (dynamicRotate 3 15#32 none
        (select (cmpi .eq (iota .tc S2x20x128x16 32 [2] iota_S2x20x128x16_d2_w32) (broadcast S2x20x128x16 127#32))
          (broadcast S2x20x128x16 (Scalar.ofBits .f32 0x00000000#32)) (dynamicRotate 2 127#32 none v3 rotates_S2x20x128x16_d2))
        rotates_S2x20x128x16_d3) (ix4 b c i j)
    = nb 0 (fun j' => nb 0 (fun i' => v3 (ix4 b c i' j')) i) j :=
  (xn3 _ b c i j).trans (congrArg (fun f => nb 0 f j) (funext fun j' => xn2 v3 b c i j'))

/-- Next entry on the first plane axis, previous on the second. -/
theorem xnp : select (cmpi .eq (iota .tc S2x20x128x16 32 [3] iota_S2x20x128x16_d3_w32) (broadcast S2x20x128x16 0#32))
      (broadcast S2x20x128x16 (Scalar.ofBits .f32 0x00000000#32))
      (dynamicRotate 3 1#32 none
        (select (cmpi .eq (iota .tc S2x20x128x16 32 [2] iota_S2x20x128x16_d2_w32) (broadcast S2x20x128x16 127#32))
          (broadcast S2x20x128x16 (Scalar.ofBits .f32 0x00000000#32)) (dynamicRotate 2 127#32 none v3 rotates_S2x20x128x16_d2))
        rotates_S2x20x128x16_d3) (ix4 b c i j)
    = nb 2 (fun j' => nb 0 (fun i' => v3 (ix4 b c i' j')) i) j :=
  (xp3 _ b c i j).trans (congrArg (fun f => nb 2 f j) (funext fun j' => xn2 v3 b c i j'))

/-- Previous entry on the first plane axis, next on the second. -/
theorem xpn : select (cmpi .eq (iota .tc S2x20x128x16 32 [3] iota_S2x20x128x16_d3_w32) (broadcast S2x20x128x16 15#32))
      (broadcast S2x20x128x16 (Scalar.ofBits .f32 0x00000000#32))
      (dynamicRotate 3 15#32 none
        (select (cmpi .eq (iota .tc S2x20x128x16 32 [2] iota_S2x20x128x16_d2_w32) (broadcast S2x20x128x16 0#32))
          (broadcast S2x20x128x16 (Scalar.ofBits .f32 0x00000000#32)) (dynamicRotate 2 1#32 none v3 rotates_S2x20x128x16_d2))
        rotates_S2x20x128x16_d3) (ix4 b c i j)
    = nb 0 (fun j' => nb 2 (fun i' => v3 (ix4 b c i' j')) i) j :=
  (xn3 _ b c i j).trans (congrArg (fun f => nb 0 f j) (funext fun j' => xp2 v3 b c i j'))

/-- Previous entry on both plane axes. -/
theorem xpp : select (cmpi .eq (iota .tc S2x20x128x16 32 [3] iota_S2x20x128x16_d3_w32) (broadcast S2x20x128x16 0#32))
      (broadcast S2x20x128x16 (Scalar.ofBits .f32 0x00000000#32))
      (dynamicRotate 3 1#32 none
        (select (cmpi .eq (iota .tc S2x20x128x16 32 [2] iota_S2x20x128x16_d2_w32) (broadcast S2x20x128x16 0#32))
          (broadcast S2x20x128x16 (Scalar.ofBits .f32 0x00000000#32)) (dynamicRotate 2 1#32 none v3 rotates_S2x20x128x16_d2))
        rotates_S2x20x128x16_d3) (ix4 b c i j)
    = nb 2 (fun j' => nb 2 (fun i' => v3 (ix4 b c i' j')) i) j :=
  (xp3 _ b c i j).trans (congrArg (fun f => nb 2 f j) (funext fun j' => xp2 v3 b c i j'))

/-- Neighbour 0 of the data block. -/
theorem pay21_apply : k2_pay21 v3 (ix4 b c i j) = nb2 0 0 (fun i j => v3 (ix4 b c i j)) i j :=
  xnn v3 b c i j

/-- The gated sum after neighbours 0 to 3, from the value it had after neighbour 0's product. -/
theorem pay26_apply (v28 v44 v54 v108 : FVec Ideal S2x128x16 .f32) (v110 v124 : FVec Ideal S2x20x128x16 .f32)
    (v125 : FVec Ideal S2x1x128x16 .f32) :
    k2_pay26 v3 v28 v44 v54 v108 v110 v124 v125 (ix4 b c i j)
      = v110 (ix4 b c i j) + broadcastTo S2x20x128x16 v125 broadcasts_S2x1x128x16_S2x20x128x16 (ix4 b c i j) * v124 (ix4 b c i j)
        + Ideal.div (v28 (ix3 b i j)) (v108 (ix3 b i j)) * nb2 0 1 (fun i j => v3 (ix4 b c i j)) i j
        + Ideal.div (v44 (ix3 b i j)) (v108 (ix3 b i j)) * nb2 0 2 (fun i j => v3 (ix4 b c i j)) i j
        + Ideal.div (v54 (ix3 b i j)) (v108 (ix3 b i j)) * nb2 1 0 (fun i j => v3 (ix4 b c i j)) i j := by
  simp only [k2_pay26, k2_pay23, k2_pay24, k2_pay25, addf_apply, mulf_apply, divf_apply, bcastPlane_apply, nb2, nb_one]
  rw [xnp, xn2, xn3]

/-- The gated sum after neighbours 4 to 6, from its value after neighbour 3. -/
theorem pay31_apply (v80 v90 v108 v171 : FVec Ideal S2x128x16 .f32) (v170 : FVec Ideal S2x20x128x16 .f32) :
    k2_pay31 v3 v80 v90 v108 v170 v171 1#32 (ix4 b c i j)
      = v170 (ix4 b c i j) + v171 (ix3 b i j) * nb2 1 2 (fun i j => v3 (ix4 b c i j)) i j
        + Ideal.div (v80 (ix3 b i j)) (v108 (ix3 b i j)) * nb2 2 0 (fun i j => v3 (ix4 b c i j)) i j
        + Ideal.div (v90 (ix3 b i j)) (v108 (ix3 b i j)) * nb2 2 1 (fun i j => v3 (ix4 b c i j)) i j := by
  simp only [k2_pay31, k2_pay29, k2_pay30, addf_apply, mulf_apply, divf_apply, bcastPlane_apply, nb2, nb_one]
  rw [xpn, xp3, xp2]

/-- The stored value, from the gated sum after neighbour 6, quotient 7 and the sum of the quotients. -/
theorem pay1_apply (v212 : FVec Ideal S2x20x128x16 .f32) (v213 v214 : FVec Ideal S2x128x16 .f32) :
    k2_pay1 v3 v212 v213 v214 (k2_pay34 v3) k2_pay35 (Scalar.ofBits .f32 0x00000000#32) (ix4 b c i j)
      = (Ideal.ofBits .f32 0x3F800000#32 - v214 (ix3 b i j)) * v3 (ix4 b c i j)
        + (v212 (ix4 b c i j) + v213 (ix3 b i j) * nb2 2 2 (fun i j => v3 (ix4 b c i j)) i j) := by
  simp only [k2_pay1, k2_pay34, k2_pay35, addf_apply, mulf_apply, subf_apply, broadcast_apply, bcastPlane_apply, nb2]
  rw [xpp]
  rfl

end Data

end Cert.KernelIdeal.Body.K2

namespace Cert.KernelIdeal.Body

open Idealize.ShloMosaic Idealize.ShloMosaic.ValueIdx Cert.KernelIdeal Cert.KernelIdeal.Gen Cert.Affinity Cert.Shift
open Cert.KernelIdeal.Body.K2

/-! ## The body at an index -/

/-- What the body stores at "(b, c, i, j)" is one propagation step of batch entry "b" of the two blocks. -/
theorem out2_2_apply (x0 : Vec Ideal S2x8x128x16 .f32) (x1 : Vec Ideal S2x20x128x16 .f32) (b : Fin 2) (c : Fin 20) (i : Fin 128)
    (j : Fin 16) :
    Gen.out2_2 (F := Ideal) x0 x1 (ix4 b c i j)
      = Cert.Affinity.out1 (fun k i j => x0 (ix4 b k i j)) (fun c i j => x1 (ix4 b c i j)) c i j := by
  have hz : (![0, 0, 0, 0] : Fin 4 → Nat) = fun _ => 0 := by funext a; fin_cases a <;> rfl
  unfold Gen.out2_2
  rw [View.canon_unit_zero hz]
  simp only [View.ld_unit_zero (S := S2x8x128x16) hz, View.ld_unit_zero (S := S2x20x128x16) hz]
  rw [pay3_eq, pay1_apply, pay31_apply, pay26_apply]
  unfold k2_pay22 k2_pay18
  rw [bcastPlane_apply, pay21_apply, gsum_apply]
  simp only [k2_pay19, k2_pay27, k2_pay32, divf_apply, broadcast_apply]
  rw [absw_apply, pay4_apply, pay5_apply, pay10_apply, pay11_apply, pay12_apply, pay13_apply, pay15_apply, pay16_apply,
    pay2_eq, zlit, zero_add]
  unfold out1 nws Affinity.norm gate
  rw [Fin.sum_univ_eight]
  rfl

end Cert.KernelIdeal.Body

end
-- ==== Proof.KBlocks2.lean ====
/-
  From blocks to the array, for the third pallas_call.

  The grid runs over the batch axis, two batch entries a block; every window holds whole planes. A propagation step
  acts on each batch entry by itself, so what a grid point writes back — the body's result on its two-entry blocks —
  is that point's block of the step of the whole operand arrays, and the blocks of the 64 points tile the result array.
-/
import proofs.«139537_j58806692216890_2_alg».proof.Proof.Spec
import proofs.«139537_j58806692216890_2_alg».proof.Proof.Gen.KernelIdeal.Frame
import proofs.«139537_j58806692216890_2_alg».proof.Proof.KBody2
import Idealize.ShloMosaic.Lib.Pipeline.Value
import Idealize.ShloMosaic.Lib.ValueIdx

set_option maxRecDepth 16384

noncomputable section

namespace Cert.KernelIdeal.Blocks2

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.KernelIdeal.Body

variable (V : (c : Dev nD) → (b : Ref sig .tc) → Buf (Elt Ideal) ((c : Thread nD τ).loc b))

/-- The printed index maps over the grid: every window moves along the batch axis with the point, two batch
    entries a block, and stays at block 0 on the other axes. -/
theorem idx_facts : ∀ t : Fin cfg2.N,
    win2_0.index t (0 : Fin 4) = t.val ∧ win2_0.index t (1 : Fin 4) = 0 ∧ win2_0.index t (2 : Fin 4) = 0 ∧ win2_0.index t (3 : Fin 4) = 0
    ∧ win2_1.index t (0 : Fin 4) = t.val ∧ win2_1.index t (1 : Fin 4) = 0 ∧ win2_1.index t (2 : Fin 4) = 0 ∧ win2_1.index t (3 : Fin 4) = 0
    ∧ win2_2.index t (0 : Fin 4) = t.val ∧ win2_2.index t (1 : Fin 4) = 0 ∧ win2_2.index t (2 : Fin 4) = 0 ∧ win2_2.index t (3 : Fin 4) = 0 :=
  (by decide +kernel : ∀ t : Fin grid2.N, _)

/-- The batch entry of the whole array that entry `b` of point `t`'s block is. -/
def bat (t : Fin cfg2.N) (b : Fin 2) : Fin 128 := ⟨t.val * 2 + b.val, by have := t.isLt; have : cfg2.N = 64 := rfl; omega⟩

/-- Where point `t`'s guidance block sits in the guidance array. -/
theorem emb_0 (t : Fin cfg2.N) (b : Fin 2) (k : Fin 8) (i : Fin 128) (j : Fin 16) :
    ((cfg2.win 0).blk t).view.emb (ix4 b k i j) = ix4 (bat t b) k i j := by
  obtain ⟨e0, e1, e2, e3, -⟩ := idx_facts t
  funext a; apply Fin.ext
  match a with
  | ⟨0, _⟩ => show win2_0.index t (0 : Fin 4) * 2 + 1 * b.val = t.val * 2 + b.val; omega
  | ⟨1, _⟩ => show win2_0.index t (1 : Fin 4) * 8 + 1 * k.val = k.val; omega
  | ⟨2, _⟩ => show win2_0.index t (2 : Fin 4) * 128 + 1 * i.val = i.val; omega
  | ⟨3, _⟩ => show win2_0.index t (3 : Fin 4) * 16 + 1 * j.val = j.val; omega

/-- Where point `t`'s data block sits in the data array. -/
theorem emb_1 (t : Fin cfg2.N) (b : Fin 2) (k : Fin 20) (i : Fin 128) (j : Fin 16) :
    ((cfg2.win 1).blk t).view.emb (ix4 b k i j) = ix4 (bat t b) k i j := by
  obtain ⟨-, -, -, -, e0, e1, e2, e3, -⟩ := idx_facts t
  funext a; apply Fin.ext
  match a with
  | ⟨0, _⟩ => show win2_1.index t (0 : Fin 4) * 2 + 1 * b.val = t.val * 2 + b.val; omega
  | ⟨1, _⟩ => show win2_1.index t (1 : Fin 4) * 20 + 1 * k.val = k.val; omega
  | ⟨2, _⟩ => show win2_1.index t (2 : Fin 4) * 128 + 1 * i.val = i.val; omega
  | ⟨3, _⟩ => show win2_1.index t (3 : Fin 4) * 16 + 1 * j.val = j.val; omega

/-- Where point `t`'s result block sits in the result array. -/
theorem emb_2 (t : Fin cfg2.N) (b : Fin 2) (k : Fin 20) (i : Fin 128) (j : Fin 16) :
    ((cfg2.win 2).blk t).view.emb (ix4 b k i j) = ix4 (bat t b) k i j := by
  obtain ⟨-, -, -, -, -, -, -, -, e0, e1, e2, e3⟩ := idx_facts t
  funext a; apply Fin.ext
  match a with
  | ⟨0, _⟩ => show win2_2.index t (0 : Fin 4) * 2 + 1 * b.val = t.val * 2 + b.val; omega
  | ⟨1, _⟩ => show win2_2.index t (1 : Fin 4) * 20 + 1 * k.val = k.val; omega
  | ⟨2, _⟩ => show win2_2.index t (2 : Fin 4) * 128 + 1 * i.val = i.val; omega
  | ⟨3, _⟩ => show win2_2.index t (3 : Fin 4) * 16 + 1 * j.val = j.val; omega

/-- The guidance block of point `t` read at an entry is the guidance array at the batch entry `2 t + b`. -/
theorem iblk_0 (c : Dev nD) (t : Fin cfg2.N) (b : Fin 2) (k : Fin 8) (i : Fin 128) (j : Fin 16) :
    iblk2 V c 0 t (ix4 b k i j) = V c main_v5 (ix4 (bat t b) k i j) := by
  show V c main_v5 (((cfg2.win 0).blk t).view.emb (ix4 b k i j)) = _
  rw [emb_0]

/-- The data block of point `t` read at an entry is the data array at the batch entry `2 t + b`. -/
theorem iblk_1 (c : Dev nD) (t : Fin cfg2.N) (b : Fin 2) (k : Fin 20) (i : Fin 128) (j : Fin 16) :
    iblk2 V c 1 t (ix4 b k i j) = V c main_v12 (ix4 (bat t b) k i j) := by
  show V c main_v12 (((cfg2.win 1).blk t).view.emb (ix4 b k i j)) = _
  rw [emb_1]

/-- What point `t` writes back is its block of the propagation step of the two arrays as the region finds them:
    the step acts on each batch entry by itself, and the block holds two whole batch entries. -/
theorem flushed_eq (c : Dev nD) (t : Fin cfg2.N) :
    (dat2 V c).flushed 2 t = ((cfg2.win 2).blk t).view.read (Elt Ideal) (Cert.Affinity.step (V c main_v5) (V c main_v12)) := by
  show (cfg2.win 2).cut (grid2.coords t) ((dat2 V c).after 2 t) = _
  rw [after2_2]
  funext y
  obtain ⟨b, k, i, j, rfl⟩ : ∃ (b : Fin 2) (k : Fin 20) (i : Fin 128) (j : Fin 16), y = ix4 b k i j := ⟨y 0, y 1, y 2, y 3, eq_ix4 y⟩
  show out2_2 (iblk2 V c 0 t) (iblk2 V c 1 t) (ix4 b k i j) = Cert.Affinity.step (V c main_v5) (V c main_v12) (((cfg2.win 2).blk t).view.emb (ix4 b k i j))
  rw [emb_2]
  refine (out2_2_apply (iblk2 V c 0 t) (iblk2 V c 1 t) b k i j).trans ?_
  rw [Cert.Affinity.step_apply]
  have h0 : (fun k i j => iblk2 V c 0 t (ix4 b k i j)) = (fun k i j => V c main_v5 (ix4 (bat t b) k i j)) := by
    funext k i j; exact iblk_0 V c t b k i j
  have h1 : (fun k i j => iblk2 V c 1 t (ix4 b k i j)) = (fun k i j => V c main_v12 (ix4 (bat t b) k i j)) := by
    funext k i j; exact iblk_1 V c t b k i j
  rw [h0, h1]

/-- An index of the result array is in point `t`'s block iff each coordinate is in the block's range. -/
theorem mem_blk (t : Fin cfg2.N) (i : S128x20x128x16.Idx) :
    i ∈ ((cfg2.win 2).blk t).view.set ↔ ∀ a : Fin 4, win2_2.index t a * S2x20x128x16.size a ≤ (i a).val ∧ (i a).val < win2_2.index t a * S2x20x128x16.size a + S2x20x128x16.size a := by
  show i ∈ ((View.whole main_v13).slice (win2_2.rect t)).set ↔ _
  rw [View.set_slice_whole, Rect.mem_set_unit]
  exact Iff.rfl

/-- Every index of the result array is in the block of the point that holds its batch entry. -/
theorem cover (i : S128x20x128x16.Idx) : ∃ t : Fin cfg2.N, (cfg2.win 2).flush t = true ∧ i ∈ ((cfg2.win 2).blk t).view.set := by
  have hi0 : (i 0).val < 128 := (i 0).isLt
  have hi1 : (i 1).val < 20 := (i 1).isLt
  have hi2 : (i 2).val < 128 := (i 2).isLt
  have hi3 : (i 3).val < 16 := (i 3).isLt
  refine ⟨⟨(i 0).val / 2, by show (i 0).val / 2 < 64; omega⟩, flush2_2 _, ?_⟩
  rw [mem_blk]
  obtain ⟨-, -, -, -, -, -, -, -, e0, e1, e2, e3⟩ := idx_facts ⟨(i 0).val / 2, by show (i 0).val / 2 < 64; omega⟩
  intro a
  match a with
  | ⟨0, _⟩ => show win2_2.index _ (0 : Fin 4) * 2 ≤ (i 0).val ∧ (i 0).val < win2_2.index _ (0 : Fin 4) * 2 + 2; rw [e0]; show (i 0).val / 2 * 2 ≤ (i 0).val ∧ (i 0).val < (i 0).val / 2 * 2 + 2; omega
  | ⟨1, _⟩ => show win2_2.index _ (1 : Fin 4) * 20 ≤ (i 1).val ∧ (i 1).val < win2_2.index _ (1 : Fin 4) * 20 + 20; rw [e1]; omega
  | ⟨2, _⟩ => show win2_2.index _ (2 : Fin 4) * 128 ≤ (i 2).val ∧ (i 2).val < win2_2.index _ (2 : Fin 4) * 128 + 128; rw [e2]; omega
  | ⟨3, _⟩ => show win2_2.index _ (3 : Fin 4) * 16 ≤ (i 3).val ∧ (i 3).val < win2_2.index _ (3 : Fin 4) * 16 + 16; rw [e3]; omega

/-- The result array after the first pallas_call: one propagation step of its two operand arrays. -/
theorem final (c : Dev nD) :
    (dat2 V c).arrAt 2 cfg2.N = Cert.Affinity.step (V c main_v5) (V c main_v12) :=
  (dat2 V c).arrAt_eq_of_cover 2 (Cert.Affinity.step (V c main_v5) (V c main_v12)) (fun t _ => flushed_eq V c t) cover

end Cert.KernelIdeal.Blocks2
end
-- ==== Proof.KValue.lean ====
/-
  The kernel program's result buffer as a function of the two argument arrays.

  The buffer contents at each boundary of @main's seven segments are a fold from the launch memory. Read at the buffers
  that matter: the host operations before the first pallas_call leave the three guidance arrangements and the data's
  first arrangement; each pallas_call leaves one propagation step of its two operand arrays in its result array (the
  blocks-to-array modules) and touches no other array; the transposes between them rearrange that result for the next
  call; the last transpose gives the result buffer.
-/
import proofs.«139537_j58806692216890_2_alg».proof.Proof.Result
import proofs.«139537_j58806692216890_2_alg».proof.Proof.KBlocks0
import proofs.«139537_j58806692216890_2_alg».proof.Proof.KBlocks1
import proofs.«139537_j58806692216890_2_alg».proof.Proof.KBlocks2
import Idealize.ShloMosaic.Lib.StableHlo.Run

set_option maxRecDepth 16384

noncomputable section

namespace Cert.KernelIdeal.KValue

open Idealize.ShloMosaic Idealize.ShloMosaic.TcCoe Idealize.SL.Sem Idealize.ShloMosaic.StableHlo
open Idealize.ShloMosaic.Pipeline (Dat Cfg Window)
open Cert.KernelIdeal Cert.KernelIdeal.Gen Cert.Whole

variable (m : (ℓ : Loc nD τ sig) → Buf (Elt Ideal) ℓ) (ρ : Dev nD → PrngReg)

/-! ## The host operations before the first pallas_call -/

/-- Phase X's guidance arrangement, as the first pallas_call finds it. -/
theorem W1_v1 (c : Dev nD) : W1 m ρ c (Proc.devRef .tc main_v1) = gX (m ((c : Thread nD τ).loc main_arg0)) := by
  show StableHlo.after hostOps0 (W0 m ρ c) (Proc.devRef .tc main_v1) = _
  after_results; rfl
/-- Phase Y's guidance arrangement, written before the first pallas_call. -/
theorem W1_v3 (c : Dev nD) : W1 m ρ c (Proc.devRef .tc main_v3) = gY (m ((c : Thread nD τ).loc main_arg0)) := by
  show StableHlo.after hostOps0 (W0 m ρ c) (Proc.devRef .tc main_v3) = _
  after_results; rfl
/-- Phase Z's guidance arrangement, written before the first pallas_call. -/
theorem W1_v5 (c : Dev nD) : W1 m ρ c (Proc.devRef .tc main_v5) = gZ (m ((c : Thread nD τ).loc main_arg0)) := by
  show StableHlo.after hostOps0 (W0 m ρ c) (Proc.devRef .tc main_v5) = _
  after_results; rfl
/-- The data in phase X's arrangement. -/
theorem W1_v6 (c : Dev nD) : W1 m ρ c (Proc.devRef .tc main_v6) = xX (m ((c : Thread nD τ).loc main_arg1)) := by
  show StableHlo.after hostOps0 (W0 m ρ c) (Proc.devRef .tc main_v6) = _
  after_results; rfl

/-! ## Through the first pallas_call -/

/-- The first pallas_call's result array: one step of phase X's guidance and the data. -/
theorem W2_v7 (c : Dev nD) : W2 m ρ c (Proc.devRef .tc main_v7)
    = Cert.Affinity.step (gX (m ((c : Thread nD τ).loc main_arg0))) (xX (m ((c : Thread nD τ).loc main_arg1))) := by
  refine (W2_arr m ρ c 2).trans ?_
  refine (Blocks0.final (V1 m ρ) c).trans ?_
  show Cert.Affinity.step (W1 m ρ c (Proc.devRef .tc main_v1)) (W1 m ρ c (Proc.devRef .tc main_v6)) = _
  rw [W1_v1, W1_v6]
/-- The first pallas_call leaves phase Y's guidance as it was. -/
theorem W2_v3 (c : Dev nD) : W2 m ρ c (Proc.devRef .tc main_v3) = gY (m ((c : Thread nD τ).loc main_arg0)) :=
  (W2_of_ne m ρ c main_v3 (by decide)).trans (W1_v3 m ρ c)
/-- The first pallas_call leaves phase Z's guidance as it was. -/
theorem W2_v5 (c : Dev nD) : W2 m ρ c (Proc.devRef .tc main_v5) = gZ (m ((c : Thread nD τ).loc main_arg0)) :=
  (W2_of_ne m ρ c main_v5 (by decide)).trans (W1_v5 m ρ c)

/-! ## The two transposes between the first and second pallas_call -/

/-- The data in phase Y's arrangement: two transposes of the first result. -/
theorem W3_v9 (c : Dev nD) : W3 m ρ c (Proc.devRef .tc main_v9) = xY (W2 m ρ c (Proc.devRef .tc main_v7)) := by
  show StableHlo.after hostOps1 (W2 m ρ c) (Proc.devRef .tc main_v9) = _
  after_results; rfl
/-- The transposes write neither guidance array. -/
theorem W3_v3 (c : Dev nD) : W3 m ρ c (Proc.devRef .tc main_v3) = W2 m ρ c (Proc.devRef .tc main_v3) := by
  show StableHlo.after hostOps1 (W2 m ρ c) (Proc.devRef .tc main_v3) = _
  after_results
theorem W3_v5 (c : Dev nD) : W3 m ρ c (Proc.devRef .tc main_v5) = W2 m ρ c (Proc.devRef .tc main_v5) := by
  show StableHlo.after hostOps1 (W2 m ρ c) (Proc.devRef .tc main_v5) = _
  after_results

/-! ## Through the second pallas_call -/

/-- The second pallas_call's result array: one step of phase Y's guidance and the rearranged first result. -/
theorem W4_v10 (c : Dev nD) : W4 m ρ c (Proc.devRef .tc main_v10)
    = Cert.Affinity.step (gY (m ((c : Thread nD τ).loc main_arg0)))
        (xY (Cert.Affinity.step (gX (m ((c : Thread nD τ).loc main_arg0))) (xX (m ((c : Thread nD τ).loc main_arg1))))) := by
  refine (W4_arr m ρ c 2).trans ?_
  refine (Blocks1.final (V3 m ρ) c).trans ?_
  show Cert.Affinity.step (W3 m ρ c (Proc.devRef .tc main_v3)) (W3 m ρ c (Proc.devRef .tc main_v9)) = _
  rw [W3_v3, W2_v3, W3_v9, W2_v7]
/-- Phase Z's guidance is still as written before the first pallas_call. -/
theorem W4_v5 (c : Dev nD) : W4 m ρ c (Proc.devRef .tc main_v5) = gZ (m ((c : Thread nD τ).loc main_arg0)) :=
  (W4_of_ne m ρ c main_v5 (by decide)).trans ((W3_v5 m ρ c).trans (W2_v5 m ρ c))

/-! ## The two transposes between the second and third pallas_call -/

/-- The data in phase Z's arrangement: two transposes of the second result. -/
theorem W5_v12 (c : Dev nD) : W5 m ρ c (Proc.devRef .tc main_v12) = xZ (W4 m ρ c (Proc.devRef .tc main_v10)) := by
  show StableHlo.after hostOps2 (W4 m ρ c) (Proc.devRef .tc main_v12) = _
  after_results; rfl
theorem W5_v5 (c : Dev nD) : W5 m ρ c (Proc.devRef .tc main_v5) = W4 m ρ c (Proc.devRef .tc main_v5) := by
  show StableHlo.after hostOps2 (W4 m ρ c) (Proc.devRef .tc main_v5) = _
  after_results

/-! ## Through the third pallas_call, and the last transpose -/

/-- The third pallas_call's result array: three steps, each on its own arrangement. -/
theorem W6_v13 (c : Dev nD) : W6 m ρ c (Proc.devRef .tc main_v13)
    = Cert.Affinity.step (gZ (m ((c : Thread nD τ).loc main_arg0)))
        (xZ (Cert.Affinity.step (gY (m ((c : Thread nD τ).loc main_arg0)))
          (xY (Cert.Affinity.step (gX (m ((c : Thread nD τ).loc main_arg0))) (xX (m ((c : Thread nD τ).loc main_arg1))))))) := by
  refine (W6_arr m ρ c 2).trans ?_
  refine (Blocks2.final (V5 m ρ) c).trans ?_
  show Cert.Affinity.step (W5 m ρ c (Proc.devRef .tc main_v5)) (W5 m ρ c (Proc.devRef .tc main_v12)) = _
  rw [W5_v5, W4_v5, W5_v12, W4_v10]

/-- The result buffer: the last transpose of the third result, `Cert.Whole.result` of the argument arrays. -/
theorem W7_v14 (c : Dev nD) : W7 m ρ c (Proc.devRef .tc main_v14)
    = result (m ((c : Thread nD τ).loc main_arg0)) (m ((c : Thread nD τ).loc main_arg1)) := by
  have h : W7 m ρ c (Proc.devRef .tc main_v14)
      = transpose S20x128x128x16 [1, 0, 2, 3] (W6 m ρ c (Proc.devRef .tc main_v13)) transposes_S128x20x128x16_S20x128x128x16_1_0_2_3 := by
    show StableHlo.after hostOps3 (W6 m ρ c) (Proc.devRef .tc main_v14) = _
    after_results
  rw [h, W6_v13]; rfl

end Cert.KernelIdeal.KValue
end
-- ==== Proof.RunP.lean ====
/-
  The reference's @main as one line of host operations, assembled from its five printed parts.

  Each part is the line of its own operations (the part modules); a line run after a line is their concatenation run
  as one, so @main is the line of all five lists appended, every operation touches TensorCore buffers only and
  determines its results, and the library's run of a line applies: every weakly fair execution terminates with each
  buffer at the fold of the operations over the launch contents.
-/
import proofs.«139537_j58806692216890_2_alg».proof.Proof.RunP0
import proofs.«139537_j58806692216890_2_alg».proof.Proof.RunP1
import proofs.«139537_j58806692216890_2_alg».proof.Proof.RunP2
import proofs.«139537_j58806692216890_2_alg».proof.Proof.RunP3
import proofs.«139537_j58806692216890_2_alg».proof.Proof.RunP4

noncomputable section

namespace Cert.ReferenceIdeal.ValueP

open Cert.ReferenceIdeal Cert.ReferenceIdeal.Gen Idealize.ShloMosaic Idealize.ShloMosaic.TcCoe Idealize.SL.Sem Idealize.ShloMosaic.StableHlo

variable {F : FTy → Type} [FloatOps F]

/-- All of @main's operations: the five parts' lists appended. -/
abbrev opsAll : List (HloOp τ sig (Elt F)) := opsP0 ++ (opsP1 ++ (opsP2 ++ (opsP3 ++ opsP4)))

/-- @main is the line of all its operations. -/
theorem main_eq (c : Dev nD) : main (F := F) c = seq opsAll := by
  show (main_part0 (F := F) c >>= fun _ => main_part1 (F := F) c >>= fun _ => main_part2 (F := F) c >>= fun _ =>
    main_part3 (F := F) c >>= fun _ => main_part4 (F := F) c) = _
  rw [main_part0_eq, main_part1_eq, main_part2_eq, main_part3_eq, main_part4_eq, seq_append, seq_append, seq_append, seq_append]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore references only. -/
theorem opsAll_sub : (opsAll : List (HloOp τ sig (Elt F))).Forall fun op => op.bufs ⊆ tcRefs τ sig :=
  List.forall_append.mpr ⟨opsP0_sub, List.forall_append.mpr ⟨opsP1_sub, List.forall_append.mpr ⟨opsP2_sub,
    List.forall_append.mpr ⟨opsP3_sub, opsP4_sub⟩⟩⟩⟩

theorem fresh0 : ∀ op ∈ (opsP0 : List (HloOp τ sig (Elt F))), op.fresh = ∅ := by
  intro _ h; (repeat (cases h with | head => rfl | tail _ h => ?_)); exact nomatch h
theorem fresh1 : ∀ op ∈ (opsP1 : List (HloOp τ sig (Elt F))), op.fresh = ∅ := by
  intro _ h; (repeat (cases h with | head => rfl | tail _ h => ?_)); exact nomatch h
theorem fresh2 : ∀ op ∈ (opsP2 : List (HloOp τ sig (Elt F))), op.fresh = ∅ := by
  intro _ h; (repeat (cases h with | head => rfl | tail _ h => ?_)); exact nomatch h
theorem fresh3 : ∀ op ∈ (opsP3 : List (HloOp τ sig (Elt F))), op.fresh = ∅ := by
  intro _ h; (repeat (cases h with | head => rfl | tail _ h => ?_)); exact nomatch h
theorem fresh4 : ∀ op ∈ (opsP4 : List (HloOp τ sig (Elt F))), op.fresh = ∅ := by
  intro _ h; (repeat (cases h with | head => rfl | tail _ h => ?_)); exact nomatch h

/-- Every operation determines its results. -/
theorem opsAll_fresh : ∀ op ∈ (opsAll : List (HloOp τ sig (Elt F))), op.fresh = ∅ := by
  intro op h
  rcases List.mem_append.mp h with h | h
  · exact fresh0 op h
  rcases List.mem_append.mp h with h | h
  · exact fresh1 op h
  rcases List.mem_append.mp h with h | h
  · exact fresh2 op h
  rcases List.mem_append.mp h with h | h
  · exact fresh3 op h
  · exact fresh4 op h

/-- Every weakly fair execution of @main terminates with each buffer at the fold of the operations over the launch
    contents. -/
theorem run_after (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after opsAll (launchContents m d) (Proc.devRef .tc b) :=
  run_seq scopedRefs_eq scopedSems_eq defs main (fun _ => opsAll) main_eq (fun _ => opsAll_sub) m ρ (fun _ => opsAll_fresh)

end Cert.ReferenceIdeal.ValueP

end
-- ==== Proof.LibAfter.lean ====
/- The contents after a line of host operations, cut into windows.
   `after (l₁ ++ l₂) V = after l₂ (after l₁ V)`: the contents after a line are the contents after its second part from
   the contents after its first. And the result of an operation over a family of eight operands (a concatenation of
   eight pieces) as a function of the eight operands' contents, each at its own reference. -/
import Idealize.ShloMosaic.Lib.StableHlo.Run

noncomputable section

namespace Idealize.ShloMosaic.StableHlo

variable {τ : Topo} {sig : RefSig} {Val : EltTy → Type}

/-- The contents after a line cut in two: the second part run from the contents after the first. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

section Eight

variable {x0 x1 x2 x3 x4 x5 x6 x7 y : Ref sig .tc}

/-- A function of a family of eight operands' contents, applied to the eight contents given one by one. -/
def apply8
    (f : ((k : Fin 8) → ((![x0, x1, x2, x3, x4, x5, x6, x7] : Fin 8 → Ref sig .tc) k).ty.Contents Val) → y.ty.Contents Val)
    (a0 : x0.ty.Contents Val) (a1 : x1.ty.Contents Val) (a2 : x2.ty.Contents Val) (a3 : x3.ty.Contents Val)
    (a4 : x4.ty.Contents Val) (a5 : x5.ty.Contents Val) (a6 : x6.ty.Contents Val) (a7 : x7.ty.Contents Val) : y.ty.Contents Val :=
  f (Fin.cons a0 (Fin.cons a1 (Fin.cons a2 (Fin.cons a3 (Fin.cons a4 (Fin.cons a5 (Fin.cons a6 (Fin.cons a7 (fun i => i.elim0)))))))))

/-- An operation over a family of eight operands writes, at its result, its function of the eight operands' contents,
    each read at its own reference. -/
theorem nary8_result
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (Proc.devRef .tc y)
      = apply8 f (F (Proc.devRef .tc x0)) (F (Proc.devRef .tc x1)) (F (Proc.devRef .tc x2)) (F (Proc.devRef .tc x3))
          (F (Proc.devRef .tc x4)) (F (Proc.devRef .tc x5)) (F (Proc.devRef .tc x6)) (F (Proc.devRef .tc x7)) := by
  rw [nary_result]; unfold apply8; congr 1; funext k; fin_cases k <;> rfl

/-- `nary8_result`, the result reference matched up to unfolding. -/
theorem nary8_result'
    (f : ((k : Fin 8) → ((![x0, x1, x2, x3, x4, x5, x6, x7] : Fin 8 → Ref sig .tc) k).ty.Contents Val) → y.ty.Contents Val) (hxs hy)
    (F : Valuation τ sig Val) :
    (nary (τ := τ) ![x0, x1, x2, x3, x4, x5, x6, x7] y f hxs hy).result F (no_index (Proc.devRef .tc y))
      = apply8 f (F (Proc.devRef .tc x0)) (F (Proc.devRef .tc x1)) (F (Proc.devRef .tc x2)) (F (Proc.devRef .tc x3))
          (F (Proc.devRef .tc x4)) (F (Proc.devRef .tc x5)) (F (Proc.devRef .tc x6)) (F (Proc.devRef .tc x7)) :=
  nary8_result f hxs hy F

end Eight

/-- What a buffer holds after a window of operations: each operation's result at its own buffer is its function of
    its operands' contents, and any other buffer keeps its contents; an operation over eight operands reads each at
    its own reference. -/
macro "after_results_simp8" : tactic =>
  `(tactic| (simp (disch := decide) only [after_cons, after_nil,
      nullary_result', unary_result', binary_result', ternary_result', quaternary_result', reshape_result', nary8_result', nary4_result',
      unaryIndexed_result', binaryIndexed_result',
      nullary_result_ne', unary_result_ne', binary_result_ne', ternary_result_ne', quaternary_result_ne', reshape_result_ne',
      nary_result_ne', unaryIndexed_result_ne', binaryIndexed_result_ne']))

end Idealize.ShloMosaic.StableHlo

end
-- ==== Proof.RefRunW1.lean ====
/- The reference's first window: from the guidance planes (the first argument), the first phase's eight padded
   neighbour shifts, their normalisation by the sum of absolute values, and the sum of the normalised gates. -/
import proofs.«139537_j58806692216890_2_alg».proof.Proof.ReadP
import proofs.«139537_j58806692216890_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev opsA : List (HloOp τ sig (Elt F)) :=
  [ unary main_arg0 main_v0 ((extractStridedSlice S8x128x128x16 ![0, 0, 0, 0] · slices_S24x128x128x16_S8x128x128x16_0_0_0_0) : (⟨S24x128x128x16, .f32⟩ : BufTy).Contents (Elt F) → (⟨S8x128x128x16, .f32⟩ : BufTy).Contents (Elt F)),
    unary main_v0 main_v1 ((transpose S16x8x128x128 [3, 0, 1, 2] · transposes_S8x128x128x16_S16x8x128x128_3_0_1_2) : (⟨S8x128x128x16, .f32⟩ : BufTy).Contents (Elt F) → (⟨S16x8x128x128, .f32⟩ : BufTy).Contents (Elt F)),
    unary main_v1 main_v2 ((extractStridedSlice S16x1x128x128 ![0, 0, 0, 0] · slices_S16x8x128x128_S16x1x128x128_0_0_0_0) : (⟨S16x8x128x128, .f32⟩ : BufTy).Contents (Elt F) → (⟨S16x1x128x128, .f32⟩ : BufTy).Contents (Elt F)),
    reshape main_v2 main_v3 rfl shapeCasts_S16x1x128x128_S16x128x128,
    nullary main_c (constantI S_ 32 0#32),
    TRef.unary (TRef.of (T := ⟨S_, .i32⟩) main_c) (TRef.of (T := ⟨S_, .f32⟩) main_call0_v0) (sitofp .f32),
    TRef.binary (TRef.of (T := ⟨S16x128x128, .f32⟩) main_v3) (TRef.of (T := ⟨S_, .f32⟩) main_call0_v0) (TRef.of (T := ⟨S16x130x130, .f32⟩) main_v4) (fun x v => pad S16x130x130 ![0, 0, 0] ![0, 2, 2] ![0, 0, 0] x v pads_S16x128x128_S16x130x130_000_020_020 h_S_),
    unary main_v1 main_v5 ((extractStridedSlice S16x1x128x128 ![0, 1, 0, 0] · slices_S16x8x128x128_S16x1x128x128_0_1_0_0) : (⟨S16x8x128x128, .f32⟩ : BufTy).Contents (Elt F) → (⟨S16x1x128x128, .f32⟩ : BufTy).Contents (Elt F)),
    reshape main_v5 main_v6 rfl shapeCasts_S16x1x128x128_S16x128x128,
    nullary main_c_0 (constantI S_ 32 0#32),
    TRef.unary (TRef.of (T := ⟨S_, .i32⟩) main_c_0) (TRef.of (T := ⟨S_, .f32⟩) main_call1_v0) (sitofp .f32),
    TRef.binary (TRef.of (T := ⟨S16x128x128, .f32⟩) main_v6) (TRef.of (T := ⟨S_, .f32⟩) main_call1_v0) (TRef.of (T := ⟨S16x130x130, .f32⟩) main_v7) (fun x v => pad S16x130x130 ![0, 0, 1] ![0, 2, 1] ![0, 0, 0] x v pads_S16x128x128_S16x130x130_000_020_110 h_S_),
    unary main_v1 main_v8 ((extractStridedSlice S16x1x128x128 ![0, 2, 0, 0] · slices_S16x8x128x128_S16x1x128x128_0_2_0_0) : (⟨S16x8x128x128, .f32⟩ : BufTy).Contents (Elt F) → (⟨S16x1x128x128, .f32⟩ : BufTy).Contents (Elt F)),
    reshape main_v8 main_v9 rfl shapeCasts_S16x1x128x128_S16x128x128,
    nullary main_c_1 (constantI S_ 32 0#32),
    TRef.unary (TRef.of (T := ⟨S_, .i32⟩) main_c_1) (TRef.of (T := ⟨S_, .f32⟩) main_call2_v0) (sitofp .f32),
    TRef.binary (TRef.of (T := ⟨S16x128x128, .f32⟩) main_v9) (TRef.of (T := ⟨S_, .f32⟩) main_call2_v0) (TRef.of (T := ⟨S16x130x130, .f32⟩) main_v10) (fun x v => pad S16x130x130 ![0, 0, 2] ![0, 2, 0] ![0, 0, 0] x v pads_S16x128x128_S16x130x130_000_020_200 h_S_),
    unary main_v1 main_v11 ((extractStridedSlice S16x1x128x128 ![0, 3, 0, 0] · slices_S16x8x128x128_S16x1x128x128_0_3_0_0) : (⟨S16x8x128x128, .f32⟩ : BufTy).Contents (Elt F) → (⟨S16x1x128x128, .f32⟩ : BufTy).Contents (Elt F)),
    reshape main_v11 main_v12 rfl shapeCasts_S16x1x128x128_S16x128x128,
    nullary main_c_2 (constantI S_ 32 0#32),
    TRef.unary (TRef.of (T := ⟨S_, .i32⟩) main_c_2) (TRef.of (T := ⟨S_, .f32⟩) main_call3_v0) (sitofp .f32),
    TRef.binary (TRef.of (T := ⟨S16x128x128, .f32⟩) main_v12) (TRef.of (T := ⟨S_, .f32⟩) main_call3_v0) (TRef.of (T := ⟨S16x130x130, .f32⟩) main_v13) (fun x v => pad S16x130x130 ![0, 1, 0] ![0, 1, 2] ![0, 0, 0] x v pads_S16x128x128_S16x130x130_000_110_020 h_S_),
    unary main_v1 main_v14 ((extractStridedSlice S16x1x128x128 ![0, 4, 0, 0] · slices_S16x8x128x128_S16x1x128x128_0_4_0_0) : (⟨S16x8x128x128, .f32⟩ : BufTy).Contents (Elt F) → (⟨S16x1x128x128, .f32⟩ : BufTy).Contents (Elt F)),
    reshape main_v14 main_v15 rfl shapeCasts_S16x1x128x128_S16x128x128,
    nullary main_c_3 (constantI S_ 32 0#32),
    TRef.unary (TRef.of (T := ⟨S_, .i32⟩) main_c_3) (TRef.of (T := ⟨S_, .f32⟩) main_call4_v0) (sitofp .f32),
    TRef.binary (TRef.of (T := ⟨S16x128x128, .f32⟩) main_v15) (TRef.of (T := ⟨S_, .f32⟩) main_call4_v0) (TRef.of (T := ⟨S16x130x130, .f32⟩) main_v16) (fun x v => pad S16x130x130 ![0, 1, 2] ![0, 1, 0] ![0, 0, 0] x v pads_S16x128x128_S16x130x130_000_110_200 h_S_),
    unary main_v1 main_v17 ((extractStridedSlice S16x1x128x128 ![0, 5, 0, 0] · slices_S16x8x128x128_S16x1x128x128_0_5_0_0) : (⟨S16x8x128x128, .f32⟩ : BufTy).Contents (Elt F) → (⟨S16x1x128x128, .f32⟩ : BufTy).Contents (Elt F)),
    reshape main_v17 main_v18 rfl shapeCasts_S16x1x128x128_S16x128x128,
    nullary main_c_4 (constantI S_ 32 0#32),
    TRef.unary (TRef.of (T := ⟨S_, .i32⟩) main_c_4) (TRef.of (T := ⟨S_, .f32⟩) main_call5_v0) (sitofp .f32),
    TRef.binary (TRef.of (T := ⟨S16x128x128, .f32⟩) main_v18) (TRef.of (T := ⟨S_, .f32⟩) main_call5_v0) (TRef.of (T := ⟨S16x130x130, .f32⟩) main_v19) (fun x v => pad S16x130x130 ![0, 2, 0] ![0, 0, 2] ![0, 0, 0] x v pads_S16x128x128_S16x130x130_000_200_020 h_S_),
    unary main_v1 main_v20 ((extractStridedSlice S16x1x128x128 ![0, 6, 0, 0] · slices_S16x8x128x128_S16x1x128x128_0_6_0_0) : (⟨S16x8x128x128, .f32⟩ : BufTy).Contents (Elt F) → (⟨S16x1x128x128, .f32⟩ : BufTy).Contents (Elt F)),
    reshape main_v20 main_v21 rfl shapeCasts_S16x1x128x128_S16x128x128,
    nullary main_c_5 (constantI S_ 32 0#32),
    TRef.unary (TRef.of (T := ⟨S_, .i32⟩) main_c_5) (TRef.of (T := ⟨S_, .f32⟩) main_call6_v0) (sitofp .f32),
    TRef.binary (TRef.of (T := ⟨S16x128x128, .f32⟩) main_v21) (TRef.of (T := ⟨S_, .f32⟩) main_call6_v0) (TRef.of (T := ⟨S16x130x130, .f32⟩) main_v22) (fun x v => pad S16x130x130 ![0, 2, 1] ![0, 0, 1] ![0, 0, 0] x v pads_S16x128x128_S16x130x130_000_200_110 h_S_),
    unary main_v1 main_v23 ((extractStridedSlice S16x1x128x128 ![0, 7, 0, 0] · slices_S16x8x128x128_S16x1x128x128_0_7_0_0) : (⟨S16x8x128x128, .f32⟩ : BufTy).Contents (Elt F) → (⟨S16x1x128x128, .f32⟩ : BufTy).Contents (Elt F)),
    reshape main_v23 main_v24 rfl shapeCasts_S16x1x128x128_S16x128x128,
    nullary main_c_6 (constantI S_ 32 0#32),
    TRef.unary (TRef.of (T := ⟨S_, .i32⟩) main_c_6) (TRef.of (T := ⟨S_, .f32⟩) main_call7_v0) (sitofp .f32),
    TRef.binary (TRef.of (T := ⟨S16x128x128, .f32⟩) main_v24) (TRef.of (T := ⟨S_, .f32⟩) main_call7_v0) (TRef.of (T := ⟨S16x130x130, .f32⟩) main_v25) (fun x v => pad S16x130x130 ![0, 2, 2] ![0, 0, 0] ![0, 0, 0] x v pads_S16x128x128_S16x130x130_000_200_200 h_S_),
    unary main_v4 main_v26 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    unary main_v7 main_v27 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    unary main_v10 main_v28 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    unary main_v13 main_v29 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    unary main_v16 main_v30 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    unary main_v19 main_v31 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    unary main_v22 main_v32 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    unary main_v25 main_v33 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    nary ![main_v26, main_v27, main_v28, main_v29, main_v30, main_v31, main_v32, main_v33] main_v34 (fun u => concatenate S16x8x130x130 1 [⟨S16x1x130x130, u 0⟩, ⟨S16x1x130x130, u 1⟩, ⟨S16x1x130x130, u 2⟩, ⟨S16x1x130x130, u 3⟩, ⟨S16x1x130x130, u 4⟩, ⟨S16x1x130x130, u 5⟩, ⟨S16x1x130x130, u 6⟩, ⟨S16x1x130x130, u 7⟩] concatenates_S16x1x130x130_S16x1x130x130_S16x1x130x130_S16x1x130x130_S16x1x130x130_S16x1x130x130_S16x1x130x130_S16x1x130x130_S16x8x130x130_d1),
    unary main_v34 main_v35 (Host.absf : (⟨S16x8x130x130, .f32⟩ : BufTy).Contents (Elt F) → (⟨S16x8x130x130, .f32⟩ : BufTy).Contents (Elt F)),
    nullary main_cst (constant S_ .f32 0x00000000#32),
    binary main_v35 main_cst main_v36 ((fun x v => Host.reduceAdd x v reducesTo_S16x8x130x130_S16x130x130_d1 h_S_) : (⟨S16x8x130x130, .f32⟩ : BufTy).Contents (Elt F) → (⟨S_, .f32⟩ : BufTy).Contents (Elt F) → (⟨S16x130x130, .f32⟩ : BufTy).Contents (Elt F)),
    unary main_v36 main_v37 (broadcastInDim S16x1x130x130 ![0, 2, 3] bcast_S16x130x130_S16x1x130x130_0_2_3 : (⟨S16x130x130, .f32⟩ : BufTy).Contents (Elt F) → (⟨S16x1x130x130, .f32⟩ : BufTy).Contents (Elt F)),
    unary main_v37 main_v38 (broadcastInDim S16x8x130x130 ![0, 1, 2, 3] bcast_S16x1x130x130_S16x8x130x130_0_1_2_3 : (⟨S16x1x130x130, .f32⟩ : BufTy).Contents (Elt F) → (⟨S16x8x130x130, .f32⟩ : BufTy).Contents (Elt F)),
    binary main_v34 main_v38 main_v39 (Host.divf : (⟨S16x8x130x130, .f32⟩ : BufTy).Contents (Elt F) → (⟨S16x8x130x130, .f32⟩ : BufTy).Contents (Elt F) → (⟨S16x8x130x130, .f32⟩ : BufTy).Contents (Elt F)),
    nullary main_cst_7 (constant S_ .f32 0x00000000#32),
    binary main_v39 main_cst_7 main_v40 ((fun x v => Host.reduceAdd x v reducesTo_S16x8x130x130_S16x130x130_d1 h_S_) : (⟨S16x8x130x130, .f32⟩ : BufTy).Contents (Elt F) → (⟨S_, .f32⟩ : BufTy).Contents (Elt F) → (⟨S16x130x130, .f32⟩ : BufTy).Contents (Elt F)),
    unary main_v40 main_v41 ((extractStridedSlice S16x128x128 ![0, 1, 1] · slices_S16x130x130_S16x128x128_0_1_1) : (⟨S16x130x130, .f32⟩ : BufTy).Contents (Elt F) → (⟨S16x128x128, .f32⟩ : BufTy).Contents (Elt F)) ]

/-- The references the window's operations write. -/
abbrev opsA_W : List (Ref sig .tc) :=
  [main_v0, main_v1, main_v2, main_v3, main_c, main_call0_v0, main_v4, main_v5, main_v6, main_c_0, main_call1_v0, main_v7, main_v8, main_v9, main_c_1, main_call2_v0, main_v10, main_v11, main_v12, main_c_2, main_call3_v0, main_v13, main_v14, main_v15, main_c_3, main_call4_v0, main_v16, main_v17, main_v18, main_c_4, main_call5_v0, main_v19, main_v20, main_v21, main_c_5, main_call6_v0, main_v22, main_v23, main_v24, main_c_6, main_call7_v0, main_v25, main_v26, main_v27, main_v28, main_v29, main_v30, main_v31, main_v32, main_v33, main_v34, main_v35, main_cst, main_v36, main_v37, main_v38, main_v39, main_cst_7, main_v40, main_v41]

set_option maxRecDepth 16384 in
theorem opsA_writes : (opsA : List (HloOp τ sig (Elt F))).Forall fun op => op.writes ⊆ (opsA_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

/-- A buffer the window does not write keeps its contents. -/
theorem opsA_of (V : Valuation τ sig (Elt F)) (r : Ref sig .tc) (h : r ∉ opsA_W) :
    after opsA V (Proc.devRef .tc r) = V (Proc.devRef .tc r) :=
  StableHlo.after_of_writes_sub opsA V opsA_writes h

set_option maxRecDepth 16384 in
set_option maxHeartbeats 4000000 in
/-- The first phase's normalised padded gates after the window. -/
theorem opsA_v39 (V : Valuation τ sig (Elt F)) (x0 : (⟨S24x128x128x16, .f32⟩ : BufTy).Contents (Elt F))
    (h0 : V (Proc.devRef .tc main_arg0) = x0) :
    after opsA V (Proc.devRef .tc main_v39) = ReadP.val_main_v39 (F := F) x0 := by
  after_results_simp8
  simp only [h0]
  rfl

set_option maxRecDepth 16384 in
set_option maxHeartbeats 4000000 in
/-- The first phase's gate sum after the window. -/
theorem opsA_v41 (V : Valuation τ sig (Elt F)) (x0 : (⟨S24x128x128x16, .f32⟩ : BufTy).Contents (Elt F))
    (h0 : V (Proc.devRef .tc main_arg0) = x0) :
    after opsA V (Proc.devRef .tc main_v41) = ReadP.val_main_v41 (F := F) x0 := by
  after_results_simp8
  simp only [h0]
  rfl

end Cert.ReferenceIdeal.RefRun

end
-- ==== Proof.RefRunW2.lean ====
/- The reference's second window: from the guidance planes (the first argument), the second phase's eight padded
   neighbour shifts, their normalisation by the sum of absolute values, and the sum of the normalised gates. -/
import proofs.«139537_j58806692216890_2_alg».proof.Proof.ReadP
import proofs.«139537_j58806692216890_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev opsB : List (HloOp τ sig (Elt F)) :=
  [ unary main_arg0 main_v42 ((extractStridedSlice S8x128x128x16 ![8, 0, 0, 0] · slices_S24x128x128x16_S8x128x128x16_8_0_0_0) : (⟨S24x128x128x16, .f32⟩ : BufTy).Contents (Elt F) → (⟨S8x128x128x16, .f32⟩ : BufTy).Contents (Elt F)),
    unary main_v42 main_v43 ((transpose S128x8x128x16 [2, 0, 1, 3] · transposes_S8x128x128x16_S128x8x128x16_2_0_1_3) : (⟨S8x128x128x16, .f32⟩ : BufTy).Contents (Elt F) → (⟨S128x8x128x16, .f32⟩ : BufTy).Contents (Elt F)),
    unary main_v43 main_v44 ((extractStridedSlice S128x1x128x16 ![0, 0, 0, 0] · slices_S128x8x128x16_S128x1x128x16_0_0_0_0) : (⟨S128x8x128x16, .f32⟩ : BufTy).Contents (Elt F) → (⟨S128x1x128x16, .f32⟩ : BufTy).Contents (Elt F)),
    reshape main_v44 main_v45 rfl shapeCasts_S128x1x128x16_S128x128x16,
    nullary main_c_8 (constantI S_ 32 0#32),
    TRef.unary (TRef.of (T := ⟨S_, .i32⟩) main_c_8) (TRef.of (T := ⟨S_, .f32⟩) main_call8_v0) (sitofp .f32),
    TRef.binary (TRef.of (T := ⟨S128x128x16, .f32⟩) main_v45) (TRef.of (T := ⟨S_, .f32⟩) main_call8_v0) (TRef.of (T := ⟨S128x130x18, .f32⟩) main_v46) (fun x v => pad S128x130x18 ![0, 0, 0] ![0, 2, 2] ![0, 0, 0] x v pads_S128x128x16_S128x130x18_000_020_020 h_S_),
    unary main_v43 main_v47 ((extractStridedSlice S128x1x128x16 ![0, 1, 0, 0] · slices_S128x8x128x16_S128x1x128x16_0_1_0_0) : (⟨S128x8x128x16, .f32⟩ : BufTy).Contents (Elt F) → (⟨S128x1x128x16, .f32⟩ : BufTy).Contents (Elt F)),
    reshape main_v47 main_v48 rfl shapeCasts_S128x1x128x16_S128x128x16,
    nullary main_c_9 (constantI S_ 32 0#32),
    TRef.unary (TRef.of (T := ⟨S_, .i32⟩) main_c_9) (TRef.of (T := ⟨S_, .f32⟩) main_call9_v0) (sitofp .f32),
    TRef.binary (TRef.of (T := ⟨S128x128x16, .f32⟩) main_v48) (TRef.of (T := ⟨S_, .f32⟩) main_call9_v0) (TRef.of (T := ⟨S128x130x18, .f32⟩) main_v49) (fun x v => pad S128x130x18 ![0, 0, 1] ![0, 2, 1] ![0, 0, 0] x v pads_S128x128x16_S128x130x18_000_020_110 h_S_),
    unary main_v43 main_v50 ((extractStridedSlice S128x1x128x16 ![0, 2, 0, 0] · slices_S128x8x128x16_S128x1x128x16_0_2_0_0) : (⟨S128x8x128x16, .f32⟩ : BufTy).Contents (Elt F) → (⟨S128x1x128x16, .f32⟩ : BufTy).Contents (Elt F)),
    reshape main_v50 main_v51 rfl shapeCasts_S128x1x128x16_S128x128x16,
    nullary main_c_10 (constantI S_ 32 0#32),
    TRef.unary (TRef.of (T := ⟨S_, .i32⟩) main_c_10) (TRef.of (T := ⟨S_, .f32⟩) main_call10_v0) (sitofp .f32),
    TRef.binary (TRef.of (T := ⟨S128x128x16, .f32⟩) main_v51) (TRef.of (T := ⟨S_, .f32⟩) main_call10_v0) (TRef.of (T := ⟨S128x130x18, .f32⟩) main_v52) (fun x v => pad S128x130x18 ![0, 0, 2] ![0, 2, 0] ![0, 0, 0] x v pads_S128x128x16_S128x130x18_000_020_200 h_S_),
    unary main_v43 main_v53 ((extractStridedSlice S128x1x128x16 ![0, 3, 0, 0] · slices_S128x8x128x16_S128x1x128x16_0_3_0_0) : (⟨S128x8x128x16, .f32⟩ : BufTy).Contents (Elt F) → (⟨S128x1x128x16, .f32⟩ : BufTy).Contents (Elt F)),
    reshape main_v53 main_v54 rfl shapeCasts_S128x1x128x16_S128x128x16,
    nullary main_c_11 (constantI S_ 32 0#32),
    TRef.unary (TRef.of (T := ⟨S_, .i32⟩) main_c_11) (TRef.of (T := ⟨S_, .f32⟩) main_call11_v0) (sitofp .f32),
    TRef.binary (TRef.of (T := ⟨S128x128x16, .f32⟩) main_v54) (TRef.of (T := ⟨S_, .f32⟩) main_call11_v0) (TRef.of (T := ⟨S128x130x18, .f32⟩) main_v55) (fun x v => pad S128x130x18 ![0, 1, 0] ![0, 1, 2] ![0, 0, 0] x v pads_S128x128x16_S128x130x18_000_110_020 h_S_),
    unary main_v43 main_v56 ((extractStridedSlice S128x1x128x16 ![0, 4, 0, 0] · slices_S128x8x128x16_S128x1x128x16_0_4_0_0) : (⟨S128x8x128x16, .f32⟩ : BufTy).Contents (Elt F) → (⟨S128x1x128x16, .f32⟩ : BufTy).Contents (Elt F)),
    reshape main_v56 main_v57 rfl shapeCasts_S128x1x128x16_S128x128x16,
    nullary main_c_12 (constantI S_ 32 0#32),
    TRef.unary (TRef.of (T := ⟨S_, .i32⟩) main_c_12) (TRef.of (T := ⟨S_, .f32⟩) main_call12_v0) (sitofp .f32),
    TRef.binary (TRef.of (T := ⟨S128x128x16, .f32⟩) main_v57) (TRef.of (T := ⟨S_, .f32⟩) main_call12_v0) (TRef.of (T := ⟨S128x130x18, .f32⟩) main_v58) (fun x v => pad S128x130x18 ![0, 1, 2] ![0, 1, 0] ![0, 0, 0] x v pads_S128x128x16_S128x130x18_000_110_200 h_S_),
    unary main_v43 main_v59 ((extractStridedSlice S128x1x128x16 ![0, 5, 0, 0] · slices_S128x8x128x16_S128x1x128x16_0_5_0_0) : (⟨S128x8x128x16, .f32⟩ : BufTy).Contents (Elt F) → (⟨S128x1x128x16, .f32⟩ : BufTy).Contents (Elt F)),
    reshape main_v59 main_v60 rfl shapeCasts_S128x1x128x16_S128x128x16,
    nullary main_c_13 (constantI S_ 32 0#32),
    TRef.unary (TRef.of (T := ⟨S_, .i32⟩) main_c_13) (TRef.of (T := ⟨S_, .f32⟩) main_call13_v0) (sitofp .f32),
    TRef.binary (TRef.of (T := ⟨S128x128x16, .f32⟩) main_v60) (TRef.of (T := ⟨S_, .f32⟩) main_call13_v0) (TRef.of (T := ⟨S128x130x18, .f32⟩) main_v61) (fun x v => pad S128x130x18 ![0, 2, 0] ![0, 0, 2] ![0, 0, 0] x v pads_S128x128x16_S128x130x18_000_200_020 h_S_),
    unary main_v43 main_v62 ((extractStridedSlice S128x1x128x16 ![0, 6, 0, 0] · slices_S128x8x128x16_S128x1x128x16_0_6_0_0) : (⟨S128x8x128x16, .f32⟩ : BufTy).Contents (Elt F) → (⟨S128x1x128x16, .f32⟩ : BufTy).Contents (Elt F)),
    reshape main_v62 main_v63 rfl shapeCasts_S128x1x128x16_S128x128x16,
    nullary main_c_14 (constantI S_ 32 0#32),
    TRef.unary (TRef.of (T := ⟨S_, .i32⟩) main_c_14) (TRef.of (T := ⟨S_, .f32⟩) main_call14_v0) (sitofp .f32),
    TRef.binary (TRef.of (T := ⟨S128x128x16, .f32⟩) main_v63) (TRef.of (T := ⟨S_, .f32⟩) main_call14_v0) (TRef.of (T := ⟨S128x130x18, .f32⟩) main_v64) (fun x v => pad S128x130x18 ![0, 2, 1] ![0, 0, 1] ![0, 0, 0] x v pads_S128x128x16_S128x130x18_000_200_110 h_S_),
    unary main_v43 main_v65 ((extractStridedSlice S128x1x128x16 ![0, 7, 0, 0] · slices_S128x8x128x16_S128x1x128x16_0_7_0_0) : (⟨S128x8x128x16, .f32⟩ : BufTy).Contents (Elt F) → (⟨S128x1x128x16, .f32⟩ : BufTy).Contents (Elt F)),
    reshape main_v65 main_v66 rfl shapeCasts_S128x1x128x16_S128x128x16,
    nullary main_c_15 (constantI S_ 32 0#32),
    TRef.unary (TRef.of (T := ⟨S_, .i32⟩) main_c_15) (TRef.of (T := ⟨S_, .f32⟩) main_call15_v0) (sitofp .f32),
    TRef.binary (TRef.of (T := ⟨S128x128x16, .f32⟩) main_v66) (TRef.of (T := ⟨S_, .f32⟩) main_call15_v0) (TRef.of (T := ⟨S128x130x18, .f32⟩) main_v67) (fun x v => pad S128x130x18 ![0, 2, 2] ![0, 0, 0] ![0, 0, 0] x v pads_S128x128x16_S128x130x18_000_200_200 h_S_),
    unary main_v46 main_v68 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v49 main_v69 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v52 main_v70 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v55 main_v71 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v58 main_v72 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v61 main_v73 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v64 main_v74 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v67 main_v75 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    nary ![main_v68, main_v69, main_v70, main_v71, main_v72, main_v73, main_v74, main_v75] main_v76 (fun u => concatenate S128x8x130x18 1 [⟨S128x1x130x18, u 0⟩, ⟨S128x1x130x18, u 1⟩, ⟨S128x1x130x18, u 2⟩, ⟨S128x1x130x18, u 3⟩, ⟨S128x1x130x18, u 4⟩, ⟨S128x1x130x18, u 5⟩, ⟨S128x1x130x18, u 6⟩, ⟨S128x1x130x18, u 7⟩] concatenates_S128x1x130x18_S128x1x130x18_S128x1x130x18_S128x1x130x18_S128x1x130x18_S128x1x130x18_S128x1x130x18_S128x1x130x18_S128x8x130x18_d1),
    unary main_v76 main_v77 (Host.absf : (⟨S128x8x130x18, .f32⟩ : BufTy).Contents (Elt F) → (⟨S128x8x130x18, .f32⟩ : BufTy).Contents (Elt F)),
    nullary main_cst_16 (constant S_ .f32 0x00000000#32),
    binary main_v77 main_cst_16 main_v78 ((fun x v => Host.reduceAdd x v reducesTo_S128x8x130x18_S128x130x18_d1 h_S_) : (⟨S128x8x130x18, .f32⟩ : BufTy).Contents (Elt F) → (⟨S_, .f32⟩ : BufTy).Contents (Elt F) → (⟨S128x130x18, .f32⟩ : BufTy).Contents (Elt F)),
    unary main_v78 main_v79 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v79 main_v80 (broadcastInDim S128x8x130x18 ![0, 1, 2, 3] bcast_S128x1x130x18_S128x8x130x18_0_1_2_3 : (⟨S128x1x130x18, .f32⟩ : BufTy).Contents (Elt F) → (⟨S128x8x130x18, .f32⟩ : BufTy).Contents (Elt F)),
    binary main_v76 main_v80 main_v81 (Host.divf : (⟨S128x8x130x18, .f32⟩ : BufTy).Contents (Elt F) → (⟨S128x8x130x18, .f32⟩ : BufTy).Contents (Elt F) → (⟨S128x8x130x18, .f32⟩ : BufTy).Contents (Elt F)),
    nullary main_cst_17 (constant S_ .f32 0x00000000#32),
    binary main_v81 main_cst_17 main_v82 ((fun x v => Host.reduceAdd x v reducesTo_S128x8x130x18_S128x130x18_d1 h_S_) : (⟨S128x8x130x18, .f32⟩ : BufTy).Contents (Elt F) → (⟨S_, .f32⟩ : BufTy).Contents (Elt F) → (⟨S128x130x18, .f32⟩ : BufTy).Contents (Elt F)),
    unary main_v82 main_v83 ((extractStridedSlice S128x128x16 ![0, 1, 1] · slices_S128x130x18_S128x128x16_0_1_1) : (⟨S128x130x18, .f32⟩ : BufTy).Contents (Elt F) → (⟨S128x128x16, .f32⟩ : BufTy).Contents (Elt F)) ]

/-- The references the window's operations write. -/
abbrev opsB_W : List (Ref sig .tc) :=
  [main_v42, main_v43, main_v44, main_v45, main_c_8, main_call8_v0, main_v46, main_v47, main_v48, main_c_9, main_call9_v0, main_v49, main_v50, main_v51, main_c_10, main_call10_v0, main_v52, main_v53, main_v54, main_c_11, main_call11_v0, main_v55, main_v56, main_v57, main_c_12, main_call12_v0, main_v58, main_v59, main_v60, main_c_13, main_call13_v0, main_v61, main_v62, main_v63, main_c_14, main_call14_v0, main_v64, main_v65, main_v66, main_c_15, main_call15_v0, main_v67, main_v68, main_v69, main_v70, main_v71, main_v72, main_v73, main_v74, main_v75, main_v76, main_v77, main_cst_16, main_v78, main_v79, main_v80, main_v81, main_cst_17, main_v82, main_v83]

set_option maxRecDepth 16384 in
theorem opsB_writes : (opsB : List (HloOp τ sig (Elt F))).Forall fun op => op.writes ⊆ (opsB_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

/-- A buffer the window does not write keeps its contents. -/
theorem opsB_of (V : Valuation τ sig (Elt F)) (r : Ref sig .tc) (h : r ∉ opsB_W) :
    after opsB V (Proc.devRef .tc r) = V (Proc.devRef .tc r) :=
  StableHlo.after_of_writes_sub opsB V opsB_writes h

set_option maxRecDepth 16384 in
set_option maxHeartbeats 4000000 in
/-- The second phase's normalised padded gates after the window. -/
theorem opsB_v81 (V : Valuation τ sig (Elt F)) (x0 : (⟨S24x128x128x16, .f32⟩ : BufTy).Contents (Elt F))
    (h0 : V (Proc.devRef .tc main_arg0) = x0) :
    after opsB V (Proc.devRef .tc main_v81) = ReadP.val_main_v81 (F := F) x0 := by
  after_results_simp8
  simp only [h0]
  rfl

set_option maxRecDepth 16384 in
set_option maxHeartbeats 4000000 in
/-- The second phase's gate sum after the window. -/
theorem opsB_v83 (V : Valuation τ sig (Elt F)) (x0 : (⟨S24x128x128x16, .f32⟩ : BufTy).Contents (Elt F))
    (h0 : V (Proc.devRef .tc main_arg0) = x0) :
    after opsB V (Proc.devRef .tc main_v83) = ReadP.val_main_v83 (F := F) x0 := by
  after_results_simp8
  simp only [h0]
  rfl

end Cert.ReferenceIdeal.RefRun

end
-- ==== Proof.RefRunW3.lean ====
/- The reference's third window: from the guidance planes (the first argument), the third phase's eight padded
   neighbour shifts, their normalisation by the sum of absolute values, and the sum of the normalised gates. -/
import proofs.«139537_j58806692216890_2_alg».proof.Proof.ReadP
import proofs.«139537_j58806692216890_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 60 operations, in order. -/
abbrev opsC : List (HloOp τ sig (Elt F)) :=
  [ unary main_arg0 main_v84 ((extractStridedSlice S8x128x128x16 ![16, 0, 0, 0] · slices_S24x128x128x16_S8x128x128x16_16_0_0_0) : (⟨S24x128x128x16, .f32⟩ : BufTy).Contents (Elt F) → (⟨S8x128x128x16, .f32⟩ : BufTy).Contents (Elt F)),
    unary main_v84 main_v85 ((transpose S128x8x128x16 [1, 0, 2, 3] · transposes_S8x128x128x16_S128x8x128x16_1_0_2_3) : (⟨S8x128x128x16, .f32⟩ : BufTy).Contents (Elt F) → (⟨S128x8x128x16, .f32⟩ : BufTy).Contents (Elt F)),
    unary main_v85 main_v86 ((extractStridedSlice S128x1x128x16 ![0, 0, 0, 0] · slices_S128x8x128x16_S128x1x128x16_0_0_0_0) : (⟨S128x8x128x16, .f32⟩ : BufTy).Contents (Elt F) → (⟨S128x1x128x16, .f32⟩ : BufTy).Contents (Elt F)),
    reshape main_v86 main_v87 rfl shapeCasts_S128x1x128x16_S128x128x16,
    nullary main_c_18 (constantI S_ 32 0#32),
    TRef.unary (TRef.of (T := ⟨S_, .i32⟩) main_c_18) (TRef.of (T := ⟨S_, .f32⟩) main_call16_v0) (sitofp .f32),
    TRef.binary (TRef.of (T := ⟨S128x128x16, .f32⟩) main_v87) (TRef.of (T := ⟨S_, .f32⟩) main_call16_v0) (TRef.of (T := ⟨S128x130x18, .f32⟩) main_v88) (fun x v => pad S128x130x18 ![0, 0, 0] ![0, 2, 2] ![0, 0, 0] x v pads_S128x128x16_S128x130x18_000_020_020 h_S_),
    unary main_v85 main_v89 ((extractStridedSlice S128x1x128x16 ![0, 1, 0, 0] · slices_S128x8x128x16_S128x1x128x16_0_1_0_0) : (⟨S128x8x128x16, .f32⟩ : BufTy).Contents (Elt F) → (⟨S128x1x128x16, .f32⟩ : BufTy).Contents (Elt F)),
    reshape main_v89 main_v90 rfl shapeCasts_S128x1x128x16_S128x128x16,
    nullary main_c_19 (constantI S_ 32 0#32),
    TRef.unary (TRef.of (T := ⟨S_, .i32⟩) main_c_19) (TRef.of (T := ⟨S_, .f32⟩) main_call17_v0) (sitofp .f32),
    TRef.binary (TRef.of (T := ⟨S128x128x16, .f32⟩) main_v90) (TRef.of (T := ⟨S_, .f32⟩) main_call17_v0) (TRef.of (T := ⟨S128x130x18, .f32⟩) main_v91) (fun x v => pad S128x130x18 ![0, 0, 1] ![0, 2, 1] ![0, 0, 0] x v pads_S128x128x16_S128x130x18_000_020_110 h_S_),
    unary main_v85 main_v92 ((extractStridedSlice S128x1x128x16 ![0, 2, 0, 0] · slices_S128x8x128x16_S128x1x128x16_0_2_0_0) : (⟨S128x8x128x16, .f32⟩ : BufTy).Contents (Elt F) → (⟨S128x1x128x16, .f32⟩ : BufTy).Contents (Elt F)),
    reshape main_v92 main_v93 rfl shapeCasts_S128x1x128x16_S128x128x16,
    nullary main_c_20 (constantI S_ 32 0#32),
    TRef.unary (TRef.of (T := ⟨S_, .i32⟩) main_c_20) (TRef.of (T := ⟨S_, .f32⟩) main_call18_v0) (sitofp .f32),
    TRef.binary (TRef.of (T := ⟨S128x128x16, .f32⟩) main_v93) (TRef.of (T := ⟨S_, .f32⟩) main_call18_v0) (TRef.of (T := ⟨S128x130x18, .f32⟩) main_v94) (fun x v => pad S128x130x18 ![0, 0, 2] ![0, 2, 0] ![0, 0, 0] x v pads_S128x128x16_S128x130x18_000_020_200 h_S_),
    unary main_v85 main_v95 ((extractStridedSlice S128x1x128x16 ![0, 3, 0, 0] · slices_S128x8x128x16_S128x1x128x16_0_3_0_0) : (⟨S128x8x128x16, .f32⟩ : BufTy).Contents (Elt F) → (⟨S128x1x128x16, .f32⟩ : BufTy).Contents (Elt F)),
    reshape main_v95 main_v96 rfl shapeCasts_S128x1x128x16_S128x128x16,
    nullary main_c_21 (constantI S_ 32 0#32),
    TRef.unary (TRef.of (T := ⟨S_, .i32⟩) main_c_21) (TRef.of (T := ⟨S_, .f32⟩) main_call19_v0) (sitofp .f32),
    TRef.binary (TRef.of (T := ⟨S128x128x16, .f32⟩) main_v96) (TRef.of (T := ⟨S_, .f32⟩) main_call19_v0) (TRef.of (T := ⟨S128x130x18, .f32⟩) main_v97) (fun x v => pad S128x130x18 ![0, 1, 0] ![0, 1, 2] ![0, 0, 0] x v pads_S128x128x16_S128x130x18_000_110_020 h_S_),
    unary main_v85 main_v98 ((extractStridedSlice S128x1x128x16 ![0, 4, 0, 0] · slices_S128x8x128x16_S128x1x128x16_0_4_0_0) : (⟨S128x8x128x16, .f32⟩ : BufTy).Contents (Elt F) → (⟨S128x1x128x16, .f32⟩ : BufTy).Contents (Elt F)),
    reshape main_v98 main_v99 rfl shapeCasts_S128x1x128x16_S128x128x16,
    nullary main_c_22 (constantI S_ 32 0#32),
    TRef.unary (TRef.of (T := ⟨S_, .i32⟩) main_c_22) (TRef.of (T := ⟨S_, .f32⟩) main_call20_v0) (sitofp .f32),
    TRef.binary (TRef.of (T := ⟨S128x128x16, .f32⟩) main_v99) (TRef.of (T := ⟨S_, .f32⟩) main_call20_v0) (TRef.of (T := ⟨S128x130x18, .f32⟩) main_v100) (fun x v => pad S128x130x18 ![0, 1, 2] ![0, 1, 0] ![0, 0, 0] x v pads_S128x128x16_S128x130x18_000_110_200 h_S_),
    unary main_v85 main_v101 ((extractStridedSlice S128x1x128x16 ![0, 5, 0, 0] · slices_S128x8x128x16_S128x1x128x16_0_5_0_0) : (⟨S128x8x128x16, .f32⟩ : BufTy).Contents (Elt F) → (⟨S128x1x128x16, .f32⟩ : BufTy).Contents (Elt F)),
    reshape main_v101 main_v102 rfl shapeCasts_S128x1x128x16_S128x128x16,
    nullary main_c_23 (constantI S_ 32 0#32),
    TRef.unary (TRef.of (T := ⟨S_, .i32⟩) main_c_23) (TRef.of (T := ⟨S_, .f32⟩) main_call21_v0) (sitofp .f32),
    TRef.binary (TRef.of (T := ⟨S128x128x16, .f32⟩) main_v102) (TRef.of (T := ⟨S_, .f32⟩) main_call21_v0) (TRef.of (T := ⟨S128x130x18, .f32⟩) main_v103) (fun x v => pad S128x130x18 ![0, 2, 0] ![0, 0, 2] ![0, 0, 0] x v pads_S128x128x16_S128x130x18_000_200_020 h_S_),
    unary main_v85 main_v104 ((extractStridedSlice S128x1x128x16 ![0, 6, 0, 0] · slices_S128x8x128x16_S128x1x128x16_0_6_0_0) : (⟨S128x8x128x16, .f32⟩ : BufTy).Contents (Elt F) → (⟨S128x1x128x16, .f32⟩ : BufTy).Contents (Elt F)),
    reshape main_v104 main_v105 rfl shapeCasts_S128x1x128x16_S128x128x16,
    nullary main_c_24 (constantI S_ 32 0#32),
    TRef.unary (TRef.of (T := ⟨S_, .i32⟩) main_c_24) (TRef.of (T := ⟨S_, .f32⟩) main_call22_v0) (sitofp .f32),
    TRef.binary (TRef.of (T := ⟨S128x128x16, .f32⟩) main_v105) (TRef.of (T := ⟨S_, .f32⟩) main_call22_v0) (TRef.of (T := ⟨S128x130x18, .f32⟩) main_v106) (fun x v => pad S128x130x18 ![0, 2, 1] ![0, 0, 1] ![0, 0, 0] x v pads_S128x128x16_S128x130x18_000_200_110 h_S_),
    unary main_v85 main_v107 ((extractStridedSlice S128x1x128x16 ![0, 7, 0, 0] · slices_S128x8x128x16_S128x1x128x16_0_7_0_0) : (⟨S128x8x128x16, .f32⟩ : BufTy).Contents (Elt F) → (⟨S128x1x128x16, .f32⟩ : BufTy).Contents (Elt F)),
    reshape main_v107 main_v108 rfl shapeCasts_S128x1x128x16_S128x128x16,
    nullary main_c_25 (constantI S_ 32 0#32),
    TRef.unary (TRef.of (T := ⟨S_, .i32⟩) main_c_25) (TRef.of (T := ⟨S_, .f32⟩) main_call23_v0) (sitofp .f32),
    TRef.binary (TRef.of (T := ⟨S128x128x16, .f32⟩) main_v108) (TRef.of (T := ⟨S_, .f32⟩) main_call23_v0) (TRef.of (T := ⟨S128x130x18, .f32⟩) main_v109) (fun x v => pad S128x130x18 ![0, 2, 2] ![0, 0, 0] ![0, 0, 0] x v pads_S128x128x16_S128x130x18_000_200_200 h_S_),
    unary main_v88 main_v110 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v91 main_v111 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v94 main_v112 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v97 main_v113 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v100 main_v114 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v103 main_v115 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v106 main_v116 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v109 main_v117 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    nary ![main_v110, main_v111, main_v112, main_v113, main_v114, main_v115, main_v116, main_v117] main_v118 (fun u => concatenate S128x8x130x18 1 [⟨S128x1x130x18, u 0⟩, ⟨S128x1x130x18, u 1⟩, ⟨S128x1x130x18, u 2⟩, ⟨S128x1x130x18, u 3⟩, ⟨S128x1x130x18, u 4⟩, ⟨S128x1x130x18, u 5⟩, ⟨S128x1x130x18, u 6⟩, ⟨S128x1x130x18, u 7⟩] concatenates_S128x1x130x18_S128x1x130x18_S128x1x130x18_S128x1x130x18_S128x1x130x18_S128x1x130x18_S128x1x130x18_S128x1x130x18_S128x8x130x18_d1),
    unary main_v118 main_v119 (Host.absf : (⟨S128x8x130x18, .f32⟩ : BufTy).Contents (Elt F) → (⟨S128x8x130x18, .f32⟩ : BufTy).Contents (Elt F)),
    nullary main_cst_26 (constant S_ .f32 0x00000000#32),
    binary main_v119 main_cst_26 main_v120 ((fun x v => Host.reduceAdd x v reducesTo_S128x8x130x18_S128x130x18_d1 h_S_) : (⟨S128x8x130x18, .f32⟩ : BufTy).Contents (Elt F) → (⟨S_, .f32⟩ : BufTy).Contents (Elt F) → (⟨S128x130x18, .f32⟩ : BufTy).Contents (Elt F)),
    unary main_v120 main_v121 (broadcastInDim S128x1x130x18 ![0, 2, 3] bcast_S128x130x18_S128x1x130x18_0_2_3 : (⟨S128x130x18, .f32⟩ : BufTy).Contents (Elt F) → (⟨S128x1x130x18, .f32⟩ : BufTy).Contents (Elt F)),
    unary main_v121 main_v122 (broadcastInDim S128x8x130x18 ![0, 1, 2, 3] bcast_S128x1x130x18_S128x8x130x18_0_1_2_3 : (⟨S128x1x130x18, .f32⟩ : BufTy).Contents (Elt F) → (⟨S128x8x130x18, .f32⟩ : BufTy).Contents (Elt F)),
    binary main_v118 main_v122 main_v123 (Host.divf : (⟨S128x8x130x18, .f32⟩ : BufTy).Contents (Elt F) → (⟨S128x8x130x18, .f32⟩ : BufTy).Contents (Elt F) → (⟨S128x8x130x18, .f32⟩ : BufTy).Contents (Elt F)),
    nullary main_cst_27 (constant S_ .f32 0x00000000#32),
    binary main_v123 main_cst_27 main_v124 ((fun x v => Host.reduceAdd x v reducesTo_S128x8x130x18_S128x130x18_d1 h_S_) : (⟨S128x8x130x18, .f32⟩ : BufTy).Contents (Elt F) → (⟨S_, .f32⟩ : BufTy).Contents (Elt F) → (⟨S128x130x18, .f32⟩ : BufTy).Contents (Elt F)),
    unary main_v124 main_v125 ((extractStridedSlice S128x128x16 ![0, 1, 1] · slices_S128x130x18_S128x128x16_0_1_1) : (⟨S128x130x18, .f32⟩ : BufTy).Contents (Elt F) → (⟨S128x128x16, .f32⟩ : BufTy).Contents (Elt F)) ]

/-- The references the window's operations write. -/
abbrev opsC_W : List (Ref sig .tc) :=
  [main_v84, main_v85, main_v86, main_v87, main_c_18, main_call16_v0, main_v88, main_v89, main_v90, main_c_19, main_call17_v0, main_v91, main_v92, main_v93, main_c_20, main_call18_v0, main_v94, main_v95, main_v96, main_c_21, main_call19_v0, main_v97, main_v98, main_v99, main_c_22, main_call20_v0, main_v100, main_v101, main_v102, main_c_23, main_call21_v0, main_v103, main_v104, main_v105, main_c_24, main_call22_v0, main_v106, main_v107, main_v108, main_c_25, main_call23_v0, main_v109, main_v110, main_v111, main_v112, main_v113, main_v114, main_v115, main_v116, main_v117, main_v118, main_v119, main_cst_26, main_v120, main_v121, main_v122, main_v123, main_cst_27, main_v124, main_v125]

set_option maxRecDepth 16384 in
theorem opsC_writes : (opsC : List (HloOp τ sig (Elt F))).Forall fun op => op.writes ⊆ (opsC_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

/-- A buffer the window does not write keeps its contents. -/
theorem opsC_of (V : Valuation τ sig (Elt F)) (r : Ref sig .tc) (h : r ∉ opsC_W) :
    after opsC V (Proc.devRef .tc r) = V (Proc.devRef .tc r) :=
  StableHlo.after_of_writes_sub opsC V opsC_writes h

set_option maxRecDepth 16384 in
set_option maxHeartbeats 4000000 in
/-- The third phase's normalised padded gates after the window. -/
theorem opsC_v123 (V : Valuation τ sig (Elt F)) (x0 : (⟨S24x128x128x16, .f32⟩ : BufTy).Contents (Elt F))
    (h0 : V (Proc.devRef .tc main_arg0) = x0) :
    after opsC V (Proc.devRef .tc main_v123) = ReadP.val_main_v123 (F := F) x0 := by
  after_results_simp8
  simp only [h0]
  rfl

set_option maxRecDepth 16384 in
set_option maxHeartbeats 4000000 in
/-- The third phase's gate sum after the window. -/
theorem opsC_v125 (V : Valuation τ sig (Elt F)) (x0 : (⟨S24x128x128x16, .f32⟩ : BufTy).Contents (Elt F))
    (h0 : V (Proc.devRef .tc main_arg0) = x0) :
    after opsC V (Proc.devRef .tc main_v125) = ReadP.val_main_v125 (F := F) x0 := by
  after_results_simp8
  simp only [h0]
  rfl

end Cert.ReferenceIdeal.RefRun

end
-- ==== Proof.RefRunW4.lean ====
/- The reference's fourth window: the first phase's propagation of the data (the second argument) through its
   normalised gates and gate sum, and the transpositions of its result for the second phase. -/
import proofs.«139537_j58806692216890_2_alg».proof.Proof.ReadP
import proofs.«139537_j58806692216890_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 49 operations, in order. -/
abbrev opsD : List (HloOp τ sig (Elt F)) :=
  [ unary main_arg1 main_v126 ((transpose S16x20x128x128 [3, 0, 1, 2] · transposes_S20x128x128x16_S16x20x128x128_3_0_1_2) : (⟨S20x128x128x16, .f32⟩ : BufTy).Contents (Elt F) → (⟨S16x20x128x128, .f32⟩ : BufTy).Contents (Elt F)),
    unary main_v39 main_v127 (broadcastInDim S16x8x1x130x130 ![0, 1, 3, 4] bcast_S16x8x130x130_S16x8x1x130x130_0_1_3_4 : (⟨S16x8x130x130, .f32⟩ : BufTy).Contents (Elt F) → (⟨S16x8x1x130x130, .f32⟩ : BufTy).Contents (Elt F)),
    nullary main_c_28 (constantI S_ 32 0#32),
    TRef.unary (TRef.of (T := ⟨S_, .i32⟩) main_c_28) (TRef.of (T := ⟨S_, .f32⟩) main_call24_v0) (sitofp .f32),
    TRef.binary (TRef.of (T := ⟨S16x20x128x128, .f32⟩) main_v126) (TRef.of (T := ⟨S_, .f32⟩) main_call24_v0) (TRef.of (T := ⟨S16x20x130x130, .f32⟩) main_v128) (fun x v => pad S16x20x130x130 ![0, 0, 0, 0] ![0, 0, 2, 2] ![0, 0, 0, 0] x v pads_S16x20x128x128_S16x20x130x130_000_000_020_020 h_S_),
    nullary main_c_29 (constantI S_ 32 0#32),
    TRef.unary (TRef.of (T := ⟨S_, .i32⟩) main_c_29) (TRef.of (T := ⟨S_, .f32⟩) main_call25_v0) (sitofp .f32),
    TRef.binary (TRef.of (T := ⟨S16x20x128x128, .f32⟩) main_v126) (TRef.of (T := ⟨S_, .f32⟩) main_call25_v0) (TRef.of (T := ⟨S16x20x130x130, .f32⟩) main_v129) (fun x v => pad S16x20x130x130 ![0, 0, 0, 1] ![0, 0, 2, 1] ![0, 0, 0, 0] x v pads_S16x20x128x128_S16x20x130x130_000_000_020_110 h_S_),
    nullary main_c_30 (constantI S_ 32 0#32),
    TRef.unary (TRef.of (T := ⟨S_, .i32⟩) main_c_30) (TRef.of (T := ⟨S_, .f32⟩) main_call26_v0) (sitofp .f32),
    TRef.binary (TRef.of (T := ⟨S16x20x128x128, .f32⟩) main_v126) (TRef.of (T := ⟨S_, .f32⟩) main_call26_v0) (TRef.of (T := ⟨S16x20x130x130, .f32⟩) main_v130) (fun x v => pad S16x20x130x130 ![0, 0, 0, 2] ![0, 0, 2, 0] ![0, 0, 0, 0] x v pads_S16x20x128x128_S16x20x130x130_000_000_020_200 h_S_),
    nullary main_c_31 (constantI S_ 32 0#32),
    TRef.unary (TRef.of (T := ⟨S_, .i32⟩) main_c_31) (TRef.of (T := ⟨S_, .f32⟩) main_call27_v0) (sitofp .f32),
    TRef.binary (TRef.of (T := ⟨S16x20x128x128, .f32⟩) main_v126) (TRef.of (T := ⟨S_, .f32⟩) main_call27_v0) (TRef.of (T := ⟨S16x20x130x130, .f32⟩) main_v131) (fun x v => pad S16x20x130x130 ![0, 0, 1, 0] ![0, 0, 1, 2] ![0, 0, 0, 0] x v pads_S16x20x128x128_S16x20x130x130_000_000_110_020 h_S_),
    nullary main_c_32 (constantI S_ 32 0#32),
    TRef.unary (TRef.of (T := ⟨S_, .i32⟩) main_c_32) (TRef.of (T := ⟨S_, .f32⟩) main_call28_v0) (sitofp .f32),
    TRef.binary (TRef.of (T := ⟨S16x20x128x128, .f32⟩) main_v126) (TRef.of (T := ⟨S_, .f32⟩) main_call28_v0) (TRef.of (T := ⟨S16x20x130x130, .f32⟩) main_v132) (fun x v => pad S16x20x130x130 ![0, 0, 1, 2] ![0, 0, 1, 0] ![0, 0, 0, 0] x v pads_S16x20x128x128_S16x20x130x130_000_000_110_200 h_S_),
    nullary main_c_33 (constantI S_ 32 0#32),
    TRef.unary (TRef.of (T := ⟨S_, .i32⟩) main_c_33) (TRef.of (T := ⟨S_, .f32⟩) main_call29_v0) (sitofp .f32),
    TRef.binary (TRef.of (T := ⟨S16x20x128x128, .f32⟩) main_v126) (TRef.of (T := ⟨S_, .f32⟩) main_call29_v0) (TRef.of (T := ⟨S16x20x130x130, .f32⟩) main_v133) (fun x v => pad S16x20x130x130 ![0, 0, 2, 0] ![0, 0, 0, 2] ![0, 0, 0, 0] x v pads_S16x20x128x128_S16x20x130x130_000_000_200_020 h_S_),
    nullary main_c_34 (constantI S_ 32 0#32),
    TRef.unary (TRef.of (T := ⟨S_, .i32⟩) main_c_34) (TRef.of (T := ⟨S_, .f32⟩) main_call30_v0) (sitofp .f32),
    TRef.binary (TRef.of (T := ⟨S16x20x128x128, .f32⟩) main_v126) (TRef.of (T := ⟨S_, .f32⟩) main_call30_v0) (TRef.of (T := ⟨S16x20x130x130, .f32⟩) main_v134) (fun x v => pad S16x20x130x130 ![0, 0, 2, 1] ![0, 0, 0, 1] ![0, 0, 0, 0] x v pads_S16x20x128x128_S16x20x130x130_000_000_200_110 h_S_),
    nullary main_c_35 (constantI S_ 32 0#32),
    TRef.unary (TRef.of (T := ⟨S_, .i32⟩) main_c_35) (TRef.of (T := ⟨S_, .f32⟩) main_call31_v0) (sitofp .f32),
    TRef.binary (TRef.of (T := ⟨S16x20x128x128, .f32⟩) main_v126) (TRef.of (T := ⟨S_, .f32⟩) main_call31_v0) (TRef.of (T := ⟨S16x20x130x130, .f32⟩) main_v135) (fun x v => pad S16x20x130x130 ![0, 0, 2, 2] ![0, 0, 0, 0] ![0, 0, 0, 0] x v pads_S16x20x128x128_S16x20x130x130_000_000_200_200 h_S_),
    unary main_v128 main_v136 (broadcastInDim S16x1x20x130x130 ![0, 2, 3, 4] bcast_S16x20x130x130_S16x1x20x130x130_0_2_3_4 : (⟨S16x20x130x130, .f32⟩ : BufTy).Contents (Elt F) → (⟨S16x1x20x130x130, .f32⟩ : BufTy).Contents (Elt F)),
    unary main_v129 main_v137 (broadcastInDim S16x1x20x130x130 ![0, 2, 3, 4] bcast_S16x20x130x130_S16x1x20x130x130_0_2_3_4 : (⟨S16x20x130x130, .f32⟩ : BufTy).Contents (Elt F) → (⟨S16x1x20x130x130, .f32⟩ : BufTy).Contents (Elt F)),
    unary main_v130 main_v138 (broadcastInDim S16x1x20x130x130 ![0, 2, 3, 4] bcast_S16x20x130x130_S16x1x20x130x130_0_2_3_4 : (⟨S16x20x130x130, .f32⟩ : BufTy).Contents (Elt F) → (⟨S16x1x20x130x130, .f32⟩ : BufTy).Contents (Elt F)),
    unary main_v131 main_v139 (broadcastInDim S16x1x20x130x130 ![0, 2, 3, 4] bcast_S16x20x130x130_S16x1x20x130x130_0_2_3_4 : (⟨S16x20x130x130, .f32⟩ : BufTy).Contents (Elt F) → (⟨S16x1x20x130x130, .f32⟩ : BufTy).Contents (Elt F)),
    unary main_v132 main_v140 (broadcastInDim S16x1x20x130x130 ![0, 2, 3, 4] bcast_S16x20x130x130_S16x1x20x130x130_0_2_3_4 : (⟨S16x20x130x130, .f32⟩ : BufTy).Contents (Elt F) → (⟨S16x1x20x130x130, .f32⟩ : BufTy).Contents (Elt F)),
    unary main_v133 main_v141 (broadcastInDim S16x1x20x130x130 ![0, 2, 3, 4] bcast_S16x20x130x130_S16x1x20x130x130_0_2_3_4 : (⟨S16x20x130x130, .f32⟩ : BufTy).Contents (Elt F) → (⟨S16x1x20x130x130, .f32⟩ : BufTy).Contents (Elt F)),
    unary main_v134 main_v142 (broadcastInDim S16x1x20x130x130 ![0, 2, 3, 4] bcast_S16x20x130x130_S16x1x20x130x130_0_2_3_4 : (⟨S16x20x130x130, .f32⟩ : BufTy).Contents (Elt F) → (⟨S16x1x20x130x130, .f32⟩ : BufTy).Contents (Elt F)),
    unary main_v135 main_v143 (broadcastInDim S16x1x20x130x130 ![0, 2, 3, 4] bcast_S16x20x130x130_S16x1x20x130x130_0_2_3_4 : (⟨S16x20x130x130, .f32⟩ : BufTy).Contents (Elt F) → (⟨S16x1x20x130x130, .f32⟩ : BufTy).Contents (Elt F)),
    nary ![main_v136, main_v137, main_v138, main_v139, main_v140, main_v141, main_v142, main_v143] main_v144 (fun u => concatenate S16x8x20x130x130 1 [⟨S16x1x20x130x130, u 0⟩, ⟨S16x1x20x130x130, u 1⟩, ⟨S16x1x20x130x130, u 2⟩, ⟨S16x1x20x130x130, u 3⟩, ⟨S16x1x20x130x130, u 4⟩, ⟨S16x1x20x130x130, u 5⟩, ⟨S16x1x20x130x130, u 6⟩, ⟨S16x1x20x130x130, u 7⟩] concatenates_S16x1x20x130x130_S16x1x20x130x130_S16x1x20x130x130_S16x1x20x130x130_S16x1x20x130x130_S16x1x20x130x130_S16x1x20x130x130_S16x1x20x130x130_S16x8x20x130x130_d1),
    unary main_v127 main_v145 (broadcastInDim S16x8x20x130x130 ![0, 1, 2, 3, 4] bcast_S16x8x1x130x130_S16x8x20x130x130_0_1_2_3_4 : (⟨S16x8x1x130x130, .f32⟩ : BufTy).Contents (Elt F) → (⟨S16x8x20x130x130, .f32⟩ : BufTy).Contents (Elt F)),
    binary main_v145 main_v144 main_v146 (mulf : (⟨S16x8x20x130x130, .f32⟩ : BufTy).Contents (Elt F) → (⟨S16x8x20x130x130, .f32⟩ : BufTy).Contents (Elt F) → (⟨S16x8x20x130x130, .f32⟩ : BufTy).Contents (Elt F)),
    nullary main_cst_36 (constant S_ .f32 0x00000000#32),
    binary main_v146 main_cst_36 main_v147 ((fun x v => Host.reduceAdd x v reducesTo_S16x8x20x130x130_S16x20x130x130_d1 h_S_) : (⟨S16x8x20x130x130, .f32⟩ : BufTy).Contents (Elt F) → (⟨S_, .f32⟩ : BufTy).Contents (Elt F) → (⟨S16x20x130x130, .f32⟩ : BufTy).Contents (Elt F)),
    unary main_v147 main_v148 ((extractStridedSlice S16x20x128x128 ![0, 0, 1, 1] · slices_S16x20x130x130_S16x20x128x128_0_0_1_1) : (⟨S16x20x130x130, .f32⟩ : BufTy).Contents (Elt F) → (⟨S16x20x128x128, .f32⟩ : BufTy).Contents (Elt F)),
    unary main_v41 main_v149 (broadcastInDim S16x1x128x128 ![0, 2, 3] bcast_S16x128x128_S16x1x128x128_0_2_3 : (⟨S16x128x128, .f32⟩ : BufTy).Contents (Elt F) → (⟨S16x1x128x128, .f32⟩ : BufTy).Contents (Elt F)),
    nullary main_cst_37 (constant S_ .f32 0x3F800000#32),
    unary main_cst_37 main_v150 (broadcastInDim S16x1x128x128 ![] bcast_S_S16x1x128x128 : (⟨S_, .f32⟩ : BufTy).Contents (Elt F) → (⟨S16x1x128x128, .f32⟩ : BufTy).Contents (Elt F)),
    binary main_v150 main_v149 main_v151 (subf : (⟨S16x1x128x128, .f32⟩ : BufTy).Contents (Elt F) → (⟨S16x1x128x128, .f32⟩ : BufTy).Contents (Elt F) → (⟨S16x1x128x128, .f32⟩ : BufTy).Contents (Elt F)),
    unary main_v151 main_v152 (broadcastInDim S16x20x128x128 ![0, 1, 2, 3] bcast_S16x1x128x128_S16x20x128x128_0_1_2_3 : (⟨S16x1x128x128, .f32⟩ : BufTy).Contents (Elt F) → (⟨S16x20x128x128, .f32⟩ : BufTy).Contents (Elt F)),
    binary main_v152 main_v126 main_v153 (mulf : (⟨S16x20x128x128, .f32⟩ : BufTy).Contents (Elt F) → (⟨S16x20x128x128, .f32⟩ : BufTy).Contents (Elt F) → (⟨S16x20x128x128, .f32⟩ : BufTy).Contents (Elt F)),
    binary main_v153 main_v148 main_v154 (addf : (⟨S16x20x128x128, .f32⟩ : BufTy).Contents (Elt F) → (⟨S16x20x128x128, .f32⟩ : BufTy).Contents (Elt F) → (⟨S16x20x128x128, .f32⟩ : BufTy).Contents (Elt F)),
    unary main_v154 main_v155 ((transpose S20x128x128x16 [1, 2, 3, 0] · transposes_S16x20x128x128_S20x128x128x16_1_2_3_0) : (⟨S16x20x128x128, .f32⟩ : BufTy).Contents (Elt F) → (⟨S20x128x128x16, .f32⟩ : BufTy).Contents (Elt F)),
    unary main_v155 main_v156 ((transpose S128x20x128x16 [2, 0, 1, 3] · transposes_S20x128x128x16_S128x20x128x16_2_0_1_3) : (⟨S20x128x128x16, .f32⟩ : BufTy).Contents (Elt F) → (⟨S128x20x128x16, .f32⟩ : BufTy).Contents (Elt F)) ]

/-- The references the window's operations write. -/
abbrev opsD_W : List (Ref sig .tc) :=
  [main_v126, main_v127, main_c_28, main_call24_v0, main_v128, main_c_29, main_call25_v0, main_v129, main_c_30, main_call26_v0, main_v130, main_c_31, main_call27_v0, main_v131, main_c_32, main_call28_v0, main_v132, main_c_33, main_call29_v0, main_v133, main_c_34, main_call30_v0, main_v134, main_c_35, main_call31_v0, main_v135, main_v136, main_v137, main_v138, main_v139, main_v140, main_v141, main_v142, main_v143, main_v144, main_v145, main_v146, main_cst_36, main_v147, main_v148, main_v149, main_cst_37, main_v150, main_v151, main_v152, main_v153, main_v154, main_v155, main_v156]

set_option maxRecDepth 16384 in
theorem opsD_writes : (opsD : List (HloOp τ sig (Elt F))).Forall fun op => op.writes ⊆ (opsD_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

/-- A buffer the window does not write keeps its contents. -/
theorem opsD_of (V : Valuation τ sig (Elt F)) (r : Ref sig .tc) (h : r ∉ opsD_W) :
    after opsD V (Proc.devRef .tc r) = V (Proc.devRef .tc r) :=
  StableHlo.after_of_writes_sub opsD V opsD_writes h

set_option maxRecDepth 16384 in
set_option maxHeartbeats 4000000 in
/-- The first phase's result, transposed for the second phase, after the window. -/
theorem opsD_v156 (V : Valuation τ sig (Elt F)) (x0 : (⟨S24x128x128x16, .f32⟩ : BufTy).Contents (Elt F)) (x1 : (⟨S20x128x128x16, .f32⟩ : BufTy).Contents (Elt F))
    (h0 : V (Proc.devRef .tc main_arg1) = x1)
    (h1 : V (Proc.devRef .tc main_v39) = ReadP.val_main_v39 (F := F) x0)
    (h2 : V (Proc.devRef .tc main_v41) = ReadP.val_main_v41 (F := F) x0) :
    after opsD V (Proc.devRef .tc main_v156) = ReadP.val_main_v156 (F := F) x0 x1 := by
  after_results_simp8
  simp only [h0, h1, h2]
  rfl

end Cert.ReferenceIdeal.RefRun

end
-- ==== Proof.RefRunW5.lean ====
/- The reference's fifth window: the second phase's propagation of the first phase's result through its normalised
   gates and gate sum, and the transposition of its result for the third phase. -/
import proofs.«139537_j58806692216890_2_alg».proof.Proof.ReadP
import proofs.«139537_j58806692216890_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 48 operations, in order. -/
abbrev opsE : List (HloOp τ sig (Elt F)) :=
  [ unary main_v81 main_v157 (broadcastInDim S128x8x1x130x18 ![0, 1, 3, 4] bcast_S128x8x130x18_S128x8x1x130x18_0_1_3_4 : (⟨S128x8x130x18, .f32⟩ : BufTy).Contents (Elt F) → (⟨S128x8x1x130x18, .f32⟩ : BufTy).Contents (Elt F)),
    nullary main_c_38 (constantI S_ 32 0#32),
    TRef.unary (TRef.of (T := ⟨S_, .i32⟩) main_c_38) (TRef.of (T := ⟨S_, .f32⟩) main_call32_v0) (sitofp .f32),
    TRef.binary (TRef.of (T := ⟨S128x20x128x16, .f32⟩) main_v156) (TRef.of (T := ⟨S_, .f32⟩) main_call32_v0) (TRef.of (T := ⟨S128x20x130x18, .f32⟩) main_v158) (fun x v => pad S128x20x130x18 ![0, 0, 0, 0] ![0, 0, 2, 2] ![0, 0, 0, 0] x v pads_S128x20x128x16_S128x20x130x18_000_000_020_020 h_S_),
    nullary main_c_39 (constantI S_ 32 0#32),
    TRef.unary (TRef.of (T := ⟨S_, .i32⟩) main_c_39) (TRef.of (T := ⟨S_, .f32⟩) main_call33_v0) (sitofp .f32),
    TRef.binary (TRef.of (T := ⟨S128x20x128x16, .f32⟩) main_v156) (TRef.of (T := ⟨S_, .f32⟩) main_call33_v0) (TRef.of (T := ⟨S128x20x130x18, .f32⟩) main_v159) (fun x v => pad S128x20x130x18 ![0, 0, 0, 1] ![0, 0, 2, 1] ![0, 0, 0, 0] x v pads_S128x20x128x16_S128x20x130x18_000_000_020_110 h_S_),
    nullary main_c_40 (constantI S_ 32 0#32),
    TRef.unary (TRef.of (T := ⟨S_, .i32⟩) main_c_40) (TRef.of (T := ⟨S_, .f32⟩) main_call34_v0) (sitofp .f32),
    TRef.binary (TRef.of (T := ⟨S128x20x128x16, .f32⟩) main_v156) (TRef.of (T := ⟨S_, .f32⟩) main_call34_v0) (TRef.of (T := ⟨S128x20x130x18, .f32⟩) main_v160) (fun x v => pad S128x20x130x18 ![0, 0, 0, 2] ![0, 0, 2, 0] ![0, 0, 0, 0] x v pads_S128x20x128x16_S128x20x130x18_000_000_020_200 h_S_),
    nullary main_c_41 (constantI S_ 32 0#32),
    TRef.unary (TRef.of (T := ⟨S_, .i32⟩) main_c_41) (TRef.of (T := ⟨S_, .f32⟩) main_call35_v0) (sitofp .f32),
    TRef.binary (TRef.of (T := ⟨S128x20x128x16, .f32⟩) main_v156) (TRef.of (T := ⟨S_, .f32⟩) main_call35_v0) (TRef.of (T := ⟨S128x20x130x18, .f32⟩) main_v161) (fun x v => pad S128x20x130x18 ![0, 0, 1, 0] ![0, 0, 1, 2] ![0, 0, 0, 0] x v pads_S128x20x128x16_S128x20x130x18_000_000_110_020 h_S_),
    nullary main_c_42 (constantI S_ 32 0#32),
    TRef.unary (TRef.of (T := ⟨S_, .i32⟩) main_c_42) (TRef.of (T := ⟨S_, .f32⟩) main_call36_v0) (sitofp .f32),
    TRef.binary (TRef.of (T := ⟨S128x20x128x16, .f32⟩) main_v156) (TRef.of (T := ⟨S_, .f32⟩) main_call36_v0) (TRef.of (T := ⟨S128x20x130x18, .f32⟩) main_v162) (fun x v => pad S128x20x130x18 ![0, 0, 1, 2] ![0, 0, 1, 0] ![0, 0, 0, 0] x v pads_S128x20x128x16_S128x20x130x18_000_000_110_200 h_S_),
    nullary main_c_43 (constantI S_ 32 0#32),
    TRef.unary (TRef.of (T := ⟨S_, .i32⟩) main_c_43) (TRef.of (T := ⟨S_, .f32⟩) main_call37_v0) (sitofp .f32),
    TRef.binary (TRef.of (T := ⟨S128x20x128x16, .f32⟩) main_v156) (TRef.of (T := ⟨S_, .f32⟩) main_call37_v0) (TRef.of (T := ⟨S128x20x130x18, .f32⟩) main_v163) (fun x v => pad S128x20x130x18 ![0, 0, 2, 0] ![0, 0, 0, 2] ![0, 0, 0, 0] x v pads_S128x20x128x16_S128x20x130x18_000_000_200_020 h_S_),
    nullary main_c_44 (constantI S_ 32 0#32),
    TRef.unary (TRef.of (T := ⟨S_, .i32⟩) main_c_44) (TRef.of (T := ⟨S_, .f32⟩) main_call38_v0) (sitofp .f32),
    TRef.binary (TRef.of (T := ⟨S128x20x128x16, .f32⟩) main_v156) (TRef.of (T := ⟨S_, .f32⟩) main_call38_v0) (TRef.of (T := ⟨S128x20x130x18, .f32⟩) main_v164) (fun x v => pad S128x20x130x18 ![0, 0, 2, 1] ![0, 0, 0, 1] ![0, 0, 0, 0] x v pads_S128x20x128x16_S128x20x130x18_000_000_200_110 h_S_),
    nullary main_c_45 (constantI S_ 32 0#32),
    TRef.unary (TRef.of (T := ⟨S_, .i32⟩) main_c_45) (TRef.of (T := ⟨S_, .f32⟩) main_call39_v0) (sitofp .f32),
    TRef.binary (TRef.of (T := ⟨S128x20x128x16, .f32⟩) main_v156) (TRef.of (T := ⟨S_, .f32⟩) main_call39_v0) (TRef.of (T := ⟨S128x20x130x18, .f32⟩) main_v165) (fun x v => pad S128x20x130x18 ![0, 0, 2, 2] ![0, 0, 0, 0] ![0, 0, 0, 0] x v pads_S128x20x128x16_S128x20x130x18_000_000_200_200 h_S_),
    unary main_v158 main_v166 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v159 main_v167 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v160 main_v168 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v161 main_v169 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v162 main_v170 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v163 main_v171 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v164 main_v172 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v165 main_v173 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    nary ![main_v166, main_v167, main_v168, main_v169, main_v170, main_v171, main_v172, main_v173] main_v174 (fun u => concatenate S128x8x20x130x18 1 [⟨S128x1x20x130x18, u 0⟩, ⟨S128x1x20x130x18, u 1⟩, ⟨S128x1x20x130x18, u 2⟩, ⟨S128x1x20x130x18, u 3⟩, ⟨S128x1x20x130x18, u 4⟩, ⟨S128x1x20x130x18, u 5⟩, ⟨S128x1x20x130x18, u 6⟩, ⟨S128x1x20x130x18, u 7⟩] concatenates_S128x1x20x130x18_S128x1x20x130x18_S128x1x20x130x18_S128x1x20x130x18_S128x1x20x130x18_S128x1x20x130x18_S128x1x20x130x18_S128x1x20x130x18_S128x8x20x130x18_d1),
    unary main_v157 main_v175 (broadcastInDim S128x8x20x130x18 ![0, 1, 2, 3, 4] bcast_S128x8x1x130x18_S128x8x20x130x18_0_1_2_3_4 : (⟨S128x8x1x130x18, .f32⟩ : BufTy).Contents (Elt F) → (⟨S128x8x20x130x18, .f32⟩ : BufTy).Contents (Elt F)),
    binary main_v175 main_v174 main_v176 (mulf : (⟨S128x8x20x130x18, .f32⟩ : BufTy).Contents (Elt F) → (⟨S128x8x20x130x18, .f32⟩ : BufTy).Contents (Elt F) → (⟨S128x8x20x130x18, .f32⟩ : BufTy).Contents (Elt F)),
    nullary main_cst_46 (constant S_ .f32 0x00000000#32),
    binary main_v176 main_cst_46 main_v177 ((fun x v => Host.reduceAdd x v reducesTo_S128x8x20x130x18_S128x20x130x18_d1 h_S_) : (⟨S128x8x20x130x18, .f32⟩ : BufTy).Contents (Elt F) → (⟨S_, .f32⟩ : BufTy).Contents (Elt F) → (⟨S128x20x130x18, .f32⟩ : BufTy).Contents (Elt F)),
    unary main_v177 main_v178 ((extractStridedSlice S128x20x128x16 ![0, 0, 1, 1] · slices_S128x20x130x18_S128x20x128x16_0_0_1_1) : (⟨S128x20x130x18, .f32⟩ : BufTy).Contents (Elt F) → (⟨S128x20x128x16, .f32⟩ : BufTy).Contents (Elt F)),
    unary main_v83 main_v179 (broadcastInDim S128x1x128x16 ![0, 2, 3] bcast_S128x128x16_S128x1x128x16_0_2_3 : (⟨S128x128x16, .f32⟩ : BufTy).Contents (Elt F) → (⟨S128x1x128x16, .f32⟩ : BufTy).Contents (Elt F)),
    nullary main_cst_47 (constant S_ .f32 0x3F800000#32),
    unary main_cst_47 main_v180 (broadcastInDim S128x1x128x16 ![] bcast_S_S128x1x128x16 : (⟨S_, .f32⟩ : BufTy).Contents (Elt F) → (⟨S128x1x128x16, .f32⟩ : BufTy).Contents (Elt F)),
    binary main_v180 main_v179 main_v181 (subf : (⟨S128x1x128x16, .f32⟩ : BufTy).Contents (Elt F) → (⟨S128x1x128x16, .f32⟩ : BufTy).Contents (Elt F) → (⟨S128x1x128x16, .f32⟩ : BufTy).Contents (Elt F)),
    unary main_v181 main_v182 (broadcastInDim S128x20x128x16 ![0, 1, 2, 3] bcast_S128x1x128x16_S128x20x128x16_0_1_2_3 : (⟨S128x1x128x16, .f32⟩ : BufTy).Contents (Elt F) → (⟨S128x20x128x16, .f32⟩ : BufTy).Contents (Elt F)),
    binary main_v182 main_v156 main_v183 (mulf : (⟨S128x20x128x16, .f32⟩ : BufTy).Contents (Elt F) → (⟨S128x20x128x16, .f32⟩ : BufTy).Contents (Elt F) → (⟨S128x20x128x16, .f32⟩ : BufTy).Contents (Elt F)),
    binary main_v183 main_v178 main_v184 (addf : (⟨S128x20x128x16, .f32⟩ : BufTy).Contents (Elt F) → (⟨S128x20x128x16, .f32⟩ : BufTy).Contents (Elt F) → (⟨S128x20x128x16, .f32⟩ : BufTy).Contents (Elt F)),
    unary main_v184 main_v185 ((transpose S20x128x128x16 [1, 2, 0, 3] · transposes_S128x20x128x16_S20x128x128x16_1_2_0_3) : (⟨S128x20x128x16, .f32⟩ : BufTy).Contents (Elt F) → (⟨S20x128x128x16, .f32⟩ : BufTy).Contents (Elt F)),
    unary main_v185 main_v186 ((transpose S128x20x128x16 [1, 0, 2, 3] · transposes_S20x128x128x16_S128x20x128x16_1_0_2_3) : (⟨S20x128x128x16, .f32⟩ : BufTy).Contents (Elt F) → (⟨S128x20x128x16, .f32⟩ : BufTy).Contents (Elt F)) ]

/-- The references the window's operations write. -/
abbrev opsE_W : List (Ref sig .tc) :=
  [main_v157, main_c_38, main_call32_v0, main_v158, main_c_39, main_call33_v0, main_v159, main_c_40, main_call34_v0, main_v160, main_c_41, main_call35_v0, main_v161, main_c_42, main_call36_v0, main_v162, main_c_43, main_call37_v0, main_v163, main_c_44, main_call38_v0, main_v164, main_c_45, main_call39_v0, main_v165, main_v166, main_v167, main_v168, main_v169, main_v170, main_v171, main_v172, main_v173, main_v174, main_v175, main_v176, main_cst_46, main_v177, main_v178, main_v179, main_cst_47, main_v180, main_v181, main_v182, main_v183, main_v184, main_v185, main_v186]

set_option maxRecDepth 16384 in
theorem opsE_writes : (opsE : List (HloOp τ sig (Elt F))).Forall fun op => op.writes ⊆ (opsE_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

/-- A buffer the window does not write keeps its contents. -/
theorem opsE_of (V : Valuation τ sig (Elt F)) (r : Ref sig .tc) (h : r ∉ opsE_W) :
    after opsE V (Proc.devRef .tc r) = V (Proc.devRef .tc r) :=
  StableHlo.after_of_writes_sub opsE V opsE_writes h

set_option maxRecDepth 16384 in
set_option maxHeartbeats 4000000 in
/-- The second phase's result, transposed for the third phase, after the window. -/
theorem opsE_v186 (V : Valuation τ sig (Elt F)) (x0 : (⟨S24x128x128x16, .f32⟩ : BufTy).Contents (Elt F)) (x1 : (⟨S20x128x128x16, .f32⟩ : BufTy).Contents (Elt F))
    (h0 : V (Proc.devRef .tc main_v156) = ReadP.val_main_v156 (F := F) x0 x1)
    (h1 : V (Proc.devRef .tc main_v81) = ReadP.val_main_v81 (F := F) x0)
    (h2 : V (Proc.devRef .tc main_v83) = ReadP.val_main_v83 (F := F) x0) :
    after opsE V (Proc.devRef .tc main_v186) = ReadP.val_main_v186 (F := F) x0 x1 := by
  after_results_simp8
  simp only [h0, h1, h2]
  rfl

end Cert.ReferenceIdeal.RefRun

end
-- ==== Proof.RefRunW6.lean ====
/- The reference's sixth window: the third phase's propagation of the second phase's result through its normalised
   gates and gate sum, and the transposition of its result to the result of the whole. -/
import proofs.«139537_j58806692216890_2_alg».proof.Proof.ReadP
import proofs.«139537_j58806692216890_2_alg».proof.Proof.LibAfter

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The window's 47 operations, in order. -/
abbrev opsG : List (HloOp τ sig (Elt F)) :=
  [ unary main_v123 main_v187 (broadcastInDim S128x8x1x130x18 ![0, 1, 3, 4] bcast_S128x8x130x18_S128x8x1x130x18_0_1_3_4 : (⟨S128x8x130x18, .f32⟩ : BufTy).Contents (Elt F) → (⟨S128x8x1x130x18, .f32⟩ : BufTy).Contents (Elt F)),
    nullary main_c_48 (constantI S_ 32 0#32),
    TRef.unary (TRef.of (T := ⟨S_, .i32⟩) main_c_48) (TRef.of (T := ⟨S_, .f32⟩) main_call40_v0) (sitofp .f32),
    TRef.binary (TRef.of (T := ⟨S128x20x128x16, .f32⟩) main_v186) (TRef.of (T := ⟨S_, .f32⟩) main_call40_v0) (TRef.of (T := ⟨S128x20x130x18, .f32⟩) main_v188) (fun x v => pad S128x20x130x18 ![0, 0, 0, 0] ![0, 0, 2, 2] ![0, 0, 0, 0] x v pads_S128x20x128x16_S128x20x130x18_000_000_020_020 h_S_),
    nullary main_c_49 (constantI S_ 32 0#32),
    TRef.unary (TRef.of (T := ⟨S_, .i32⟩) main_c_49) (TRef.of (T := ⟨S_, .f32⟩) main_call41_v0) (sitofp .f32),
    TRef.binary (TRef.of (T := ⟨S128x20x128x16, .f32⟩) main_v186) (TRef.of (T := ⟨S_, .f32⟩) main_call41_v0) (TRef.of (T := ⟨S128x20x130x18, .f32⟩) main_v189) (fun x v => pad S128x20x130x18 ![0, 0, 0, 1] ![0, 0, 2, 1] ![0, 0, 0, 0] x v pads_S128x20x128x16_S128x20x130x18_000_000_020_110 h_S_),
    nullary main_c_50 (constantI S_ 32 0#32),
    TRef.unary (TRef.of (T := ⟨S_, .i32⟩) main_c_50) (TRef.of (T := ⟨S_, .f32⟩) main_call42_v0) (sitofp .f32),
    TRef.binary (TRef.of (T := ⟨S128x20x128x16, .f32⟩) main_v186) (TRef.of (T := ⟨S_, .f32⟩) main_call42_v0) (TRef.of (T := ⟨S128x20x130x18, .f32⟩) main_v190) (fun x v => pad S128x20x130x18 ![0, 0, 0, 2] ![0, 0, 2, 0] ![0, 0, 0, 0] x v pads_S128x20x128x16_S128x20x130x18_000_000_020_200 h_S_),
    nullary main_c_51 (constantI S_ 32 0#32),
    TRef.unary (TRef.of (T := ⟨S_, .i32⟩) main_c_51) (TRef.of (T := ⟨S_, .f32⟩) main_call43_v0) (sitofp .f32),
    TRef.binary (TRef.of (T := ⟨S128x20x128x16, .f32⟩) main_v186) (TRef.of (T := ⟨S_, .f32⟩) main_call43_v0) (TRef.of (T := ⟨S128x20x130x18, .f32⟩) main_v191) (fun x v => pad S128x20x130x18 ![0, 0, 1, 0] ![0, 0, 1, 2] ![0, 0, 0, 0] x v pads_S128x20x128x16_S128x20x130x18_000_000_110_020 h_S_),
    nullary main_c_52 (constantI S_ 32 0#32),
    TRef.unary (TRef.of (T := ⟨S_, .i32⟩) main_c_52) (TRef.of (T := ⟨S_, .f32⟩) main_call44_v0) (sitofp .f32),
    TRef.binary (TRef.of (T := ⟨S128x20x128x16, .f32⟩) main_v186) (TRef.of (T := ⟨S_, .f32⟩) main_call44_v0) (TRef.of (T := ⟨S128x20x130x18, .f32⟩) main_v192) (fun x v => pad S128x20x130x18 ![0, 0, 1, 2] ![0, 0, 1, 0] ![0, 0, 0, 0] x v pads_S128x20x128x16_S128x20x130x18_000_000_110_200 h_S_),
    nullary main_c_53 (constantI S_ 32 0#32),
    TRef.unary (TRef.of (T := ⟨S_, .i32⟩) main_c_53) (TRef.of (T := ⟨S_, .f32⟩) main_call45_v0) (sitofp .f32),
    TRef.binary (TRef.of (T := ⟨S128x20x128x16, .f32⟩) main_v186) (TRef.of (T := ⟨S_, .f32⟩) main_call45_v0) (TRef.of (T := ⟨S128x20x130x18, .f32⟩) main_v193) (fun x v => pad S128x20x130x18 ![0, 0, 2, 0] ![0, 0, 0, 2] ![0, 0, 0, 0] x v pads_S128x20x128x16_S128x20x130x18_000_000_200_020 h_S_),
    nullary main_c_54 (constantI S_ 32 0#32),
    TRef.unary (TRef.of (T := ⟨S_, .i32⟩) main_c_54) (TRef.of (T := ⟨S_, .f32⟩) main_call46_v0) (sitofp .f32),
    TRef.binary (TRef.of (T := ⟨S128x20x128x16, .f32⟩) main_v186) (TRef.of (T := ⟨S_, .f32⟩) main_call46_v0) (TRef.of (T := ⟨S128x20x130x18, .f32⟩) main_v194) (fun x v => pad S128x20x130x18 ![0, 0, 2, 1] ![0, 0, 0, 1] ![0, 0, 0, 0] x v pads_S128x20x128x16_S128x20x130x18_000_000_200_110 h_S_),
    nullary main_c_55 (constantI S_ 32 0#32),
    TRef.unary (TRef.of (T := ⟨S_, .i32⟩) main_c_55) (TRef.of (T := ⟨S_, .f32⟩) main_call47_v0) (sitofp .f32),
    TRef.binary (TRef.of (T := ⟨S128x20x128x16, .f32⟩) main_v186) (TRef.of (T := ⟨S_, .f32⟩) main_call47_v0) (TRef.of (T := ⟨S128x20x130x18, .f32⟩) main_v195) (fun x v => pad S128x20x130x18 ![0, 0, 2, 2] ![0, 0, 0, 0] ![0, 0, 0, 0] x v pads_S128x20x128x16_S128x20x130x18_000_000_200_200 h_S_),
    unary main_v188 main_v196 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v189 main_v197 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v190 main_v198 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v191 main_v199 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v192 main_v200 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v193 main_v201 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v194 main_v202 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    unary main_v195 main_v203 (broadcastInDim S128x1x20x130x18 ![0, 2, 3, 4] bcast_S128x20x130x18_S128x1x20x130x18_0_2_3_4 : (⟨S128x20x130x18, .f32⟩ : BufTy).Contents (Elt F) → (⟨S128x1x20x130x18, .f32⟩ : BufTy).Contents (Elt F)),
    nary ![main_v196, main_v197, main_v198, main_v199, main_v200, main_v201, main_v202, main_v203] main_v204 (fun u => concatenate S128x8x20x130x18 1 [⟨S128x1x20x130x18, u 0⟩, ⟨S128x1x20x130x18, u 1⟩, ⟨S128x1x20x130x18, u 2⟩, ⟨S128x1x20x130x18, u 3⟩, ⟨S128x1x20x130x18, u 4⟩, ⟨S128x1x20x130x18, u 5⟩, ⟨S128x1x20x130x18, u 6⟩, ⟨S128x1x20x130x18, u 7⟩] concatenates_S128x1x20x130x18_S128x1x20x130x18_S128x1x20x130x18_S128x1x20x130x18_S128x1x20x130x18_S128x1x20x130x18_S128x1x20x130x18_S128x1x20x130x18_S128x8x20x130x18_d1),
    unary main_v187 main_v205 (broadcastInDim S128x8x20x130x18 ![0, 1, 2, 3, 4] bcast_S128x8x1x130x18_S128x8x20x130x18_0_1_2_3_4 : (⟨S128x8x1x130x18, .f32⟩ : BufTy).Contents (Elt F) → (⟨S128x8x20x130x18, .f32⟩ : BufTy).Contents (Elt F)),
    binary main_v205 main_v204 main_v206 (mulf : (⟨S128x8x20x130x18, .f32⟩ : BufTy).Contents (Elt F) → (⟨S128x8x20x130x18, .f32⟩ : BufTy).Contents (Elt F) → (⟨S128x8x20x130x18, .f32⟩ : BufTy).Contents (Elt F)),
    nullary main_cst_56 (constant S_ .f32 0x00000000#32),
    binary main_v206 main_cst_56 main_v207 ((fun x v => Host.reduceAdd x v reducesTo_S128x8x20x130x18_S128x20x130x18_d1 h_S_) : (⟨S128x8x20x130x18, .f32⟩ : BufTy).Contents (Elt F) → (⟨S_, .f32⟩ : BufTy).Contents (Elt F) → (⟨S128x20x130x18, .f32⟩ : BufTy).Contents (Elt F)),
    unary main_v207 main_v208 ((extractStridedSlice S128x20x128x16 ![0, 0, 1, 1] · slices_S128x20x130x18_S128x20x128x16_0_0_1_1) : (⟨S128x20x130x18, .f32⟩ : BufTy).Contents (Elt F) → (⟨S128x20x128x16, .f32⟩ : BufTy).Contents (Elt F)),
    unary main_v125 main_v209 (broadcastInDim S128x1x128x16 ![0, 2, 3] bcast_S128x128x16_S128x1x128x16_0_2_3 : (⟨S128x128x16, .f32⟩ : BufTy).Contents (Elt F) → (⟨S128x1x128x16, .f32⟩ : BufTy).Contents (Elt F)),
    nullary main_cst_57 (constant S_ .f32 0x3F800000#32),
    unary main_cst_57 main_v210 (broadcastInDim S128x1x128x16 ![] bcast_S_S128x1x128x16 : (⟨S_, .f32⟩ : BufTy).Contents (Elt F) → (⟨S128x1x128x16, .f32⟩ : BufTy).Contents (Elt F)),
    binary main_v210 main_v209 main_v211 (subf : (⟨S128x1x128x16, .f32⟩ : BufTy).Contents (Elt F) → (⟨S128x1x128x16, .f32⟩ : BufTy).Contents (Elt F) → (⟨S128x1x128x16, .f32⟩ : BufTy).Contents (Elt F)),
    unary main_v211 main_v212 (broadcastInDim S128x20x128x16 ![0, 1, 2, 3] bcast_S128x1x128x16_S128x20x128x16_0_1_2_3 : (⟨S128x1x128x16, .f32⟩ : BufTy).Contents (Elt F) → (⟨S128x20x128x16, .f32⟩ : BufTy).Contents (Elt F)),
    binary main_v212 main_v186 main_v213 (mulf : (⟨S128x20x128x16, .f32⟩ : BufTy).Contents (Elt F) → (⟨S128x20x128x16, .f32⟩ : BufTy).Contents (Elt F) → (⟨S128x20x128x16, .f32⟩ : BufTy).Contents (Elt F)),
    binary main_v213 main_v208 main_v214 (addf : (⟨S128x20x128x16, .f32⟩ : BufTy).Contents (Elt F) → (⟨S128x20x128x16, .f32⟩ : BufTy).Contents (Elt F) → (⟨S128x20x128x16, .f32⟩ : BufTy).Contents (Elt F)),
    unary main_v214 main_v215 ((transpose S20x128x128x16 [1, 0, 2, 3] · transposes_S128x20x128x16_S20x128x128x16_1_0_2_3) : (⟨S128x20x128x16, .f32⟩ : BufTy).Contents (Elt F) → (⟨S20x128x128x16, .f32⟩ : BufTy).Contents (Elt F)) ]

/-- The references the window's operations write. -/
abbrev opsG_W : List (Ref sig .tc) :=
  [main_v187, main_c_48, main_call40_v0, main_v188, main_c_49, main_call41_v0, main_v189, main_c_50, main_call42_v0, main_v190, main_c_51, main_call43_v0, main_v191, main_c_52, main_call44_v0, main_v192, main_c_53, main_call45_v0, main_v193, main_c_54, main_call46_v0, main_v194, main_c_55, main_call47_v0, main_v195, main_v196, main_v197, main_v198, main_v199, main_v200, main_v201, main_v202, main_v203, main_v204, main_v205, main_v206, main_cst_56, main_v207, main_v208, main_v209, main_cst_57, main_v210, main_v211, main_v212, main_v213, main_v214, main_v215]

set_option maxRecDepth 16384 in
theorem opsG_writes : (opsG : List (HloOp τ sig (Elt F))).Forall fun op => op.writes ⊆ (opsG_W.map (Proc.devRef (τ := τ) .tc)).toFinset := by
  simp only [List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.singleton_subset_iff, List.mem_toFinset]
  and_intros <;> exact List.mem_map_of_mem (by decide)

/-- A buffer the window does not write keeps its contents. -/
theorem opsG_of (V : Valuation τ sig (Elt F)) (r : Ref sig .tc) (h : r ∉ opsG_W) :
    after opsG V (Proc.devRef .tc r) = V (Proc.devRef .tc r) :=
  StableHlo.after_of_writes_sub opsG V opsG_writes h

set_option maxRecDepth 16384 in
set_option maxHeartbeats 4000000 in
/-- The result of the whole after the window. -/
theorem opsG_v215 (V : Valuation τ sig (Elt F)) (x0 : (⟨S24x128x128x16, .f32⟩ : BufTy).Contents (Elt F)) (x1 : (⟨S20x128x128x16, .f32⟩ : BufTy).Contents (Elt F))
    (h0 : V (Proc.devRef .tc main_v186) = ReadP.val_main_v186 (F := F) x0 x1)
    (h1 : V (Proc.devRef .tc main_v123) = ReadP.val_main_v123 (F := F) x0)
    (h2 : V (Proc.devRef .tc main_v125) = ReadP.val_main_v125 (F := F) x0) :
    after opsG V (Proc.devRef .tc main_v215) = ReadP.val_main_v215 (F := F) x0 x1 := by
  after_results_simp8
  simp only [h0, h1, h2]
  rfl

end Cert.ReferenceIdeal.RefRun

end
-- ==== Proof.RefRunW.lean ====
/- The reference's run, window by window. The reference's line of 324 operations is cut into six windows (the three
   phases' gates, then the three phases' propagations); the contents after the whole line are the contents after the
   last window from the contents after the windows before it. Each window's results are the values of the reference
   read one operation at a time (val_main_vN), as functions of the two arguments' contents; what a window does not
   write it leaves. Hence: every weakly fair execution of the reference terminates with its result buffer at
   val_main_v215 of the arguments' launch contents, the arguments unchanged. -/
import proofs.«139537_j58806692216890_2_alg».proof.Proof.RunP
import proofs.«139537_j58806692216890_2_alg».proof.Proof.ReadP
import proofs.«139537_j58806692216890_2_alg».proof.Proof.LibAfter
import proofs.«139537_j58806692216890_2_alg».proof.Proof.RefRunW1
import proofs.«139537_j58806692216890_2_alg».proof.Proof.RefRunW2
import proofs.«139537_j58806692216890_2_alg».proof.Proof.RefRunW3
import proofs.«139537_j58806692216890_2_alg».proof.Proof.RefRunW4
import proofs.«139537_j58806692216890_2_alg».proof.Proof.RefRunW5
import proofs.«139537_j58806692216890_2_alg».proof.Proof.RefRunW6

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- The reference's line of operations, given in five parts, is the six windows one after the other. -/
theorem ops_eq : (ValueP.opsAll : List (HloOp τ sig (Elt F))) = opsA ++ (opsB ++ (opsC ++ (opsD ++ (opsE ++ opsG)))) := rfl

/-- The contents after the whole line: the windows run one after the other. -/
theorem after_ops_eq (V : Valuation τ sig (Elt F)) :
    after ValueP.opsAll V = after opsG (after opsE (after opsD (after opsC (after opsB (after opsA V))))) := by
  rw [ops_eq]; simp only [after_append]

/-- After the whole line, from any contents: the result buffer holds the reference's value of the two arguments'
    contents, and the arguments hold what they held. -/
theorem after_ops (V : Valuation τ sig (Elt F)) :
    after ValueP.opsAll V (Proc.devRef .tc main_v215)
        = ReadP.val_main_v215 (F := F) (V (Proc.devRef .tc main_arg0)) (V (Proc.devRef .tc main_arg1))
      ∧ after ValueP.opsAll V (Proc.devRef .tc main_arg0) = V (Proc.devRef .tc main_arg0)
      ∧ after ValueP.opsAll V (Proc.devRef .tc main_arg1) = V (Proc.devRef .tc main_arg1) := by
  rw [after_ops_eq]
  generalize hx0 : V (Proc.devRef .tc main_arg0) = x0
  generalize hx1 : V (Proc.devRef .tc main_arg1) = x1
  -- the first phase's gates
  have a0 := (opsA_of V main_arg0 (by decide)).trans hx0
  have a1 := (opsA_of V main_arg1 (by decide)).trans hx1
  have a39 := opsA_v39 V x0 hx0
  have a41 := opsA_v41 V x0 hx0
  generalize after opsA V = VA at a0 a1 a39 a41 ⊢
  -- the second phase's gates
  have b0 := (opsB_of VA main_arg0 (by decide)).trans a0
  have b1 := (opsB_of VA main_arg1 (by decide)).trans a1
  have b39 := (opsB_of VA main_v39 (by decide)).trans a39
  have b41 := (opsB_of VA main_v41 (by decide)).trans a41
  have b81 := opsB_v81 VA x0 a0
  have b83 := opsB_v83 VA x0 a0
  generalize after opsB VA = VB at b0 b1 b39 b41 b81 b83 ⊢
  -- the third phase's gates
  have c0 := (opsC_of VB main_arg0 (by decide)).trans b0
  have c1 := (opsC_of VB main_arg1 (by decide)).trans b1
  have c39 := (opsC_of VB main_v39 (by decide)).trans b39
  have c41 := (opsC_of VB main_v41 (by decide)).trans b41
  have c81 := (opsC_of VB main_v81 (by decide)).trans b81
  have c83 := (opsC_of VB main_v83 (by decide)).trans b83
  have c123 := opsC_v123 VB x0 b0
  have c125 := opsC_v125 VB x0 b0
  generalize after opsC VB = VC at c0 c1 c39 c41 c81 c83 c123 c125 ⊢
  -- the first phase's propagation
  have d0 := (opsD_of VC main_arg0 (by decide)).trans c0
  have d1 := (opsD_of VC main_arg1 (by decide)).trans c1
  have d81 := (opsD_of VC main_v81 (by decide)).trans c81
  have d83 := (opsD_of VC main_v83 (by decide)).trans c83
  have d123 := (opsD_of VC main_v123 (by decide)).trans c123
  have d125 := (opsD_of VC main_v125 (by decide)).trans c125
  have d156 := opsD_v156 VC x0 x1 c1 c39 c41
  generalize after opsD VC = VD at d0 d1 d81 d83 d123 d125 d156 ⊢
  -- the second phase's propagation
  have e0 := (opsE_of VD main_arg0 (by decide)).trans d0
  have e1 := (opsE_of VD main_arg1 (by decide)).trans d1
  have e123 := (opsE_of VD main_v123 (by decide)).trans d123
  have e125 := (opsE_of VD main_v125 (by decide)).trans d125
  have e186 := opsE_v186 VD x0 x1 d156 d81 d83
  generalize after opsE VD = VE at e0 e1 e123 e125 e186 ⊢
  -- the third phase's propagation
  exact ⟨opsG_v215 VE x0 x1 e186 e123 e125, (opsG_of VE main_arg0 (by decide)).trans e0,
    (opsG_of VE main_arg1 (by decide)).trans e1⟩

/-- On every device, for any float values, from any memory with zero counters: every weakly fair execution of the
    reference terminates with its result at the reference's value, read one operation at a time, of the arguments'
    launch contents, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v215)
          = ReadP.val_main_v215 (F := F) (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1) :=
  (θ_run defs _ _).mono (fun _ h c =>
      ⟨(h c main_v215).trans (after_ops (launchContents m c)).1,
       (h c main_arg0).trans (after_ops (launchContents m c)).2.1,
       (h c main_arg1).trans (after_ops (launchContents m c)).2.2⟩)
    (ValueP.run_after m ρ)

end Cert.ReferenceIdeal.RefRun

end
-- ==== Proof.LibPadRead.lean ====
/-
  General lemmas for reading a zero-padded array and an eight-piece concatenation at an index.

  A `pad` with no interior padding, low padding `(0, l0, l1)` on a rank-3 array (or `(0, 0, l0, l1)` on a rank-4
  array) and padding value `0`, read one step inside the padded plane — at `(i + 1, j + 1)` — is the neighbour read
  `nb2 l0 l1` of the plane at `(i, j)`: entry `(i + 1 - l0, j + 1 - l1)` when it exists and `0` otherwise.
  A concatenation of eight pieces of one shape, each of extent one along the joined axis, read at an index whose
  coordinate on that axis is `k`, is piece `k` at the index with `0` there.
-/
import proofs.«139537_j58806692216890_2_alg».proof.Proof.Spec
import Idealize.ShloMosaic.Lib.Pipeline.Value
import Idealize.ShloMosaic.Lib.KernelVsHost

noncomputable section

namespace Cert.PadRead

open Idealize.ShloMosaic Idealize.ShloMosaic.ValueIdx Cert.Affinity

/-- The neighbour read on both axes, written as two nested case splits. -/
theorem nb2_eq {n0 n1 : ℕ} (l0 l1 : ℕ) (f : Fin n0 → Fin n1 → EReal) (i : Fin n0) (j : Fin n1) :
    nb2 l0 l1 f i j =
      if h1 : l1 ≤ j.val + 1 ∧ j.val + 1 < l1 + n1 then
        if h0 : l0 ≤ i.val + 1 ∧ i.val + 1 < l0 + n0 then f ⟨i.val + 1 - l0, by omega⟩ ⟨j.val + 1 - l1, by omega⟩ else 0
      else 0 := rfl

/-- A rank-3 array `[B, n0, n1]` padded with zeros to `[B, m0, m1]`, low padding `(0, l0, l1)`, no interior padding,
    read at `(b, i + 1, j + 1)`: the neighbour read `nb2 l0 l1` of plane `b` at `(i, j)`. -/
theorem pad3_read {B n0 n1 m0 m1 : ℕ} (l0 l1 : ℕ) (hi : Fin 3 → ℕ)
    (x : (⟨3, ![B, n0, n1]⟩ : Shape).Idx → EReal) {u : Shape} (v : u.Idx → EReal)
    (h : (⟨3, ![B, n0, n1]⟩ : Shape).Pads ![0, l0, l1] hi ![0, 0, 0] ⟨3, ![B, m0, m1]⟩) (hu : 0 < u.numel)
    (hv : v (Shape.Idx.first hu) = 0)
    (b : Fin B) (i : Fin n0) (j : Fin n1) (I : Fin m0) (J : Fin m1) (hI : I.val = i.val + 1) (hJ : J.val = j.val + 1) :
    pad ⟨3, ![B, m0, m1]⟩ ![0, l0, l1] hi ![0, 0, 0] x v h hu (ix3 b I J)
      = nb2 l0 l1 (fun i' j' => x (ix3 b i' j')) i j := by
  rw [nb2_eq]
  by_cases h1 : l1 ≤ j.val + 1 ∧ j.val + 1 < l1 + n1
  · rw [dif_pos h1]
    by_cases h0 : l0 ≤ i.val + 1 ∧ i.val + 1 < l0 + n0
    · rw [dif_pos h0]
      refine pad_apply_of_inside _ _ _ x v h hu _ _ (fun a => ?_)
      match a with
      | ⟨0, _⟩ => show b.val = 0 + b.val * (0 + 1); omega
      | ⟨1, _⟩ => show I.val = l0 + (i.val + 1 - l0) * (0 + 1); omega
      | ⟨2, _⟩ => show J.val = l1 + (j.val + 1 - l1) * (0 + 1); omega
    · rw [dif_neg h0, pad_apply_of_not_inside _ _ _ x v h hu _ (1 : Fin 3) ?_, hv]
      show ¬(l0 ≤ I.val ∧ (I.val - l0) % (0 + 1) = 0 ∧ (I.val - l0) / (0 + 1) < n0)
      rw [Nat.div_one]; omega
  · rw [dif_neg h1, pad_apply_of_not_inside _ _ _ x v h hu _ (2 : Fin 3) ?_, hv]
    show ¬(l1 ≤ J.val ∧ (J.val - l1) % (0 + 1) = 0 ∧ (J.val - l1) / (0 + 1) < n1)
    rw [Nat.div_one]; omega

/-- A rank-4 array `[B, C, n0, n1]` padded with zeros to `[B, C, m0, m1]`, low padding `(0, 0, l0, l1)`, no interior
    padding, read at `(b, c, i + 1, j + 1)`: the neighbour read `nb2 l0 l1` of plane `(b, c)` at `(i, j)`. -/
theorem pad4_read {B C n0 n1 m0 m1 : ℕ} (l0 l1 : ℕ) (hi : Fin 4 → ℕ)
    (x : (⟨4, ![B, C, n0, n1]⟩ : Shape).Idx → EReal) {u : Shape} (v : u.Idx → EReal)
    (h : (⟨4, ![B, C, n0, n1]⟩ : Shape).Pads ![0, 0, l0, l1] hi ![0, 0, 0, 0] ⟨4, ![B, C, m0, m1]⟩) (hu : 0 < u.numel)
    (hv : v (Shape.Idx.first hu) = 0)
    (b : Fin B) (c : Fin C) (i : Fin n0) (j : Fin n1) (I : Fin m0) (J : Fin m1) (hI : I.val = i.val + 1)
    (hJ : J.val = j.val + 1) :
    pad ⟨4, ![B, C, m0, m1]⟩ ![0, 0, l0, l1] hi ![0, 0, 0, 0] x v h hu (ix4 b c I J)
      = nb2 l0 l1 (fun i' j' => x (ix4 b c i' j')) i j := by
  rw [nb2_eq]
  by_cases h1 : l1 ≤ j.val + 1 ∧ j.val + 1 < l1 + n1
  · rw [dif_pos h1]
    by_cases h0 : l0 ≤ i.val + 1 ∧ i.val + 1 < l0 + n0
    · rw [dif_pos h0]
      refine pad_apply_of_inside _ _ _ x v h hu _ _ (fun a => ?_)
      match a with
      | ⟨0, _⟩ => show b.val = 0 + b.val * (0 + 1); omega
      | ⟨1, _⟩ => show c.val = 0 + c.val * (0 + 1); omega
      | ⟨2, _⟩ => show I.val = l0 + (i.val + 1 - l0) * (0 + 1); omega
      | ⟨3, _⟩ => show J.val = l1 + (j.val + 1 - l1) * (0 + 1); omega
    · rw [dif_neg h0, pad_apply_of_not_inside _ _ _ x v h hu _ (2 : Fin 4) ?_, hv]
      show ¬(l0 ≤ I.val ∧ (I.val - l0) % (0 + 1) = 0 ∧ (I.val - l0) / (0 + 1) < n0)
      rw [Nat.div_one]; omega
  · rw [dif_neg h1, pad_apply_of_not_inside _ _ _ x v h hu _ (3 : Fin 4) ?_, hv]
    show ¬(l1 ≤ J.val ∧ (J.val - l1) % (0 + 1) = 0 ∧ (J.val - l1) / (0 + 1) < n1)
    rw [Nat.div_one]; omega

section Concat
variable {α : Type}

/-- A concatenation of eight pieces of one shape `s₁` whose extent along the joined axis `a` is one, read at an index
    `j` whose coordinate on that axis is `k`: piece `k` at any index `i` that agrees with `j` off the axis. -/
theorem concat8_read {t s₁ : Shape} (a : Fin t.rank) (f0 f1 f2 f3 f4 f5 f6 f7 : s₁.Idx → α)
    (h : Shape.Concatenates (([⟨s₁, f0⟩, ⟨s₁, f1⟩, ⟨s₁, f2⟩, ⟨s₁, f3⟩, ⟨s₁, f4⟩, ⟨s₁, f5⟩, ⟨s₁, f6⟩, ⟨s₁, f7⟩] :
      List ((s : Shape) × (s.Idx → α))).map (·.1)) t a)
    (hr : s₁.rank = t.rank) (h1 : s₁.size (a.cast hr.symm) = 1) (j : t.Idx) (k : Fin 8) (hk : (j a).val = k.val)
    (i : s₁.Idx) (hi : ∀ b : Fin s₁.rank, b.cast hr ≠ a → (i b).val = (j (b.cast hr)).val) :
    concatenate t a [⟨s₁, f0⟩, ⟨s₁, f1⟩, ⟨s₁, f2⟩, ⟨s₁, f3⟩, ⟨s₁, f4⟩, ⟨s₁, f5⟩, ⟨s₁, f6⟩, ⟨s₁, f7⟩] h j
      = (![f0, f1, f2, f3, f4, f5, f6, f7] k) i := by
  have hz : (i (a.cast hr.symm)).val = 0 := by
    have := (i (a.cast hr.symm)).isLt
    omega
  fin_cases k
  · exact concatenate_apply_piece a _ h j 0 (by simp) s₁ f0 rfl hr 0 (by simp) i hi (by rw [hz, hk])
  · exact concatenate_apply_piece a _ h j 1 (by simp) s₁ f1 rfl hr 1 (by simp [dif_pos hr, h1]) i hi (by rw [hz, hk])
  · exact concatenate_apply_piece a _ h j 2 (by simp) s₁ f2 rfl hr 2 (by simp [dif_pos hr, h1]) i hi (by rw [hz, hk])
  · exact concatenate_apply_piece a _ h j 3 (by simp) s₁ f3 rfl hr 3 (by simp [dif_pos hr, h1]) i hi (by rw [hz, hk])
  · exact concatenate_apply_piece a _ h j 4 (by simp) s₁ f4 rfl hr 4 (by simp [dif_pos hr, h1]) i hi (by rw [hz, hk])
  · exact concatenate_apply_piece a _ h j 5 (by simp) s₁ f5 rfl hr 5 (by simp [dif_pos hr, h1]) i hi (by rw [hz, hk])
  · exact concatenate_apply_piece a _ h j 6 (by simp) s₁ f6 rfl hr 6 (by simp [dif_pos hr, h1]) i hi (by rw [hz, hk])
  · exact concatenate_apply_piece a _ h j 7 (by simp) s₁ f7 rfl hr 7 (by simp [dif_pos hr, h1]) i hi (by rw [hz, hk])

/-- Eight arrays `[B, 1, m0, m1]` joined along axis 1 into `[B, 8, m0, m1]`, read at `(b, k, I, J)`: piece `k` at
    `(b, 0, I, J)`. -/
theorem concat8_read4 {B m0 m1 : ℕ} (f0 f1 f2 f3 f4 f5 f6 f7 : (⟨4, ![B, 1, m0, m1]⟩ : Shape).Idx → α)
    (h : Shape.Concatenates (([⟨⟨4, ![B, 1, m0, m1]⟩, f0⟩, ⟨⟨4, ![B, 1, m0, m1]⟩, f1⟩, ⟨⟨4, ![B, 1, m0, m1]⟩, f2⟩,
      ⟨⟨4, ![B, 1, m0, m1]⟩, f3⟩, ⟨⟨4, ![B, 1, m0, m1]⟩, f4⟩, ⟨⟨4, ![B, 1, m0, m1]⟩, f5⟩, ⟨⟨4, ![B, 1, m0, m1]⟩, f6⟩,
      ⟨⟨4, ![B, 1, m0, m1]⟩, f7⟩] : List ((s : Shape) × (s.Idx → α))).map (·.1)) ⟨4, ![B, 8, m0, m1]⟩ 1)
    (b : Fin B) (k : Fin 8) (I : Fin m0) (J : Fin m1) :
    concatenate ⟨4, ![B, 8, m0, m1]⟩ 1 [⟨⟨4, ![B, 1, m0, m1]⟩, f0⟩, ⟨⟨4, ![B, 1, m0, m1]⟩, f1⟩, ⟨⟨4, ![B, 1, m0, m1]⟩, f2⟩,
      ⟨⟨4, ![B, 1, m0, m1]⟩, f3⟩, ⟨⟨4, ![B, 1, m0, m1]⟩, f4⟩, ⟨⟨4, ![B, 1, m0, m1]⟩, f5⟩, ⟨⟨4, ![B, 1, m0, m1]⟩, f6⟩,
      ⟨⟨4, ![B, 1, m0, m1]⟩, f7⟩] h (ix4 b k I J)
      = (![f0, f1, f2, f3, f4, f5, f6, f7] k) (ix4 b 0 I J) :=
  concat8_read (t := ⟨4, ![B, 8, m0, m1]⟩) (s₁ := ⟨4, ![B, 1, m0, m1]⟩) 1 f0 f1 f2 f3 f4 f5 f6 f7 h rfl rfl (ix4 b k I J) k rfl
    (ix4 b 0 I J) (fun b' hb => match b' with
      | ⟨0, _⟩ => rfl
      | ⟨1, _⟩ => absurd rfl hb
      | ⟨2, _⟩ => rfl
      | ⟨3, _⟩ => rfl)

/-- Eight arrays `[B, 1, C, m0, m1]` joined along axis 1 into `[B, 8, C, m0, m1]`, read at `(b, k, c, I, J)`: piece `k`
    at `(b, 0, c, I, J)`. -/
theorem concat8_read5 {B C m0 m1 : ℕ} (f0 f1 f2 f3 f4 f5 f6 f7 : (⟨5, ![B, 1, C, m0, m1]⟩ : Shape).Idx → α)
    (h : Shape.Concatenates (([⟨⟨5, ![B, 1, C, m0, m1]⟩, f0⟩, ⟨⟨5, ![B, 1, C, m0, m1]⟩, f1⟩, ⟨⟨5, ![B, 1, C, m0, m1]⟩, f2⟩,
      ⟨⟨5, ![B, 1, C, m0, m1]⟩, f3⟩, ⟨⟨5, ![B, 1, C, m0, m1]⟩, f4⟩, ⟨⟨5, ![B, 1, C, m0, m1]⟩, f5⟩,
      ⟨⟨5, ![B, 1, C, m0, m1]⟩, f6⟩, ⟨⟨5, ![B, 1, C, m0, m1]⟩, f7⟩] : List ((s : Shape) × (s.Idx → α))).map (·.1))
      ⟨5, ![B, 8, C, m0, m1]⟩ 1)
    (b : Fin B) (k : Fin 8) (c : Fin C) (I : Fin m0) (J : Fin m1) :
    concatenate ⟨5, ![B, 8, C, m0, m1]⟩ 1 [⟨⟨5, ![B, 1, C, m0, m1]⟩, f0⟩, ⟨⟨5, ![B, 1, C, m0, m1]⟩, f1⟩,
      ⟨⟨5, ![B, 1, C, m0, m1]⟩, f2⟩, ⟨⟨5, ![B, 1, C, m0, m1]⟩, f3⟩, ⟨⟨5, ![B, 1, C, m0, m1]⟩, f4⟩,
      ⟨⟨5, ![B, 1, C, m0, m1]⟩, f5⟩, ⟨⟨5, ![B, 1, C, m0, m1]⟩, f6⟩, ⟨⟨5, ![B, 1, C, m0, m1]⟩, f7⟩] h (ix5 b k c I J)
      = (![f0, f1, f2, f3, f4, f5, f6, f7] k) (ix5 b 0 c I J) :=
  concat8_read (t := ⟨5, ![B, 8, C, m0, m1]⟩) (s₁ := ⟨5, ![B, 1, C, m0, m1]⟩) 1 f0 f1 f2 f3 f4 f5 f6 f7 h rfl rfl
    (ix5 b k c I J) k rfl (ix5 b 0 c I J) (fun b' hb => match b' with
      | ⟨0, _⟩ => rfl
      | ⟨1, _⟩ => absurd rfl hb
      | ⟨2, _⟩ => rfl
      | ⟨3, _⟩ => rfl
      | ⟨4, _⟩ => rfl)

end Concat

/-- The integer zero converted to a float is the extended real `0`: the value the reference's pads fill with. -/
theorem sitofp_zero_f32 : (FloatOps.sitofp (F := Ideal) .f32 (0#32 : BitVec 32)) = (0 : EReal) := by
  show (((0#32 : BitVec 32).toInt : ℝ) : EReal) = 0
  simp

/-- A sum started from the float zero: the zero is the extended real `0` and drops out. -/
theorem zero_init_add (s : EReal) : (FloatOps.ofBits (F := Ideal) .f32 0x00000000#32 : EReal) + s = s := by
  show Ideal.ofBits .f32 0x00000000#32 + s = s
  rw [Ideal.ofBits_zero_f32, zero_add]

end Cert.PadRead

end
-- ==== Proof.RefX.lean ====
/-
  The reference's first propagation step, read at an index.

  The guidance array `g` (eight planes per batch entry) and the data array `x` of this step are two values of the
  printed reference. Its gates are the eight zero-padded planes of `g`, joined along a new axis and divided by the sum
  of their absolute values; its output is `(1 - Σ gates) · x + Σ gate_k · (padded x)_k`, cut back to the unpadded
  plane. Every padded array is read one step inside the padding, where pad `k` of a plane is the neighbour read
  `nb2 (lo0 k) (lo1 k)` of that plane, so the output is `Cert.Affinity.step g x`.
-/
import proofs.«139537_j58806692216890_2_alg».proof.Proof.Spec
import proofs.«139537_j58806692216890_2_alg».proof.Proof.ReadP
import proofs.«139537_j58806692216890_2_alg».proof.Proof.LibPadRead

noncomputable section

namespace Cert.ReferenceIdeal.RefStep

open Cert.ReferenceIdeal Cert.ReferenceIdeal.Gen Idealize.ShloMosaic Idealize.ShloMosaic.ValueIdx Cert.ReferenceIdeal.ReadP
open Cert.Affinity Cert.PadRead
open scoped BigOperators

/-! ## The eight guidance planes, cut out of `g` -/

/-- Plane 0 of `g` as the reference cuts it out (a unit slice, then a reshape that drops the unit axis). -/
theorem X_plane0 (x0 : (⟨S24x128x128x16, .f32⟩ : BufTy).Contents (Elt Ideal)) (b : Fin 16) (i : Fin 128) (j : Fin 128) :
    val_main_v3 (F := Ideal) x0 (ix3 b i j) = val_main_v1 (F := Ideal) x0 (ix4 b (0 : Fin 8) i j) := by
  rw [val_main_v3_apply, val_main_v2_apply]
  have hb := b.isLt
  have hi := i.isLt
  have hj := j.isLt
  refine congrArg _ (funext fun a => ?_)
  match a with
  | ⟨0, _⟩ => exact Fin.ext (by show ((b.val * 128 + i.val) * 128 + j.val) / 16384 = b.val; omega)
  | ⟨1, _⟩ => rfl
  | ⟨2, _⟩ => exact Fin.ext (by show ((b.val * 128 + i.val) * 128 + j.val) / 128 % 128 = i.val; omega)
  | ⟨3, _⟩ => exact Fin.ext (by show ((b.val * 128 + i.val) * 128 + j.val) % 128 = j.val; omega)

/-- Plane 1 of `g` as the reference cuts it out (a unit slice, then a reshape that drops the unit axis). -/
theorem X_plane1 (x0 : (⟨S24x128x128x16, .f32⟩ : BufTy).Contents (Elt Ideal)) (b : Fin 16) (i : Fin 128) (j : Fin 128) :
    val_main_v6 (F := Ideal) x0 (ix3 b i j) = val_main_v1 (F := Ideal) x0 (ix4 b (1 : Fin 8) i j) := by
  rw [val_main_v6_apply, val_main_v5_apply]
  have hb := b.isLt
  have hi := i.isLt
  have hj := j.isLt
  refine congrArg _ (funext fun a => ?_)
  match a with
  | ⟨0, _⟩ => exact Fin.ext (by show ((b.val * 128 + i.val) * 128 + j.val) / 16384 = b.val; omega)
  | ⟨1, _⟩ => rfl
  | ⟨2, _⟩ => exact Fin.ext (by show ((b.val * 128 + i.val) * 128 + j.val) / 128 % 128 = i.val; omega)
  | ⟨3, _⟩ => exact Fin.ext (by show ((b.val * 128 + i.val) * 128 + j.val) % 128 = j.val; omega)

/-- Plane 2 of `g` as the reference cuts it out (a unit slice, then a reshape that drops the unit axis). -/
theorem X_plane2 (x0 : (⟨S24x128x128x16, .f32⟩ : BufTy).Contents (Elt Ideal)) (b : Fin 16) (i : Fin 128) (j : Fin 128) :
    val_main_v9 (F := Ideal) x0 (ix3 b i j) = val_main_v1 (F := Ideal) x0 (ix4 b (2 : Fin 8) i j) := by
  rw [val_main_v9_apply, val_main_v8_apply]
  have hb := b.isLt
  have hi := i.isLt
  have hj := j.isLt
  refine congrArg _ (funext fun a => ?_)
  match a with
  | ⟨0, _⟩ => exact Fin.ext (by show ((b.val * 128 + i.val) * 128 + j.val) / 16384 = b.val; omega)
  | ⟨1, _⟩ => rfl
  | ⟨2, _⟩ => exact Fin.ext (by show ((b.val * 128 + i.val) * 128 + j.val) / 128 % 128 = i.val; omega)
  | ⟨3, _⟩ => exact Fin.ext (by show ((b.val * 128 + i.val) * 128 + j.val) % 128 = j.val; omega)

/-- Plane 3 of `g` as the reference cuts it out (a unit slice, then a reshape that drops the unit axis). -/
theorem X_plane3 (x0 : (⟨S24x128x128x16, .f32⟩ : BufTy).Contents (Elt Ideal)) (b : Fin 16) (i : Fin 128) (j : Fin 128) :
    val_main_v12 (F := Ideal) x0 (ix3 b i j) = val_main_v1 (F := Ideal) x0 (ix4 b (3 : Fin 8) i j) := by
  rw [val_main_v12_apply, val_main_v11_apply]
  have hb := b.isLt
  have hi := i.isLt
  have hj := j.isLt
  refine congrArg _ (funext fun a => ?_)
  match a with
  | ⟨0, _⟩ => exact Fin.ext (by show ((b.val * 128 + i.val) * 128 + j.val) / 16384 = b.val; omega)
  | ⟨1, _⟩ => rfl
  | ⟨2, _⟩ => exact Fin.ext (by show ((b.val * 128 + i.val) * 128 + j.val) / 128 % 128 = i.val; omega)
  | ⟨3, _⟩ => exact Fin.ext (by show ((b.val * 128 + i.val) * 128 + j.val) % 128 = j.val; omega)

/-- Plane 4 of `g` as the reference cuts it out (a unit slice, then a reshape that drops the unit axis). -/
theorem X_plane4 (x0 : (⟨S24x128x128x16, .f32⟩ : BufTy).Contents (Elt Ideal)) (b : Fin 16) (i : Fin 128) (j : Fin 128) :
    val_main_v15 (F := Ideal) x0 (ix3 b i j) = val_main_v1 (F := Ideal) x0 (ix4 b (4 : Fin 8) i j) := by
  rw [val_main_v15_apply, val_main_v14_apply]
  have hb := b.isLt
  have hi := i.isLt
  have hj := j.isLt
  refine congrArg _ (funext fun a => ?_)
  match a with
  | ⟨0, _⟩ => exact Fin.ext (by show ((b.val * 128 + i.val) * 128 + j.val) / 16384 = b.val; omega)
  | ⟨1, _⟩ => rfl
  | ⟨2, _⟩ => exact Fin.ext (by show ((b.val * 128 + i.val) * 128 + j.val) / 128 % 128 = i.val; omega)
  | ⟨3, _⟩ => exact Fin.ext (by show ((b.val * 128 + i.val) * 128 + j.val) % 128 = j.val; omega)

/-- Plane 5 of `g` as the reference cuts it out (a unit slice, then a reshape that drops the unit axis). -/
theorem X_plane5 (x0 : (⟨S24x128x128x16, .f32⟩ : BufTy).Contents (Elt Ideal)) (b : Fin 16) (i : Fin 128) (j : Fin 128) :
    val_main_v18 (F := Ideal) x0 (ix3 b i j) = val_main_v1 (F := Ideal) x0 (ix4 b (5 : Fin 8) i j) := by
  rw [val_main_v18_apply, val_main_v17_apply]
  have hb := b.isLt
  have hi := i.isLt
  have hj := j.isLt
  refine congrArg _ (funext fun a => ?_)
  match a with
  | ⟨0, _⟩ => exact Fin.ext (by show ((b.val * 128 + i.val) * 128 + j.val) / 16384 = b.val; omega)
  | ⟨1, _⟩ => rfl
  | ⟨2, _⟩ => exact Fin.ext (by show ((b.val * 128 + i.val) * 128 + j.val) / 128 % 128 = i.val; omega)
  | ⟨3, _⟩ => exact Fin.ext (by show ((b.val * 128 + i.val) * 128 + j.val) % 128 = j.val; omega)

/-- Plane 6 of `g` as the reference cuts it out (a unit slice, then a reshape that drops the unit axis). -/
theorem X_plane6 (x0 : (⟨S24x128x128x16, .f32⟩ : BufTy).Contents (Elt Ideal)) (b : Fin 16) (i : Fin 128) (j : Fin 128) :
    val_main_v21 (F := Ideal) x0 (ix3 b i j) = val_main_v1 (F := Ideal) x0 (ix4 b (6 : Fin 8) i j) := by
  rw [val_main_v21_apply, val_main_v20_apply]
  have hb := b.isLt
  have hi := i.isLt
  have hj := j.isLt
  refine congrArg _ (funext fun a => ?_)
  match a with
  | ⟨0, _⟩ => exact Fin.ext (by show ((b.val * 128 + i.val) * 128 + j.val) / 16384 = b.val; omega)
  | ⟨1, _⟩ => rfl
  | ⟨2, _⟩ => exact Fin.ext (by show ((b.val * 128 + i.val) * 128 + j.val) / 128 % 128 = i.val; omega)
  | ⟨3, _⟩ => exact Fin.ext (by show ((b.val * 128 + i.val) * 128 + j.val) % 128 = j.val; omega)

/-- Plane 7 of `g` as the reference cuts it out (a unit slice, then a reshape that drops the unit axis). -/
theorem X_plane7 (x0 : (⟨S24x128x128x16, .f32⟩ : BufTy).Contents (Elt Ideal)) (b : Fin 16) (i : Fin 128) (j : Fin 128) :
    val_main_v24 (F := Ideal) x0 (ix3 b i j) = val_main_v1 (F := Ideal) x0 (ix4 b (7 : Fin 8) i j) := by
  rw [val_main_v24_apply, val_main_v23_apply]
  have hb := b.isLt
  have hi := i.isLt
  have hj := j.isLt
  refine congrArg _ (funext fun a => ?_)
  match a with
  | ⟨0, _⟩ => exact Fin.ext (by show ((b.val * 128 + i.val) * 128 + j.val) / 16384 = b.val; omega)
  | ⟨1, _⟩ => rfl
  | ⟨2, _⟩ => exact Fin.ext (by show ((b.val * 128 + i.val) * 128 + j.val) / 128 % 128 = i.val; omega)
  | ⟨3, _⟩ => exact Fin.ext (by show ((b.val * 128 + i.val) * 128 + j.val) % 128 = j.val; omega)

/-! ## The padded planes one step inside the padding: the gates before normalisation -/

/-- Padded plane 0 at `(b, i + 1, j + 1)` is gate 0 at `(i, j)`. -/
theorem X_pgate0 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v4 (F := Ideal) x0 (ix3 b I J) = gate (fun k i j => val_main_v1 (F := Ideal) x0 (ix4 b k i j)) (0 : Fin 8) i j := by
  unfold val_main_v4
  refine (pad3_read 0 0 _ (val_main_v3 (F := Ideal) x0) (val_main_call0_v0 (F := Ideal)) _ h_S_ sitofp_zero_f32 b i j I J hI hJ).trans ?_
  exact congrArg (fun f => nb2 0 0 f i j) (funext fun i' => funext fun j' => X_plane0 x0 b i' j')

/-- The same with the unit axis the reference inserts before joining the eight. -/
theorem X_bgate0 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v26 (F := Ideal) x0 (ix4 b (0 : Fin 1) I J) = gate (fun k i j => val_main_v1 (F := Ideal) x0 (ix4 b k i j)) (0 : Fin 8) i j := by
  rw [val_main_v26_apply]
  have e : idx_main_v26 (ix4 b (0 : Fin 1) I J) = ix3 b I J := funext fun a => match a with | ⟨0, _⟩ => rfl | ⟨1, _⟩ => rfl | ⟨2, _⟩ => rfl
  exact (congrArg _ e).trans (X_pgate0 x0 b i j I J hI hJ)

/-- Padded plane 1 at `(b, i + 1, j + 1)` is gate 1 at `(i, j)`. -/
theorem X_pgate1 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v7 (F := Ideal) x0 (ix3 b I J) = gate (fun k i j => val_main_v1 (F := Ideal) x0 (ix4 b k i j)) (1 : Fin 8) i j := by
  unfold val_main_v7
  refine (pad3_read 0 1 _ (val_main_v6 (F := Ideal) x0) (val_main_call1_v0 (F := Ideal)) _ h_S_ sitofp_zero_f32 b i j I J hI hJ).trans ?_
  exact congrArg (fun f => nb2 0 1 f i j) (funext fun i' => funext fun j' => X_plane1 x0 b i' j')

/-- The same with the unit axis the reference inserts before joining the eight. -/
theorem X_bgate1 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v27 (F := Ideal) x0 (ix4 b (0 : Fin 1) I J) = gate (fun k i j => val_main_v1 (F := Ideal) x0 (ix4 b k i j)) (1 : Fin 8) i j := by
  rw [val_main_v27_apply]
  have e : idx_main_v27 (ix4 b (0 : Fin 1) I J) = ix3 b I J := funext fun a => match a with | ⟨0, _⟩ => rfl | ⟨1, _⟩ => rfl | ⟨2, _⟩ => rfl
  exact (congrArg _ e).trans (X_pgate1 x0 b i j I J hI hJ)

/-- Padded plane 2 at `(b, i + 1, j + 1)` is gate 2 at `(i, j)`. -/
theorem X_pgate2 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v10 (F := Ideal) x0 (ix3 b I J) = gate (fun k i j => val_main_v1 (F := Ideal) x0 (ix4 b k i j)) (2 : Fin 8) i j := by
  unfold val_main_v10
  refine (pad3_read 0 2 _ (val_main_v9 (F := Ideal) x0) (val_main_call2_v0 (F := Ideal)) _ h_S_ sitofp_zero_f32 b i j I J hI hJ).trans ?_
  exact congrArg (fun f => nb2 0 2 f i j) (funext fun i' => funext fun j' => X_plane2 x0 b i' j')

/-- The same with the unit axis the reference inserts before joining the eight. -/
theorem X_bgate2 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v28 (F := Ideal) x0 (ix4 b (0 : Fin 1) I J) = gate (fun k i j => val_main_v1 (F := Ideal) x0 (ix4 b k i j)) (2 : Fin 8) i j := by
  rw [val_main_v28_apply]
  have e : idx_main_v28 (ix4 b (0 : Fin 1) I J) = ix3 b I J := funext fun a => match a with | ⟨0, _⟩ => rfl | ⟨1, _⟩ => rfl | ⟨2, _⟩ => rfl
  exact (congrArg _ e).trans (X_pgate2 x0 b i j I J hI hJ)

/-- Padded plane 3 at `(b, i + 1, j + 1)` is gate 3 at `(i, j)`. -/
theorem X_pgate3 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v13 (F := Ideal) x0 (ix3 b I J) = gate (fun k i j => val_main_v1 (F := Ideal) x0 (ix4 b k i j)) (3 : Fin 8) i j := by
  unfold val_main_v13
  refine (pad3_read 1 0 _ (val_main_v12 (F := Ideal) x0) (val_main_call3_v0 (F := Ideal)) _ h_S_ sitofp_zero_f32 b i j I J hI hJ).trans ?_
  exact congrArg (fun f => nb2 1 0 f i j) (funext fun i' => funext fun j' => X_plane3 x0 b i' j')

/-- The same with the unit axis the reference inserts before joining the eight. -/
theorem X_bgate3 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v29 (F := Ideal) x0 (ix4 b (0 : Fin 1) I J) = gate (fun k i j => val_main_v1 (F := Ideal) x0 (ix4 b k i j)) (3 : Fin 8) i j := by
  rw [val_main_v29_apply]
  have e : idx_main_v29 (ix4 b (0 : Fin 1) I J) = ix3 b I J := funext fun a => match a with | ⟨0, _⟩ => rfl | ⟨1, _⟩ => rfl | ⟨2, _⟩ => rfl
  exact (congrArg _ e).trans (X_pgate3 x0 b i j I J hI hJ)

/-- Padded plane 4 at `(b, i + 1, j + 1)` is gate 4 at `(i, j)`. -/
theorem X_pgate4 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v16 (F := Ideal) x0 (ix3 b I J) = gate (fun k i j => val_main_v1 (F := Ideal) x0 (ix4 b k i j)) (4 : Fin 8) i j := by
  unfold val_main_v16
  refine (pad3_read 1 2 _ (val_main_v15 (F := Ideal) x0) (val_main_call4_v0 (F := Ideal)) _ h_S_ sitofp_zero_f32 b i j I J hI hJ).trans ?_
  exact congrArg (fun f => nb2 1 2 f i j) (funext fun i' => funext fun j' => X_plane4 x0 b i' j')

/-- The same with the unit axis the reference inserts before joining the eight. -/
theorem X_bgate4 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v30 (F := Ideal) x0 (ix4 b (0 : Fin 1) I J) = gate (fun k i j => val_main_v1 (F := Ideal) x0 (ix4 b k i j)) (4 : Fin 8) i j := by
  rw [val_main_v30_apply]
  have e : idx_main_v30 (ix4 b (0 : Fin 1) I J) = ix3 b I J := funext fun a => match a with | ⟨0, _⟩ => rfl | ⟨1, _⟩ => rfl | ⟨2, _⟩ => rfl
  exact (congrArg _ e).trans (X_pgate4 x0 b i j I J hI hJ)

/-- Padded plane 5 at `(b, i + 1, j + 1)` is gate 5 at `(i, j)`. -/
theorem X_pgate5 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v19 (F := Ideal) x0 (ix3 b I J) = gate (fun k i j => val_main_v1 (F := Ideal) x0 (ix4 b k i j)) (5 : Fin 8) i j := by
  unfold val_main_v19
  refine (pad3_read 2 0 _ (val_main_v18 (F := Ideal) x0) (val_main_call5_v0 (F := Ideal)) _ h_S_ sitofp_zero_f32 b i j I J hI hJ).trans ?_
  exact congrArg (fun f => nb2 2 0 f i j) (funext fun i' => funext fun j' => X_plane5 x0 b i' j')

/-- The same with the unit axis the reference inserts before joining the eight. -/
theorem X_bgate5 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v31 (F := Ideal) x0 (ix4 b (0 : Fin 1) I J) = gate (fun k i j => val_main_v1 (F := Ideal) x0 (ix4 b k i j)) (5 : Fin 8) i j := by
  rw [val_main_v31_apply]
  have e : idx_main_v31 (ix4 b (0 : Fin 1) I J) = ix3 b I J := funext fun a => match a with | ⟨0, _⟩ => rfl | ⟨1, _⟩ => rfl | ⟨2, _⟩ => rfl
  exact (congrArg _ e).trans (X_pgate5 x0 b i j I J hI hJ)

/-- Padded plane 6 at `(b, i + 1, j + 1)` is gate 6 at `(i, j)`. -/
theorem X_pgate6 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v22 (F := Ideal) x0 (ix3 b I J) = gate (fun k i j => val_main_v1 (F := Ideal) x0 (ix4 b k i j)) (6 : Fin 8) i j := by
  unfold val_main_v22
  refine (pad3_read 2 1 _ (val_main_v21 (F := Ideal) x0) (val_main_call6_v0 (F := Ideal)) _ h_S_ sitofp_zero_f32 b i j I J hI hJ).trans ?_
  exact congrArg (fun f => nb2 2 1 f i j) (funext fun i' => funext fun j' => X_plane6 x0 b i' j')

/-- The same with the unit axis the reference inserts before joining the eight. -/
theorem X_bgate6 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v32 (F := Ideal) x0 (ix4 b (0 : Fin 1) I J) = gate (fun k i j => val_main_v1 (F := Ideal) x0 (ix4 b k i j)) (6 : Fin 8) i j := by
  rw [val_main_v32_apply]
  have e : idx_main_v32 (ix4 b (0 : Fin 1) I J) = ix3 b I J := funext fun a => match a with | ⟨0, _⟩ => rfl | ⟨1, _⟩ => rfl | ⟨2, _⟩ => rfl
  exact (congrArg _ e).trans (X_pgate6 x0 b i j I J hI hJ)

/-- Padded plane 7 at `(b, i + 1, j + 1)` is gate 7 at `(i, j)`. -/
theorem X_pgate7 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v25 (F := Ideal) x0 (ix3 b I J) = gate (fun k i j => val_main_v1 (F := Ideal) x0 (ix4 b k i j)) (7 : Fin 8) i j := by
  unfold val_main_v25
  refine (pad3_read 2 2 _ (val_main_v24 (F := Ideal) x0) (val_main_call7_v0 (F := Ideal)) _ h_S_ sitofp_zero_f32 b i j I J hI hJ).trans ?_
  exact congrArg (fun f => nb2 2 2 f i j) (funext fun i' => funext fun j' => X_plane7 x0 b i' j')

/-- The same with the unit axis the reference inserts before joining the eight. -/
theorem X_bgate7 (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v33 (F := Ideal) x0 (ix4 b (0 : Fin 1) I J) = gate (fun k i j => val_main_v1 (F := Ideal) x0 (ix4 b k i j)) (7 : Fin 8) i j := by
  rw [val_main_v33_apply]
  have e : idx_main_v33 (ix4 b (0 : Fin 1) I J) = ix3 b I J := funext fun a => match a with | ⟨0, _⟩ => rfl | ⟨1, _⟩ => rfl | ⟨2, _⟩ => rfl
  exact (congrArg _ e).trans (X_pgate7 x0 b i j I J hI hJ)

/-! ## The joined gates, their absolute sum, the normalised gates and their sum -/

/-- The eight padded planes joined along axis 1, read at `(b, k, I, J)`: piece `k`. -/
theorem X_cat (x0 : (⟨S24x128x128x16, .f32⟩ : BufTy).Contents (Elt Ideal)) (b : Fin 16) (k : Fin 8) (I : Fin 130) (J : Fin 130) :
    val_main_v34 (F := Ideal) x0 (ix4 b k I J)
      = (![val_main_v26 (F := Ideal) x0, val_main_v27 (F := Ideal) x0, val_main_v28 (F := Ideal) x0, val_main_v29 (F := Ideal) x0, val_main_v30 (F := Ideal) x0, val_main_v31 (F := Ideal) x0, val_main_v32 (F := Ideal) x0, val_main_v33 (F := Ideal) x0] k) (ix4 b (0 : Fin 1) I J) := by
  unfold val_main_v34
  exact concat8_read4 _ _ _ _ _ _ _ _ _ b k I J

/-- The joined array at `(b, k, i + 1, j + 1)` is gate `k` at `(i, j)`. -/
theorem X_gate (x0 : (⟨S24x128x128x16, .f32⟩ : BufTy).Contents (Elt Ideal)) (b : Fin 16) (k : Fin 8) (i : Fin 128) (j : Fin 128) (I : Fin 130) (J : Fin 130) (hI : I.val = i.val + 1) (hJ : J.val = j.val + 1) :
    val_main_v34 (F := Ideal) x0 (ix4 b k I J) = gate (fun k i j => val_main_v1 (F := Ideal) x0 (ix4 b k i j)) k i j := by
  rw [X_cat]
  fin_cases k
  · exact X_bgate0 x0 b i j I J hI hJ
  · exact X_bgate1 x0 b i j I J hI hJ
  · exact X_bgate2 x0 b i j I J hI hJ
  · exact X_bgate3 x0 b i j I J hI hJ
  · exact X_bgate4 x0 b i j I J hI hJ
  · exact X_bgate5 x0 b i j I J hI hJ
  · exact X_bgate6 x0 b i j I J hI hJ
  · exact X_bgate7 x0 b i j I J hI hJ

/-- The sum over the joined axis of the absolute values is the absolute sum of the gates. -/
theorem X_abs (x0 : (⟨S24x128x128x16, .f32⟩ : BufTy).Contents (Elt Ideal)) (b : Fin 16) (i : Fin 128) (j : Fin 128) (I : Fin 130) (J : Fin 130) (hI : I.val = i.val + 1) (hJ : J.val = j.val + 1) :
    val_main_v36 (F := Ideal) x0 (ix3 b I J) = absSum (fun k i j => val_main_v1 (F := Ideal) x0 (ix4 b k i j)) i j := by
  rw [val_main_v36_apply]
  refine (zero_init_add _).trans ?_
  unfold absSum
  refine Finset.sum_congr rfl fun k _ => ?_
  have e : idx_main_v36 (ix3 b I J) k = ix4 b k I J := funext fun a => match a with | ⟨0, _⟩ => rfl | ⟨1, _⟩ => rfl | ⟨2, _⟩ => rfl | ⟨3, _⟩ => rfl
  rw [e, val_main_v35_apply, X_gate x0 b k i j I J hI hJ]
  rfl

/-- The quotient by the (broadcast) absolute sum is the normalised gate. -/
theorem X_norm (x0 : (⟨S24x128x128x16, .f32⟩ : BufTy).Contents (Elt Ideal)) (b : Fin 16) (k : Fin 8) (i : Fin 128) (j : Fin 128) (I : Fin 130) (J : Fin 130) (hI : I.val = i.val + 1) (hJ : J.val = j.val + 1) :
    val_main_v39 (F := Ideal) x0 (ix4 b k I J) = norm (fun k i j => val_main_v1 (F := Ideal) x0 (ix4 b k i j)) k i j := by
  rw [val_main_v39_apply, val_main_v38_apply, val_main_v37_apply]
  have e : idx_main_v37 (idx_main_v38 (ix4 b k I J)) = ix3 b I J := funext fun a => match a with | ⟨0, _⟩ => rfl | ⟨1, _⟩ => rfl | ⟨2, _⟩ => rfl
  rw [e, X_gate x0 b k i j I J hI hJ, X_abs x0 b i j I J hI hJ]
  rfl

/-- The sum of the normalised gates, cut back to the unpadded plane. -/
theorem X_gsum (x0 : (⟨S24x128x128x16, .f32⟩ : BufTy).Contents (Elt Ideal)) (b : Fin 16) (i : Fin 128) (j : Fin 128) :
    val_main_v41 (F := Ideal) x0 (ix3 b i j) = gateSum (fun k i j => val_main_v1 (F := Ideal) x0 (ix4 b k i j)) i j := by
  rw [val_main_v41_apply, val_main_v40_apply]
  refine (zero_init_add _).trans ?_
  unfold gateSum
  refine Finset.sum_congr rfl fun k _ => ?_
  have e : idx_main_v40 (idx_main_v41 (ix3 b i j)) k = ix4 b k (⟨i.val + 1, by have := i.isLt; omega⟩ : Fin 130) (⟨j.val + 1, by have := j.isLt; omega⟩ : Fin 130) :=
    funext fun a => match a with
      | ⟨0, _⟩ => rfl | ⟨1, _⟩ => rfl | ⟨2, _⟩ => Fin.ext (Nat.add_comm 1 i.val) | ⟨3, _⟩ => Fin.ext (Nat.add_comm 1 j.val)
  rw [e]
  exact X_norm x0 b k i j _ _ rfl rfl

/-! ## The padded data planes and the gated sum -/

/-- Padded data array 0 at `(b, c, i + 1, j + 1)` is neighbour map 0 of data plane `(b, c)` at `(i, j)`. -/
theorem X_pdata0 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v128 (F := Ideal) x1 (ix4 b c I J) = nb2 (lo0 0) (lo1 0) (fun i' j' => val_main_v126 (F := Ideal) x1 (ix4 b c i' j')) i j := by
  unfold val_main_v128
  exact pad4_read 0 0 _ (val_main_v126 (F := Ideal) x1) (val_main_call24_v0 (F := Ideal)) _ h_S_ sitofp_zero_f32 b c i j I J hI hJ

/-- The same with the unit axis the reference inserts before joining the eight. -/
theorem X_bdata0 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v136 (F := Ideal) x1 (ix5 b (0 : Fin 1) c I J) = nb2 (lo0 0) (lo1 0) (fun i' j' => val_main_v126 (F := Ideal) x1 (ix4 b c i' j')) i j := by
  rw [val_main_v136_apply]
  have e : idx_main_v136 (ix5 b (0 : Fin 1) c I J) = ix4 b c I J := funext fun a => match a with | ⟨0, _⟩ => rfl | ⟨1, _⟩ => rfl | ⟨2, _⟩ => rfl | ⟨3, _⟩ => rfl
  exact (congrArg _ e).trans (X_pdata0 x1 b c i j I J hI hJ)

/-- Padded data array 1 at `(b, c, i + 1, j + 1)` is neighbour map 1 of data plane `(b, c)` at `(i, j)`. -/
theorem X_pdata1 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v129 (F := Ideal) x1 (ix4 b c I J) = nb2 (lo0 1) (lo1 1) (fun i' j' => val_main_v126 (F := Ideal) x1 (ix4 b c i' j')) i j := by
  unfold val_main_v129
  exact pad4_read 0 1 _ (val_main_v126 (F := Ideal) x1) (val_main_call25_v0 (F := Ideal)) _ h_S_ sitofp_zero_f32 b c i j I J hI hJ

/-- The same with the unit axis the reference inserts before joining the eight. -/
theorem X_bdata1 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v137 (F := Ideal) x1 (ix5 b (0 : Fin 1) c I J) = nb2 (lo0 1) (lo1 1) (fun i' j' => val_main_v126 (F := Ideal) x1 (ix4 b c i' j')) i j := by
  rw [val_main_v137_apply]
  have e : idx_main_v137 (ix5 b (0 : Fin 1) c I J) = ix4 b c I J := funext fun a => match a with | ⟨0, _⟩ => rfl | ⟨1, _⟩ => rfl | ⟨2, _⟩ => rfl | ⟨3, _⟩ => rfl
  exact (congrArg _ e).trans (X_pdata1 x1 b c i j I J hI hJ)

/-- Padded data array 2 at `(b, c, i + 1, j + 1)` is neighbour map 2 of data plane `(b, c)` at `(i, j)`. -/
theorem X_pdata2 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v130 (F := Ideal) x1 (ix4 b c I J) = nb2 (lo0 2) (lo1 2) (fun i' j' => val_main_v126 (F := Ideal) x1 (ix4 b c i' j')) i j := by
  unfold val_main_v130
  exact pad4_read 0 2 _ (val_main_v126 (F := Ideal) x1) (val_main_call26_v0 (F := Ideal)) _ h_S_ sitofp_zero_f32 b c i j I J hI hJ

/-- The same with the unit axis the reference inserts before joining the eight. -/
theorem X_bdata2 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v138 (F := Ideal) x1 (ix5 b (0 : Fin 1) c I J) = nb2 (lo0 2) (lo1 2) (fun i' j' => val_main_v126 (F := Ideal) x1 (ix4 b c i' j')) i j := by
  rw [val_main_v138_apply]
  have e : idx_main_v138 (ix5 b (0 : Fin 1) c I J) = ix4 b c I J := funext fun a => match a with | ⟨0, _⟩ => rfl | ⟨1, _⟩ => rfl | ⟨2, _⟩ => rfl | ⟨3, _⟩ => rfl
  exact (congrArg _ e).trans (X_pdata2 x1 b c i j I J hI hJ)

/-- Padded data array 3 at `(b, c, i + 1, j + 1)` is neighbour map 3 of data plane `(b, c)` at `(i, j)`. -/
theorem X_pdata3 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v131 (F := Ideal) x1 (ix4 b c I J) = nb2 (lo0 3) (lo1 3) (fun i' j' => val_main_v126 (F := Ideal) x1 (ix4 b c i' j')) i j := by
  unfold val_main_v131
  exact pad4_read 1 0 _ (val_main_v126 (F := Ideal) x1) (val_main_call27_v0 (F := Ideal)) _ h_S_ sitofp_zero_f32 b c i j I J hI hJ

/-- The same with the unit axis the reference inserts before joining the eight. -/
theorem X_bdata3 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v139 (F := Ideal) x1 (ix5 b (0 : Fin 1) c I J) = nb2 (lo0 3) (lo1 3) (fun i' j' => val_main_v126 (F := Ideal) x1 (ix4 b c i' j')) i j := by
  rw [val_main_v139_apply]
  have e : idx_main_v139 (ix5 b (0 : Fin 1) c I J) = ix4 b c I J := funext fun a => match a with | ⟨0, _⟩ => rfl | ⟨1, _⟩ => rfl | ⟨2, _⟩ => rfl | ⟨3, _⟩ => rfl
  exact (congrArg _ e).trans (X_pdata3 x1 b c i j I J hI hJ)

/-- Padded data array 4 at `(b, c, i + 1, j + 1)` is neighbour map 4 of data plane `(b, c)` at `(i, j)`. -/
theorem X_pdata4 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v132 (F := Ideal) x1 (ix4 b c I J) = nb2 (lo0 4) (lo1 4) (fun i' j' => val_main_v126 (F := Ideal) x1 (ix4 b c i' j')) i j := by
  unfold val_main_v132
  exact pad4_read 1 2 _ (val_main_v126 (F := Ideal) x1) (val_main_call28_v0 (F := Ideal)) _ h_S_ sitofp_zero_f32 b c i j I J hI hJ

/-- The same with the unit axis the reference inserts before joining the eight. -/
theorem X_bdata4 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v140 (F := Ideal) x1 (ix5 b (0 : Fin 1) c I J) = nb2 (lo0 4) (lo1 4) (fun i' j' => val_main_v126 (F := Ideal) x1 (ix4 b c i' j')) i j := by
  rw [val_main_v140_apply]
  have e : idx_main_v140 (ix5 b (0 : Fin 1) c I J) = ix4 b c I J := funext fun a => match a with | ⟨0, _⟩ => rfl | ⟨1, _⟩ => rfl | ⟨2, _⟩ => rfl | ⟨3, _⟩ => rfl
  exact (congrArg _ e).trans (X_pdata4 x1 b c i j I J hI hJ)

/-- Padded data array 5 at `(b, c, i + 1, j + 1)` is neighbour map 5 of data plane `(b, c)` at `(i, j)`. -/
theorem X_pdata5 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v133 (F := Ideal) x1 (ix4 b c I J) = nb2 (lo0 5) (lo1 5) (fun i' j' => val_main_v126 (F := Ideal) x1 (ix4 b c i' j')) i j := by
  unfold val_main_v133
  exact pad4_read 2 0 _ (val_main_v126 (F := Ideal) x1) (val_main_call29_v0 (F := Ideal)) _ h_S_ sitofp_zero_f32 b c i j I J hI hJ

/-- The same with the unit axis the reference inserts before joining the eight. -/
theorem X_bdata5 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v141 (F := Ideal) x1 (ix5 b (0 : Fin 1) c I J) = nb2 (lo0 5) (lo1 5) (fun i' j' => val_main_v126 (F := Ideal) x1 (ix4 b c i' j')) i j := by
  rw [val_main_v141_apply]
  have e : idx_main_v141 (ix5 b (0 : Fin 1) c I J) = ix4 b c I J := funext fun a => match a with | ⟨0, _⟩ => rfl | ⟨1, _⟩ => rfl | ⟨2, _⟩ => rfl | ⟨3, _⟩ => rfl
  exact (congrArg _ e).trans (X_pdata5 x1 b c i j I J hI hJ)

/-- Padded data array 6 at `(b, c, i + 1, j + 1)` is neighbour map 6 of data plane `(b, c)` at `(i, j)`. -/
theorem X_pdata6 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v134 (F := Ideal) x1 (ix4 b c I J) = nb2 (lo0 6) (lo1 6) (fun i' j' => val_main_v126 (F := Ideal) x1 (ix4 b c i' j')) i j := by
  unfold val_main_v134
  exact pad4_read 2 1 _ (val_main_v126 (F := Ideal) x1) (val_main_call30_v0 (F := Ideal)) _ h_S_ sitofp_zero_f32 b c i j I J hI hJ

/-- The same with the unit axis the reference inserts before joining the eight. -/
theorem X_bdata6 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v142 (F := Ideal) x1 (ix5 b (0 : Fin 1) c I J) = nb2 (lo0 6) (lo1 6) (fun i' j' => val_main_v126 (F := Ideal) x1 (ix4 b c i' j')) i j := by
  rw [val_main_v142_apply]
  have e : idx_main_v142 (ix5 b (0 : Fin 1) c I J) = ix4 b c I J := funext fun a => match a with | ⟨0, _⟩ => rfl | ⟨1, _⟩ => rfl | ⟨2, _⟩ => rfl | ⟨3, _⟩ => rfl
  exact (congrArg _ e).trans (X_pdata6 x1 b c i j I J hI hJ)

/-- Padded data array 7 at `(b, c, i + 1, j + 1)` is neighbour map 7 of data plane `(b, c)` at `(i, j)`. -/
theorem X_pdata7 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v135 (F := Ideal) x1 (ix4 b c I J) = nb2 (lo0 7) (lo1 7) (fun i' j' => val_main_v126 (F := Ideal) x1 (ix4 b c i' j')) i j := by
  unfold val_main_v135
  exact pad4_read 2 2 _ (val_main_v126 (F := Ideal) x1) (val_main_call31_v0 (F := Ideal)) _ h_S_ sitofp_zero_f32 b c i j I J hI hJ

/-- The same with the unit axis the reference inserts before joining the eight. -/
theorem X_bdata7 (x1 : (⟨S20x128x128x16, .f32⟩ : BufTy).Contents (Elt Ideal)) (b : Fin 16) (c : Fin 20) (i : Fin 128) (j : Fin 128) (I : Fin 130) (J : Fin 130) (hI : I.val = i.val + 1) (hJ : J.val = j.val + 1) :
    val_main_v143 (F := Ideal) x1 (ix5 b (0 : Fin 1) c I J) = nb2 (lo0 7) (lo1 7) (fun i' j' => val_main_v126 (F := Ideal) x1 (ix4 b c i' j')) i j := by
  rw [val_main_v143_apply]
  have e : idx_main_v143 (ix5 b (0 : Fin 1) c I J) = ix4 b c I J := funext fun a => match a with | ⟨0, _⟩ => rfl | ⟨1, _⟩ => rfl | ⟨2, _⟩ => rfl | ⟨3, _⟩ => rfl
  exact (congrArg _ e).trans (X_pdata7 x1 b c i j I J hI hJ)

/-- The eight padded data arrays joined along axis 1, read at `(b, k, c, I, J)`: piece `k`. -/
theorem X_dcat (x1 : (⟨S20x128x128x16, .f32⟩ : BufTy).Contents (Elt Ideal)) (b : Fin 16) (k : Fin 8) (c : Fin 20) (I : Fin 130) (J : Fin 130) :
    val_main_v144 (F := Ideal) x1 (ix5 b k c I J)
      = (![val_main_v136 (F := Ideal) x1, val_main_v137 (F := Ideal) x1, val_main_v138 (F := Ideal) x1, val_main_v139 (F := Ideal) x1, val_main_v140 (F := Ideal) x1, val_main_v141 (F := Ideal) x1, val_main_v142 (F := Ideal) x1, val_main_v143 (F := Ideal) x1] k) (ix5 b (0 : Fin 1) c I J) := by
  unfold val_main_v144
  exact concat8_read5 _ _ _ _ _ _ _ _ _ b k c I J

/-- The joined data array at `(b, k, c, i + 1, j + 1)` is neighbour map `k` of data plane `(b, c)` at `(i, j)`. -/
theorem X_data (x1 : (⟨S20x128x128x16, .f32⟩ : BufTy).Contents (Elt Ideal)) (b : Fin 16) (k : Fin 8) (c : Fin 20) (i : Fin 128) (j : Fin 128) (I : Fin 130) (J : Fin 130) (hI : I.val = i.val + 1) (hJ : J.val = j.val + 1) :
    val_main_v144 (F := Ideal) x1 (ix5 b k c I J) = nb2 (lo0 k) (lo1 k) (fun i' j' => val_main_v126 (F := Ideal) x1 (ix4 b c i' j')) i j := by
  rw [X_dcat]
  fin_cases k
  · exact X_bdata0 x1 b c i j I J hI hJ
  · exact X_bdata1 x1 b c i j I J hI hJ
  · exact X_bdata2 x1 b c i j I J hI hJ
  · exact X_bdata3 x1 b c i j I J hI hJ
  · exact X_bdata4 x1 b c i j I J hI hJ
  · exact X_bdata5 x1 b c i j I J hI hJ
  · exact X_bdata6 x1 b c i j I J hI hJ
  · exact X_bdata7 x1 b c i j I J hI hJ

/-- The gated sum of the eight neighbour maps, cut back to the unpadded plane. -/
theorem X_nws (x0 : (⟨S24x128x128x16, .f32⟩ : BufTy).Contents (Elt Ideal)) (x1 : (⟨S20x128x128x16, .f32⟩ : BufTy).Contents (Elt Ideal)) (b : Fin 16) (c : Fin 20) (i : Fin 128) (j : Fin 128) :
    val_main_v148 (F := Ideal) x0 x1 (ix4 b c i j) = nws (fun k i j => val_main_v1 (F := Ideal) x0 (ix4 b k i j)) (fun c i j => val_main_v126 (F := Ideal) x1 (ix4 b c i j)) c i j := by
  rw [val_main_v148_apply, val_main_v147_apply]
  refine (zero_init_add _).trans ?_
  unfold nws
  refine Finset.sum_congr rfl fun k _ => ?_
  have e : idx_main_v147 (idx_main_v148 (ix4 b c i j)) k = ix5 b k c (⟨i.val + 1, by have := i.isLt; omega⟩ : Fin 130) (⟨j.val + 1, by have := j.isLt; omega⟩ : Fin 130) :=
    funext fun a => match a with
      | ⟨0, _⟩ => rfl | ⟨1, _⟩ => rfl | ⟨2, _⟩ => rfl | ⟨3, _⟩ => Fin.ext (Nat.add_comm 1 i.val)
      | ⟨4, _⟩ => Fin.ext (Nat.add_comm 1 j.val)
  rw [e, val_main_v146_apply, val_main_v145_apply, val_main_v127_apply]
  have e2 : idx_main_v127 (idx_main_v145 (ix5 b k c (⟨i.val + 1, by have := i.isLt; omega⟩ : Fin 130) (⟨j.val + 1, by have := j.isLt; omega⟩ : Fin 130))) = ix4 b k (⟨i.val + 1, by have := i.isLt; omega⟩ : Fin 130) (⟨j.val + 1, by have := j.isLt; omega⟩ : Fin 130) :=
    funext fun a => match a with | ⟨0, _⟩ => rfl | ⟨1, _⟩ => rfl | ⟨2, _⟩ => rfl | ⟨3, _⟩ => rfl
  rw [e2, X_norm x0 b k i j _ _ rfl rfl, X_data x1 b k c i j _ _ rfl rfl]
  rfl

/-! ## The step -/

/-- The reference's first step is the specification's step on its guidance and data arrays. -/
theorem phaseX (x0 : (⟨S24x128x128x16, .f32⟩ : BufTy).Contents (Elt Ideal)) (x1 : (⟨S20x128x128x16, .f32⟩ : BufTy).Contents (Elt Ideal)) :
    val_main_v154 (F := Ideal) x0 x1 = Cert.Affinity.step (val_main_v1 (F := Ideal) x0) (val_main_v126 (F := Ideal) x1) := by
  funext idx
  obtain ⟨b, c, i, j, rfl⟩ : ∃ (b : Fin 16) (c : Fin 20) (i : Fin 128) (j : Fin 128), idx = ix4 b c i j :=
    ⟨idx 0, idx 1, idx 2, idx 3, eq_ix4 idx⟩
  rw [step_apply, val_main_v154_apply, val_main_v153_apply, val_main_v152_apply, val_main_v151_apply,
    val_main_v150_apply, val_main_cst_37_apply, val_main_v149_apply]
  have e : idx_main_v149 (idx_main_v152 (ix4 b c i j)) = ix3 b i j := funext fun a => match a with | ⟨0, _⟩ => rfl | ⟨1, _⟩ => rfl | ⟨2, _⟩ => rfl
  rw [e, X_gsum x0 b i j, X_nws x0 x1 b c i j]
  rfl

end Cert.ReferenceIdeal.RefStep

end
-- ==== Proof.RefY.lean ====
/-
  The reference's second propagation step, read at an index.

  The guidance array `g` (eight planes per batch entry) and the data array `x` of this step are two values of the
  printed reference. Its gates are the eight zero-padded planes of `g`, joined along a new axis and divided by the sum
  of their absolute values; its output is `(1 - Σ gates) · x + Σ gate_k · (padded x)_k`, cut back to the unpadded
  plane. Every padded array is read one step inside the padding, where pad `k` of a plane is the neighbour read
  `nb2 (lo0 k) (lo1 k)` of that plane, so the output is `Cert.Affinity.step g x`.
-/
import proofs.«139537_j58806692216890_2_alg».proof.Proof.Spec
import proofs.«139537_j58806692216890_2_alg».proof.Proof.ReadP
import proofs.«139537_j58806692216890_2_alg».proof.Proof.LibPadRead

noncomputable section

namespace Cert.ReferenceIdeal.RefStep

open Cert.ReferenceIdeal Cert.ReferenceIdeal.Gen Idealize.ShloMosaic Idealize.ShloMosaic.ValueIdx Cert.ReferenceIdeal.ReadP
open Cert.Affinity Cert.PadRead
open scoped BigOperators

/-! ## The eight guidance planes, cut out of `g` -/

/-- Plane 0 of `g` as the reference cuts it out (a unit slice, then a reshape that drops the unit axis). -/
theorem Y_plane0 (x0 : (⟨S24x128x128x16, .f32⟩ : BufTy).Contents (Elt Ideal)) (b : Fin 128) (i : Fin 128) (j : Fin 16) :
    val_main_v45 (F := Ideal) x0 (ix3 b i j) = val_main_v43 (F := Ideal) x0 (ix4 b (0 : Fin 8) i j) := by
  rw [val_main_v45_apply, val_main_v44_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 1 of `g` as the reference cuts it out (a unit slice, then a reshape that drops the unit axis). -/
theorem Y_plane1 (x0 : (⟨S24x128x128x16, .f32⟩ : BufTy).Contents (Elt Ideal)) (b : Fin 128) (i : Fin 128) (j : Fin 16) :
    val_main_v48 (F := Ideal) x0 (ix3 b i j) = val_main_v43 (F := Ideal) x0 (ix4 b (1 : Fin 8) i j) := by
  rw [val_main_v48_apply, val_main_v47_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 2 of `g` as the reference cuts it out (a unit slice, then a reshape that drops the unit axis). -/
theorem Y_plane2 (x0 : (⟨S24x128x128x16, .f32⟩ : BufTy).Contents (Elt Ideal)) (b : Fin 128) (i : Fin 128) (j : Fin 16) :
    val_main_v51 (F := Ideal) x0 (ix3 b i j) = val_main_v43 (F := Ideal) x0 (ix4 b (2 : Fin 8) i j) := by
  rw [val_main_v51_apply, val_main_v50_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 3 of `g` as the reference cuts it out (a unit slice, then a reshape that drops the unit axis). -/
theorem Y_plane3 (x0 : (⟨S24x128x128x16, .f32⟩ : BufTy).Contents (Elt Ideal)) (b : Fin 128) (i : Fin 128) (j : Fin 16) :
    val_main_v54 (F := Ideal) x0 (ix3 b i j) = val_main_v43 (F := Ideal) x0 (ix4 b (3 : Fin 8) i j) := by
  rw [val_main_v54_apply, val_main_v53_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 4 of `g` as the reference cuts it out (a unit slice, then a reshape that drops the unit axis). -/
theorem Y_plane4 (x0 : (⟨S24x128x128x16, .f32⟩ : BufTy).Contents (Elt Ideal)) (b : Fin 128) (i : Fin 128) (j : Fin 16) :
    val_main_v57 (F := Ideal) x0 (ix3 b i j) = val_main_v43 (F := Ideal) x0 (ix4 b (4 : Fin 8) i j) := by
  rw [val_main_v57_apply, val_main_v56_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 5 of `g` as the reference cuts it out (a unit slice, then a reshape that drops the unit axis). -/
theorem Y_plane5 (x0 : (⟨S24x128x128x16, .f32⟩ : BufTy).Contents (Elt Ideal)) (b : Fin 128) (i : Fin 128) (j : Fin 16) :
    val_main_v60 (F := Ideal) x0 (ix3 b i j) = val_main_v43 (F := Ideal) x0 (ix4 b (5 : Fin 8) i j) := by
  rw [val_main_v60_apply, val_main_v59_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 6 of `g` as the reference cuts it out (a unit slice, then a reshape that drops the unit axis). -/
theorem Y_plane6 (x0 : (⟨S24x128x128x16, .f32⟩ : BufTy).Contents (Elt Ideal)) (b : Fin 128) (i : Fin 128) (j : Fin 16) :
    val_main_v63 (F := Ideal) x0 (ix3 b i j) = val_main_v43 (F := Ideal) x0 (ix4 b (6 : Fin 8) i j) := by
  rw [val_main_v63_apply, val_main_v62_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 7 of `g` as the reference cuts it out (a unit slice, then a reshape that drops the unit axis). -/
theorem Y_plane7 (x0 : (⟨S24x128x128x16, .f32⟩ : BufTy).Contents (Elt Ideal)) (b : Fin 128) (i : Fin 128) (j : Fin 16) :
    val_main_v66 (F := Ideal) x0 (ix3 b i j) = val_main_v43 (F := Ideal) x0 (ix4 b (7 : Fin 8) i j) := by
  rw [val_main_v66_apply, val_main_v65_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-! ## The padded planes one step inside the padding: the gates before normalisation -/

/-- Padded plane 0 at `(b, i + 1, j + 1)` is gate 0 at `(i, j)`. -/
theorem Y_pgate0 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v46 (F := Ideal) x0 (ix3 b I J) = gate (fun k i j => val_main_v43 (F := Ideal) x0 (ix4 b k i j)) (0 : Fin 8) i j := by
  unfold val_main_v46
  refine (pad3_read 0 0 _ (val_main_v45 (F := Ideal) x0) (val_main_call8_v0 (F := Ideal)) _ h_S_ sitofp_zero_f32 b i j I J hI hJ).trans ?_
  exact congrArg (fun f => nb2 0 0 f i j) (funext fun i' => funext fun j' => Y_plane0 x0 b i' j')

/-- The same with the unit axis the reference inserts before joining the eight. -/
theorem Y_bgate0 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v68 (F := Ideal) x0 (ix4 b (0 : Fin 1) I J) = gate (fun k i j => val_main_v43 (F := Ideal) x0 (ix4 b k i j)) (0 : Fin 8) i j := by
  rw [val_main_v68_apply]
  have e : idx_main_v68 (ix4 b (0 : Fin 1) I J) = ix3 b I J := funext fun a => match a with | ⟨0, _⟩ => rfl | ⟨1, _⟩ => rfl | ⟨2, _⟩ => rfl
  exact (congrArg _ e).trans (Y_pgate0 x0 b i j I J hI hJ)

/-- Padded plane 1 at `(b, i + 1, j + 1)` is gate 1 at `(i, j)`. -/
theorem Y_pgate1 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v49 (F := Ideal) x0 (ix3 b I J) = gate (fun k i j => val_main_v43 (F := Ideal) x0 (ix4 b k i j)) (1 : Fin 8) i j := by
  unfold val_main_v49
  refine (pad3_read 0 1 _ (val_main_v48 (F := Ideal) x0) (val_main_call9_v0 (F := Ideal)) _ h_S_ sitofp_zero_f32 b i j I J hI hJ).trans ?_
  exact congrArg (fun f => nb2 0 1 f i j) (funext fun i' => funext fun j' => Y_plane1 x0 b i' j')

/-- The same with the unit axis the reference inserts before joining the eight. -/
theorem Y_bgate1 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v69 (F := Ideal) x0 (ix4 b (0 : Fin 1) I J) = gate (fun k i j => val_main_v43 (F := Ideal) x0 (ix4 b k i j)) (1 : Fin 8) i j := by
  rw [val_main_v69_apply]
  have e : idx_main_v69 (ix4 b (0 : Fin 1) I J) = ix3 b I J := funext fun a => match a with | ⟨0, _⟩ => rfl | ⟨1, _⟩ => rfl | ⟨2, _⟩ => rfl
  exact (congrArg _ e).trans (Y_pgate1 x0 b i j I J hI hJ)

/-- Padded plane 2 at `(b, i + 1, j + 1)` is gate 2 at `(i, j)`. -/
theorem Y_pgate2 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v52 (F := Ideal) x0 (ix3 b I J) = gate (fun k i j => val_main_v43 (F := Ideal) x0 (ix4 b k i j)) (2 : Fin 8) i j := by
  unfold val_main_v52
  refine (pad3_read 0 2 _ (val_main_v51 (F := Ideal) x0) (val_main_call10_v0 (F := Ideal)) _ h_S_ sitofp_zero_f32 b i j I J hI hJ).trans ?_
  exact congrArg (fun f => nb2 0 2 f i j) (funext fun i' => funext fun j' => Y_plane2 x0 b i' j')

/-- The same with the unit axis the reference inserts before joining the eight. -/
theorem Y_bgate2 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v70 (F := Ideal) x0 (ix4 b (0 : Fin 1) I J) = gate (fun k i j => val_main_v43 (F := Ideal) x0 (ix4 b k i j)) (2 : Fin 8) i j := by
  rw [val_main_v70_apply]
  have e : idx_main_v70 (ix4 b (0 : Fin 1) I J) = ix3 b I J := funext fun a => match a with | ⟨0, _⟩ => rfl | ⟨1, _⟩ => rfl | ⟨2, _⟩ => rfl
  exact (congrArg _ e).trans (Y_pgate2 x0 b i j I J hI hJ)

/-- Padded plane 3 at `(b, i + 1, j + 1)` is gate 3 at `(i, j)`. -/
theorem Y_pgate3 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v55 (F := Ideal) x0 (ix3 b I J) = gate (fun k i j => val_main_v43 (F := Ideal) x0 (ix4 b k i j)) (3 : Fin 8) i j := by
  unfold val_main_v55
  refine (pad3_read 1 0 _ (val_main_v54 (F := Ideal) x0) (val_main_call11_v0 (F := Ideal)) _ h_S_ sitofp_zero_f32 b i j I J hI hJ).trans ?_
  exact congrArg (fun f => nb2 1 0 f i j) (funext fun i' => funext fun j' => Y_plane3 x0 b i' j')

/-- The same with the unit axis the reference inserts before joining the eight. -/
theorem Y_bgate3 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v71 (F := Ideal) x0 (ix4 b (0 : Fin 1) I J) = gate (fun k i j => val_main_v43 (F := Ideal) x0 (ix4 b k i j)) (3 : Fin 8) i j := by
  rw [val_main_v71_apply]
  have e : idx_main_v71 (ix4 b (0 : Fin 1) I J) = ix3 b I J := funext fun a => match a with | ⟨0, _⟩ => rfl | ⟨1, _⟩ => rfl | ⟨2, _⟩ => rfl
  exact (congrArg _ e).trans (Y_pgate3 x0 b i j I J hI hJ)

/-- Padded plane 4 at `(b, i + 1, j + 1)` is gate 4 at `(i, j)`. -/
theorem Y_pgate4 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v58 (F := Ideal) x0 (ix3 b I J) = gate (fun k i j => val_main_v43 (F := Ideal) x0 (ix4 b k i j)) (4 : Fin 8) i j := by
  unfold val_main_v58
  refine (pad3_read 1 2 _ (val_main_v57 (F := Ideal) x0) (val_main_call12_v0 (F := Ideal)) _ h_S_ sitofp_zero_f32 b i j I J hI hJ).trans ?_
  exact congrArg (fun f => nb2 1 2 f i j) (funext fun i' => funext fun j' => Y_plane4 x0 b i' j')

/-- The same with the unit axis the reference inserts before joining the eight. -/
theorem Y_bgate4 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v72 (F := Ideal) x0 (ix4 b (0 : Fin 1) I J) = gate (fun k i j => val_main_v43 (F := Ideal) x0 (ix4 b k i j)) (4 : Fin 8) i j := by
  rw [val_main_v72_apply]
  have e : idx_main_v72 (ix4 b (0 : Fin 1) I J) = ix3 b I J := funext fun a => match a with | ⟨0, _⟩ => rfl | ⟨1, _⟩ => rfl | ⟨2, _⟩ => rfl
  exact (congrArg _ e).trans (Y_pgate4 x0 b i j I J hI hJ)

/-- Padded plane 5 at `(b, i + 1, j + 1)` is gate 5 at `(i, j)`. -/
theorem Y_pgate5 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v61 (F := Ideal) x0 (ix3 b I J) = gate (fun k i j => val_main_v43 (F := Ideal) x0 (ix4 b k i j)) (5 : Fin 8) i j := by
  unfold val_main_v61
  refine (pad3_read 2 0 _ (val_main_v60 (F := Ideal) x0) (val_main_call13_v0 (F := Ideal)) _ h_S_ sitofp_zero_f32 b i j I J hI hJ).trans ?_
  exact congrArg (fun f => nb2 2 0 f i j) (funext fun i' => funext fun j' => Y_plane5 x0 b i' j')

/-- The same with the unit axis the reference inserts before joining the eight. -/
theorem Y_bgate5 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v73 (F := Ideal) x0 (ix4 b (0 : Fin 1) I J) = gate (fun k i j => val_main_v43 (F := Ideal) x0 (ix4 b k i j)) (5 : Fin 8) i j := by
  rw [val_main_v73_apply]
  have e : idx_main_v73 (ix4 b (0 : Fin 1) I J) = ix3 b I J := funext fun a => match a with | ⟨0, _⟩ => rfl | ⟨1, _⟩ => rfl | ⟨2, _⟩ => rfl
  exact (congrArg _ e).trans (Y_pgate5 x0 b i j I J hI hJ)

/-- Padded plane 6 at `(b, i + 1, j + 1)` is gate 6 at `(i, j)`. -/
theorem Y_pgate6 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v64 (F := Ideal) x0 (ix3 b I J) = gate (fun k i j => val_main_v43 (F := Ideal) x0 (ix4 b k i j)) (6 : Fin 8) i j := by
  unfold val_main_v64
  refine (pad3_read 2 1 _ (val_main_v63 (F := Ideal) x0) (val_main_call14_v0 (F := Ideal)) _ h_S_ sitofp_zero_f32 b i j I J hI hJ).trans ?_
  exact congrArg (fun f => nb2 2 1 f i j) (funext fun i' => funext fun j' => Y_plane6 x0 b i' j')

/-- The same with the unit axis the reference inserts before joining the eight. -/
theorem Y_bgate6 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v74 (F := Ideal) x0 (ix4 b (0 : Fin 1) I J) = gate (fun k i j => val_main_v43 (F := Ideal) x0 (ix4 b k i j)) (6 : Fin 8) i j := by
  rw [val_main_v74_apply]
  have e : idx_main_v74 (ix4 b (0 : Fin 1) I J) = ix3 b I J := funext fun a => match a with | ⟨0, _⟩ => rfl | ⟨1, _⟩ => rfl | ⟨2, _⟩ => rfl
  exact (congrArg _ e).trans (Y_pgate6 x0 b i j I J hI hJ)

/-- Padded plane 7 at `(b, i + 1, j + 1)` is gate 7 at `(i, j)`. -/
theorem Y_pgate7 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v67 (F := Ideal) x0 (ix3 b I J) = gate (fun k i j => val_main_v43 (F := Ideal) x0 (ix4 b k i j)) (7 : Fin 8) i j := by
  unfold val_main_v67
  refine (pad3_read 2 2 _ (val_main_v66 (F := Ideal) x0) (val_main_call15_v0 (F := Ideal)) _ h_S_ sitofp_zero_f32 b i j I J hI hJ).trans ?_
  exact congrArg (fun f => nb2 2 2 f i j) (funext fun i' => funext fun j' => Y_plane7 x0 b i' j')

/-- The same with the unit axis the reference inserts before joining the eight. -/
theorem Y_bgate7 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v75 (F := Ideal) x0 (ix4 b (0 : Fin 1) I J) = gate (fun k i j => val_main_v43 (F := Ideal) x0 (ix4 b k i j)) (7 : Fin 8) i j := by
  rw [val_main_v75_apply]
  have e : idx_main_v75 (ix4 b (0 : Fin 1) I J) = ix3 b I J := funext fun a => match a with | ⟨0, _⟩ => rfl | ⟨1, _⟩ => rfl | ⟨2, _⟩ => rfl
  exact (congrArg _ e).trans (Y_pgate7 x0 b i j I J hI hJ)

/-! ## The joined gates, their absolute sum, the normalised gates and their sum -/

/-- The eight padded planes joined along axis 1, read at `(b, k, I, J)`: piece `k`. -/
theorem Y_cat (x0 : (⟨S24x128x128x16, .f32⟩ : BufTy).Contents (Elt Ideal)) (b : Fin 128) (k : Fin 8) (I : Fin 130) (J : Fin 18) :
    val_main_v76 (F := Ideal) x0 (ix4 b k I J)
      = (![val_main_v68 (F := Ideal) x0, val_main_v69 (F := Ideal) x0, val_main_v70 (F := Ideal) x0, val_main_v71 (F := Ideal) x0, val_main_v72 (F := Ideal) x0, val_main_v73 (F := Ideal) x0, val_main_v74 (F := Ideal) x0, val_main_v75 (F := Ideal) x0] k) (ix4 b (0 : Fin 1) I J) := by
  unfold val_main_v76
  exact concat8_read4 _ _ _ _ _ _ _ _ _ b k I J

/-- The joined array at `(b, k, i + 1, j + 1)` is gate `k` at `(i, j)`. -/
theorem Y_gate (x0 : (⟨S24x128x128x16, .f32⟩ : BufTy).Contents (Elt Ideal)) (b : Fin 128) (k : Fin 8) (i : Fin 128) (j : Fin 16) (I : Fin 130) (J : Fin 18) (hI : I.val = i.val + 1) (hJ : J.val = j.val + 1) :
    val_main_v76 (F := Ideal) x0 (ix4 b k I J) = gate (fun k i j => val_main_v43 (F := Ideal) x0 (ix4 b k i j)) k i j := by
  rw [Y_cat]
  fin_cases k
  · exact Y_bgate0 x0 b i j I J hI hJ
  · exact Y_bgate1 x0 b i j I J hI hJ
  · exact Y_bgate2 x0 b i j I J hI hJ
  · exact Y_bgate3 x0 b i j I J hI hJ
  · exact Y_bgate4 x0 b i j I J hI hJ
  · exact Y_bgate5 x0 b i j I J hI hJ
  · exact Y_bgate6 x0 b i j I J hI hJ
  · exact Y_bgate7 x0 b i j I J hI hJ

/-- The sum over the joined axis of the absolute values is the absolute sum of the gates. -/
theorem Y_abs (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v78 (F := Ideal) x0 (ix3 b I J) = absSum (fun k i j => val_main_v43 (F := Ideal) x0 (ix4 b k i j)) i j := by
  rw [val_main_v78_apply]
  refine (zero_init_add _).trans ?_
  unfold absSum
  refine Finset.sum_congr rfl fun k _ => ?_
  have e : idx_main_v78 (ix3 b I J) k = ix4 b k I J := funext fun a => match a with | ⟨0, _⟩ => rfl | ⟨1, _⟩ => rfl | ⟨2, _⟩ => rfl | ⟨3, _⟩ => rfl
  rw [e, val_main_v77_apply, Y_gate x0 b k i j I J hI hJ]
  rfl

/-- The quotient by the (broadcast) absolute sum is the normalised gate. -/
theorem Y_norm (x0 : (⟨S24x128x128x16, .f32⟩ : BufTy).Contents (Elt Ideal)) (b : Fin 128) (k : Fin 8) (i : Fin 128) (j : Fin 16) (I : Fin 130) (J : Fin 18) (hI : I.val = i.val + 1) (hJ : J.val = j.val + 1) :
    val_main_v81 (F := Ideal) x0 (ix4 b k I J) = norm (fun k i j => val_main_v43 (F := Ideal) x0 (ix4 b k i j)) k i j := by
  rw [val_main_v81_apply, val_main_v80_apply, val_main_v79_apply]
  have e : idx_main_v79 (idx_main_v80 (ix4 b k I J)) = ix3 b I J := funext fun a => match a with | ⟨0, _⟩ => rfl | ⟨1, _⟩ => rfl | ⟨2, _⟩ => rfl
  rw [e, Y_gate x0 b k i j I J hI hJ, Y_abs x0 b i j I J hI hJ]
  rfl

/-- The sum of the normalised gates, cut back to the unpadded plane. -/
theorem Y_gsum (x0 : (⟨S24x128x128x16, .f32⟩ : BufTy).Contents (Elt Ideal)) (b : Fin 128) (i : Fin 128) (j : Fin 16) :
    val_main_v83 (F := Ideal) x0 (ix3 b i j) = gateSum (fun k i j => val_main_v43 (F := Ideal) x0 (ix4 b k i j)) i j := by
  rw [val_main_v83_apply, val_main_v82_apply]
  refine (zero_init_add _).trans ?_
  unfold gateSum
  refine Finset.sum_congr rfl fun k _ => ?_
  have e : idx_main_v82 (idx_main_v83 (ix3 b i j)) k = ix4 b k (⟨i.val + 1, by have := i.isLt; omega⟩ : Fin 130) (⟨j.val + 1, by have := j.isLt; omega⟩ : Fin 18) :=
    funext fun a => match a with
      | ⟨0, _⟩ => rfl | ⟨1, _⟩ => rfl | ⟨2, _⟩ => Fin.ext (Nat.add_comm 1 i.val) | ⟨3, _⟩ => Fin.ext (Nat.add_comm 1 j.val)
  rw [e]
  exact Y_norm x0 b k i j _ _ rfl rfl

/-! ## The padded data planes and the gated sum -/

/-- Padded data array 0 at `(b, c, i + 1, j + 1)` is neighbour map 0 of data plane `(b, c)` at `(i, j)`. -/
theorem Y_pdata0 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v158 (F := Ideal) x0 x1 (ix4 b c I J) = nb2 (lo0 0) (lo1 0) (fun i' j' => val_main_v156 (F := Ideal) x0 x1 (ix4 b c i' j')) i j := by
  unfold val_main_v158
  exact pad4_read 0 0 _ (val_main_v156 (F := Ideal) x0 x1) (val_main_call32_v0 (F := Ideal)) _ h_S_ sitofp_zero_f32 b c i j I J hI hJ

/-- The same with the unit axis the reference inserts before joining the eight. -/
theorem Y_bdata0 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v166 (F := Ideal) x0 x1 (ix5 b (0 : Fin 1) c I J) = nb2 (lo0 0) (lo1 0) (fun i' j' => val_main_v156 (F := Ideal) x0 x1 (ix4 b c i' j')) i j := by
  rw [val_main_v166_apply]
  have e : idx_main_v166 (ix5 b (0 : Fin 1) c I J) = ix4 b c I J := funext fun a => match a with | ⟨0, _⟩ => rfl | ⟨1, _⟩ => rfl | ⟨2, _⟩ => rfl | ⟨3, _⟩ => rfl
  exact (congrArg _ e).trans (Y_pdata0 x0 x1 b c i j I J hI hJ)

/-- Padded data array 1 at `(b, c, i + 1, j + 1)` is neighbour map 1 of data plane `(b, c)` at `(i, j)`. -/
theorem Y_pdata1 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v159 (F := Ideal) x0 x1 (ix4 b c I J) = nb2 (lo0 1) (lo1 1) (fun i' j' => val_main_v156 (F := Ideal) x0 x1 (ix4 b c i' j')) i j := by
  unfold val_main_v159
  exact pad4_read 0 1 _ (val_main_v156 (F := Ideal) x0 x1) (val_main_call33_v0 (F := Ideal)) _ h_S_ sitofp_zero_f32 b c i j I J hI hJ

/-- The same with the unit axis the reference inserts before joining the eight. -/
theorem Y_bdata1 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v167 (F := Ideal) x0 x1 (ix5 b (0 : Fin 1) c I J) = nb2 (lo0 1) (lo1 1) (fun i' j' => val_main_v156 (F := Ideal) x0 x1 (ix4 b c i' j')) i j := by
  rw [val_main_v167_apply]
  have e : idx_main_v167 (ix5 b (0 : Fin 1) c I J) = ix4 b c I J := funext fun a => match a with | ⟨0, _⟩ => rfl | ⟨1, _⟩ => rfl | ⟨2, _⟩ => rfl | ⟨3, _⟩ => rfl
  exact (congrArg _ e).trans (Y_pdata1 x0 x1 b c i j I J hI hJ)

/-- Padded data array 2 at `(b, c, i + 1, j + 1)` is neighbour map 2 of data plane `(b, c)` at `(i, j)`. -/
theorem Y_pdata2 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v160 (F := Ideal) x0 x1 (ix4 b c I J) = nb2 (lo0 2) (lo1 2) (fun i' j' => val_main_v156 (F := Ideal) x0 x1 (ix4 b c i' j')) i j := by
  unfold val_main_v160
  exact pad4_read 0 2 _ (val_main_v156 (F := Ideal) x0 x1) (val_main_call34_v0 (F := Ideal)) _ h_S_ sitofp_zero_f32 b c i j I J hI hJ

/-- The same with the unit axis the reference inserts before joining the eight. -/
theorem Y_bdata2 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v168 (F := Ideal) x0 x1 (ix5 b (0 : Fin 1) c I J) = nb2 (lo0 2) (lo1 2) (fun i' j' => val_main_v156 (F := Ideal) x0 x1 (ix4 b c i' j')) i j := by
  rw [val_main_v168_apply]
  have e : idx_main_v168 (ix5 b (0 : Fin 1) c I J) = ix4 b c I J := funext fun a => match a with | ⟨0, _⟩ => rfl | ⟨1, _⟩ => rfl | ⟨2, _⟩ => rfl | ⟨3, _⟩ => rfl
  exact (congrArg _ e).trans (Y_pdata2 x0 x1 b c i j I J hI hJ)

/-- Padded data array 3 at `(b, c, i + 1, j + 1)` is neighbour map 3 of data plane `(b, c)` at `(i, j)`. -/
theorem Y_pdata3 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v161 (F := Ideal) x0 x1 (ix4 b c I J) = nb2 (lo0 3) (lo1 3) (fun i' j' => val_main_v156 (F := Ideal) x0 x1 (ix4 b c i' j')) i j := by
  unfold val_main_v161
  exact pad4_read 1 0 _ (val_main_v156 (F := Ideal) x0 x1) (val_main_call35_v0 (F := Ideal)) _ h_S_ sitofp_zero_f32 b c i j I J hI hJ

/-- The same with the unit axis the reference inserts before joining the eight. -/
theorem Y_bdata3 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v169 (F := Ideal) x0 x1 (ix5 b (0 : Fin 1) c I J) = nb2 (lo0 3) (lo1 3) (fun i' j' => val_main_v156 (F := Ideal) x0 x1 (ix4 b c i' j')) i j := by
  rw [val_main_v169_apply]
  have e : idx_main_v169 (ix5 b (0 : Fin 1) c I J) = ix4 b c I J := funext fun a => match a with | ⟨0, _⟩ => rfl | ⟨1, _⟩ => rfl | ⟨2, _⟩ => rfl | ⟨3, _⟩ => rfl
  exact (congrArg _ e).trans (Y_pdata3 x0 x1 b c i j I J hI hJ)

/-- Padded data array 4 at `(b, c, i + 1, j + 1)` is neighbour map 4 of data plane `(b, c)` at `(i, j)`. -/
theorem Y_pdata4 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v162 (F := Ideal) x0 x1 (ix4 b c I J) = nb2 (lo0 4) (lo1 4) (fun i' j' => val_main_v156 (F := Ideal) x0 x1 (ix4 b c i' j')) i j := by
  unfold val_main_v162
  exact pad4_read 1 2 _ (val_main_v156 (F := Ideal) x0 x1) (val_main_call36_v0 (F := Ideal)) _ h_S_ sitofp_zero_f32 b c i j I J hI hJ

/-- The same with the unit axis the reference inserts before joining the eight. -/
theorem Y_bdata4 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v170 (F := Ideal) x0 x1 (ix5 b (0 : Fin 1) c I J) = nb2 (lo0 4) (lo1 4) (fun i' j' => val_main_v156 (F := Ideal) x0 x1 (ix4 b c i' j')) i j := by
  rw [val_main_v170_apply]
  have e : idx_main_v170 (ix5 b (0 : Fin 1) c I J) = ix4 b c I J := funext fun a => match a with | ⟨0, _⟩ => rfl | ⟨1, _⟩ => rfl | ⟨2, _⟩ => rfl | ⟨3, _⟩ => rfl
  exact (congrArg _ e).trans (Y_pdata4 x0 x1 b c i j I J hI hJ)

/-- Padded data array 5 at `(b, c, i + 1, j + 1)` is neighbour map 5 of data plane `(b, c)` at `(i, j)`. -/
theorem Y_pdata5 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v163 (F := Ideal) x0 x1 (ix4 b c I J) = nb2 (lo0 5) (lo1 5) (fun i' j' => val_main_v156 (F := Ideal) x0 x1 (ix4 b c i' j')) i j := by
  unfold val_main_v163
  exact pad4_read 2 0 _ (val_main_v156 (F := Ideal) x0 x1) (val_main_call37_v0 (F := Ideal)) _ h_S_ sitofp_zero_f32 b c i j I J hI hJ

/-- The same with the unit axis the reference inserts before joining the eight. -/
theorem Y_bdata5 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v171 (F := Ideal) x0 x1 (ix5 b (0 : Fin 1) c I J) = nb2 (lo0 5) (lo1 5) (fun i' j' => val_main_v156 (F := Ideal) x0 x1 (ix4 b c i' j')) i j := by
  rw [val_main_v171_apply]
  have e : idx_main_v171 (ix5 b (0 : Fin 1) c I J) = ix4 b c I J := funext fun a => match a with | ⟨0, _⟩ => rfl | ⟨1, _⟩ => rfl | ⟨2, _⟩ => rfl | ⟨3, _⟩ => rfl
  exact (congrArg _ e).trans (Y_pdata5 x0 x1 b c i j I J hI hJ)

/-- Padded data array 6 at `(b, c, i + 1, j + 1)` is neighbour map 6 of data plane `(b, c)` at `(i, j)`. -/
theorem Y_pdata6 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v164 (F := Ideal) x0 x1 (ix4 b c I J) = nb2 (lo0 6) (lo1 6) (fun i' j' => val_main_v156 (F := Ideal) x0 x1 (ix4 b c i' j')) i j := by
  unfold val_main_v164
  exact pad4_read 2 1 _ (val_main_v156 (F := Ideal) x0 x1) (val_main_call38_v0 (F := Ideal)) _ h_S_ sitofp_zero_f32 b c i j I J hI hJ

/-- The same with the unit axis the reference inserts before joining the eight. -/
theorem Y_bdata6 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v172 (F := Ideal) x0 x1 (ix5 b (0 : Fin 1) c I J) = nb2 (lo0 6) (lo1 6) (fun i' j' => val_main_v156 (F := Ideal) x0 x1 (ix4 b c i' j')) i j := by
  rw [val_main_v172_apply]
  have e : idx_main_v172 (ix5 b (0 : Fin 1) c I J) = ix4 b c I J := funext fun a => match a with | ⟨0, _⟩ => rfl | ⟨1, _⟩ => rfl | ⟨2, _⟩ => rfl | ⟨3, _⟩ => rfl
  exact (congrArg _ e).trans (Y_pdata6 x0 x1 b c i j I J hI hJ)

/-- Padded data array 7 at `(b, c, i + 1, j + 1)` is neighbour map 7 of data plane `(b, c)` at `(i, j)`. -/
theorem Y_pdata7 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v165 (F := Ideal) x0 x1 (ix4 b c I J) = nb2 (lo0 7) (lo1 7) (fun i' j' => val_main_v156 (F := Ideal) x0 x1 (ix4 b c i' j')) i j := by
  unfold val_main_v165
  exact pad4_read 2 2 _ (val_main_v156 (F := Ideal) x0 x1) (val_main_call39_v0 (F := Ideal)) _ h_S_ sitofp_zero_f32 b c i j I J hI hJ

/-- The same with the unit axis the reference inserts before joining the eight. -/
theorem Y_bdata7 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v173 (F := Ideal) x0 x1 (ix5 b (0 : Fin 1) c I J) = nb2 (lo0 7) (lo1 7) (fun i' j' => val_main_v156 (F := Ideal) x0 x1 (ix4 b c i' j')) i j := by
  rw [val_main_v173_apply]
  have e : idx_main_v173 (ix5 b (0 : Fin 1) c I J) = ix4 b c I J := funext fun a => match a with | ⟨0, _⟩ => rfl | ⟨1, _⟩ => rfl | ⟨2, _⟩ => rfl | ⟨3, _⟩ => rfl
  exact (congrArg _ e).trans (Y_pdata7 x0 x1 b c i j I J hI hJ)

/-- The eight padded data arrays joined along axis 1, read at `(b, k, c, I, J)`: piece `k`. -/
theorem Y_dcat (x0 : (⟨S24x128x128x16, .f32⟩ : BufTy).Contents (Elt Ideal)) (x1 : (⟨S20x128x128x16, .f32⟩ : BufTy).Contents (Elt Ideal)) (b : Fin 128) (k : Fin 8) (c : Fin 20) (I : Fin 130) (J : Fin 18) :
    val_main_v174 (F := Ideal) x0 x1 (ix5 b k c I J)
      = (![val_main_v166 (F := Ideal) x0 x1, val_main_v167 (F := Ideal) x0 x1, val_main_v168 (F := Ideal) x0 x1, val_main_v169 (F := Ideal) x0 x1, val_main_v170 (F := Ideal) x0 x1, val_main_v171 (F := Ideal) x0 x1, val_main_v172 (F := Ideal) x0 x1, val_main_v173 (F := Ideal) x0 x1] k) (ix5 b (0 : Fin 1) c I J) := by
  unfold val_main_v174
  exact concat8_read5 _ _ _ _ _ _ _ _ _ b k c I J

/-- The joined data array at `(b, k, c, i + 1, j + 1)` is neighbour map `k` of data plane `(b, c)` at `(i, j)`. -/
theorem Y_data (x0 : (⟨S24x128x128x16, .f32⟩ : BufTy).Contents (Elt Ideal)) (x1 : (⟨S20x128x128x16, .f32⟩ : BufTy).Contents (Elt Ideal)) (b : Fin 128) (k : Fin 8) (c : Fin 20) (i : Fin 128) (j : Fin 16) (I : Fin 130) (J : Fin 18) (hI : I.val = i.val + 1) (hJ : J.val = j.val + 1) :
    val_main_v174 (F := Ideal) x0 x1 (ix5 b k c I J) = nb2 (lo0 k) (lo1 k) (fun i' j' => val_main_v156 (F := Ideal) x0 x1 (ix4 b c i' j')) i j := by
  rw [Y_dcat]
  fin_cases k
  · exact Y_bdata0 x0 x1 b c i j I J hI hJ
  · exact Y_bdata1 x0 x1 b c i j I J hI hJ
  · exact Y_bdata2 x0 x1 b c i j I J hI hJ
  · exact Y_bdata3 x0 x1 b c i j I J hI hJ
  · exact Y_bdata4 x0 x1 b c i j I J hI hJ
  · exact Y_bdata5 x0 x1 b c i j I J hI hJ
  · exact Y_bdata6 x0 x1 b c i j I J hI hJ
  · exact Y_bdata7 x0 x1 b c i j I J hI hJ

/-- The gated sum of the eight neighbour maps, cut back to the unpadded plane. -/
theorem Y_nws (x0 : (⟨S24x128x128x16, .f32⟩ : BufTy).Contents (Elt Ideal)) (x1 : (⟨S20x128x128x16, .f32⟩ : BufTy).Contents (Elt Ideal)) (b : Fin 128) (c : Fin 20) (i : Fin 128) (j : Fin 16) :
    val_main_v178 (F := Ideal) x0 x1 (ix4 b c i j) = nws (fun k i j => val_main_v43 (F := Ideal) x0 (ix4 b k i j)) (fun c i j => val_main_v156 (F := Ideal) x0 x1 (ix4 b c i j)) c i j := by
  rw [val_main_v178_apply, val_main_v177_apply]
  refine (zero_init_add _).trans ?_
  unfold nws
  refine Finset.sum_congr rfl fun k _ => ?_
  have e : idx_main_v177 (idx_main_v178 (ix4 b c i j)) k = ix5 b k c (⟨i.val + 1, by have := i.isLt; omega⟩ : Fin 130) (⟨j.val + 1, by have := j.isLt; omega⟩ : Fin 18) :=
    funext fun a => match a with
      | ⟨0, _⟩ => rfl | ⟨1, _⟩ => rfl | ⟨2, _⟩ => rfl | ⟨3, _⟩ => Fin.ext (Nat.add_comm 1 i.val)
      | ⟨4, _⟩ => Fin.ext (Nat.add_comm 1 j.val)
  rw [e, val_main_v176_apply, val_main_v175_apply, val_main_v157_apply]
  have e2 : idx_main_v157 (idx_main_v175 (ix5 b k c (⟨i.val + 1, by have := i.isLt; omega⟩ : Fin 130) (⟨j.val + 1, by have := j.isLt; omega⟩ : Fin 18))) = ix4 b k (⟨i.val + 1, by have := i.isLt; omega⟩ : Fin 130) (⟨j.val + 1, by have := j.isLt; omega⟩ : Fin 18) :=
    funext fun a => match a with | ⟨0, _⟩ => rfl | ⟨1, _⟩ => rfl | ⟨2, _⟩ => rfl | ⟨3, _⟩ => rfl
  rw [e2, Y_norm x0 b k i j _ _ rfl rfl, Y_data x0 x1 b k c i j _ _ rfl rfl]
  rfl

/-! ## The step -/

/-- The reference's second step is the specification's step on its guidance and data arrays. -/
theorem phaseY (x0 : (⟨S24x128x128x16, .f32⟩ : BufTy).Contents (Elt Ideal)) (x1 : (⟨S20x128x128x16, .f32⟩ : BufTy).Contents (Elt Ideal)) :
    val_main_v184 (F := Ideal) x0 x1 = Cert.Affinity.step (val_main_v43 (F := Ideal) x0) (val_main_v156 (F := Ideal) x0 x1) := by
  funext idx
  obtain ⟨b, c, i, j, rfl⟩ : ∃ (b : Fin 128) (c : Fin 20) (i : Fin 128) (j : Fin 16), idx = ix4 b c i j :=
    ⟨idx 0, idx 1, idx 2, idx 3, eq_ix4 idx⟩
  rw [step_apply, val_main_v184_apply, val_main_v183_apply, val_main_v182_apply, val_main_v181_apply,
    val_main_v180_apply, val_main_cst_47_apply, val_main_v179_apply]
  have e : idx_main_v179 (idx_main_v182 (ix4 b c i j)) = ix3 b i j := funext fun a => match a with | ⟨0, _⟩ => rfl | ⟨1, _⟩ => rfl | ⟨2, _⟩ => rfl
  rw [e, Y_gsum x0 b i j, Y_nws x0 x1 b c i j]
  rfl

end Cert.ReferenceIdeal.RefStep

end
-- ==== Proof.RefZ.lean ====
/-
  The reference's third propagation step, read at an index.

  The guidance array `g` (eight planes per batch entry) and the data array `x` of this step are two values of the
  printed reference. Its gates are the eight zero-padded planes of `g`, joined along a new axis and divided by the sum
  of their absolute values; its output is `(1 - Σ gates) · x + Σ gate_k · (padded x)_k`, cut back to the unpadded
  plane. Every padded array is read one step inside the padding, where pad `k` of a plane is the neighbour read
  `nb2 (lo0 k) (lo1 k)` of that plane, so the output is `Cert.Affinity.step g x`.
-/
import proofs.«139537_j58806692216890_2_alg».proof.Proof.Spec
import proofs.«139537_j58806692216890_2_alg».proof.Proof.ReadP
import proofs.«139537_j58806692216890_2_alg».proof.Proof.LibPadRead

noncomputable section

namespace Cert.ReferenceIdeal.RefStep

open Cert.ReferenceIdeal Cert.ReferenceIdeal.Gen Idealize.ShloMosaic Idealize.ShloMosaic.ValueIdx Cert.ReferenceIdeal.ReadP
open Cert.Affinity Cert.PadRead
open scoped BigOperators

/-! ## The eight guidance planes, cut out of `g` -/

/-- Plane 0 of `g` as the reference cuts it out (a unit slice, then a reshape that drops the unit axis). -/
theorem Z_plane0 (x0 : (⟨S24x128x128x16, .f32⟩ : BufTy).Contents (Elt Ideal)) (b : Fin 128) (i : Fin 128) (j : Fin 16) :
    val_main_v87 (F := Ideal) x0 (ix3 b i j) = val_main_v85 (F := Ideal) x0 (ix4 b (0 : Fin 8) i j) := by
  rw [val_main_v87_apply, val_main_v86_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 1 of `g` as the reference cuts it out (a unit slice, then a reshape that drops the unit axis). -/
theorem Z_plane1 (x0 : (⟨S24x128x128x16, .f32⟩ : BufTy).Contents (Elt Ideal)) (b : Fin 128) (i : Fin 128) (j : Fin 16) :
    val_main_v90 (F := Ideal) x0 (ix3 b i j) = val_main_v85 (F := Ideal) x0 (ix4 b (1 : Fin 8) i j) := by
  rw [val_main_v90_apply, val_main_v89_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 2 of `g` as the reference cuts it out (a unit slice, then a reshape that drops the unit axis). -/
theorem Z_plane2 (x0 : (⟨S24x128x128x16, .f32⟩ : BufTy).Contents (Elt Ideal)) (b : Fin 128) (i : Fin 128) (j : Fin 16) :
    val_main_v93 (F := Ideal) x0 (ix3 b i j) = val_main_v85 (F := Ideal) x0 (ix4 b (2 : Fin 8) i j) := by
  rw [val_main_v93_apply, val_main_v92_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 3 of `g` as the reference cuts it out (a unit slice, then a reshape that drops the unit axis). -/
theorem Z_plane3 (x0 : (⟨S24x128x128x16, .f32⟩ : BufTy).Contents (Elt Ideal)) (b : Fin 128) (i : Fin 128) (j : Fin 16) :
    val_main_v96 (F := Ideal) x0 (ix3 b i j) = val_main_v85 (F := Ideal) x0 (ix4 b (3 : Fin 8) i j) := by
  rw [val_main_v96_apply, val_main_v95_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 4 of `g` as the reference cuts it out (a unit slice, then a reshape that drops the unit axis). -/
theorem Z_plane4 (x0 : (⟨S24x128x128x16, .f32⟩ : BufTy).Contents (Elt Ideal)) (b : Fin 128) (i : Fin 128) (j : Fin 16) :
    val_main_v99 (F := Ideal) x0 (ix3 b i j) = val_main_v85 (F := Ideal) x0 (ix4 b (4 : Fin 8) i j) := by
  rw [val_main_v99_apply, val_main_v98_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 5 of `g` as the reference cuts it out (a unit slice, then a reshape that drops the unit axis). -/
theorem Z_plane5 (x0 : (⟨S24x128x128x16, .f32⟩ : BufTy).Contents (Elt Ideal)) (b : Fin 128) (i : Fin 128) (j : Fin 16) :
    val_main_v102 (F := Ideal) x0 (ix3 b i j) = val_main_v85 (F := Ideal) x0 (ix4 b (5 : Fin 8) i j) := by
  rw [val_main_v102_apply, val_main_v101_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 6 of `g` as the reference cuts it out (a unit slice, then a reshape that drops the unit axis). -/
theorem Z_plane6 (x0 : (⟨S24x128x128x16, .f32⟩ : BufTy).Contents (Elt Ideal)) (b : Fin 128) (i : Fin 128) (j : Fin 16) :
    val_main_v105 (F := Ideal) x0 (ix3 b i j) = val_main_v85 (F := Ideal) x0 (ix4 b (6 : Fin 8) i j) := by
  rw [val_main_v105_apply, val_main_v104_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-- Plane 7 of `g` as the reference cuts it out (a unit slice, then a reshape that drops the unit axis). -/
theorem Z_plane7 (x0 : (⟨S24x128x128x16, .f32⟩ : BufTy).Contents (Elt Ideal)) (b : Fin 128) (i : Fin 128) (j : Fin 16) :
    val_main_v108 (F := Ideal) x0 (ix3 b i j) = val_main_v85 (F := Ideal) x0 (ix4 b (7 : Fin 8) i j) := by
  rw [val_main_v108_apply, val_main_v107_apply]
  have hb := b.isLt
  have hi := i.isLt
  have hj := j.isLt
  refine congrArg _ (funext fun a => ?_)
  match a with
  | ⟨0, _⟩ => exact Fin.ext (by show ((b.val * 128 + i.val) * 16 + j.val) / 2048 = b.val; omega)
  | ⟨1, _⟩ => rfl
  | ⟨2, _⟩ => exact Fin.ext (by show ((b.val * 128 + i.val) * 16 + j.val) / 16 % 128 = i.val; omega)
  | ⟨3, _⟩ => exact Fin.ext (by show ((b.val * 128 + i.val) * 16 + j.val) % 16 = j.val; omega)

/-! ## The padded planes one step inside the padding: the gates before normalisation -/

/-- Padded plane 0 at `(b, i + 1, j + 1)` is gate 0 at `(i, j)`. -/
theorem Z_pgate0 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v88 (F := Ideal) x0 (ix3 b I J) = gate (fun k i j => val_main_v85 (F := Ideal) x0 (ix4 b k i j)) (0 : Fin 8) i j := by
  unfold val_main_v88
  refine (pad3_read 0 0 _ (val_main_v87 (F := Ideal) x0) (val_main_call16_v0 (F := Ideal)) _ h_S_ sitofp_zero_f32 b i j I J hI hJ).trans ?_
  exact congrArg (fun f => nb2 0 0 f i j) (funext fun i' => funext fun j' => Z_plane0 x0 b i' j')

/-- The same with the unit axis the reference inserts before joining the eight. -/
theorem Z_bgate0 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v110 (F := Ideal) x0 (ix4 b (0 : Fin 1) I J) = gate (fun k i j => val_main_v85 (F := Ideal) x0 (ix4 b k i j)) (0 : Fin 8) i j := by
  rw [val_main_v110_apply]
  have e : idx_main_v110 (ix4 b (0 : Fin 1) I J) = ix3 b I J := funext fun a => match a with | ⟨0, _⟩ => rfl | ⟨1, _⟩ => rfl | ⟨2, _⟩ => rfl
  exact (congrArg _ e).trans (Z_pgate0 x0 b i j I J hI hJ)

/-- Padded plane 1 at `(b, i + 1, j + 1)` is gate 1 at `(i, j)`. -/
theorem Z_pgate1 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v91 (F := Ideal) x0 (ix3 b I J) = gate (fun k i j => val_main_v85 (F := Ideal) x0 (ix4 b k i j)) (1 : Fin 8) i j := by
  unfold val_main_v91
  refine (pad3_read 0 1 _ (val_main_v90 (F := Ideal) x0) (val_main_call17_v0 (F := Ideal)) _ h_S_ sitofp_zero_f32 b i j I J hI hJ).trans ?_
  exact congrArg (fun f => nb2 0 1 f i j) (funext fun i' => funext fun j' => Z_plane1 x0 b i' j')

/-- The same with the unit axis the reference inserts before joining the eight. -/
theorem Z_bgate1 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v111 (F := Ideal) x0 (ix4 b (0 : Fin 1) I J) = gate (fun k i j => val_main_v85 (F := Ideal) x0 (ix4 b k i j)) (1 : Fin 8) i j := by
  rw [val_main_v111_apply]
  have e : idx_main_v111 (ix4 b (0 : Fin 1) I J) = ix3 b I J := funext fun a => match a with | ⟨0, _⟩ => rfl | ⟨1, _⟩ => rfl | ⟨2, _⟩ => rfl
  exact (congrArg _ e).trans (Z_pgate1 x0 b i j I J hI hJ)

/-- Padded plane 2 at `(b, i + 1, j + 1)` is gate 2 at `(i, j)`. -/
theorem Z_pgate2 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v94 (F := Ideal) x0 (ix3 b I J) = gate (fun k i j => val_main_v85 (F := Ideal) x0 (ix4 b k i j)) (2 : Fin 8) i j := by
  unfold val_main_v94
  refine (pad3_read 0 2 _ (val_main_v93 (F := Ideal) x0) (val_main_call18_v0 (F := Ideal)) _ h_S_ sitofp_zero_f32 b i j I J hI hJ).trans ?_
  exact congrArg (fun f => nb2 0 2 f i j) (funext fun i' => funext fun j' => Z_plane2 x0 b i' j')

/-- The same with the unit axis the reference inserts before joining the eight. -/
theorem Z_bgate2 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v112 (F := Ideal) x0 (ix4 b (0 : Fin 1) I J) = gate (fun k i j => val_main_v85 (F := Ideal) x0 (ix4 b k i j)) (2 : Fin 8) i j := by
  rw [val_main_v112_apply]
  have e : idx_main_v112 (ix4 b (0 : Fin 1) I J) = ix3 b I J := funext fun a => match a with | ⟨0, _⟩ => rfl | ⟨1, _⟩ => rfl | ⟨2, _⟩ => rfl
  exact (congrArg _ e).trans (Z_pgate2 x0 b i j I J hI hJ)

/-- Padded plane 3 at `(b, i + 1, j + 1)` is gate 3 at `(i, j)`. -/
theorem Z_pgate3 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v97 (F := Ideal) x0 (ix3 b I J) = gate (fun k i j => val_main_v85 (F := Ideal) x0 (ix4 b k i j)) (3 : Fin 8) i j := by
  unfold val_main_v97
  refine (pad3_read 1 0 _ (val_main_v96 (F := Ideal) x0) (val_main_call19_v0 (F := Ideal)) _ h_S_ sitofp_zero_f32 b i j I J hI hJ).trans ?_
  exact congrArg (fun f => nb2 1 0 f i j) (funext fun i' => funext fun j' => Z_plane3 x0 b i' j')

/-- The same with the unit axis the reference inserts before joining the eight. -/
theorem Z_bgate3 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v113 (F := Ideal) x0 (ix4 b (0 : Fin 1) I J) = gate (fun k i j => val_main_v85 (F := Ideal) x0 (ix4 b k i j)) (3 : Fin 8) i j := by
  rw [val_main_v113_apply]
  have e : idx_main_v113 (ix4 b (0 : Fin 1) I J) = ix3 b I J := funext fun a => match a with | ⟨0, _⟩ => rfl | ⟨1, _⟩ => rfl | ⟨2, _⟩ => rfl
  exact (congrArg _ e).trans (Z_pgate3 x0 b i j I J hI hJ)

/-- Padded plane 4 at `(b, i + 1, j + 1)` is gate 4 at `(i, j)`. -/
theorem Z_pgate4 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v100 (F := Ideal) x0 (ix3 b I J) = gate (fun k i j => val_main_v85 (F := Ideal) x0 (ix4 b k i j)) (4 : Fin 8) i j := by
  unfold val_main_v100
  refine (pad3_read 1 2 _ (val_main_v99 (F := Ideal) x0) (val_main_call20_v0 (F := Ideal)) _ h_S_ sitofp_zero_f32 b i j I J hI hJ).trans ?_
  exact congrArg (fun f => nb2 1 2 f i j) (funext fun i' => funext fun j' => Z_plane4 x0 b i' j')

/-- The same with the unit axis the reference inserts before joining the eight. -/
theorem Z_bgate4 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v114 (F := Ideal) x0 (ix4 b (0 : Fin 1) I J) = gate (fun k i j => val_main_v85 (F := Ideal) x0 (ix4 b k i j)) (4 : Fin 8) i j := by
  rw [val_main_v114_apply]
  have e : idx_main_v114 (ix4 b (0 : Fin 1) I J) = ix3 b I J := funext fun a => match a with | ⟨0, _⟩ => rfl | ⟨1, _⟩ => rfl | ⟨2, _⟩ => rfl
  exact (congrArg _ e).trans (Z_pgate4 x0 b i j I J hI hJ)

/-- Padded plane 5 at `(b, i + 1, j + 1)` is gate 5 at `(i, j)`. -/
theorem Z_pgate5 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v103 (F := Ideal) x0 (ix3 b I J) = gate (fun k i j => val_main_v85 (F := Ideal) x0 (ix4 b k i j)) (5 : Fin 8) i j := by
  unfold val_main_v103
  refine (pad3_read 2 0 _ (val_main_v102 (F := Ideal) x0) (val_main_call21_v0 (F := Ideal)) _ h_S_ sitofp_zero_f32 b i j I J hI hJ).trans ?_
  exact congrArg (fun f => nb2 2 0 f i j) (funext fun i' => funext fun j' => Z_plane5 x0 b i' j')

/-- The same with the unit axis the reference inserts before joining the eight. -/
theorem Z_bgate5 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v115 (F := Ideal) x0 (ix4 b (0 : Fin 1) I J) = gate (fun k i j => val_main_v85 (F := Ideal) x0 (ix4 b k i j)) (5 : Fin 8) i j := by
  rw [val_main_v115_apply]
  have e : idx_main_v115 (ix4 b (0 : Fin 1) I J) = ix3 b I J := funext fun a => match a with | ⟨0, _⟩ => rfl | ⟨1, _⟩ => rfl | ⟨2, _⟩ => rfl
  exact (congrArg _ e).trans (Z_pgate5 x0 b i j I J hI hJ)

/-- Padded plane 6 at `(b, i + 1, j + 1)` is gate 6 at `(i, j)`. -/
theorem Z_pgate6 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v106 (F := Ideal) x0 (ix3 b I J) = gate (fun k i j => val_main_v85 (F := Ideal) x0 (ix4 b k i j)) (6 : Fin 8) i j := by
  unfold val_main_v106
  refine (pad3_read 2 1 _ (val_main_v105 (F := Ideal) x0) (val_main_call22_v0 (F := Ideal)) _ h_S_ sitofp_zero_f32 b i j I J hI hJ).trans ?_
  exact congrArg (fun f => nb2 2 1 f i j) (funext fun i' => funext fun j' => Z_plane6 x0 b i' j')

/-- The same with the unit axis the reference inserts before joining the eight. -/
theorem Z_bgate6 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v116 (F := Ideal) x0 (ix4 b (0 : Fin 1) I J) = gate (fun k i j => val_main_v85 (F := Ideal) x0 (ix4 b k i j)) (6 : Fin 8) i j := by
  rw [val_main_v116_apply]
  have e : idx_main_v116 (ix4 b (0 : Fin 1) I J) = ix3 b I J := funext fun a => match a with | ⟨0, _⟩ => rfl | ⟨1, _⟩ => rfl | ⟨2, _⟩ => rfl
  exact (congrArg _ e).trans (Z_pgate6 x0 b i j I J hI hJ)

/-- Padded plane 7 at `(b, i + 1, j + 1)` is gate 7 at `(i, j)`. -/
theorem Z_pgate7 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v109 (F := Ideal) x0 (ix3 b I J) = gate (fun k i j => val_main_v85 (F := Ideal) x0 (ix4 b k i j)) (7 : Fin 8) i j := by
  unfold val_main_v109
  refine (pad3_read 2 2 _ (val_main_v108 (F := Ideal) x0) (val_main_call23_v0 (F := Ideal)) _ h_S_ sitofp_zero_f32 b i j I J hI hJ).trans ?_
  exact congrArg (fun f => nb2 2 2 f i j) (funext fun i' => funext fun j' => Z_plane7 x0 b i' j')

/-- The same with the unit axis the reference inserts before joining the eight. -/
theorem Z_bgate7 (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v117 (F := Ideal) x0 (ix4 b (0 : Fin 1) I J) = gate (fun k i j => val_main_v85 (F := Ideal) x0 (ix4 b k i j)) (7 : Fin 8) i j := by
  rw [val_main_v117_apply]
  have e : idx_main_v117 (ix4 b (0 : Fin 1) I J) = ix3 b I J := funext fun a => match a with | ⟨0, _⟩ => rfl | ⟨1, _⟩ => rfl | ⟨2, _⟩ => rfl
  exact (congrArg _ e).trans (Z_pgate7 x0 b i j I J hI hJ)

/-! ## The joined gates, their absolute sum, the normalised gates and their sum -/

/-- The eight padded planes joined along axis 1, read at `(b, k, I, J)`: piece `k`. -/
theorem Z_cat (x0 : (⟨S24x128x128x16, .f32⟩ : BufTy).Contents (Elt Ideal)) (b : Fin 128) (k : Fin 8) (I : Fin 130) (J : Fin 18) :
    val_main_v118 (F := Ideal) x0 (ix4 b k I J)
      = (![val_main_v110 (F := Ideal) x0, val_main_v111 (F := Ideal) x0, val_main_v112 (F := Ideal) x0, val_main_v113 (F := Ideal) x0, val_main_v114 (F := Ideal) x0, val_main_v115 (F := Ideal) x0, val_main_v116 (F := Ideal) x0, val_main_v117 (F := Ideal) x0] k) (ix4 b (0 : Fin 1) I J) := by
  unfold val_main_v118
  exact concat8_read4 _ _ _ _ _ _ _ _ _ b k I J

/-- The joined array at `(b, k, i + 1, j + 1)` is gate `k` at `(i, j)`. -/
theorem Z_gate (x0 : (⟨S24x128x128x16, .f32⟩ : BufTy).Contents (Elt Ideal)) (b : Fin 128) (k : Fin 8) (i : Fin 128) (j : Fin 16) (I : Fin 130) (J : Fin 18) (hI : I.val = i.val + 1) (hJ : J.val = j.val + 1) :
    val_main_v118 (F := Ideal) x0 (ix4 b k I J) = gate (fun k i j => val_main_v85 (F := Ideal) x0 (ix4 b k i j)) k i j := by
  rw [Z_cat]
  fin_cases k
  · exact Z_bgate0 x0 b i j I J hI hJ
  · exact Z_bgate1 x0 b i j I J hI hJ
  · exact Z_bgate2 x0 b i j I J hI hJ
  · exact Z_bgate3 x0 b i j I J hI hJ
  · exact Z_bgate4 x0 b i j I J hI hJ
  · exact Z_bgate5 x0 b i j I J hI hJ
  · exact Z_bgate6 x0 b i j I J hI hJ
  · exact Z_bgate7 x0 b i j I J hI hJ

/-- The sum over the joined axis of the absolute values is the absolute sum of the gates. -/
theorem Z_abs (x0 : (⟨S24x128x128x16, .f32⟩ : BufTy).Contents (Elt Ideal)) (b : Fin 128) (i : Fin 128) (j : Fin 16) (I : Fin 130) (J : Fin 18) (hI : I.val = i.val + 1) (hJ : J.val = j.val + 1) :
    val_main_v120 (F := Ideal) x0 (ix3 b I J) = absSum (fun k i j => val_main_v85 (F := Ideal) x0 (ix4 b k i j)) i j := by
  rw [val_main_v120_apply]
  refine (zero_init_add _).trans ?_
  unfold absSum
  refine Finset.sum_congr rfl fun k _ => ?_
  have e : idx_main_v120 (ix3 b I J) k = ix4 b k I J := funext fun a => match a with | ⟨0, _⟩ => rfl | ⟨1, _⟩ => rfl | ⟨2, _⟩ => rfl | ⟨3, _⟩ => rfl
  rw [e, val_main_v119_apply, Z_gate x0 b k i j I J hI hJ]
  rfl

/-- The quotient by the (broadcast) absolute sum is the normalised gate. -/
theorem Z_norm (x0 : (⟨S24x128x128x16, .f32⟩ : BufTy).Contents (Elt Ideal)) (b : Fin 128) (k : Fin 8) (i : Fin 128) (j : Fin 16) (I : Fin 130) (J : Fin 18) (hI : I.val = i.val + 1) (hJ : J.val = j.val + 1) :
    val_main_v123 (F := Ideal) x0 (ix4 b k I J) = norm (fun k i j => val_main_v85 (F := Ideal) x0 (ix4 b k i j)) k i j := by
  rw [val_main_v123_apply, val_main_v122_apply, val_main_v121_apply]
  have e : idx_main_v121 (idx_main_v122 (ix4 b k I J)) = ix3 b I J := funext fun a => match a with | ⟨0, _⟩ => rfl | ⟨1, _⟩ => rfl | ⟨2, _⟩ => rfl
  rw [e, Z_gate x0 b k i j I J hI hJ, Z_abs x0 b i j I J hI hJ]
  rfl

/-- The sum of the normalised gates, cut back to the unpadded plane. -/
theorem Z_gsum (x0 : (⟨S24x128x128x16, .f32⟩ : BufTy).Contents (Elt Ideal)) (b : Fin 128) (i : Fin 128) (j : Fin 16) :
    val_main_v125 (F := Ideal) x0 (ix3 b i j) = gateSum (fun k i j => val_main_v85 (F := Ideal) x0 (ix4 b k i j)) i j := by
  rw [val_main_v125_apply, val_main_v124_apply]
  refine (zero_init_add _).trans ?_
  unfold gateSum
  refine Finset.sum_congr rfl fun k _ => ?_
  have e : idx_main_v124 (idx_main_v125 (ix3 b i j)) k = ix4 b k (⟨i.val + 1, by have := i.isLt; omega⟩ : Fin 130) (⟨j.val + 1, by have := j.isLt; omega⟩ : Fin 18) :=
    funext fun a => match a with
      | ⟨0, _⟩ => rfl | ⟨1, _⟩ => rfl | ⟨2, _⟩ => Fin.ext (Nat.add_comm 1 i.val) | ⟨3, _⟩ => Fin.ext (Nat.add_comm 1 j.val)
  rw [e]
  exact Z_norm x0 b k i j _ _ rfl rfl

/-! ## The padded data planes and the gated sum -/

/-- Padded data array 0 at `(b, c, i + 1, j + 1)` is neighbour map 0 of data plane `(b, c)` at `(i, j)`. -/
theorem Z_pdata0 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v188 (F := Ideal) x0 x1 (ix4 b c I J) = nb2 (lo0 0) (lo1 0) (fun i' j' => val_main_v186 (F := Ideal) x0 x1 (ix4 b c i' j')) i j := by
  unfold val_main_v188
  exact pad4_read 0 0 _ (val_main_v186 (F := Ideal) x0 x1) (val_main_call40_v0 (F := Ideal)) _ h_S_ sitofp_zero_f32 b c i j I J hI hJ

/-- The same with the unit axis the reference inserts before joining the eight. -/
theorem Z_bdata0 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v196 (F := Ideal) x0 x1 (ix5 b (0 : Fin 1) c I J) = nb2 (lo0 0) (lo1 0) (fun i' j' => val_main_v186 (F := Ideal) x0 x1 (ix4 b c i' j')) i j := by
  rw [val_main_v196_apply]
  have e : idx_main_v196 (ix5 b (0 : Fin 1) c I J) = ix4 b c I J := funext fun a => match a with | ⟨0, _⟩ => rfl | ⟨1, _⟩ => rfl | ⟨2, _⟩ => rfl | ⟨3, _⟩ => rfl
  exact (congrArg _ e).trans (Z_pdata0 x0 x1 b c i j I J hI hJ)

/-- Padded data array 1 at `(b, c, i + 1, j + 1)` is neighbour map 1 of data plane `(b, c)` at `(i, j)`. -/
theorem Z_pdata1 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v189 (F := Ideal) x0 x1 (ix4 b c I J) = nb2 (lo0 1) (lo1 1) (fun i' j' => val_main_v186 (F := Ideal) x0 x1 (ix4 b c i' j')) i j := by
  unfold val_main_v189
  exact pad4_read 0 1 _ (val_main_v186 (F := Ideal) x0 x1) (val_main_call41_v0 (F := Ideal)) _ h_S_ sitofp_zero_f32 b c i j I J hI hJ

/-- The same with the unit axis the reference inserts before joining the eight. -/
theorem Z_bdata1 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v197 (F := Ideal) x0 x1 (ix5 b (0 : Fin 1) c I J) = nb2 (lo0 1) (lo1 1) (fun i' j' => val_main_v186 (F := Ideal) x0 x1 (ix4 b c i' j')) i j := by
  rw [val_main_v197_apply]
  have e : idx_main_v197 (ix5 b (0 : Fin 1) c I J) = ix4 b c I J := funext fun a => match a with | ⟨0, _⟩ => rfl | ⟨1, _⟩ => rfl | ⟨2, _⟩ => rfl | ⟨3, _⟩ => rfl
  exact (congrArg _ e).trans (Z_pdata1 x0 x1 b c i j I J hI hJ)

/-- Padded data array 2 at `(b, c, i + 1, j + 1)` is neighbour map 2 of data plane `(b, c)` at `(i, j)`. -/
theorem Z_pdata2 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v190 (F := Ideal) x0 x1 (ix4 b c I J) = nb2 (lo0 2) (lo1 2) (fun i' j' => val_main_v186 (F := Ideal) x0 x1 (ix4 b c i' j')) i j := by
  unfold val_main_v190
  exact pad4_read 0 2 _ (val_main_v186 (F := Ideal) x0 x1) (val_main_call42_v0 (F := Ideal)) _ h_S_ sitofp_zero_f32 b c i j I J hI hJ

/-- The same with the unit axis the reference inserts before joining the eight. -/
theorem Z_bdata2 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v198 (F := Ideal) x0 x1 (ix5 b (0 : Fin 1) c I J) = nb2 (lo0 2) (lo1 2) (fun i' j' => val_main_v186 (F := Ideal) x0 x1 (ix4 b c i' j')) i j := by
  rw [val_main_v198_apply]
  have e : idx_main_v198 (ix5 b (0 : Fin 1) c I J) = ix4 b c I J := funext fun a => match a with | ⟨0, _⟩ => rfl | ⟨1, _⟩ => rfl | ⟨2, _⟩ => rfl | ⟨3, _⟩ => rfl
  exact (congrArg _ e).trans (Z_pdata2 x0 x1 b c i j I J hI hJ)

/-- Padded data array 3 at `(b, c, i + 1, j + 1)` is neighbour map 3 of data plane `(b, c)` at `(i, j)`. -/
theorem Z_pdata3 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v191 (F := Ideal) x0 x1 (ix4 b c I J) = nb2 (lo0 3) (lo1 3) (fun i' j' => val_main_v186 (F := Ideal) x0 x1 (ix4 b c i' j')) i j := by
  unfold val_main_v191
  exact pad4_read 1 0 _ (val_main_v186 (F := Ideal) x0 x1) (val_main_call43_v0 (F := Ideal)) _ h_S_ sitofp_zero_f32 b c i j I J hI hJ

/-- The same with the unit axis the reference inserts before joining the eight. -/
theorem Z_bdata3 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v199 (F := Ideal) x0 x1 (ix5 b (0 : Fin 1) c I J) = nb2 (lo0 3) (lo1 3) (fun i' j' => val_main_v186 (F := Ideal) x0 x1 (ix4 b c i' j')) i j := by
  rw [val_main_v199_apply]
  have e : idx_main_v199 (ix5 b (0 : Fin 1) c I J) = ix4 b c I J := funext fun a => match a with | ⟨0, _⟩ => rfl | ⟨1, _⟩ => rfl | ⟨2, _⟩ => rfl | ⟨3, _⟩ => rfl
  exact (congrArg _ e).trans (Z_pdata3 x0 x1 b c i j I J hI hJ)

/-- Padded data array 4 at `(b, c, i + 1, j + 1)` is neighbour map 4 of data plane `(b, c)` at `(i, j)`. -/
theorem Z_pdata4 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v192 (F := Ideal) x0 x1 (ix4 b c I J) = nb2 (lo0 4) (lo1 4) (fun i' j' => val_main_v186 (F := Ideal) x0 x1 (ix4 b c i' j')) i j := by
  unfold val_main_v192
  exact pad4_read 1 2 _ (val_main_v186 (F := Ideal) x0 x1) (val_main_call44_v0 (F := Ideal)) _ h_S_ sitofp_zero_f32 b c i j I J hI hJ

/-- The same with the unit axis the reference inserts before joining the eight. -/
theorem Z_bdata4 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v200 (F := Ideal) x0 x1 (ix5 b (0 : Fin 1) c I J) = nb2 (lo0 4) (lo1 4) (fun i' j' => val_main_v186 (F := Ideal) x0 x1 (ix4 b c i' j')) i j := by
  rw [val_main_v200_apply]
  have e : idx_main_v200 (ix5 b (0 : Fin 1) c I J) = ix4 b c I J := funext fun a => match a with | ⟨0, _⟩ => rfl | ⟨1, _⟩ => rfl | ⟨2, _⟩ => rfl | ⟨3, _⟩ => rfl
  exact (congrArg _ e).trans (Z_pdata4 x0 x1 b c i j I J hI hJ)

/-- Padded data array 5 at `(b, c, i + 1, j + 1)` is neighbour map 5 of data plane `(b, c)` at `(i, j)`. -/
theorem Z_pdata5 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v193 (F := Ideal) x0 x1 (ix4 b c I J) = nb2 (lo0 5) (lo1 5) (fun i' j' => val_main_v186 (F := Ideal) x0 x1 (ix4 b c i' j')) i j := by
  unfold val_main_v193
  exact pad4_read 2 0 _ (val_main_v186 (F := Ideal) x0 x1) (val_main_call45_v0 (F := Ideal)) _ h_S_ sitofp_zero_f32 b c i j I J hI hJ

/-- The same with the unit axis the reference inserts before joining the eight. -/
theorem Z_bdata5 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v201 (F := Ideal) x0 x1 (ix5 b (0 : Fin 1) c I J) = nb2 (lo0 5) (lo1 5) (fun i' j' => val_main_v186 (F := Ideal) x0 x1 (ix4 b c i' j')) i j := by
  rw [val_main_v201_apply]
  have e : idx_main_v201 (ix5 b (0 : Fin 1) c I J) = ix4 b c I J := funext fun a => match a with | ⟨0, _⟩ => rfl | ⟨1, _⟩ => rfl | ⟨2, _⟩ => rfl | ⟨3, _⟩ => rfl
  exact (congrArg _ e).trans (Z_pdata5 x0 x1 b c i j I J hI hJ)

/-- Padded data array 6 at `(b, c, i + 1, j + 1)` is neighbour map 6 of data plane `(b, c)` at `(i, j)`. -/
theorem Z_pdata6 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v194 (F := Ideal) x0 x1 (ix4 b c I J) = nb2 (lo0 6) (lo1 6) (fun i' j' => val_main_v186 (F := Ideal) x0 x1 (ix4 b c i' j')) i j := by
  unfold val_main_v194
  exact pad4_read 2 1 _ (val_main_v186 (F := Ideal) x0 x1) (val_main_call46_v0 (F := Ideal)) _ h_S_ sitofp_zero_f32 b c i j I J hI hJ

/-- The same with the unit axis the reference inserts before joining the eight. -/
theorem Z_bdata6 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v202 (F := Ideal) x0 x1 (ix5 b (0 : Fin 1) c I J) = nb2 (lo0 6) (lo1 6) (fun i' j' => val_main_v186 (F := Ideal) x0 x1 (ix4 b c i' j')) i j := by
  rw [val_main_v202_apply]
  have e : idx_main_v202 (ix5 b (0 : Fin 1) c I J) = ix4 b c I J := funext fun a => match a with | ⟨0, _⟩ => rfl | ⟨1, _⟩ => rfl | ⟨2, _⟩ => rfl | ⟨3, _⟩ => rfl
  exact (congrArg _ e).trans (Z_pdata6 x0 x1 b c i j I J hI hJ)

/-- Padded data array 7 at `(b, c, i + 1, j + 1)` is neighbour map 7 of data plane `(b, c)` at `(i, j)`. -/
theorem Z_pdata7 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v195 (F := Ideal) x0 x1 (ix4 b c I J) = nb2 (lo0 7) (lo1 7) (fun i' j' => val_main_v186 (F := Ideal) x0 x1 (ix4 b c i' j')) i j := by
  unfold val_main_v195
  exact pad4_read 2 2 _ (val_main_v186 (F := Ideal) x0 x1) (val_main_call47_v0 (F := Ideal)) _ h_S_ sitofp_zero_f32 b c i j I J hI hJ

/-- The same with the unit axis the reference inserts before joining the eight. -/
theorem Z_bdata7 (x0 : (⟨S24x128x128x16, .f32⟩ : BufTy).Contents (Elt Ideal)) (x1 : (⟨S20x128x128x16, .f32⟩ : BufTy).Contents (Elt Ideal)) (b : Fin 128) (c : Fin 20) (i : Fin 128) (j : Fin 16) (I : Fin 130) (J : Fin 18) (hI : I.val = i.val + 1) (hJ : J.val = j.val + 1) :
    val_main_v203 (F := Ideal) x0 x1 (ix5 b (0 : Fin 1) c I J) = nb2 (lo0 7) (lo1 7) (fun i' j' => val_main_v186 (F := Ideal) x0 x1 (ix4 b c i' j')) i j := by
  rw [val_main_v203_apply]
  have e : idx_main_v203 (ix5 b (0 : Fin 1) c I J) = ix4 b c I J := funext fun a => match a with | ⟨0, _⟩ => rfl | ⟨1, _⟩ => rfl | ⟨2, _⟩ => rfl | ⟨3, _⟩ => rfl
  exact (congrArg _ e).trans (Z_pdata7 x0 x1 b c i j I J hI hJ)

/-- The eight padded data arrays joined along axis 1, read at `(b, k, c, I, J)`: piece `k`. -/
theorem Z_dcat (x0 : (⟨S24x128x128x16, .f32⟩ : BufTy).Contents (Elt Ideal)) (x1 : (⟨S20x128x128x16, .f32⟩ : BufTy).Contents (Elt Ideal)) (b : Fin 128) (k : Fin 8) (c : Fin 20) (I : Fin 130) (J : Fin 18) :
    val_main_v204 (F := Ideal) x0 x1 (ix5 b k c I J)
      = (![val_main_v196 (F := Ideal) x0 x1, val_main_v197 (F := Ideal) x0 x1, val_main_v198 (F := Ideal) x0 x1, val_main_v199 (F := Ideal) x0 x1, val_main_v200 (F := Ideal) x0 x1, val_main_v201 (F := Ideal) x0 x1, val_main_v202 (F := Ideal) x0 x1, val_main_v203 (F := Ideal) x0 x1] k) (ix5 b (0 : Fin 1) c I J) := by
  unfold val_main_v204
  exact concat8_read5 _ _ _ _ _ _ _ _ _ b k c I J

/-- The joined data array at `(b, k, c, i + 1, j + 1)` is neighbour map `k` of data plane `(b, c)` at `(i, j)`. -/
theorem Z_data (x0 : (⟨S24x128x128x16, .f32⟩ : BufTy).Contents (Elt Ideal)) (x1 : (⟨S20x128x128x16, .f32⟩ : BufTy).Contents (Elt Ideal)) (b : Fin 128) (k : Fin 8) (c : Fin 20) (i : Fin 128) (j : Fin 16) (I : Fin 130) (J : Fin 18) (hI : I.val = i.val + 1) (hJ : J.val = j.val + 1) :
    val_main_v204 (F := Ideal) x0 x1 (ix5 b k c I J) = nb2 (lo0 k) (lo1 k) (fun i' j' => val_main_v186 (F := Ideal) x0 x1 (ix4 b c i' j')) i j := by
  rw [Z_dcat]
  fin_cases k
  · exact Z_bdata0 x0 x1 b c i j I J hI hJ
  · exact Z_bdata1 x0 x1 b c i j I J hI hJ
  · exact Z_bdata2 x0 x1 b c i j I J hI hJ
  · exact Z_bdata3 x0 x1 b c i j I J hI hJ
  · exact Z_bdata4 x0 x1 b c i j I J hI hJ
  · exact Z_bdata5 x0 x1 b c i j I J hI hJ
  · exact Z_bdata6 x0 x1 b c i j I J hI hJ
  · exact Z_bdata7 x0 x1 b c i j I J hI hJ

/-- The gated sum of the eight neighbour maps, cut back to the unpadded plane. -/
theorem Z_nws (x0 : (⟨S24x128x128x16, .f32⟩ : BufTy).Contents (Elt Ideal)) (x1 : (⟨S20x128x128x16, .f32⟩ : BufTy).Contents (Elt Ideal)) (b : Fin 128) (c : Fin 20) (i : Fin 128) (j : Fin 16) :
    val_main_v208 (F := Ideal) x0 x1 (ix4 b c i j) = nws (fun k i j => val_main_v85 (F := Ideal) x0 (ix4 b k i j)) (fun c i j => val_main_v186 (F := Ideal) x0 x1 (ix4 b c i j)) c i j := by
  rw [val_main_v208_apply, val_main_v207_apply]
  refine (zero_init_add _).trans ?_
  unfold nws
  refine Finset.sum_congr rfl fun k _ => ?_
  have e : idx_main_v207 (idx_main_v208 (ix4 b c i j)) k = ix5 b k c (⟨i.val + 1, by have := i.isLt; omega⟩ : Fin 130) (⟨j.val + 1, by have := j.isLt; omega⟩ : Fin 18) :=
    funext fun a => match a with
      | ⟨0, _⟩ => rfl | ⟨1, _⟩ => rfl | ⟨2, _⟩ => rfl | ⟨3, _⟩ => Fin.ext (Nat.add_comm 1 i.val)
      | ⟨4, _⟩ => Fin.ext (Nat.add_comm 1 j.val)
  rw [e, val_main_v206_apply, val_main_v205_apply, val_main_v187_apply]
  have e2 : idx_main_v187 (idx_main_v205 (ix5 b k c (⟨i.val + 1, by have := i.isLt; omega⟩ : Fin 130) (⟨j.val + 1, by have := j.isLt; omega⟩ : Fin 18))) = ix4 b k (⟨i.val + 1, by have := i.isLt; omega⟩ : Fin 130) (⟨j.val + 1, by have := j.isLt; omega⟩ : Fin 18) :=
    funext fun a => match a with | ⟨0, _⟩ => rfl | ⟨1, _⟩ => rfl | ⟨2, _⟩ => rfl | ⟨3, _⟩ => rfl
  rw [e2, Z_norm x0 b k i j _ _ rfl rfl, Z_data x0 x1 b k c i j _ _ rfl rfl]
  rfl

/-! ## The step -/

/-- The reference's third step is the specification's step on its guidance and data arrays. -/
theorem phaseZ (x0 : (⟨S24x128x128x16, .f32⟩ : BufTy).Contents (Elt Ideal)) (x1 : (⟨S20x128x128x16, .f32⟩ : BufTy).Contents (Elt Ideal)) :
    val_main_v214 (F := Ideal) x0 x1 = Cert.Affinity.step (val_main_v85 (F := Ideal) x0) (val_main_v186 (F := Ideal) x0 x1) := by
  funext idx
  obtain ⟨b, c, i, j, rfl⟩ : ∃ (b : Fin 128) (c : Fin 20) (i : Fin 128) (j : Fin 16), idx = ix4 b c i j :=
    ⟨idx 0, idx 1, idx 2, idx 3, eq_ix4 idx⟩
  rw [step_apply, val_main_v214_apply, val_main_v213_apply, val_main_v212_apply, val_main_v211_apply,
    val_main_v210_apply, val_main_cst_57_apply, val_main_v209_apply]
  have e : idx_main_v209 (idx_main_v212 (ix4 b c i j)) = ix3 b i j := funext fun a => match a with | ⟨0, _⟩ => rfl | ⟨1, _⟩ => rfl | ⟨2, _⟩ => rfl
  rw [e, Z_gsum x0 b i j, Z_nws x0 x1 b c i j]
  rfl

end Cert.ReferenceIdeal.RefStep

end
-- ==== Proof.RefValue.lean ====
/-
  The reference's result is the same function of the two argument arrays as the kernel program's.

  Each of the reference's three phases is one propagation step of the phase's guidance arrangement and the data as the
  phase finds it; between the phases the reference applies the very transposes the kernel program applies between its
  pallas_calls. So the two results are one composition of steps and transposes.
-/
import proofs.«139537_j58806692216890_2_alg».proof.Proof.Result
import proofs.«139537_j58806692216890_2_alg».proof.Proof.ReadP
import proofs.«139537_j58806692216890_2_alg».proof.Proof.RefX
import proofs.«139537_j58806692216890_2_alg».proof.Proof.RefY
import proofs.«139537_j58806692216890_2_alg».proof.Proof.RefZ

noncomputable section

namespace Cert.ReferenceIdeal.RefValue

open Idealize.ShloMosaic Cert.ReferenceIdeal Cert.ReferenceIdeal.ReadP Cert.ReferenceIdeal.RefStep

/-- The reference's result array is three propagation steps with the transposes between them. -/
theorem val_eq (x0 : (⟨S24x128x128x16, .f32⟩ : BufTy).Contents (Elt Ideal)) (x1 : (⟨S20x128x128x16, .f32⟩ : BufTy).Contents (Elt Ideal)) :
    val_main_v215 (F := Ideal) x0 x1 = Cert.Whole.result x0 x1 := by
  unfold val_main_v215
  rw [phaseZ]
  unfold val_main_v186 val_main_v185
  rw [phaseY]
  unfold val_main_v156 val_main_v155
  rw [phaseX]
  rfl

end Cert.ReferenceIdeal.RefValue

end
-- ==== Proof.lean ====
/-
  The certificate: the kernel program (three pallas_calls of one affinity-propagation body, with transposes between
  them) and the jnp reference (zero-padded neighbour maps stacked and summed) compute the same array over the extended
  reals.

  Both are three propagation steps, one per orthogonal plane, and in each step both compute
  `(1 - Σ_k gate_k) · x + Σ_k gate_k · (neighbour k of x)` with the gates the eight zero-padded neighbour maps of the
  guidance planes divided by the sum of their absolute values (Proof/Spec.lean). The kernel reads a neighbour by a
  rotation along an axis followed by a mask of the wrapped-around entry, the reference by padding with zeros and
  slicing; both are the same read with zeros outside the plane. The sums differ only in how the eight terms are
  grouped, and addition of extended reals is commutative and associative; no other law is used, so the finiteness of
  the inputs is never opened. The frames of the two kernel programs are the generated ones; the reference's run is
  Proof/RefRunW.lean; the ideal pass rewrote nothing, so `preserves` is trivial.
-/
import proofs.«139537_j58806692216890_2_alg».proof.Defs
import proofs.«139537_j58806692216890_2_alg».proof.Proof.Gen.Kernel
import proofs.«139537_j58806692216890_2_alg».proof.Proof.Gen.Kernel.Frame
import proofs.«139537_j58806692216890_2_alg».proof.Proof.Gen.KernelIdeal
import proofs.«139537_j58806692216890_2_alg».proof.Proof.Gen.KernelIdeal.Frame
import proofs.«139537_j58806692216890_2_alg».proof.Proof.Gen.ReferenceIdeal
import proofs.«139537_j58806692216890_2_alg».proof.Proof.Gen.Pre_finite_inputs
import proofs.«139537_j58806692216890_2_alg».proof.Proof.KLaunch
import proofs.«139537_j58806692216890_2_alg».proof.Proof.KValue
import proofs.«139537_j58806692216890_2_alg».proof.Proof.RefRunW
import proofs.«139537_j58806692216890_2_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame is its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.RefRun.run m ρ)

/-- Both programs end with the result array at `Cert.Whole.result` of the argument arrays: the kernel program by its
    launch and the fold through its segments, the reference by its run and its three phases. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.Whole.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.KValue.W7_v14 m ρ c), (h c).2⟩) (Cert.KernelIdeal.Launch.run m ρ)
  · refine (θ_run Cert.ReferenceIdeal.defs _ _).mono (fun r h c => ⟨(h c).1.trans ?_, (h c).2⟩)
      (Cert.ReferenceIdeal.RefRun.run m' ρ')
    rw [(hagree c).1, (hagree c).2]
    exact Cert.ReferenceIdeal.RefValue.val_eq _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
